-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v192)) (v1 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_v193) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x128 : Shape := ⟨2, ![60000, 128]⟩
abbrev S40000x128 : Shape := ⟨2, ![40000, 128]⟩
abbrev S1000000 : Shape := ⟨1, ![1000000]⟩
abbrev S2x4x128x128 : Shape := ⟨4, ![2, 4, 128, 128]⟩
abbrev S2x4x128 : Shape := ⟨3, ![2, 4, 128]⟩
abbrev S2x2x256x128 : Shape := ⟨4, ![2, 2, 256, 128]⟩
abbrev S2x2x128 : Shape := ⟨3, ![2, 2, 128]⟩
abbrev S_ : Shape := ⟨0, ![]⟩

class Facts : Prop where
  bcast_S_S60000x128 : S_.BroadcastsInDim S60000x128 (![] : Fin 0 → Fin S60000x128.rank)
  reducesTo_S60000x128_S_d0_1 : S60000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S1000000 : S_.BroadcastsInDim S1000000 (![] : Fin 0 → Fin S1000000.rank)
  reducesTo_S1000000_S_d0 : S1000000.ReducesTo [0] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S2x2x256x128 : S_.BroadcastsInDim S2x2x256x128 (![] : Fin 0 → Fin S2x2x256x128.rank)
  reducesTo_S2x2x256x128_S_d0_1_2_3 : S2x2x256x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part2 {F : FTy → Type} [FloatOps F] (main_arg9 : FVec F S2x2x128 .f32) (main_v33 : IVec S_ 1) : IVec S_ 1 :=
  let main_v34 : FVec F S2x2x128 .f32 := Host.absf main_arg9
  let main_cst_12 : FVec F S_ .f32 := constant S_ .f32 0x7F800000#32
  let main_v35 : FVec F S2x2x128 .f32 := broadcastInDim S2x2x128 ![] bcast_S_S2x2x128 main_cst_12
  let main_v36 : IVec S2x2x128 1 := cmpf .olt main_v34 main_v35
  let main_c_13 : IVec S_ 1 := constantI S_ 1 1#1
  let main_v37 : IVec S_ 1 := (fun x v => Host.reduce IntOp.andi x v reducesTo_S2x2x128_S_d0_1_2 h_S_) main_v36 main_c_13
  let main_v38 : IVec S_ 1 := andi main_v33 main_v37
  main_v38

def fn_part1 {F : FTy → Type} [FloatOps F] (main_arg6 : FVec F S2x4x128x128 .f32) (main_arg7 : FVec F S2x4x128 .f32) (main_arg8 : FVec F S2x2x256x128 .f32) (main_arg9 : FVec F S2x2x128 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S2x4x128x128 .f32 := Host.absf main_arg6
  let main_cst_6 : FVec F S_ .f32 := constant S_ .f32 0x7F800000#32
  let main_v20 : FVec F S2x4x128x128 .f32 := broadcastInDim S2x4x128x128 ![] bcast_S_S2x4x128x128 main_cst_6
  let main_v21 : IVec S2x4x128x128 1 := cmpf .olt main_v19 main_v20
  let main_c_7 : IVec S_ 1 := constantI S_ 1 1#1
  let main_v22 : IVec S_ 1 := (fun x v => Host.reduce IntOp.andi x v reducesTo_S2x4x128x128_S_d0_1_2_3 h_S_) main_v21 main_c_7
  let main_v23 : IVec S_ 1 := andi main_v18 main_v22
  let main_v24 : FVec F S2x4x128 .f32 := Host.absf main_arg7
  let main_cst_8 : FVec F S_ .f32 := constant S_ .f32 0x7F800000#32
  let main_v25 : FVec F S2x4x128 .f32 := broadcastInDim S2x4x128 ![] bcast_S_S2x4x128 main_cst_8
  let main_v26 : IVec S2x4x128 1 := cmpf .olt main_v24 main_v25
  let main_c_9 : IVec S_ 1 := constantI S_ 1 1#1
  let main_v27 : IVec S_ 1 := (fun x v => Host.reduce IntOp.andi x v reducesTo_S2x4x128_S_d0_1_2 h_S_) main_v26 main_c_9
  let main_v28 : IVec S_ 1 := andi main_v23 main_v27
  let main_v29 : FVec F S2x2x256x128 .f32 := Host.absf main_arg8
  let main_cst_10 : FVec F S_ .f32 := constant S_ .f32 0x7F800000#32
  let main_v30 : FVec F S2x2x256x128 .f32 := broadcastInDim S2x2x256x128 ![] bcast_S_S2x2x256x128 main_cst_10
  let main_v31 : IVec S2x2x256x128 1 := cmpf .olt main_v29 main_v30
  let main_c_11 : IVec S_ 1 := constantI S_ 1 1#1
  let main_v32 : IVec S_ 1 := (fun x v => Host.reduce IntOp.andi x v reducesTo_S2x2x256x128_S_d0_1_2_3 h_S_) main_v31 main_c_11
  let main_v33 : IVec S_ 1 := andi main_v28 main_v32
  fn_part2 (F := F) main_arg9 main_v33

def fn {F : FTy → Type} [FloatOps F] (main_arg0 : FVec F S60000x128 .f32) (main_arg1 : FVec F S40000x128 .f32) (main_arg2 : IVec S1000000 32) (main_arg3 : IVec S1000000 32) (main_arg4 : FVec F S1000000 .f32) (main_arg5 : FVec F S1000000 .f32) (main_arg6 : FVec F S2x4x128x128 .f32) (main_arg7 : FVec F S2x4x128 .f32) (main_arg8 : FVec F S2x2x256x128 .f32) (main_arg9 : FVec F S2x2x128 .f32) : IVec S_ 1 :=
  let main_v0 : FVec F S60000x128 .f32 := Host.absf main_arg0
  let main_cst : FVec F S_ .f32 := constant S_ .f32 0x7F800000#32
  let main_v1 : FVec F S60000x128 .f32 := broadcastInDim S60000x128 ![] bcast_S_S60000x128 main_cst
  let main_v2 : IVec S60000x128 1 := cmpf .olt main_v0 main_v1
  let main_c : IVec S_ 1 := constantI S_ 1 1#1
  let main_v3 : IVec S_ 1 := (fun x v => Host.reduce IntOp.andi x v reducesTo_S60000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg5
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg6 main_arg7 main_arg8 main_arg9 main_v13 main_v16
-- ==== Kernel.lean ====
abbrev S60000x128 : Shape := ⟨2, ![60000, 128]⟩
abbrev S40000x128 : Shape := ⟨2, ![40000, 128]⟩
abbrev S1000000 : Shape := ⟨1, ![1000000]⟩
abbrev S2x4x128x128 : Shape := ⟨4, ![2, 4, 128, 128]⟩
abbrev S2x4x128 : Shape := ⟨3, ![2, 4, 128]⟩
abbrev S2x2x256x128 : Shape := ⟨4, ![2, 2, 256, 128]⟩
abbrev S2x2x128 : Shape := ⟨3, ![2, 2, 128]⟩
abbrev S1x1x128x128 : Shape := ⟨4, ![1, 1, 128, 128]⟩
abbrev S128x128 : Shape := ⟨2, ![128, 128]⟩
abbrev S4000x128 : Shape := ⟨2, ![4000, 128]⟩
abbrev S_ : Shape := ⟨0, ![]⟩
abbrev S1000000x1 : Shape := ⟨2, ![1000000, 1]⟩
abbrev S1000000x128 : Shape := ⟨2, ![1000000, 128]⟩
abbrev S1x1x128 : Shape := ⟨3, ![1, 1, 128]⟩
abbrev S128 : Shape := ⟨1, ![128]⟩
abbrev S1x128 : Shape := ⟨2, ![1, 128]⟩
abbrev S60000x256 : Shape := ⟨2, ![60000, 256]⟩
abbrev S40000x256 : Shape := ⟨2, ![40000, 256]⟩

abbrev nBuf : Space → Nat
  | .hbm => 228
  | .vmem => 116
  | .smem => 0
  | _ => 0

abbrev hbmTy0_0 (i : Nat) : BufTy := match i % 128 with
  | 0 => ⟨S60000x128, .f32⟩
  | 1 => ⟨S40000x128, .f32⟩
  | 2 => ⟨S1000000, .i32⟩
  | 3 => ⟨S1000000, .i32⟩
  | 4 => ⟨S1000000, .f32⟩
  | 5 => ⟨S1000000, .f32⟩
  | 6 => ⟨S2x4x128x128, .f32⟩
  | 7 => ⟨S2x4x128, .f32⟩
  | 8 => ⟨S2x2x256x128, .f32⟩
  | 9 => ⟨S2x2x128, .f32⟩
  | 10 => ⟨S1x1x128x128, .f32⟩
  | 11 => ⟨S128x128, .f32⟩
  | 12 => ⟨S60000x128, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x128, .f32⟩
  | 22 => ⟨S1000000x1, .f32⟩
  | 23 => ⟨S1000000x128, .f32⟩
  | 24 => ⟨S1000000x128, .f32⟩
  | 25 => ⟨S_, .f32⟩
  | 26 => ⟨S40000x128, .f32⟩
  | 27 => ⟨S1000000x1, .i32⟩
  | 28 => ⟨S40000x128, .f32⟩
  | 29 => ⟨S1x1x128, .f32⟩
  | 30 => ⟨S128, .f32⟩
  | 31 => ⟨S1x128, .f32⟩
  | 32 => ⟨S40000x128, .f32⟩
  | 33 => ⟨S1x1x128x128, .f32⟩
  | 34 => ⟨S128x128, .f32⟩
  | 35 => ⟨S40000x128, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x128, .f32⟩
  | 45 => ⟨S1000000x1, .f32⟩
  | 46 => ⟨S1000000x128, .f32⟩
  | 47 => ⟨S1000000x128, .f32⟩
  | 48 => ⟨S_, .f32⟩
  | 49 => ⟨S60000x128, .f32⟩
  | 50 => ⟨S1000000x1, .i32⟩
  | 51 => ⟨S60000x128, .f32⟩
  | 52 => ⟨S1x1x128, .f32⟩
  | 53 => ⟨S128, .f32⟩
  | 54 => ⟨S1x128, .f32⟩
  | 55 => ⟨S60000x128, .f32⟩
  | 56 => ⟨S1x1x128x128, .f32⟩
  | 57 => ⟨S128x128, .f32⟩
  | 58 => ⟨S40000x128, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x128, .f32⟩
  | 68 => ⟨S1000000x1, .f32⟩
  | 69 => ⟨S1000000x128, .f32⟩
  | 70 => ⟨S1000000x128, .f32⟩
  | 71 => ⟨S_, .f32⟩
  | 72 => ⟨S60000x128, .f32⟩
  | 73 => ⟨S1000000x1, .i32⟩
  | 74 => ⟨S60000x128, .f32⟩
  | 75 => ⟨S1x1x128, .f32⟩
  | 76 => ⟨S128, .f32⟩
  | 77 => ⟨S1x128, .f32⟩
  | 78 => ⟨S60000x128, .f32⟩
  | 79 => ⟨S1x1x128x128, .f32⟩
  | 80 => ⟨S128x128, .f32⟩
  | 81 => ⟨S60000x128, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x128, .f32⟩
  | 91 => ⟨S1000000x1, .f32⟩
  | 92 => ⟨S1000000x128, .f32⟩
  | 93 => ⟨S1000000x128, .f32⟩
  | 94 => ⟨S_, .f32⟩
  | 95 => ⟨S40000x128, .f32⟩
  | 96 => ⟨S1000000x1, .i32⟩
  | 97 => ⟨S40000x128, .f32⟩
  | 98 => ⟨S1x1x128, .f32⟩
  | 99 => ⟨S128, .f32⟩
  | 100 => ⟨S1x128, .f32⟩
  | 101 => ⟨S40000x128, .f32⟩
  | 102 => ⟨S1x1x128x128, .f32⟩
  | 103 => ⟨S128x128, .f32⟩
  | 104 => ⟨S1x1x128x128, .f32⟩
  | 105 => ⟨S128x128, .f32⟩
  | 106 => ⟨S1x1x128, .f32⟩
  | 107 => ⟨S128, .f32⟩
  | 108 => ⟨S1x128, .f32⟩
  | 109 => ⟨S60000x128, .f32⟩
  | 110 => ⟨S1x1x128x128, .f32⟩
  | 111 => ⟨S128x128, .f32⟩
  | 112 => ⟨S1x1x128x128, .f32⟩
  | 113 => ⟨S128x128, .f32⟩
  | 114 => ⟨S1x1x128, .f32⟩
  | 115 => ⟨S128, .f32⟩
  | 116 => ⟨S1x128, .f32⟩
  | 117 => ⟨S40000x128, .f32⟩
  | 118 => ⟨S1x1x128x128, .f32⟩
  | 119 => ⟨S128x128, .f32⟩
  | 120 => ⟨S60000x128, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S60000x128, .f32⟩

abbrev hbmTy0_1 (i : Nat) : BufTy := match i % 128 with
  | 0 => ⟨S1000000x1, .i32⟩
  | 1 => ⟨S1000000x128, .f32⟩
  | 2 => ⟨S1000000x1, .f32⟩
  | 3 => ⟨S1000000x128, .f32⟩
  | 4 => ⟨S1000000x128, .f32⟩
  | 5 => ⟨S_, .f32⟩
  | 6 => ⟨S40000x128, .f32⟩
  | 7 => ⟨S1000000x1, .i32⟩
  | 8 => ⟨S40000x128, .f32⟩
  | 9 => ⟨S1x1x128, .f32⟩
  | 10 => ⟨S128, .f32⟩
  | 11 => ⟨S1x128, .f32⟩
  | 12 => ⟨S40000x128, .f32⟩
  | 13 => ⟨S1x1x128x128, .f32⟩
  | 14 => ⟨S128x128, .f32⟩
  | 15 => ⟨S40000x128, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x128, .f32⟩
  | 25 => ⟨S1000000x1, .f32⟩
  | 26 => ⟨S1000000x128, .f32⟩
  | 27 => ⟨S1000000x128, .f32⟩
  | 28 => ⟨S_, .f32⟩
  | 29 => ⟨S60000x128, .f32⟩
  | 30 => ⟨S1000000x1, .i32⟩
  | 31 => ⟨S60000x128, .f32⟩
  | 32 => ⟨S1x1x128, .f32⟩
  | 33 => ⟨S128, .f32⟩
  | 34 => ⟨S1x128, .f32⟩
  | 35 => ⟨S60000x128, .f32⟩
  | 36 => ⟨S1x1x128x128, .f32⟩
  | 37 => ⟨S128x128, .f32⟩
  | 38 => ⟨S40000x128, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x128, .f32⟩
  | 48 => ⟨S1000000x1, .f32⟩
  | 49 => ⟨S1000000x128, .f32⟩
  | 50 => ⟨S1000000x128, .f32⟩
  | 51 => ⟨S_, .f32⟩
  | 52 => ⟨S60000x128, .f32⟩
  | 53 => ⟨S1000000x1, .i32⟩
  | 54 => ⟨S60000x128, .f32⟩
  | 55 => ⟨S1x1x128, .f32⟩
  | 56 => ⟨S128, .f32⟩
  | 57 => ⟨S1x128, .f32⟩
  | 58 => ⟨S60000x128, .f32⟩
  | 59 => ⟨S1x1x128x128, .f32⟩
  | 60 => ⟨S128x128, .f32⟩
  | 61 => ⟨S60000x128, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x128, .f32⟩
  | 71 => ⟨S1000000x1, .f32⟩
  | 72 => ⟨S1000000x128, .f32⟩
  | 73 => ⟨S1000000x128, .f32⟩
  | 74 => ⟨S_, .f32⟩
  | 75 => ⟨S40000x128, .f32⟩
  | 76 => ⟨S1000000x1, .i32⟩
  | 77 => ⟨S40000x128, .f32⟩
  | 78 => ⟨S1x1x128, .f32⟩
  | 79 => ⟨S128, .f32⟩
  | 80 => ⟨S1x128, .f32⟩
  | 81 => ⟨S40000x128, .f32⟩
  | 82 => ⟨S1x1x128x128, .f32⟩
  | 83 => ⟨S128x128, .f32⟩
  | 84 => ⟨S1x1x128x128, .f32⟩
  | 85 => ⟨S128x128, .f32⟩
  | 86 => ⟨S1x1x128, .f32⟩
  | 87 => ⟨S128, .f32⟩
  | 88 => ⟨S1x128, .f32⟩
  | 89 => ⟨S60000x128, .f32⟩
  | 90 => ⟨S1x1x128x128, .f32⟩
  | 91 => ⟨S128x128, .f32⟩
  | 92 => ⟨S1x1x128x128, .f32⟩
  | 93 => ⟨S128x128, .f32⟩
  | 94 => ⟨S1x1x128, .f32⟩
  | 95 => ⟨S128, .f32⟩
  | 96 => ⟨S1x128, .f32⟩
  | 97 => ⟨S40000x128, .f32⟩
  | 98 => ⟨S60000x256, .f32⟩
  | 99 => ⟨S40000x256, .f32⟩
  | _ => ⟨S60000x128, .f32⟩

abbrev hbmTy (i : Nat) : BufTy := match i / 128 with
  | 0 => hbmTy0_0 i
  | 1 => hbmTy0_1 i
  | _ => ⟨S60000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S128x128, .f32⟩
  | .local _ .vmem, ⟨54, _⟩ => ⟨S128x128, .f32⟩
  | .local _ .vmem, ⟨55, _⟩ => ⟨S1x128, .f32⟩
  | .local _ .vmem, ⟨56, _⟩ => ⟨S4000x128, .f32⟩
  | .local _ .vmem, ⟨57, _⟩ => ⟨S4000x128, .f32⟩
  | .local _ .vmem, ⟨58, _⟩ => ⟨S4000x128, .f32⟩
  | .local _ .vmem, ⟨59, _⟩ => ⟨S4000x128, .f32⟩
  | .local _ .vmem, ⟨60, _⟩ => ⟨S128x128, .f32⟩
  | .local _ .vmem, ⟨61, _⟩ => ⟨S4000x128, .f32⟩
  | .local _ .vmem, ⟨62, _⟩ => ⟨S4000x128, .f32⟩
  | .local _ .vmem, ⟨63, _⟩ => ⟨S4000x128, .f32⟩
  | .local _ .vmem, ⟨64, _⟩ => ⟨S4000x128, .f32⟩
  | .local _ .vmem, ⟨65, _⟩ => ⟨S1x128, .f32⟩
  | .local _ .vmem, ⟨66, _⟩ => ⟨S4000x128, .f32⟩
  | .local _ .vmem, ⟨67, _⟩ => ⟨S4000x128, .f32⟩
  | .local _ .vmem, ⟨68, _⟩ => ⟨S4000x128, .f32⟩
  | .local _ .vmem, ⟨69, _⟩ => ⟨S4000x128, .f32⟩
  | .local _ .vmem, ⟨70, _⟩ => ⟨S128x128, .f32⟩
  | .local _ .vmem, ⟨71, _⟩ => ⟨S4000x128, .f32⟩
  | .local _ .vmem, ⟨72, _⟩ => ⟨S4000x128, .f32⟩
  | .local _ .vmem, ⟨73, _⟩ => ⟨S4000x128, .f32⟩
  | .local _ .vmem, ⟨74, _⟩ => ⟨S4000x128, .f32⟩
  | .local _ .vmem, ⟨75, _⟩ => ⟨S1x128, .f32⟩
  | .local _ .vmem, ⟨76, _⟩ => ⟨S4000x128, .f32⟩
  | .local _ .vmem, ⟨77, _⟩ => ⟨S4000x128, .f32⟩
  | .local _ .vmem, ⟨78, _⟩ => ⟨S4000x128, .f32⟩
  | .local _ .vmem, ⟨79, _⟩ => ⟨S4000x128, .f32⟩
  | .local _ .vmem, ⟨80, _⟩ => ⟨S128x128, .f32⟩
  | .local _ .vmem, ⟨81, _⟩ => ⟨S4000x128, .f32⟩
  | .local _ .vmem, ⟨82, _⟩ => ⟨S4000x128, .f32⟩
  | .local _ .vmem, ⟨83, _⟩ => ⟨S4000x128, .f32⟩
  | .local _ .vmem, ⟨84, _⟩ => ⟨S4000x128, .f32⟩
  | .local _ .vmem, ⟨85, _⟩ => ⟨S1x128, .f32⟩
  | .local _ .vmem, ⟨86, _⟩ => ⟨S4000x128, .f32⟩
  | .local _ .vmem, ⟨87, _⟩ => ⟨S4000x128, .f32⟩
  | .local _ .vmem, ⟨88, _⟩ => ⟨S4000x128, .f32⟩
  | .local _ .vmem, ⟨89, _⟩ => ⟨S4000x128, .f32⟩
  | .local _ .vmem, ⟨90, _⟩ => ⟨S128x128, .f32⟩
  | .local _ .vmem, ⟨91, _⟩ => ⟨S4000x128, .f32⟩
  | .local _ .vmem, ⟨92, _⟩ => ⟨S4000x128, .f32⟩
  | .local _ .vmem, ⟨93, _⟩ => ⟨S4000x128, .f32⟩
  | .local _ .vmem, ⟨94, _⟩ => ⟨S4000x128, .f32⟩
  | .local _ .vmem, ⟨95, _⟩ => ⟨S1x128, .f32⟩
  | .local _ .vmem, ⟨96, _⟩ => ⟨S4000x128, .f32⟩
  | .local _ .vmem, ⟨97, _⟩ => ⟨S4000x128, .f32⟩
  | .local _ .vmem, ⟨98, _⟩ => ⟨S4000x128, .f32⟩
  | .local _ .vmem, ⟨99, _⟩ => ⟨S4000x128, .f32⟩
  | .local _ .vmem, ⟨100, _⟩ => ⟨S4000x128, .f32⟩
  | .local _ .vmem, ⟨101, _⟩ => ⟨S4000x128, .f32⟩
  | .local _ .vmem, ⟨102, _⟩ => ⟨S128x128, .f32⟩
  | .local _ .vmem, ⟨103, _⟩ => ⟨S128x128, .f32⟩
  | .local _ .vmem, ⟨104, _⟩ => ⟨S1x128, .f32⟩
  | .local _ .vmem, ⟨105, _⟩ => ⟨S4000x128, .f32⟩
  | .local _ .vmem, ⟨106, _⟩ => ⟨S4000x128, .f32⟩
  | .local _ .vmem, ⟨107, _⟩ => ⟨S4000x128, .f32⟩
  | .local _ .vmem, ⟨108, _⟩ => ⟨S4000x128, .f32⟩
  | .local _ .vmem, ⟨109, _⟩ => ⟨S4000x128, .f32⟩
  | .local _ .vmem, ⟨110, _⟩ => ⟨S4000x128, .f32⟩
  | .local _ .vmem, ⟨111, _⟩ => ⟨S128x128, .f32⟩
  | .local _ .vmem, ⟨112, _⟩ => ⟨S128x128, .f32⟩
  | .local _ .vmem, ⟨113, _⟩ => ⟨S1x128, .f32⟩
  | .local _ .vmem, ⟨114, _⟩ => ⟨S4000x128, .f32⟩
  | .local _ .vmem, ⟨115, _⟩ => ⟨S4000x128, .f32⟩
  | _, _ => ⟨S60000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_7 : Ref sig .tc := ⟨.hbm, 82, rfl⟩
abbrev main_v63 : Ref sig .tc := ⟨.hbm, 83, rfl⟩
abbrev main_v64 : Ref sig .tc := ⟨.hbm, 84, rfl⟩
abbrev main_c_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_9 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_c_10 : Ref sig .tc := ⟨.hbm, 121, rfl⟩
abbrev main_v99 : Ref sig .tc := ⟨.hbm, 122, rfl⟩
abbrev main_v100 : Ref sig .tc := ⟨.hbm, 123, rfl⟩
abbrev main_c_11 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_12 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_c_13 : Ref sig .tc := ⟨.hbm, 144, rfl⟩
abbrev main_v119 : Ref sig .tc := ⟨.hbm, 145, rfl⟩
abbrev main_v120 : Ref sig .tc := ⟨.hbm, 146, rfl⟩
abbrev main_c_14 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_15 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_c_16 : Ref sig .tc := ⟨.hbm, 167, rfl⟩
abbrev main_v139 : Ref sig .tc := ⟨.hbm, 168, rfl⟩
abbrev main_v140 : Ref sig .tc := ⟨.hbm, 169, rfl⟩
abbrev main_c_17 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_18 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_c_19 : Ref sig .tc := ⟨.hbm, 190, rfl⟩
abbrev main_v159 : Ref sig .tc := ⟨.hbm, 191, rfl⟩
abbrev main_v160 : Ref sig .tc := ⟨.hbm, 192, rfl⟩
abbrev main_c_20 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_21 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg3_0 : Ref sig .tc := ⟨.vmem, 45, rfl⟩
abbrev cc8_stg4_0 : Ref sig .tc := ⟨.vmem, 46, rfl⟩
abbrev cc8_stg5_0 : Ref sig .tc := ⟨.vmem, 47, rfl⟩
abbrev cc8_stg5_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg1_1 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc9_stg5_1 : Ref sig .tc := ⟨.vmem, 57, rfl⟩
abbrev cc10_stg0_0 : Ref sig .tc := ⟨.vmem, 58, rfl⟩
abbrev cc10_stg0_1 : Ref sig .tc := ⟨.vmem, 59, rfl⟩
abbrev cc10_stg1_0 : Ref sig .tc := ⟨.vmem, 60, rfl⟩
abbrev cc10_stg2_0 : Ref sig .tc := ⟨.vmem, 61, rfl⟩
abbrev cc10_stg2_1 : Ref sig .tc := ⟨.vmem, 62, rfl⟩
abbrev cc11_stg0_0 : Ref sig .tc := ⟨.vmem, 63, rfl⟩
abbrev cc11_stg0_1 : Ref sig .tc := ⟨.vmem, 64, rfl⟩
abbrev cc11_stg1_0 : Ref sig .tc := ⟨.vmem, 65, rfl⟩
abbrev cc11_stg2_0 : Ref sig .tc := ⟨.vmem, 66, rfl⟩
abbrev cc11_stg2_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg2_1 : Ref sig .tc := ⟨.vmem, 72, rfl⟩
abbrev cc13_stg0_0 : Ref sig .tc := ⟨.vmem, 73, rfl⟩
abbrev cc13_stg0_1 : Ref sig .tc := ⟨.vmem, 74, rfl⟩
abbrev cc13_stg1_0 : Ref sig .tc := ⟨.vmem, 75, rfl⟩
abbrev cc13_stg2_0 : Ref sig .tc := ⟨.vmem, 76, rfl⟩
abbrev cc13_stg2_1 : Ref sig .tc := ⟨.vmem, 77, rfl⟩
abbrev cc14_stg0_0 : Ref sig .tc := ⟨.vmem, 78, rfl⟩
abbrev cc14_stg0_1 : Ref sig .tc := ⟨.vmem, 79, rfl⟩
abbrev cc14_stg1_0 : Ref sig .tc := ⟨.vmem, 80, rfl⟩
abbrev cc14_stg2_0 : Ref sig .tc := ⟨.vmem, 81, rfl⟩
abbrev cc14_stg2_1 : Ref sig .tc := ⟨.vmem, 82, rfl⟩
abbrev cc15_stg0_0 : Ref sig .tc := ⟨.vmem, 83, rfl⟩
abbrev cc15_stg0_1 : Ref sig .tc := ⟨.vmem, 84, rfl⟩
abbrev cc15_stg1_0 : Ref sig .tc := ⟨.vmem, 85, rfl⟩
abbrev cc15_stg2_0 : Ref sig .tc := ⟨.vmem, 86, rfl⟩
abbrev cc15_stg2_1 : Ref sig .tc := ⟨.vmem, 87, rfl⟩
abbrev cc16_stg0_0 : Ref sig .tc := ⟨.vmem, 88, rfl⟩
abbrev cc16_stg0_1 : Ref sig .tc := ⟨.vmem, 89, rfl⟩
abbrev cc16_stg1_0 : Ref sig .tc := ⟨.vmem, 90, rfl⟩
abbrev cc16_stg2_0 : Ref sig .tc := ⟨.vmem, 91, rfl⟩
abbrev cc16_stg2_1 : Ref sig .tc := ⟨.vmem, 92, rfl⟩
abbrev cc17_stg0_0 : Ref sig .tc := ⟨.vmem, 93, rfl⟩
abbrev cc17_stg0_1 : Ref sig .tc := ⟨.vmem, 94, rfl⟩
abbrev cc17_stg1_0 : Ref sig .tc := ⟨.vmem, 95, rfl⟩
abbrev cc17_stg2_0 : Ref sig .tc := ⟨.vmem, 96, rfl⟩
abbrev cc17_stg2_1 : Ref sig .tc := ⟨.vmem, 97, rfl⟩
abbrev cc18_stg0_0 : Ref sig .tc := ⟨.vmem, 98, rfl⟩
abbrev cc18_stg0_1 : Ref sig .tc := ⟨.vmem, 99, rfl⟩
abbrev cc18_stg1_0 : Ref sig .tc := ⟨.vmem, 100, rfl⟩
abbrev cc18_stg1_1 : Ref sig .tc := ⟨.vmem, 101, rfl⟩
abbrev cc18_stg2_0 : Ref sig .tc := ⟨.vmem, 102, rfl⟩
abbrev cc18_stg3_0 : Ref sig .tc := ⟨.vmem, 103, rfl⟩
abbrev cc18_stg4_0 : Ref sig .tc := ⟨.vmem, 104, rfl⟩
abbrev cc18_stg5_0 : Ref sig .tc := ⟨.vmem, 105, rfl⟩
abbrev cc18_stg5_1 : Ref sig .tc := ⟨.vmem, 106, rfl⟩
abbrev cc19_stg0_0 : Ref sig .tc := ⟨.vmem, 107, rfl⟩
abbrev cc19_stg0_1 : Ref sig .tc := ⟨.vmem, 108, rfl⟩
abbrev cc19_stg1_0 : Ref sig .tc := ⟨.vmem, 109, rfl⟩
abbrev cc19_stg1_1 : Ref sig .tc := ⟨.vmem, 110, rfl⟩
abbrev cc19_stg2_0 : Ref sig .tc := ⟨.vmem, 111, rfl⟩
abbrev cc19_stg3_0 : Ref sig .tc := ⟨.vmem, 112, rfl⟩
abbrev cc19_stg4_0 : Ref sig .tc := ⟨.vmem, 113, rfl⟩
abbrev cc19_stg5_0 : Ref sig .tc := ⟨.vmem, 114, rfl⟩
abbrev cc19_stg5_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem3_0 : DmaSem sig := 45
abbrev cc8_sem4_0 : DmaSem sig := 46
abbrev cc8_sem5_0 : DmaSem sig := 47
abbrev cc8_sem5_1 : DmaSem sig := 48
abbrev cc9_sem0_0 : DmaSem sig := 49
abbrev cc9_sem0_1 : DmaSem sig := 50
abbrev cc9_sem1_0 : DmaSem sig := 51
abbrev cc9_sem1_1 : DmaSem sig := 52
abbrev cc9_sem2_0 : DmaSem sig := 53
abbrev cc9_sem3_0 : DmaSem sig := 54
abbrev cc9_sem4_0 : DmaSem sig := 55
abbrev cc9_sem5_0 : DmaSem sig := 56
abbrev cc9_sem5_1 : DmaSem sig := 57
abbrev cc10_sem0_0 : DmaSem sig := 58
abbrev cc10_sem0_1 : DmaSem sig := 59
abbrev cc10_sem1_0 : DmaSem sig := 60
abbrev cc10_sem2_0 : DmaSem sig := 61
abbrev cc10_sem2_1 : DmaSem sig := 62
abbrev cc11_sem0_0 : DmaSem sig := 63
abbrev cc11_sem0_1 : DmaSem sig := 64
abbrev cc11_sem1_0 : DmaSem sig := 65
abbrev cc11_sem2_0 : DmaSem sig := 66
abbrev cc11_sem2_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem2_1 : DmaSem sig := 72
abbrev cc13_sem0_0 : DmaSem sig := 73
abbrev cc13_sem0_1 : DmaSem sig := 74
abbrev cc13_sem1_0 : DmaSem sig := 75
abbrev cc13_sem2_0 : DmaSem sig := 76
abbrev cc13_sem2_1 : DmaSem sig := 77
abbrev cc14_sem0_0 : DmaSem sig := 78
abbrev cc14_sem0_1 : DmaSem sig := 79
abbrev cc14_sem1_0 : DmaSem sig := 80
abbrev cc14_sem2_0 : DmaSem sig := 81
abbrev cc14_sem2_1 : DmaSem sig := 82
abbrev cc15_sem0_0 : DmaSem sig := 83
abbrev cc15_sem0_1 : DmaSem sig := 84
abbrev cc15_sem1_0 : DmaSem sig := 85
abbrev cc15_sem2_0 : DmaSem sig := 86
abbrev cc15_sem2_1 : DmaSem sig := 87
abbrev cc16_sem0_0 : DmaSem sig := 88
abbrev cc16_sem0_1 : DmaSem sig := 89
abbrev cc16_sem1_0 : DmaSem sig := 90
abbrev cc16_sem2_0 : DmaSem sig := 91
abbrev cc16_sem2_1 : DmaSem sig := 92
abbrev cc17_sem0_0 : DmaSem sig := 93
abbrev cc17_sem0_1 : DmaSem sig := 94
abbrev cc17_sem1_0 : DmaSem sig := 95
abbrev cc17_sem2_0 : DmaSem sig := 96
abbrev cc17_sem2_1 : DmaSem sig := 97
abbrev cc18_sem0_0 : DmaSem sig := 98
abbrev cc18_sem0_1 : DmaSem sig := 99
abbrev cc18_sem1_0 : DmaSem sig := 100
abbrev cc18_sem1_1 : DmaSem sig := 101
abbrev cc18_sem2_0 : DmaSem sig := 102
abbrev cc18_sem3_0 : DmaSem sig := 103
abbrev cc18_sem4_0 : DmaSem sig := 104
abbrev cc18_sem5_0 : DmaSem sig := 105
abbrev cc18_sem5_1 : DmaSem sig := 106
abbrev cc19_sem0_0 : DmaSem sig := 107
abbrev cc19_sem0_1 : DmaSem sig := 108
abbrev cc19_sem1_0 : DmaSem sig := 109
abbrev cc19_sem1_1 : DmaSem sig := 110
abbrev cc19_sem2_0 : DmaSem sig := 111
abbrev cc19_sem3_0 : DmaSem sig := 112
abbrev cc19_sem4_0 : DmaSem sig := 113
abbrev cc19_sem5_0 : DmaSem sig := 114
abbrev cc19_sem5_1 : DmaSem sig := 115

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![15], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![15], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S4000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S4000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S4000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![15], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S4000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S4000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![15], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S4000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![15], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S4000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S4000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![15], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S4000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S4000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S4000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S128x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S4000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S40000x128 : S_.BroadcastsInDim S40000x128 (![] : Fin 0 → Fin S40000x128.rank)
  slices_S2x4x128_S1x1x128_0_0_0 : S2x4x128.Slices ![0, 0, 0] S1x1x128
  shapeCasts_S1x1x128_S128 : S1x1x128.ShapeCasts S128
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x4x128x128_S1x1x128x128_0_1_0_0 : S2x4x128x128.Slices ![0, 1, 0, 0] S1x1x128x128
  bcast_S_S60000x128 : S_.BroadcastsInDim S60000x128 (![] : Fin 0 → Fin S60000x128.rank)
  slices_S2x4x128_S1x1x128_0_1_0 : S2x4x128.Slices ![0, 1, 0] S1x1x128
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_0_3_0_0 : S2x4x128x128.Slices ![0, 3, 0, 0] S1x1x128x128
  slices_S2x4x128_S1x1x128_0_3_0 : S2x4x128.Slices ![0, 3, 0] S1x1x128
  slices_S2x2x256x128_S1x1x128x128_0_0_0_0 : S2x2x256x128.Slices ![0, 0, 0, 0] S1x1x128x128
  slices_S2x2x256x128_S1x1x128x128_0_0_128_0 : S2x2x256x128.Slices ![0, 0, 128, 0] S1x1x128x128
  slices_S2x2x128_S1x1x128_0_0_0 : S2x2x128.Slices ![0, 0, 0] S1x1x128
  slices_S2x2x256x128_S1x1x128x128_0_1_0_0 : S2x2x256x128.Slices ![0, 1, 0, 0] S1x1x128x128
  slices_S2x2x256x128_S1x1x128x128_0_1_128_0 : S2x2x256x128.Slices ![0, 1, 128, 0] S1x1x128x128
  slices_S2x2x128_S1x1x128_0_1_0 : S2x2x128.Slices ![0, 1, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x2x256x128_S1x1x128x128_1_0_0_0 : S2x2x256x128.Slices ![1, 0, 0, 0] S1x1x128x128
  slices_S2x2x256x128_S1x1x128x128_1_0_128_0 : S2x2x256x128.Slices ![1, 0, 128, 0] S1x1x128x128
  slices_S2x2x128_S1x1x128_1_0_0 : S2x2x128.Slices ![1, 0, 0] S1x1x128
  slices_S2x2x256x128_S1x1x128x128_1_1_0_0 : S2x2x256x128.Slices ![1, 1, 0, 0] S1x1x128x128
  slices_S2x2x256x128_S1x1x128x128_1_1_128_0 : S2x2x256x128.Slices ![1, 1, 128, 0] S1x1x128x128
  slices_S2x2x128_S1x1x128_1_1_0 : S2x2x128.Slices ![1, 1, 0] S1x1x128
  concatenates_S60000x128_S60000x128_S60000x256_d1 : Shape.Concatenates [S60000x128, S60000x128] S60000x256 1
  concatenates_S40000x128_S40000x128_S40000x256_d1 : Shape.Concatenates [S40000x128, S40000x128] S40000x256 1
  dot_S4000x128_S128x128_S4000x128_1_0_0_1_n_n_wf : DotDims.WF S4000x128 S128x128 S4000x128 [1] [0] [0] [1] [] []
  gather_S60000x128_S1000000x1_S1000000x128_1_0_n_n_0_1_1128_wf : GatherDims.WF S60000x128 S1000000x1 S1000000x128 [1] [0] [] [0] [] 1 ![1, 128]
  scatter_S40000x128_S1000000x1_S1000000x128_1_0_0_1_wf : ScatterDims.WF S40000x128 S1000000x1 S1000000x128 [1] [0] [0] 1
  gather_S40000x128_S1000000x1_S1000000x128_1_0_n_n_0_1_1128_wf : GatherDims.WF S40000x128 S1000000x1 S1000000x128 [1] [0] [] [0] [] 1 ![1, 128]
  scatter_S60000x128_S1000000x1_S1000000x128_1_0_0_1_wf : ScatterDims.WF S60000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S60000x128.size a
  hwx0_0 : ∀ i : grid0.Coords, EltTy.bits .f32 = 32 ∨ (Rect.block (s := S60000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S60000x128.size a
  hwx0_2 : ∀ i : grid0.Coords, EltTy.bits .f32 = 32 ∨ (Rect.block (s := S60000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S40000x128.size a
  hwx2_2 : ∀ i : grid2.Coords, EltTy.bits .f32 = 32 ∨ (Rect.block (s := S40000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S60000x128.size a
  hwx3_0 : ∀ i : grid3.Coords, EltTy.bits .f32 = 32 ∨ (Rect.block (s := S60000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S60000x128.size a
  hwx3_2 : ∀ i : grid3.Coords, EltTy.bits .f32 = 32 ∨ (Rect.block (s := S60000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S40000x128.size a
  hwx4_0 : ∀ i : grid4.Coords, EltTy.bits .f32 = 32 ∨ (Rect.block (s := S40000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S40000x128.size a
  hwx4_2 : ∀ i : grid4.Coords, EltTy.bits .f32 = 32 ∨ (Rect.block (s := S40000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S60000x128.size a
  hwx5_0 : ∀ i : grid5.Coords, EltTy.bits .f32 = 32 ∨ (Rect.block (s := S60000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S60000x128.size a
  hwx5_2 : ∀ i : grid5.Coords, EltTy.bits .f32 = 32 ∨ (Rect.block (s := S60000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S60000x128.size a
  hwx6_0 : ∀ i : grid6.Coords, EltTy.bits .f32 = 32 ∨ (Rect.block (s := S60000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S60000x128.size a
  hwx6_2 : ∀ i : grid6.Coords, EltTy.bits .f32 = 32 ∨ (Rect.block (s := S60000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S40000x128.size a
  hwx7_0 : ∀ i : grid7.Coords, EltTy.bits .f32 = 32 ∨ (Rect.block (s := S40000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S40000x128.size a
  hwx7_2 : ∀ i : grid7.Coords, EltTy.bits .f32 = 32 ∨ (Rect.block (s := S40000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S60000x128.size a
  hwx8_0 : ∀ i : grid8.Coords, EltTy.bits .f32 = 32 ∨ (Rect.block (s := S60000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S60000x128.size a
  hwx8_1 : ∀ i : grid8.Coords, EltTy.bits .f32 = 32 ∨ (Rect.block (s := S60000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x128.size a ≤ S60000x128.size a
  hwx8_5 : ∀ i : grid8.Coords, EltTy.bits .f32 = 32 ∨ (Rect.block (s := S60000x128) S4000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S40000x128.size a
  hwx9_0 : ∀ i : grid9.Coords, EltTy.bits .f32 = 32 ∨ (Rect.block (s := S40000x128) S4000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x128.size a ≤ S40000x128.size a
  hwx9_1 : ∀ i : grid9.Coords, EltTy.bits .f32 = 32 ∨ (Rect.block (s := S40000x128) S4000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x128.size a ≤ S40000x128.size a
  hwx9_5 : ∀ i : grid9.Coords, EltTy.bits .f32 = 32 ∨ (Rect.block (s := S40000x128) S4000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S60000x128.size a
  hwx10_0 : ∀ i : grid10.Coords, EltTy.bits .f32 = 32 ∨ (Rect.block (s := S60000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x128.size a ≤ S60000x128.size a
  hwx10_2 : ∀ i : grid10.Coords, EltTy.bits .f32 = 32 ∨ (Rect.block (s := S60000x128) S4000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S40000x128.size a
  hwx11_0 : ∀ i : grid11.Coords, EltTy.bits .f32 = 32 ∨ (Rect.block (s := S40000x128) S4000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x128.size a ≤ S40000x128.size a
  hwx11_2 : ∀ i : grid11.Coords, EltTy.bits .f32 = 32 ∨ (Rect.block (s := S40000x128) S4000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S40000x128.size a
  hwx12_0 : ∀ i : grid12.Coords, EltTy.bits .f32 = 32 ∨ (Rect.block (s := S40000x128) S4000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x128.size a ≤ S40000x128.size a
  hwx12_2 : ∀ i : grid12.Coords, EltTy.bits .f32 = 32 ∨ (Rect.block (s := S40000x128) S4000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S60000x128.size a
  hwx13_0 : ∀ i : grid13.Coords, EltTy.bits .f32 = 32 ∨ (Rect.block (s := S60000x128) S4000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4000x128.size a ≤ S60000x128.size a
  hwx13_2 : ∀ i : grid13.Coords, EltTy.bits .f32 = 32 ∨ (Rect.block (s := S60000x128) S4000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S40000x128.size a
  hwx14_0 : ∀ i : grid14.Coords, EltTy.bits .f32 = 32 ∨ (Rect.block (s := S40000x128) S4000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S4000x128.size a ≤ S40000x128.size a
  hwx14_2 : ∀ i : grid14.Coords, EltTy.bits .f32 = 32 ∨ (Rect.block (s := S40000x128) S4000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x128.size a ≤ S60000x128.size a
  hwx15_0 : ∀ i : grid15.Coords, EltTy.bits .f32 = 32 ∨ (Rect.block (s := S60000x128) S4000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S4000x128.size a ≤ S60000x128.size a
  hwx15_2 : ∀ i : grid15.Coords, EltTy.bits .f32 = 32 ∨ (Rect.block (s := S60000x128) S4000x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x128.size a ≤ S60000x128.size a
  hwx16_0 : ∀ i : grid16.Coords, EltTy.bits .f32 = 32 ∨ (Rect.block (s := S60000x128) S4000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S4000x128.size a ≤ S60000x128.size a
  hwx16_2 : ∀ i : grid16.Coords, EltTy.bits .f32 = 32 ∨ (Rect.block (s := S60000x128) S4000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4000x128.size a ≤ S40000x128.size a
  hwx17_0 : ∀ i : grid17.Coords, EltTy.bits .f32 = 32 ∨ (Rect.block (s := S40000x128) S4000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S4000x128.size a ≤ S40000x128.size a
  hwx17_2 : ∀ i : grid17.Coords, EltTy.bits .f32 = 32 ∨ (Rect.block (s := S40000x128) S4000x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4000x128.size a ≤ S60000x128.size a
  hwx18_0 : ∀ i : grid18.Coords, EltTy.bits .f32 = 32 ∨ (Rect.block (s := S60000x128) S4000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S4000x128.size a ≤ S60000x128.size a
  hwx18_1 : ∀ i : grid18.Coords, EltTy.bits .f32 = 32 ∨ (Rect.block (s := S60000x128) S4000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S4000x128.size a ≤ S60000x128.size a
  hwx18_5 : ∀ i : grid18.Coords, EltTy.bits .f32 = 32 ∨ (Rect.block (s := S60000x128) S4000x128.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4000x128.size a ≤ S40000x128.size a
  hwx19_0 : ∀ i : grid19.Coords, EltTy.bits .f32 = 32 ∨ (Rect.block (s := S40000x128) S4000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S4000x128.size a ≤ S40000x128.size a
  hwx19_1 : ∀ i : grid19.Coords, EltTy.bits .f32 = 32 ∨ (Rect.block (s := S40000x128) S4000x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x128.size a ≤ S128x128.size a
  hwx19_2 : ∀ i : grid19.Coords, EltTy.bits .f32 = 32 ∨ (Rect.block (s := S128x128) S128x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S128x128.size a ≤ S128x128.size a
  hwx19_3 : ∀ i : grid19.Coords, EltTy.bits .f32 = 32 ∨ (Rect.block (s := S128x128) S128x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S4000x128.size a ≤ S40000x128.size a
  hwx19_5 : ∀ i : grid19.Coords, EltTy.bits .f32 = 32 ∨ (Rect.block (s := S40000x128) S4000x128.size (cc19_transform_5 i) (hinb19_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S60000x128_S1000000x1_S1000000x128_1_0_n_n_0_1_1128 : GatherDims S60000x128 S1000000x1 S1000000x128 where
  offsetDims := [1]
  collapsedSliceDims := [0]
  operandBatchingDims := []
  startIndicesBatchingDims := []
  startIndexMap := [0]
  indexVectorDim := 1
  sliceSizes := ![1, 128]
  wf := gather_S60000x128_S1000000x1_S1000000x128_1_0_n_n_0_1_1128_wf
def scatter_S40000x128_S1000000x1_S1000000x128_1_0_0_1 : ScatterDims S40000x128 S1000000x1 S1000000x128 where
  updateWindowDims := [1]
  insertedWindowDims := [0]
  scatterDimsToOperandDims := [0]
  indexVectorDim := 1
  wf := scatter_S40000x128_S1000000x1_S1000000x128_1_0_0_1_wf
def gather_S40000x128_S1000000x1_S1000000x128_1_0_n_n_0_1_1128 : GatherDims S40000x128 S1000000x1 S1000000x128 where
  offsetDims := [1]
  collapsedSliceDims := [0]
  operandBatchingDims := []
  startIndicesBatchingDims := []
  startIndexMap := [0]
  indexVectorDim := 1
  sliceSizes := ![1, 128]
  wf := gather_S40000x128_S1000000x1_S1000000x128_1_0_n_n_0_1_1128_wf
def scatter_S60000x128_S1000000x1_S1000000x128_1_0_0_1 : ScatterDims S60000x128 S1000000x1 S1000000x128 where
  updateWindowDims := [1]
  insertedWindowDims := [0]
  scatterDimsToOperandDims := [0]
  indexVectorDim := 1
  wf := scatter_S60000x128_S1000000x1_S1000000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v19) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v39) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v62) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v75) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v59) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v81) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v83) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v86) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v87) S4000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v79) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg1) S4000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v89) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v91) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v94) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v95) S4000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v87) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v97) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v98) S4000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v111) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v114) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v115) S4000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v95) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v117) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v118) S4000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v131) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v134) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v135) S4000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v115) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v137) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v138) S4000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v151) S4000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v154) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v155) S4000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v135) S4000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v157) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v158) S4000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v171) S4000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v174) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v175) S4000x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v155) S4000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v87) S4000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v177) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v179) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v182) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v183) S4000x128.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v175) S4000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v95) S4000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v185) S128x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v187) S128x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v190) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v191) S4000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

class Facts : Prop extends Facts₀ where

variable [Facts]
-- ==== ReferenceIdeal.lean ====
abbrev S60000x128 : Shape := ⟨2, ![60000, 128]⟩
abbrev S40000x128 : Shape := ⟨2, ![40000, 128]⟩
abbrev S1000000 : Shape := ⟨1, ![1000000]⟩
abbrev S2x4x128x128 : Shape := ⟨4, ![2, 4, 128, 128]⟩
abbrev S2x4x128 : Shape := ⟨3, ![2, 4, 128]⟩
abbrev S2x2x256x128 : Shape := ⟨4, ![2, 2, 256, 128]⟩
abbrev S2x2x128 : Shape := ⟨3, ![2, 2, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S60000x256 : Shape := ⟨2, ![60000, 256]⟩
abbrev S1x1x256x128 : Shape := ⟨4, ![1, 1, 256, 128]⟩
abbrev S256x128 : Shape := ⟨2, ![256, 128]⟩
abbrev S40000x256 : Shape := ⟨2, ![40000, 256]⟩

abbrev nBuf : Space → Nat
  | .hbm => 316
  | .vmem => 0
  | .smem => 0
  | _ => 0

abbrev hbmTy0_0 (i : Nat) : BufTy := match i % 128 with
  | 0 => ⟨S60000x128, .f32⟩
  | 1 => ⟨S40000x128, .f32⟩
  | 2 => ⟨S1000000, .i32⟩
  | 3 => ⟨S1000000, .i32⟩
  | 4 => ⟨S1000000, .f32⟩
  | 5 => ⟨S1000000, .f32⟩
  | 6 => ⟨S2x4x128x128, .f32⟩
  | 7 => ⟨S2x4x128, .f32⟩
  | 8 => ⟨S2x2x256x128, .f32⟩
  | 9 => ⟨S2x2x128, .f32⟩
  | 10 => ⟨S1x1x128x128, .f32⟩
  | 11 => ⟨S128x128, .f32⟩
  | 12 => ⟨S1x1x128, .f32⟩
  | 13 => ⟨S128, .f32⟩
  | 14 => ⟨S60000x128, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x128, .f32⟩
  | 24 => ⟨S1000000x1, .f32⟩
  | 25 => ⟨S1000000x128, .f32⟩
  | 26 => ⟨S1000000x128, .f32⟩
  | 27 => ⟨S_, .f32⟩
  | 28 => ⟨S40000x128, .f32⟩
  | 29 => ⟨S1000000x1, .i32⟩
  | 30 => ⟨S40000x128, .f32⟩
  | 31 => ⟨S1x128, .f32⟩
  | 32 => ⟨S40000x128, .f32⟩
  | 33 => ⟨S40000x128, .f32⟩
  | 34 => ⟨S_, .f32⟩
  | 35 => ⟨S_, .f32⟩
  | 36 => ⟨S40000x128, .f32⟩
  | 37 => ⟨S40000x128, .i1⟩
  | 38 => ⟨S_, .f32⟩
  | 39 => ⟨S40000x128, .f32⟩
  | 40 => ⟨S40000x128, .f32⟩
  | 41 => ⟨S40000x128, .f32⟩
  | 42 => ⟨S1x1x128x128, .f32⟩
  | 43 => ⟨S128x128, .f32⟩
  | 44 => ⟨S1x1x128, .f32⟩
  | 45 => ⟨S128, .f32⟩
  | 46 => ⟨S40000x128, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x128, .f32⟩
  | 56 => ⟨S1000000x1, .f32⟩
  | 57 => ⟨S1000000x128, .f32⟩
  | 58 => ⟨S1000000x128, .f32⟩
  | 59 => ⟨S_, .f32⟩
  | 60 => ⟨S60000x128, .f32⟩
  | 61 => ⟨S1000000x1, .i32⟩
  | 62 => ⟨S60000x128, .f32⟩
  | 63 => ⟨S1x128, .f32⟩
  | 64 => ⟨S60000x128, .f32⟩
  | 65 => ⟨S60000x128, .f32⟩
  | 66 => ⟨S_, .f32⟩
  | 67 => ⟨S_, .f32⟩
  | 68 => ⟨S60000x128, .f32⟩
  | 69 => ⟨S60000x128, .i1⟩
  | 70 => ⟨S_, .f32⟩
  | 71 => ⟨S60000x128, .f32⟩
  | 72 => ⟨S60000x128, .f32⟩
  | 73 => ⟨S60000x128, .f32⟩
  | 74 => ⟨S1x1x128x128, .f32⟩
  | 75 => ⟨S128x128, .f32⟩
  | 76 => ⟨S1x1x128, .f32⟩
  | 77 => ⟨S128, .f32⟩
  | 78 => ⟨S40000x128, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S1000000x1, .f32⟩
  | 89 => ⟨S1000000x128, .f32⟩
  | 90 => ⟨S1000000x128, .f32⟩
  | 91 => ⟨S_, .f32⟩
  | 92 => ⟨S60000x128, .f32⟩
  | 93 => ⟨S1000000x1, .i32⟩
  | 94 => ⟨S60000x128, .f32⟩
  | 95 => ⟨S1x128, .f32⟩
  | 96 => ⟨S60000x128, .f32⟩
  | 97 => ⟨S60000x128, .f32⟩
  | 98 => ⟨S_, .f32⟩
  | 99 => ⟨S_, .f32⟩
  | 100 => ⟨S60000x128, .f32⟩
  | 101 => ⟨S60000x128, .i1⟩
  | 102 => ⟨S_, .f32⟩
  | 103 => ⟨S60000x128, .f32⟩
  | 104 => ⟨S60000x128, .f32⟩
  | 105 => ⟨S60000x128, .f32⟩
  | 106 => ⟨S1x1x128x128, .f32⟩
  | 107 => ⟨S128x128, .f32⟩
  | 108 => ⟨S1x1x128, .f32⟩
  | 109 => ⟨S128, .f32⟩
  | 110 => ⟨S60000x128, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x128, .f32⟩
  | 120 => ⟨S1000000x1, .f32⟩
  | 121 => ⟨S1000000x128, .f32⟩
  | 122 => ⟨S1000000x128, .f32⟩
  | 123 => ⟨S_, .f32⟩
  | 124 => ⟨S40000x128, .f32⟩
  | 125 => ⟨S1000000x1, .i32⟩
  | 126 => ⟨S40000x128, .f32⟩
  | 127 => ⟨S1x128, .f32⟩
  | _ => ⟨S60000x128, .f32⟩

abbrev hbmTy0_1 (i : Nat) : BufTy := match i % 128 with
  | 0 => ⟨S40000x128, .f32⟩
  | 1 => ⟨S40000x128, .f32⟩
  | 2 => ⟨S_, .f32⟩
  | 3 => ⟨S_, .f32⟩
  | 4 => ⟨S40000x128, .f32⟩
  | 5 => ⟨S40000x128, .i1⟩
  | 6 => ⟨S_, .f32⟩
  | 7 => ⟨S40000x128, .f32⟩
  | 8 => ⟨S40000x128, .f32⟩
  | 9 => ⟨S40000x128, .f32⟩
  | 10 => ⟨S60000x256, .f32⟩
  | 11 => ⟨S1x1x256x128, .f32⟩
  | 12 => ⟨S256x128, .f32⟩
  | 13 => ⟨S60000x128, .f32⟩
  | 14 => ⟨S1x1x128, .f32⟩
  | 15 => ⟨S128, .f32⟩
  | 16 => ⟨S1x128, .f32⟩
  | 17 => ⟨S60000x128, .f32⟩
  | 18 => ⟨S60000x128, .f32⟩
  | 19 => ⟨S_, .f32⟩
  | 20 => ⟨S60000x128, .f32⟩
  | 21 => ⟨S60000x128, .f32⟩
  | 22 => ⟨S40000x256, .f32⟩
  | 23 => ⟨S1x1x256x128, .f32⟩
  | 24 => ⟨S256x128, .f32⟩
  | 25 => ⟨S40000x128, .f32⟩
  | 26 => ⟨S1x1x128, .f32⟩
  | 27 => ⟨S128, .f32⟩
  | 28 => ⟨S1x128, .f32⟩
  | 29 => ⟨S40000x128, .f32⟩
  | 30 => ⟨S40000x128, .f32⟩
  | 31 => ⟨S_, .f32⟩
  | 32 => ⟨S40000x128, .f32⟩
  | 33 => ⟨S40000x128, .f32⟩
  | 34 => ⟨S1x1x128x128, .f32⟩
  | 35 => ⟨S128x128, .f32⟩
  | 36 => ⟨S1x1x128, .f32⟩
  | 37 => ⟨S128, .f32⟩
  | 38 => ⟨S60000x128, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x128, .f32⟩
  | 48 => ⟨S1000000x1, .f32⟩
  | 49 => ⟨S1000000x128, .f32⟩
  | 50 => ⟨S1000000x128, .f32⟩
  | 51 => ⟨S_, .f32⟩
  | 52 => ⟨S40000x128, .f32⟩
  | 53 => ⟨S1000000x1, .i32⟩
  | 54 => ⟨S40000x128, .f32⟩
  | 55 => ⟨S1x128, .f32⟩
  | 56 => ⟨S40000x128, .f32⟩
  | 57 => ⟨S40000x128, .f32⟩
  | 58 => ⟨S_, .f32⟩
  | 59 => ⟨S_, .f32⟩
  | 60 => ⟨S40000x128, .f32⟩
  | 61 => ⟨S40000x128, .i1⟩
  | 62 => ⟨S_, .f32⟩
  | 63 => ⟨S40000x128, .f32⟩
  | 64 => ⟨S40000x128, .f32⟩
  | 65 => ⟨S40000x128, .f32⟩
  | 66 => ⟨S1x1x128x128, .f32⟩
  | 67 => ⟨S128x128, .f32⟩
  | 68 => ⟨S1x1x128, .f32⟩
  | 69 => ⟨S128, .f32⟩
  | 70 => ⟨S40000x128, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x128, .f32⟩
  | 80 => ⟨S1000000x1, .f32⟩
  | 81 => ⟨S1000000x128, .f32⟩
  | 82 => ⟨S1000000x128, .f32⟩
  | 83 => ⟨S_, .f32⟩
  | 84 => ⟨S60000x128, .f32⟩
  | 85 => ⟨S1000000x1, .i32⟩
  | 86 => ⟨S60000x128, .f32⟩
  | 87 => ⟨S1x128, .f32⟩
  | 88 => ⟨S60000x128, .f32⟩
  | 89 => ⟨S60000x128, .f32⟩
  | 90 => ⟨S_, .f32⟩
  | 91 => ⟨S_, .f32⟩
  | 92 => ⟨S60000x128, .f32⟩
  | 93 => ⟨S60000x128, .i1⟩
  | 94 => ⟨S_, .f32⟩
  | 95 => ⟨S60000x128, .f32⟩
  | 96 => ⟨S60000x128, .f32⟩
  | 97 => ⟨S60000x128, .f32⟩
  | 98 => ⟨S1x1x128x128, .f32⟩
  | 99 => ⟨S128x128, .f32⟩
  | 100 => ⟨S1x1x128, .f32⟩
  | 101 => ⟨S128, .f32⟩
  | 102 => ⟨S40000x128, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x128, .f32⟩
  | 112 => ⟨S1000000x1, .f32⟩
  | 113 => ⟨S1000000x128, .f32⟩
  | 114 => ⟨S1000000x128, .f32⟩
  | 115 => ⟨S_, .f32⟩
  | 116 => ⟨S60000x128, .f32⟩
  | 117 => ⟨S1000000x1, .i32⟩
  | 118 => ⟨S60000x128, .f32⟩
  | 119 => ⟨S1x128, .f32⟩
  | 120 => ⟨S60000x128, .f32⟩
  | 121 => ⟨S60000x128, .f32⟩
  | 122 => ⟨S_, .f32⟩
  | 123 => ⟨S_, .f32⟩
  | 124 => ⟨S60000x128, .f32⟩
  | 125 => ⟨S60000x128, .i1⟩
  | 126 => ⟨S_, .f32⟩
  | 127 => ⟨S60000x128, .f32⟩
  | _ => ⟨S60000x128, .f32⟩

abbrev hbmTy0_2 (i : Nat) : BufTy := match i % 128 with
  | 0 => ⟨S60000x128, .f32⟩
  | 1 => ⟨S60000x128, .f32⟩
  | 2 => ⟨S1x1x128x128, .f32⟩
  | 3 => ⟨S128x128, .f32⟩
  | 4 => ⟨S1x1x128, .f32⟩
  | 5 => ⟨S128, .f32⟩
  | 6 => ⟨S60000x128, .f32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x128, .f32⟩
  | 16 => ⟨S1000000x1, .f32⟩
  | 17 => ⟨S1000000x128, .f32⟩
  | 18 => ⟨S1000000x128, .f32⟩
  | 19 => ⟨S_, .f32⟩
  | 20 => ⟨S40000x128, .f32⟩
  | 21 => ⟨S1000000x1, .i32⟩
  | 22 => ⟨S40000x128, .f32⟩
  | 23 => ⟨S1x128, .f32⟩
  | 24 => ⟨S40000x128, .f32⟩
  | 25 => ⟨S40000x128, .f32⟩
  | 26 => ⟨S_, .f32⟩
  | 27 => ⟨S_, .f32⟩
  | 28 => ⟨S40000x128, .f32⟩
  | 29 => ⟨S40000x128, .i1⟩
  | 30 => ⟨S_, .f32⟩
  | 31 => ⟨S40000x128, .f32⟩
  | 32 => ⟨S40000x128, .f32⟩
  | 33 => ⟨S40000x128, .f32⟩
  | 34 => ⟨S60000x256, .f32⟩
  | 35 => ⟨S1x1x256x128, .f32⟩
  | 36 => ⟨S256x128, .f32⟩
  | 37 => ⟨S60000x128, .f32⟩
  | 38 => ⟨S1x1x128, .f32⟩
  | 39 => ⟨S128, .f32⟩
  | 40 => ⟨S1x128, .f32⟩
  | 41 => ⟨S60000x128, .f32⟩
  | 42 => ⟨S60000x128, .f32⟩
  | 43 => ⟨S_, .f32⟩
  | 44 => ⟨S60000x128, .f32⟩
  | 45 => ⟨S60000x128, .f32⟩
  | 46 => ⟨S40000x256, .f32⟩
  | 47 => ⟨S1x1x256x128, .f32⟩
  | 48 => ⟨S256x128, .f32⟩
  | 49 => ⟨S40000x128, .f32⟩
  | 50 => ⟨S1x1x128, .f32⟩
  | 51 => ⟨S128, .f32⟩
  | 52 => ⟨S1x128, .f32⟩
  | 53 => ⟨S40000x128, .f32⟩
  | 54 => ⟨S40000x128, .f32⟩
  | 55 => ⟨S_, .f32⟩
  | 56 => ⟨S40000x128, .f32⟩
  | 57 => ⟨S40000x128, .f32⟩
  | 58 => ⟨S60000x256, .f32⟩
  | 59 => ⟨S40000x256, .f32⟩
  | _ => ⟨S60000x128, .f32⟩

abbrev hbmTy (i : Nat) : BufTy := match i / 128 with
  | 0 => hbmTy0_0 i
  | 1 => hbmTy0_1 i
  | 2 => hbmTy0_2 i
  | _ => ⟨S60000x128, .f32⟩

abbrev bufTy : (tb : Table) → Fin (tcTables nBuf tb) → BufTy
  | .hbm, ⟨i, _⟩ => hbmTy i
  | _, _ => ⟨S60000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_6 : Ref sig .tc := ⟨.hbm, 79, rfl⟩
abbrev main_v49 : Ref sig .tc := ⟨.hbm, 80, rfl⟩
abbrev main_v50 : Ref sig .tc := ⟨.hbm, 81, rfl⟩
abbrev main_c_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_10 : Ref sig .tc := ⟨.hbm, 111, rfl⟩
abbrev main_v71 : Ref sig .tc := ⟨.hbm, 112, rfl⟩
abbrev main_v72 : Ref sig .tc := ⟨.hbm, 113, rfl⟩
abbrev main_c_11 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_13 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_call4_cst : Ref sig .tc := ⟨.hbm, 147, rfl⟩
abbrev main_call4_v0 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_call5_cst : Ref sig .tc := ⟨.hbm, 159, rfl⟩
abbrev main_call5_v0 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_14 : Ref sig .tc := ⟨.hbm, 167, rfl⟩
abbrev main_v113 : Ref sig .tc := ⟨.hbm, 168, rfl⟩
abbrev main_v114 : Ref sig .tc := ⟨.hbm, 169, rfl⟩
abbrev main_c_15 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_16 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_17 : Ref sig .tc := ⟨.hbm, 186, rfl⟩
abbrev main_call6_cst : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_18 : Ref sig .tc := ⟨.hbm, 199, rfl⟩
abbrev main_v135 : Ref sig .tc := ⟨.hbm, 200, rfl⟩
abbrev main_v136 : Ref sig .tc := ⟨.hbm, 201, rfl⟩
abbrev main_c_19 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_20 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_21 : Ref sig .tc := ⟨.hbm, 218, rfl⟩
abbrev main_call7_cst : Ref sig .tc := ⟨.hbm, 219, rfl⟩
abbrev main_call7_v0 : Ref sig .tc := ⟨.hbm, 220, rfl⟩
abbrev main_call7_v1 : Ref sig .tc := ⟨.hbm, 221, rfl⟩
abbrev main_call7_v2 : Ref sig .tc := ⟨.hbm, 222, rfl⟩
abbrev main_call7_v3 : Ref sig .tc := ⟨.hbm, 223, rfl⟩
abbrev main_call7_v4 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_c_22 : Ref sig .tc := ⟨.hbm, 231, rfl⟩
abbrev main_v157 : Ref sig .tc := ⟨.hbm, 232, rfl⟩
abbrev main_v158 : Ref sig .tc := ⟨.hbm, 233, rfl⟩
abbrev main_c_23 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_cst_24 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_25 : Ref sig .tc := ⟨.hbm, 250, rfl⟩
abbrev main_call8_cst : Ref sig .tc := ⟨.hbm, 251, rfl⟩
abbrev main_call8_v0 : Ref sig .tc := ⟨.hbm, 252, rfl⟩
abbrev main_call8_v1 : Ref sig .tc := ⟨.hbm, 253, rfl⟩
abbrev main_call8_v2 : Ref sig .tc := ⟨.hbm, 254, rfl⟩
abbrev main_call8_v3 : Ref sig .tc := ⟨.hbm, 255, rfl⟩
abbrev main_call8_v4 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_c_26 : Ref sig .tc := ⟨.hbm, 263, rfl⟩
abbrev main_v179 : Ref sig .tc := ⟨.hbm, 264, rfl⟩
abbrev main_v180 : Ref sig .tc := ⟨.hbm, 265, rfl⟩
abbrev main_c_27 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_cst_28 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_cst_29 : Ref sig .tc := ⟨.hbm, 282, rfl⟩
abbrev main_call9_cst : Ref sig .tc := ⟨.hbm, 283, rfl⟩
abbrev main_call9_v0 : Ref sig .tc := ⟨.hbm, 284, rfl⟩
abbrev main_call9_v1 : Ref sig .tc := ⟨.hbm, 285, rfl⟩
abbrev main_call9_v2 : Ref sig .tc := ⟨.hbm, 286, rfl⟩
abbrev main_call9_v3 : Ref sig .tc := ⟨.hbm, 287, rfl⟩
abbrev main_call9_v4 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_call10_cst : Ref sig .tc := ⟨.hbm, 299, rfl⟩
abbrev main_call10_v0 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_call11_cst : Ref sig .tc := ⟨.hbm, 311, rfl⟩
abbrev main_call11_v0 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩

abbrev nD : Nat := 1
abbrev τ : Topo := Topo.v7x

variable {F : FTy → Type} [FloatOps F]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S2x4x128x128_S1x1x128x128_0_1_0_0 : S2x4x128x128.Slices ![0, 1, 0, 0] S1x1x128x128
  slices_S2x4x128_S1x1x128_0_1_0 : S2x4x128.Slices ![0, 1, 0] S1x1x128
  bcast_S_S60000x128 : S_.BroadcastsInDim S60000x128 (![] : Fin 0 → Fin S60000x128.rank)
  bcast_S1x128_S60000x128_0_1 : S1x128.BroadcastsInDim S60000x128 (![0, 1] : Fin 2 → Fin S60000x128.rank)
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_0_3_0_0 : S2x4x128x128.Slices ![0, 3, 0, 0] S1x1x128x128
  slices_S2x4x128_S1x1x128_0_3_0 : S2x4x128.Slices ![0, 3, 0] S1x1x128
  concatenates_S60000x128_S60000x128_S60000x256_d1 : Shape.Concatenates [S60000x128, S60000x128] S60000x256 1
  slices_S2x2x256x128_S1x1x256x128_0_0_0_0 : S2x2x256x128.Slices ![0, 0, 0, 0] S1x1x256x128
  shapeCasts_S1x1x256x128_S256x128 : S1x1x256x128.ShapeCasts S256x128
  slices_S2x2x128_S1x1x128_0_0_0 : S2x2x128.Slices ![0, 0, 0] S1x1x128
  concatenates_S40000x128_S40000x128_S40000x256_d1 : Shape.Concatenates [S40000x128, S40000x128] S40000x256 1
  slices_S2x2x256x128_S1x1x256x128_0_1_0_0 : S2x2x256x128.Slices ![0, 1, 0, 0] S1x1x256x128
  slices_S2x2x128_S1x1x128_0_1_0 : S2x2x128.Slices ![0, 1, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x2x256x128_S1x1x256x128_1_0_0_0 : S2x2x256x128.Slices ![1, 0, 0, 0] S1x1x256x128
  slices_S2x2x128_S1x1x128_1_0_0 : S2x2x128.Slices ![1, 0, 0] S1x1x128
  slices_S2x2x256x128_S1x1x256x128_1_1_0_0 : S2x2x256x128.Slices ![1, 1, 0, 0] S1x1x256x128
  slices_S2x2x128_S1x1x128_1_1_0 : S2x2x128.Slices ![1, 1, 0] S1x1x128
  dot_S60000x128_S128x128_S60000x128_1_0_0_1_n_n_wf : DotDims.WF S60000x128 S128x128 S60000x128 [1] [0] [0] [1] [] []
  gather_S60000x128_S1000000x1_S1000000x128_1_0_n_n_0_1_1128_wf : GatherDims.WF S60000x128 S1000000x1 S1000000x128 [1] [0] [] [0] [] 1 ![1, 128]
  scatter_S40000x128_S1000000x1_S1000000x128_1_0_0_1_wf : ScatterDims.WF S40000x128 S1000000x1 S1000000x128 [1] [0] [0] 1
  dot_S40000x128_S128x128_S40000x128_1_0_0_1_n_n_wf : DotDims.WF S40000x128 S128x128 S40000x128 [1] [0] [0] [1] [] []
  gather_S40000x128_S1000000x1_S1000000x128_1_0_n_n_0_1_1128_wf : GatherDims.WF S40000x128 S1000000x1 S1000000x128 [1] [0] [] [0] [] 1 ![1, 128]
  scatter_S60000x128_S1000000x1_S1000000x128_1_0_0_1_wf : ScatterDims.WF S60000x128 S1000000x1 S1000000x128 [1] [0] [0] 1
  dot_S60000x256_S256x128_S60000x128_1_0_0_1_n_n_wf : DotDims.WF S60000x256 S256x128 S60000x128 [1] [0] [0] [1] [] []
  dot_S40000x256_S256x128_S40000x128_1_0_0_1_n_n_wf : DotDims.WF S40000x256 S256x128 S40000x128 [1] [0] [0] [1] [] []

variable [Facts₀]

def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def gather_S60000x128_S1000000x1_S1000000x128_1_0_n_n_0_1_1128 : GatherDims S60000x128 S1000000x1 S1000000x128 where
  offsetDims := [1]
  collapsedSliceDims := [0]
  operandBatchingDims := []
  startIndicesBatchingDims := []
  startIndexMap := [0]
  indexVectorDim := 1
  sliceSizes := ![1, 128]
  wf := gather_S60000x128_S1000000x1_S1000000x128_1_0_n_n_0_1_1128_wf
def scatter_S40000x128_S1000000x1_S1000000x128_1_0_0_1 : ScatterDims S40000x128 S1000000x1 S1000000x128 where
  updateWindowDims := [1]
  insertedWindowDims := [0]
  scatterDimsToOperandDims := [0]
  indexVectorDim := 1
  wf := scatter_S40000x128_S1000000x1_S1000000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S1000000x1_S1000000x128_1_0_n_n_0_1_1128 : GatherDims S40000x128 S1000000x1 S1000000x128 where
  offsetDims := [1]
  collapsedSliceDims := [0]
  operandBatchingDims := []
  startIndicesBatchingDims := []
  startIndexMap := [0]
  indexVectorDim := 1
  sliceSizes := ![1, 128]
  wf := gather_S40000x128_S1000000x1_S1000000x128_1_0_n_n_0_1_1128_wf
def scatter_S60000x128_S1000000x1_S1000000x128_1_0_0_1 : ScatterDims S60000x128 S1000000x1 S1000000x128 where
  updateWindowDims := [1]
  insertedWindowDims := [0]
  scatterDimsToOperandDims := [0]
  indexVectorDim := 1
  wf := scatter_S60000x128_S1000000x1_S1000000x128_1_0_0_1_wf
def dot_S60000x256_S256x128_S60000x128_1_0_0_1_n_n : DotDims S60000x256 S256x128 S60000x128 where
  lhsContracting := [1]
  rhsContracting := [0]
  lhsNonContracting := [0]
  rhsNonContracting := [1]
  lhsBatch := []
  rhsBatch := []
  wf := dot_S60000x256_S256x128_S60000x128_1_0_0_1_n_n_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.KRun.lean ====
/- The kernel's run with its two results named: at the compiled mesh, from any memory with zero counters, every
   weakly fair execution of @main on the TensorCores terminates without fault, and every final state holds, at the two
   result buffers, the contents the fold of segment boundaries ends with, and the ten argument arrays as launched. -/
import proofs.«150895_j60593398612496_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: every final state has each unscoped buffer at the last boundary's contents; read at the two result
    buffers that is the fold's value there, and at an argument array it is the launch contents. -/
theorem run : θ_run defs (onTc (τ := τ) (main (F := F))) ⟨m, fun _ => 0, ρ⟩ (fun r => ∀ c : Dev nD,
      r.2.mem ((c.tc : Thread nD τ).loc main_v192) = Gen.W41 m ρ c (Proc.devRef .tc main_v192)
      ∧ r.2.mem ((c.tc : Thread nD τ).loc main_v193) = Gen.W41 m ρ c (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W41 m ρ c b)
    (hfin := fun c s' => by
      iintro ⟨⟨Hh, -⟩, HSI⟩
      unfold StableHlo.held
      imodintro
      iapply (pointsTo_read_all (Pipeline.ucRefs τ sig) (fun b => (((c : Thread nD τ)).1, b)) (W41 m ρ c) s')
      isplitl [Hh] <;> iassumption)
    (hQ := fun s h c =>
      ⟨h c _ (mem_uc main_v192 (by decide)),
       h c _ (mem_uc main_v193 (by decide)),
       (h c _ (mem_uc main_arg0 (by decide))).trans (W41_main_arg0 m ρ c),
       (h c _ (mem_uc main_arg1 (by decide))).trans (W41_main_arg1 m ρ c),
       (h c _ (mem_uc main_arg2 (by decide))).trans (W41_main_arg2 m ρ c),
       (h c _ (mem_uc main_arg3 (by decide))).trans (W41_main_arg3 m ρ c),
       (h c _ (mem_uc main_arg4 (by decide))).trans (W41_main_arg4 m ρ c),
       (h c _ (mem_uc main_arg5 (by decide))).trans (W41_main_arg5 m ρ c),
       (h c _ (mem_uc main_arg6 (by decide))).trans (W41_main_arg6 m ρ c),
       (h c _ (mem_uc main_arg7 (by decide))).trans (W41_main_arg7 m ρ c),
       (h c _ (mem_uc main_arg8 (by decide))).trans (W41_main_arg8 m ρ c),
       (h c _ (mem_uc main_arg9 (by decide))).trans (W41_main_arg9 m ρ c)⟩)

end Cert.KernelIdeal.KRun

end
-- ==== Proof.KWalkSeg.lean ====
/- Each segment of the run keeps the buffers it does not write: a stretch of host operations every buffer
   other than its operations' results, a region each of its input arrays. -/
import proofs.«150895_j60593398612496_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

/-- Stretch 0 keeps every buffer that is none of its 2 results. -/
theorem host0_keeps (V : Valuation τ sig (Elt F)) (b : Ref sig .tc)
    (hb : ∀ y ∈ ([main_v0, main_v1] : List (Ref sig .tc)), b ≠ y) :
    StableHlo.after hostOps0 V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 1 keeps every buffer that is none of its 19 results. -/
theorem host1_keeps (V : Valuation τ sig (Elt F)) (b : Ref sig .tc)
    (hb : ∀ y ∈ ([main_c, main_v3, main_v4, main_c_0, main_v5, main_v6, main_v7, main_v8, main_v9, main_v10, main_v11, main_v12, main_cst, main_v13, main_v14, main_v15, main_v16, main_v17, main_v18] : List (Ref sig .tc)), b ≠ y) :
    StableHlo.after hostOps1 V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 2 keeps every buffer that is none of its 2 results. -/
theorem host2_keeps (V : Valuation τ sig (Elt F)) (b : Ref sig .tc)
    (hb : ∀ y ∈ ([main_v20, main_v21] : List (Ref sig .tc)), b ≠ y) :
    StableHlo.after hostOps2 V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 3 keeps every buffer that is none of its 19 results. -/
theorem host3_keeps (V : Valuation τ sig (Elt F)) (b : Ref sig .tc)
    (hb : ∀ y ∈ ([main_c_1, main_v23, main_v24, main_c_2, main_v25, main_v26, main_v27, main_v28, main_v29, main_v30, main_v31, main_v32, main_cst_3, main_v33, main_v34, main_v35, main_v36, main_v37, main_v38] : List (Ref sig .tc)), b ≠ y) :
    StableHlo.after hostOps3 V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 4 keeps every buffer that is none of its 2 results. -/
theorem host4_keeps (V : Valuation τ sig (Elt F)) (b : Ref sig .tc)
    (hb : ∀ y ∈ ([main_v40, main_v41] : List (Ref sig .tc)), b ≠ y) :
    StableHlo.after hostOps4 V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 5 keeps every buffer that is none of its 19 results. -/
theorem host5_keeps (V : Valuation τ sig (Elt F)) (b : Ref sig .tc)
    (hb : ∀ y ∈ ([main_c_4, main_v43, main_v44, main_c_5, main_v45, main_v46, main_v47, main_v48, main_v49, main_v50, main_v51, main_v52, main_cst_6, main_v53, main_v54, main_v55, main_v56, main_v57, main_v58] : List (Ref sig .tc)), b ≠ y) :
    StableHlo.after hostOps5 V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 6 keeps every buffer that is none of its 2 results. -/
theorem host6_keeps (V : Valuation τ sig (Elt F)) (b : Ref sig .tc)
    (hb : ∀ y ∈ ([main_v60, main_v61] : List (Ref sig .tc)), b ≠ y) :
    StableHlo.after hostOps6 V (Proc.devRef .tc b) = V (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 7 keeps every buffer that is none of its 19 results. -/
theorem host7_keeps (V : Valuation τ sig (Elt F)) (b : Ref sig .tc)
    (hb : ∀ y ∈ ([main_c_7, main_v63, main_v64, main_c_8, main_v65, main_v66, main_v67, main_v68, main_v69, main_v70, main_v71, main_v72, main_cst_9, main_v73, main_v74, main_v75, main_v76, main_v77, main_v78] : List (Ref sig .tc)), b ≠ y) :
    StableHlo.after hostOps7 V (Proc.devRef .tc b) = V (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 8 keeps every buffer that is none of its 7 results. -/
theorem host8_keeps (V : Valuation τ sig (Elt F)) (b : Ref sig .tc)
    (hb : ∀ y ∈ ([main_v80, main_v81, main_v82, main_v83, main_v84, main_v85, main_v86] : List (Ref sig .tc)), b ≠ y) :
    StableHlo.after hostOps8 V (Proc.devRef .tc b) = V (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 9 keeps every buffer that is none of its 7 results. -/
theorem host9_keeps (V : Valuation τ sig (Elt F)) (b : Ref sig .tc)
    (hb : ∀ y ∈ ([main_v88, main_v89, main_v90, main_v91, main_v92, main_v93, main_v94] : List (Ref sig .tc)), b ≠ y) :
    StableHlo.after hostOps9 V (Proc.devRef .tc b) = V (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 10 keeps every buffer that is none of its 2 results. -/
theorem host10_keeps (V : Valuation τ sig (Elt F)) (b : Ref sig .tc)
    (hb : ∀ y ∈ ([main_v96, main_v97] : List (Ref sig .tc)), b ≠ y) :
    StableHlo.after hostOps10 V (Proc.devRef .tc b) = V (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 11 keeps every buffer that is none of its 19 results. -/
theorem host11_keeps (V : Valuation τ sig (Elt F)) (b : Ref sig .tc)
    (hb : ∀ y ∈ ([main_c_10, main_v99, main_v100, main_c_11, main_v101, main_v102, main_v103, main_v104, main_v105, main_v106, main_v107, main_v108, main_cst_12, main_v109, main_v110, main_v111, main_v112, main_v113, main_v114] : List (Ref sig .tc)), b ≠ y) :
    StableHlo.after hostOps11 V (Proc.devRef .tc b) = V (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 12 keeps every buffer that is none of its 2 results. -/
theorem host12_keeps (V : Valuation τ sig (Elt F)) (b : Ref sig .tc)
    (hb : ∀ y ∈ ([main_v116, main_v117] : List (Ref sig .tc)), b ≠ y) :
    StableHlo.after hostOps12 V (Proc.devRef .tc b) = V (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 13 keeps every buffer that is none of its 19 results. -/
theorem host13_keeps (V : Valuation τ sig (Elt F)) (b : Ref sig .tc)
    (hb : ∀ y ∈ ([main_c_13, main_v119, main_v120, main_c_14, main_v121, main_v122, main_v123, main_v124, main_v125, main_v126, main_v127, main_v128, main_cst_15, main_v129, main_v130, main_v131, main_v132, main_v133, main_v134] : List (Ref sig .tc)), b ≠ y) :
    StableHlo.after hostOps13 V (Proc.devRef .tc b) = V (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 14 keeps every buffer that is none of its 2 results. -/
theorem host14_keeps (V : Valuation τ sig (Elt F)) (b : Ref sig .tc)
    (hb : ∀ y ∈ ([main_v136, main_v137] : List (Ref sig .tc)), b ≠ y) :
    StableHlo.after hostOps14 V (Proc.devRef .tc b) = V (Proc.devRef .tc b) :=
  StableHlo.after_of_forall_not_mem (b := Proc.devRef .tc b) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 15 keeps every buffer that is none of its 19 results. -/
theorem host15_keeps (V : Valuation τ sig (Elt F)) (b : Ref sig .tc)
    (hb : ∀ y ∈ ([main_c_16, main_v139, main_v140, main_c_17, main_v141, main_v142, main_v143, main_v144, main_v145, main_v146, main_v147, main_v148, main_cst_18, main_v149, main_v150, main_v151, main_v152, main_v153, main_v154] : List (Ref sig .tc)), b ≠ y) :
    StableHlo.after hostOps15 V (Proc.devRef .tc b) = V (Proc.devRef .tc b) :=
  StableHlo.after_of_forall_not_mem (b := Proc.devRef .tc b) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 16 keeps every buffer that is none of its 2 results. -/
theorem host16_keeps (V : Valuation τ sig (Elt F)) (b : Ref sig .tc)
    (hb : ∀ y ∈ ([main_v156, main_v157] : List (Ref sig .tc)), b ≠ y) :
    StableHlo.after hostOps16 V (Proc.devRef .tc b) = V (Proc.devRef .tc b) :=
  StableHlo.after_of_forall_not_mem (b := Proc.devRef .tc b) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 17 keeps every buffer that is none of its 19 results. -/
theorem host17_keeps (V : Valuation τ sig (Elt F)) (b : Ref sig .tc)
    (hb : ∀ y ∈ ([main_c_19, main_v159, main_v160, main_c_20, main_v161, main_v162, main_v163, main_v164, main_v165, main_v166, main_v167, main_v168, main_cst_21, main_v169, main_v170, main_v171, main_v172, main_v173, main_v174] : List (Ref sig .tc)), b ≠ y) :
    StableHlo.after hostOps17 V (Proc.devRef .tc b) = V (Proc.devRef .tc b) :=
  StableHlo.after_of_forall_not_mem (b := Proc.devRef .tc b) _ _ (List.forall_iff_forall_mem.mp (by
    simp only [hostOps17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 18 keeps every buffer that is none of its 7 results. -/
theorem host18_keeps (V : Valuation τ sig (Elt F)) (b : Ref sig .tc)
    (hb : ∀ y ∈ ([main_v176, main_v177, main_v178, main_v179, main_v180, main_v181, main_v182] : List (Ref sig .tc)), b ≠ y) :
    StableHlo.after hostOps18 V (Proc.devRef .tc b) = V (Proc.devRef .tc b) :=
  StableHlo.after_of_forall_not_mem (b := Proc.devRef .tc b) _ _ (List.forall_iff_forall_mem.mp (by
    simp only [hostOps18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 19 keeps every buffer that is none of its 7 results. -/
theorem host19_keeps (V : Valuation τ sig (Elt F)) (b : Ref sig .tc)
    (hb : ∀ y ∈ ([main_v184, main_v185, main_v186, main_v187, main_v188, main_v189, main_v190] : List (Ref sig .tc)), b ≠ y) :
    StableHlo.after hostOps19 V (Proc.devRef .tc b) = V (Proc.devRef .tc b) :=
  StableHlo.after_of_forall_not_mem (b := Proc.devRef .tc b) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- Stretch 20 keeps every buffer that is none of its 2 results. -/
theorem host20_keeps (V : Valuation τ sig (Elt F)) (b : Ref sig .tc)
    (hb : ∀ y ∈ ([main_v192, main_v193] : List (Ref sig .tc)), b ≠ y) :
    StableHlo.after hostOps20 V (Proc.devRef .tc b) = V (Proc.devRef .tc b) :=
  StableHlo.after_of_forall_not_mem (b := Proc.devRef .tc b) _ _ (List.forall_iff_forall_mem.mp (by
    simp only [hostOps20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

variable (m : (ℓ : Loc nD τ sig) → Buf (Elt F) ℓ) (ρ : Dev nD → PrngReg)

/-- Region 0 leaves an input array as it found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- Region 1 leaves an input array as it found it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- Region 2 leaves an input array as it found it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- Region 3 leaves an input array as it found it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))
/-- Region 4 leaves an input array as it found it. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))
/-- Region 5 leaves an input array as it found it. -/
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))
/-- Region 6 leaves an input array as it found it. -/
theorem W14_in (c : Dev nD) (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hw _).trans (A_eq6 (V13 m ρ) c w))
/-- Region 7 leaves an input array as it found it. -/
theorem W16_in (c : Dev nD) (w : Fin cfg7.W) (hw : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hw _).trans (A_eq7 (V15 m ρ) c w))
/-- Region 8 leaves an input array as it found it. -/
theorem W18_in (c : Dev nD) (w : Fin cfg8.W) (hw : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hw _).trans (A_eq8 (V17 m ρ) c w))
/-- Region 9 leaves an input array as it found it. -/
theorem W20_in (c : Dev nD) (w : Fin cfg9.W) (hw : (cfg9.win w).isOut = false) :
    W20 m ρ c (Proc.devRef .tc (Pipeline.arrRef spec9 w)) = W19 m ρ c (Proc.devRef .tc (Pipeline.arrRef spec9 w)) :=
  (W20_arr m ρ c w).trans (((dat9 (V19 m ρ) c).arrAt_in w hw _).trans (A_eq9 (V19 m ρ) c w))
/-- Region 10 leaves an input array as it found it. -/
theorem W22_in (c : Dev nD) (w : Fin cfg10.W) (hw : (cfg10.win w).isOut = false) :
    W22 m ρ c (Proc.devRef .tc (Pipeline.arrRef spec10 w)) = W21 m ρ c (Proc.devRef .tc (Pipeline.arrRef spec10 w)) :=
  (W22_arr m ρ c w).trans (((dat10 (V21 m ρ) c).arrAt_in w hw _).trans (A_eq10 (V21 m ρ) c w))
/-- Region 11 leaves an input array as it found it. -/
theorem W24_in (c : Dev nD) (w : Fin cfg11.W) (hw : (cfg11.win w).isOut = false) :
    W24 m ρ c (Proc.devRef .tc (Pipeline.arrRef spec11 w)) = W23 m ρ c (Proc.devRef .tc (Pipeline.arrRef spec11 w)) :=
  (W24_arr m ρ c w).trans (((dat11 (V23 m ρ) c).arrAt_in w hw _).trans (A_eq11 (V23 m ρ) c w))
/-- Region 12 leaves an input array as it found it. -/
theorem W26_in (c : Dev nD) (w : Fin cfg12.W) (hw : (cfg12.win w).isOut = false) :
    W26 m ρ c (Proc.devRef .tc (Pipeline.arrRef spec12 w)) = W25 m ρ c (Proc.devRef .tc (Pipeline.arrRef spec12 w)) :=
  (W26_arr m ρ c w).trans (((dat12 (V25 m ρ) c).arrAt_in w hw _).trans (A_eq12 (V25 m ρ) c w))
/-- Region 13 leaves an input array as it found it. -/
theorem W28_in (c : Dev nD) (w : Fin cfg13.W) (hw : (cfg13.win w).isOut = false) :
    W28 m ρ c (Proc.devRef .tc (Pipeline.arrRef spec13 w)) = W27 m ρ c (Proc.devRef .tc (Pipeline.arrRef spec13 w)) :=
  (W28_arr m ρ c w).trans (((dat13 (V27 m ρ) c).arrAt_in w hw _).trans (A_eq13 (V27 m ρ) c w))
/-- Region 14 leaves an input array as it found it. -/
theorem W30_in (c : Dev nD) (w : Fin cfg14.W) (hw : (cfg14.win w).isOut = false) :
    W30 m ρ c (Proc.devRef .tc (Pipeline.arrRef spec14 w)) = W29 m ρ c (Proc.devRef .tc (Pipeline.arrRef spec14 w)) :=
  (W30_arr m ρ c w).trans (((dat14 (V29 m ρ) c).arrAt_in w hw _).trans (A_eq14 (V29 m ρ) c w))
/-- Region 15 leaves an input array as it found it. -/
theorem W32_in (c : Dev nD) (w : Fin cfg15.W) (hw : (cfg15.win w).isOut = false) :
    W32 m ρ c (Proc.devRef .tc (Pipeline.arrRef spec15 w)) = W31 m ρ c (Proc.devRef .tc (Pipeline.arrRef spec15 w)) :=
  (W32_arr m ρ c w).trans (((dat15 (V31 m ρ) c).arrAt_in w hw _).trans (A_eq15 (V31 m ρ) c w))
/-- Region 16 leaves an input array as it found it. -/
theorem W34_in (c : Dev nD) (w : Fin cfg16.W) (hw : (cfg16.win w).isOut = false) :
    W34 m ρ c (Proc.devRef .tc (Pipeline.arrRef spec16 w)) = W33 m ρ c (Proc.devRef .tc (Pipeline.arrRef spec16 w)) :=
  (W34_arr m ρ c w).trans (((dat16 (V33 m ρ) c).arrAt_in w hw _).trans (A_eq16 (V33 m ρ) c w))
/-- Region 17 leaves an input array as it found it. -/
theorem W36_in (c : Dev nD) (w : Fin cfg17.W) (hw : (cfg17.win w).isOut = false) :
    W36 m ρ c (Proc.devRef .tc (Pipeline.arrRef spec17 w)) = W35 m ρ c (Proc.devRef .tc (Pipeline.arrRef spec17 w)) :=
  (W36_arr m ρ c w).trans (((dat17 (V35 m ρ) c).arrAt_in w hw _).trans (A_eq17 (V35 m ρ) c w))
/-- Region 18 leaves an input array as it found it. -/
theorem W38_in (c : Dev nD) (w : Fin cfg18.W) (hw : (cfg18.win w).isOut = false) :
    W38 m ρ c (Proc.devRef .tc (Pipeline.arrRef spec18 w)) = W37 m ρ c (Proc.devRef .tc (Pipeline.arrRef spec18 w)) :=
  (W38_arr m ρ c w).trans (((dat18 (V37 m ρ) c).arrAt_in w hw _).trans (A_eq18 (V37 m ρ) c w))
/-- Region 19 leaves an input array as it found it. -/
theorem W40_in (c : Dev nD) (w : Fin cfg19.W) (hw : (cfg19.win w).isOut = false) :
    W40 m ρ c (Proc.devRef .tc (Pipeline.arrRef spec19 w)) = W39 m ρ c (Proc.devRef .tc (Pipeline.arrRef spec19 w)) :=
  (W40_arr m ρ c w).trans (((dat19 (V39 m ρ) c).arrAt_in w hw _).trans (A_eq19 (V39 m ρ) c w))

end Cert.KernelIdeal.KRun

end
-- ==== Proof.KWalkArgs0.lean ====
/- Argument array 0 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) := (host0_keeps _ main_arg0 (by decide +kernel)).trans (W0_arg0 m ρ c)
theorem W2_arg0 (c : Dev nD) : W2 m ρ c (Proc.devRef .tc main_arg0) = m ((c : Thread nD τ).loc main_arg0) := (W2_in m ρ c 0 rfl).trans (W1_arg0 m ρ c)
theorem W3_arg0 (c : Dev nD) : W3 m ρ c (Proc.devRef .tc main_arg0) = m ((c : Thread nD τ).loc main_arg0) := (host1_keeps _ main_arg0 (by decide +kernel)).trans (W2_arg0 m ρ c)
theorem W4_arg0 (c : Dev nD) : W4 m ρ c (Proc.devRef .tc main_arg0) = m ((c : Thread nD τ).loc main_arg0) := (W4_of_ne m ρ c main_arg0 (by decide +kernel)).trans (W3_arg0 m ρ c)
theorem W5_arg0 (c : Dev nD) : W5 m ρ c (Proc.devRef .tc main_arg0) = m ((c : Thread nD τ).loc main_arg0) := (host2_keeps _ main_arg0 (by decide +kernel)).trans (W4_arg0 m ρ c)
theorem W6_arg0 (c : Dev nD) : W6 m ρ c (Proc.devRef .tc main_arg0) = m ((c : Thread nD τ).loc main_arg0) := (W6_of_ne m ρ c main_arg0 (by decide +kernel)).trans (W5_arg0 m ρ c)
theorem W7_arg0 (c : Dev nD) : W7 m ρ c (Proc.devRef .tc main_arg0) = m ((c : Thread nD τ).loc main_arg0) := (host3_keeps _ main_arg0 (by decide +kernel)).trans (W6_arg0 m ρ c)
theorem W8_arg0 (c : Dev nD) : W8 m ρ c (Proc.devRef .tc main_arg0) = m ((c : Thread nD τ).loc main_arg0) := (W8_of_ne m ρ c main_arg0 (by decide +kernel)).trans (W7_arg0 m ρ c)
theorem W9_arg0 (c : Dev nD) : W9 m ρ c (Proc.devRef .tc main_arg0) = m ((c : Thread nD τ).loc main_arg0) := (host4_keeps _ main_arg0 (by decide +kernel)).trans (W8_arg0 m ρ c)
theorem W10_arg0 (c : Dev nD) : W10 m ρ c (Proc.devRef .tc main_arg0) = m ((c : Thread nD τ).loc main_arg0) := (W10_of_ne m ρ c main_arg0 (by decide +kernel)).trans (W9_arg0 m ρ c)
theorem W11_arg0 (c : Dev nD) : W11 m ρ c (Proc.devRef .tc main_arg0) = m ((c : Thread nD τ).loc main_arg0) := (host5_keeps _ main_arg0 (by decide +kernel)).trans (W10_arg0 m ρ c)
theorem W12_arg0 (c : Dev nD) : W12 m ρ c (Proc.devRef .tc main_arg0) = m ((c : Thread nD τ).loc main_arg0) := (W12_of_ne m ρ c main_arg0 (by decide +kernel)).trans (W11_arg0 m ρ c)
theorem W13_arg0 (c : Dev nD) : W13 m ρ c (Proc.devRef .tc main_arg0) = m ((c : Thread nD τ).loc main_arg0) := (host6_keeps _ main_arg0 (by decide +kernel)).trans (W12_arg0 m ρ c)
theorem W14_arg0 (c : Dev nD) : W14 m ρ c (Proc.devRef .tc main_arg0) = m ((c : Thread nD τ).loc main_arg0) := (W14_of_ne m ρ c main_arg0 (by decide +kernel)).trans (W13_arg0 m ρ c)
theorem W15_arg0 (c : Dev nD) : W15 m ρ c (Proc.devRef .tc main_arg0) = m ((c : Thread nD τ).loc main_arg0) := (host7_keeps _ main_arg0 (by decide +kernel)).trans (W14_arg0 m ρ c)
theorem W16_arg0 (c : Dev nD) : W16 m ρ c (Proc.devRef .tc main_arg0) = m ((c : Thread nD τ).loc main_arg0) := (W16_of_ne m ρ c main_arg0 (by decide +kernel)).trans (W15_arg0 m ρ c)
theorem W17_arg0 (c : Dev nD) : W17 m ρ c (Proc.devRef .tc main_arg0) = m ((c : Thread nD τ).loc main_arg0) := (host8_keeps _ main_arg0 (by decide +kernel)).trans (W16_arg0 m ρ c)

end Cert.KernelIdeal.KRun

end
-- ==== Proof.KWalkArgs1.lean ====
/- Argument array 1 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) := (host0_keeps _ main_arg1 (by decide +kernel)).trans (W0_arg1 m ρ c)
theorem W2_arg1 (c : Dev nD) : W2 m ρ c (Proc.devRef .tc main_arg1) = m ((c : Thread nD τ).loc main_arg1) := (W2_of_ne m ρ c main_arg1 (by decide +kernel)).trans (W1_arg1 m ρ c)
theorem W3_arg1 (c : Dev nD) : W3 m ρ c (Proc.devRef .tc main_arg1) = m ((c : Thread nD τ).loc main_arg1) := (host1_keeps _ main_arg1 (by decide +kernel)).trans (W2_arg1 m ρ c)
theorem W4_arg1 (c : Dev nD) : W4 m ρ c (Proc.devRef .tc main_arg1) = m ((c : Thread nD τ).loc main_arg1) := (W4_of_ne m ρ c main_arg1 (by decide +kernel)).trans (W3_arg1 m ρ c)
theorem W5_arg1 (c : Dev nD) : W5 m ρ c (Proc.devRef .tc main_arg1) = m ((c : Thread nD τ).loc main_arg1) := (host2_keeps _ main_arg1 (by decide +kernel)).trans (W4_arg1 m ρ c)
theorem W6_arg1 (c : Dev nD) : W6 m ρ c (Proc.devRef .tc main_arg1) = m ((c : Thread nD τ).loc main_arg1) := (W6_in m ρ c 0 rfl).trans (W5_arg1 m ρ c)
theorem W7_arg1 (c : Dev nD) : W7 m ρ c (Proc.devRef .tc main_arg1) = m ((c : Thread nD τ).loc main_arg1) := (host3_keeps _ main_arg1 (by decide +kernel)).trans (W6_arg1 m ρ c)
theorem W8_arg1 (c : Dev nD) : W8 m ρ c (Proc.devRef .tc main_arg1) = m ((c : Thread nD τ).loc main_arg1) := (W8_of_ne m ρ c main_arg1 (by decide +kernel)).trans (W7_arg1 m ρ c)
theorem W9_arg1 (c : Dev nD) : W9 m ρ c (Proc.devRef .tc main_arg1) = m ((c : Thread nD τ).loc main_arg1) := (host4_keeps _ main_arg1 (by decide +kernel)).trans (W8_arg1 m ρ c)
theorem W10_arg1 (c : Dev nD) : W10 m ρ c (Proc.devRef .tc main_arg1) = m ((c : Thread nD τ).loc main_arg1) := (W10_of_ne m ρ c main_arg1 (by decide +kernel)).trans (W9_arg1 m ρ c)
theorem W11_arg1 (c : Dev nD) : W11 m ρ c (Proc.devRef .tc main_arg1) = m ((c : Thread nD τ).loc main_arg1) := (host5_keeps _ main_arg1 (by decide +kernel)).trans (W10_arg1 m ρ c)
theorem W12_arg1 (c : Dev nD) : W12 m ρ c (Proc.devRef .tc main_arg1) = m ((c : Thread nD τ).loc main_arg1) := (W12_of_ne m ρ c main_arg1 (by decide +kernel)).trans (W11_arg1 m ρ c)
theorem W13_arg1 (c : Dev nD) : W13 m ρ c (Proc.devRef .tc main_arg1) = m ((c : Thread nD τ).loc main_arg1) := (host6_keeps _ main_arg1 (by decide +kernel)).trans (W12_arg1 m ρ c)
theorem W14_arg1 (c : Dev nD) : W14 m ρ c (Proc.devRef .tc main_arg1) = m ((c : Thread nD τ).loc main_arg1) := (W14_of_ne m ρ c main_arg1 (by decide +kernel)).trans (W13_arg1 m ρ c)
theorem W15_arg1 (c : Dev nD) : W15 m ρ c (Proc.devRef .tc main_arg1) = m ((c : Thread nD τ).loc main_arg1) := (host7_keeps _ main_arg1 (by decide +kernel)).trans (W14_arg1 m ρ c)
theorem W16_arg1 (c : Dev nD) : W16 m ρ c (Proc.devRef .tc main_arg1) = m ((c : Thread nD τ).loc main_arg1) := (W16_of_ne m ρ c main_arg1 (by decide +kernel)).trans (W15_arg1 m ρ c)
theorem W17_arg1 (c : Dev nD) : W17 m ρ c (Proc.devRef .tc main_arg1) = m ((c : Thread nD τ).loc main_arg1) := (host8_keeps _ main_arg1 (by decide +kernel)).trans (W16_arg1 m ρ c)
theorem W18_arg1 (c : Dev nD) : W18 m ρ c (Proc.devRef .tc main_arg1) = m ((c : Thread nD τ).loc main_arg1) := (W18_of_ne m ρ c main_arg1 (by decide +kernel)).trans (W17_arg1 m ρ c)
theorem W19_arg1 (c : Dev nD) : W19 m ρ c (Proc.devRef .tc main_arg1) = m ((c : Thread nD τ).loc main_arg1) := (host9_keeps _ main_arg1 (by decide +kernel)).trans (W18_arg1 m ρ c)

end Cert.KernelIdeal.KRun

end
-- ==== Proof.KWalkArgs2.lean ====
/- Argument array 2 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) := (host0_keeps _ main_arg2 (by decide +kernel)).trans (W0_arg2 m ρ c)
theorem W2_arg2 (c : Dev nD) : W2 m ρ c (Proc.devRef .tc main_arg2) = m ((c : Thread nD τ).loc main_arg2) := (W2_of_ne m ρ c main_arg2 (by decide +kernel)).trans (W1_arg2 m ρ c)
theorem W3_arg2 (c : Dev nD) : W3 m ρ c (Proc.devRef .tc main_arg2) = m ((c : Thread nD τ).loc main_arg2) := (host1_keeps _ main_arg2 (by decide +kernel)).trans (W2_arg2 m ρ c)
theorem W4_arg2 (c : Dev nD) : W4 m ρ c (Proc.devRef .tc main_arg2) = m ((c : Thread nD τ).loc main_arg2) := (W4_of_ne m ρ c main_arg2 (by decide +kernel)).trans (W3_arg2 m ρ c)
theorem W5_arg2 (c : Dev nD) : W5 m ρ c (Proc.devRef .tc main_arg2) = m ((c : Thread nD τ).loc main_arg2) := (host2_keeps _ main_arg2 (by decide +kernel)).trans (W4_arg2 m ρ c)
theorem W6_arg2 (c : Dev nD) : W6 m ρ c (Proc.devRef .tc main_arg2) = m ((c : Thread nD τ).loc main_arg2) := (W6_of_ne m ρ c main_arg2 (by decide +kernel)).trans (W5_arg2 m ρ c)
theorem W7_arg2 (c : Dev nD) : W7 m ρ c (Proc.devRef .tc main_arg2) = m ((c : Thread nD τ).loc main_arg2) := (host3_keeps _ main_arg2 (by decide +kernel)).trans (W6_arg2 m ρ c)
theorem W8_arg2 (c : Dev nD) : W8 m ρ c (Proc.devRef .tc main_arg2) = m ((c : Thread nD τ).loc main_arg2) := (W8_of_ne m ρ c main_arg2 (by decide +kernel)).trans (W7_arg2 m ρ c)
theorem W9_arg2 (c : Dev nD) : W9 m ρ c (Proc.devRef .tc main_arg2) = m ((c : Thread nD τ).loc main_arg2) := (host4_keeps _ main_arg2 (by decide +kernel)).trans (W8_arg2 m ρ c)
theorem W10_arg2 (c : Dev nD) : W10 m ρ c (Proc.devRef .tc main_arg2) = m ((c : Thread nD τ).loc main_arg2) := (W10_of_ne m ρ c main_arg2 (by decide +kernel)).trans (W9_arg2 m ρ c)
theorem W11_arg2 (c : Dev nD) : W11 m ρ c (Proc.devRef .tc main_arg2) = m ((c : Thread nD τ).loc main_arg2) := (host5_keeps _ main_arg2 (by decide +kernel)).trans (W10_arg2 m ρ c)
theorem W12_arg2 (c : Dev nD) : W12 m ρ c (Proc.devRef .tc main_arg2) = m ((c : Thread nD τ).loc main_arg2) := (W12_of_ne m ρ c main_arg2 (by decide +kernel)).trans (W11_arg2 m ρ c)
theorem W13_arg2 (c : Dev nD) : W13 m ρ c (Proc.devRef .tc main_arg2) = m ((c : Thread nD τ).loc main_arg2) := (host6_keeps _ main_arg2 (by decide +kernel)).trans (W12_arg2 m ρ c)
theorem W14_arg2 (c : Dev nD) : W14 m ρ c (Proc.devRef .tc main_arg2) = m ((c : Thread nD τ).loc main_arg2) := (W14_of_ne m ρ c main_arg2 (by decide +kernel)).trans (W13_arg2 m ρ c)
theorem W15_arg2 (c : Dev nD) : W15 m ρ c (Proc.devRef .tc main_arg2) = m ((c : Thread nD τ).loc main_arg2) := (host7_keeps _ main_arg2 (by decide +kernel)).trans (W14_arg2 m ρ c)
theorem W16_arg2 (c : Dev nD) : W16 m ρ c (Proc.devRef .tc main_arg2) = m ((c : Thread nD τ).loc main_arg2) := (W16_of_ne m ρ c main_arg2 (by decide +kernel)).trans (W15_arg2 m ρ c)
theorem W17_arg2 (c : Dev nD) : W17 m ρ c (Proc.devRef .tc main_arg2) = m ((c : Thread nD τ).loc main_arg2) := (host8_keeps _ main_arg2 (by decide +kernel)).trans (W16_arg2 m ρ c)
theorem W18_arg2 (c : Dev nD) : W18 m ρ c (Proc.devRef .tc main_arg2) = m ((c : Thread nD τ).loc main_arg2) := (W18_of_ne m ρ c main_arg2 (by decide +kernel)).trans (W17_arg2 m ρ c)
theorem W19_arg2 (c : Dev nD) : W19 m ρ c (Proc.devRef .tc main_arg2) = m ((c : Thread nD τ).loc main_arg2) := (host9_keeps _ main_arg2 (by decide +kernel)).trans (W18_arg2 m ρ c)
theorem W20_arg2 (c : Dev nD) : W20 m ρ c (Proc.devRef .tc main_arg2) = m ((c : Thread nD τ).loc main_arg2) := (W20_of_ne m ρ c main_arg2 (by decide +kernel)).trans (W19_arg2 m ρ c)
theorem W21_arg2 (c : Dev nD) : W21 m ρ c (Proc.devRef .tc main_arg2) = m ((c : Thread nD τ).loc main_arg2) := (host10_keeps _ main_arg2 (by decide +kernel)).trans (W20_arg2 m ρ c)
theorem W22_arg2 (c : Dev nD) : W22 m ρ c (Proc.devRef .tc main_arg2) = m ((c : Thread nD τ).loc main_arg2) := (W22_of_ne m ρ c main_arg2 (by decide +kernel)).trans (W21_arg2 m ρ c)
theorem W23_arg2 (c : Dev nD) : W23 m ρ c (Proc.devRef .tc main_arg2) = m ((c : Thread nD τ).loc main_arg2) := (host11_keeps _ main_arg2 (by decide +kernel)).trans (W22_arg2 m ρ c)
theorem W24_arg2 (c : Dev nD) : W24 m ρ c (Proc.devRef .tc main_arg2) = m ((c : Thread nD τ).loc main_arg2) := (W24_of_ne m ρ c main_arg2 (by decide +kernel)).trans (W23_arg2 m ρ c)
theorem W25_arg2 (c : Dev nD) : W25 m ρ c (Proc.devRef .tc main_arg2) = m ((c : Thread nD τ).loc main_arg2) := (host12_keeps _ main_arg2 (by decide +kernel)).trans (W24_arg2 m ρ c)
theorem W26_arg2 (c : Dev nD) : W26 m ρ c (Proc.devRef .tc main_arg2) = m ((c : Thread nD τ).loc main_arg2) := (W26_of_ne m ρ c main_arg2 (by decide +kernel)).trans (W25_arg2 m ρ c)
theorem W27_arg2 (c : Dev nD) : W27 m ρ c (Proc.devRef .tc main_arg2) = m ((c : Thread nD τ).loc main_arg2) := (host13_keeps _ main_arg2 (by decide +kernel)).trans (W26_arg2 m ρ c)
theorem W28_arg2 (c : Dev nD) : W28 m ρ c (Proc.devRef .tc main_arg2) = m ((c : Thread nD τ).loc main_arg2) := (W28_of_ne m ρ c main_arg2 (by decide +kernel)).trans (W27_arg2 m ρ c)
theorem W29_arg2 (c : Dev nD) : W29 m ρ c (Proc.devRef .tc main_arg2) = m ((c : Thread nD τ).loc main_arg2) := (host14_keeps _ main_arg2 (by decide +kernel)).trans (W28_arg2 m ρ c)
theorem W30_arg2 (c : Dev nD) : W30 m ρ c (Proc.devRef .tc main_arg2) = m ((c : Thread nD τ).loc main_arg2) := (W30_of_ne m ρ c main_arg2 (by decide +kernel)).trans (W29_arg2 m ρ c)
theorem W31_arg2 (c : Dev nD) : W31 m ρ c (Proc.devRef .tc main_arg2) = m ((c : Thread nD τ).loc main_arg2) := (host15_keeps _ main_arg2 (by decide +kernel)).trans (W30_arg2 m ρ c)
theorem W32_arg2 (c : Dev nD) : W32 m ρ c (Proc.devRef .tc main_arg2) = m ((c : Thread nD τ).loc main_arg2) := (W32_of_ne m ρ c main_arg2 (by decide +kernel)).trans (W31_arg2 m ρ c)
theorem W33_arg2 (c : Dev nD) : W33 m ρ c (Proc.devRef .tc main_arg2) = m ((c : Thread nD τ).loc main_arg2) := (host16_keeps _ main_arg2 (by decide +kernel)).trans (W32_arg2 m ρ c)
theorem W34_arg2 (c : Dev nD) : W34 m ρ c (Proc.devRef .tc main_arg2) = m ((c : Thread nD τ).loc main_arg2) := (W34_of_ne m ρ c main_arg2 (by decide +kernel)).trans (W33_arg2 m ρ c)

end Cert.KernelIdeal.KRun

end
-- ==== Proof.KWalkArgs3.lean ====
/- Argument array 3 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) := (host0_keeps _ main_arg3 (by decide +kernel)).trans (W0_arg3 m ρ c)
theorem W2_arg3 (c : Dev nD) : W2 m ρ c (Proc.devRef .tc main_arg3) = m ((c : Thread nD τ).loc main_arg3) := (W2_of_ne m ρ c main_arg3 (by decide +kernel)).trans (W1_arg3 m ρ c)
theorem W3_arg3 (c : Dev nD) : W3 m ρ c (Proc.devRef .tc main_arg3) = m ((c : Thread nD τ).loc main_arg3) := (host1_keeps _ main_arg3 (by decide +kernel)).trans (W2_arg3 m ρ c)
theorem W4_arg3 (c : Dev nD) : W4 m ρ c (Proc.devRef .tc main_arg3) = m ((c : Thread nD τ).loc main_arg3) := (W4_of_ne m ρ c main_arg3 (by decide +kernel)).trans (W3_arg3 m ρ c)
theorem W5_arg3 (c : Dev nD) : W5 m ρ c (Proc.devRef .tc main_arg3) = m ((c : Thread nD τ).loc main_arg3) := (host2_keeps _ main_arg3 (by decide +kernel)).trans (W4_arg3 m ρ c)
theorem W6_arg3 (c : Dev nD) : W6 m ρ c (Proc.devRef .tc main_arg3) = m ((c : Thread nD τ).loc main_arg3) := (W6_of_ne m ρ c main_arg3 (by decide +kernel)).trans (W5_arg3 m ρ c)
theorem W7_arg3 (c : Dev nD) : W7 m ρ c (Proc.devRef .tc main_arg3) = m ((c : Thread nD τ).loc main_arg3) := (host3_keeps _ main_arg3 (by decide +kernel)).trans (W6_arg3 m ρ c)
theorem W8_arg3 (c : Dev nD) : W8 m ρ c (Proc.devRef .tc main_arg3) = m ((c : Thread nD τ).loc main_arg3) := (W8_of_ne m ρ c main_arg3 (by decide +kernel)).trans (W7_arg3 m ρ c)
theorem W9_arg3 (c : Dev nD) : W9 m ρ c (Proc.devRef .tc main_arg3) = m ((c : Thread nD τ).loc main_arg3) := (host4_keeps _ main_arg3 (by decide +kernel)).trans (W8_arg3 m ρ c)
theorem W10_arg3 (c : Dev nD) : W10 m ρ c (Proc.devRef .tc main_arg3) = m ((c : Thread nD τ).loc main_arg3) := (W10_of_ne m ρ c main_arg3 (by decide +kernel)).trans (W9_arg3 m ρ c)
theorem W11_arg3 (c : Dev nD) : W11 m ρ c (Proc.devRef .tc main_arg3) = m ((c : Thread nD τ).loc main_arg3) := (host5_keeps _ main_arg3 (by decide +kernel)).trans (W10_arg3 m ρ c)
theorem W12_arg3 (c : Dev nD) : W12 m ρ c (Proc.devRef .tc main_arg3) = m ((c : Thread nD τ).loc main_arg3) := (W12_of_ne m ρ c main_arg3 (by decide +kernel)).trans (W11_arg3 m ρ c)
theorem W13_arg3 (c : Dev nD) : W13 m ρ c (Proc.devRef .tc main_arg3) = m ((c : Thread nD τ).loc main_arg3) := (host6_keeps _ main_arg3 (by decide +kernel)).trans (W12_arg3 m ρ c)
theorem W14_arg3 (c : Dev nD) : W14 m ρ c (Proc.devRef .tc main_arg3) = m ((c : Thread nD τ).loc main_arg3) := (W14_of_ne m ρ c main_arg3 (by decide +kernel)).trans (W13_arg3 m ρ c)
theorem W15_arg3 (c : Dev nD) : W15 m ρ c (Proc.devRef .tc main_arg3) = m ((c : Thread nD τ).loc main_arg3) := (host7_keeps _ main_arg3 (by decide +kernel)).trans (W14_arg3 m ρ c)
theorem W16_arg3 (c : Dev nD) : W16 m ρ c (Proc.devRef .tc main_arg3) = m ((c : Thread nD τ).loc main_arg3) := (W16_of_ne m ρ c main_arg3 (by decide +kernel)).trans (W15_arg3 m ρ c)
theorem W17_arg3 (c : Dev nD) : W17 m ρ c (Proc.devRef .tc main_arg3) = m ((c : Thread nD τ).loc main_arg3) := (host8_keeps _ main_arg3 (by decide +kernel)).trans (W16_arg3 m ρ c)
theorem W18_arg3 (c : Dev nD) : W18 m ρ c (Proc.devRef .tc main_arg3) = m ((c : Thread nD τ).loc main_arg3) := (W18_of_ne m ρ c main_arg3 (by decide +kernel)).trans (W17_arg3 m ρ c)
theorem W19_arg3 (c : Dev nD) : W19 m ρ c (Proc.devRef .tc main_arg3) = m ((c : Thread nD τ).loc main_arg3) := (host9_keeps _ main_arg3 (by decide +kernel)).trans (W18_arg3 m ρ c)
theorem W20_arg3 (c : Dev nD) : W20 m ρ c (Proc.devRef .tc main_arg3) = m ((c : Thread nD τ).loc main_arg3) := (W20_of_ne m ρ c main_arg3 (by decide +kernel)).trans (W19_arg3 m ρ c)
theorem W21_arg3 (c : Dev nD) : W21 m ρ c (Proc.devRef .tc main_arg3) = m ((c : Thread nD τ).loc main_arg3) := (host10_keeps _ main_arg3 (by decide +kernel)).trans (W20_arg3 m ρ c)
theorem W22_arg3 (c : Dev nD) : W22 m ρ c (Proc.devRef .tc main_arg3) = m ((c : Thread nD τ).loc main_arg3) := (W22_of_ne m ρ c main_arg3 (by decide +kernel)).trans (W21_arg3 m ρ c)
theorem W23_arg3 (c : Dev nD) : W23 m ρ c (Proc.devRef .tc main_arg3) = m ((c : Thread nD τ).loc main_arg3) := (host11_keeps _ main_arg3 (by decide +kernel)).trans (W22_arg3 m ρ c)
theorem W24_arg3 (c : Dev nD) : W24 m ρ c (Proc.devRef .tc main_arg3) = m ((c : Thread nD τ).loc main_arg3) := (W24_of_ne m ρ c main_arg3 (by decide +kernel)).trans (W23_arg3 m ρ c)
theorem W25_arg3 (c : Dev nD) : W25 m ρ c (Proc.devRef .tc main_arg3) = m ((c : Thread nD τ).loc main_arg3) := (host12_keeps _ main_arg3 (by decide +kernel)).trans (W24_arg3 m ρ c)
theorem W26_arg3 (c : Dev nD) : W26 m ρ c (Proc.devRef .tc main_arg3) = m ((c : Thread nD τ).loc main_arg3) := (W26_of_ne m ρ c main_arg3 (by decide +kernel)).trans (W25_arg3 m ρ c)
theorem W27_arg3 (c : Dev nD) : W27 m ρ c (Proc.devRef .tc main_arg3) = m ((c : Thread nD τ).loc main_arg3) := (host13_keeps _ main_arg3 (by decide +kernel)).trans (W26_arg3 m ρ c)
theorem W28_arg3 (c : Dev nD) : W28 m ρ c (Proc.devRef .tc main_arg3) = m ((c : Thread nD τ).loc main_arg3) := (W28_of_ne m ρ c main_arg3 (by decide +kernel)).trans (W27_arg3 m ρ c)
theorem W29_arg3 (c : Dev nD) : W29 m ρ c (Proc.devRef .tc main_arg3) = m ((c : Thread nD τ).loc main_arg3) := (host14_keeps _ main_arg3 (by decide +kernel)).trans (W28_arg3 m ρ c)
theorem W30_arg3 (c : Dev nD) : W30 m ρ c (Proc.devRef .tc main_arg3) = m ((c : Thread nD τ).loc main_arg3) := (W30_of_ne m ρ c main_arg3 (by decide +kernel)).trans (W29_arg3 m ρ c)
theorem W31_arg3 (c : Dev nD) : W31 m ρ c (Proc.devRef .tc main_arg3) = m ((c : Thread nD τ).loc main_arg3) := (host15_keeps _ main_arg3 (by decide +kernel)).trans (W30_arg3 m ρ c)
theorem W32_arg3 (c : Dev nD) : W32 m ρ c (Proc.devRef .tc main_arg3) = m ((c : Thread nD τ).loc main_arg3) := (W32_of_ne m ρ c main_arg3 (by decide +kernel)).trans (W31_arg3 m ρ c)
theorem W33_arg3 (c : Dev nD) : W33 m ρ c (Proc.devRef .tc main_arg3) = m ((c : Thread nD τ).loc main_arg3) := (host16_keeps _ main_arg3 (by decide +kernel)).trans (W32_arg3 m ρ c)
theorem W34_arg3 (c : Dev nD) : W34 m ρ c (Proc.devRef .tc main_arg3) = m ((c : Thread nD τ).loc main_arg3) := (W34_of_ne m ρ c main_arg3 (by decide +kernel)).trans (W33_arg3 m ρ c)

end Cert.KernelIdeal.KRun

end
-- ==== Proof.KWalkArgs4.lean ====
/- Argument array 4 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) := (host0_keeps _ main_arg4 (by decide +kernel)).trans (W0_arg4 m ρ c)
theorem W2_arg4 (c : Dev nD) : W2 m ρ c (Proc.devRef .tc main_arg4) = m ((c : Thread nD τ).loc main_arg4) := (W2_of_ne m ρ c main_arg4 (by decide +kernel)).trans (W1_arg4 m ρ c)
theorem W3_arg4 (c : Dev nD) : W3 m ρ c (Proc.devRef .tc main_arg4) = m ((c : Thread nD τ).loc main_arg4) := (host1_keeps _ main_arg4 (by decide +kernel)).trans (W2_arg4 m ρ c)
theorem W4_arg4 (c : Dev nD) : W4 m ρ c (Proc.devRef .tc main_arg4) = m ((c : Thread nD τ).loc main_arg4) := (W4_of_ne m ρ c main_arg4 (by decide +kernel)).trans (W3_arg4 m ρ c)
theorem W5_arg4 (c : Dev nD) : W5 m ρ c (Proc.devRef .tc main_arg4) = m ((c : Thread nD τ).loc main_arg4) := (host2_keeps _ main_arg4 (by decide +kernel)).trans (W4_arg4 m ρ c)
theorem W6_arg4 (c : Dev nD) : W6 m ρ c (Proc.devRef .tc main_arg4) = m ((c : Thread nD τ).loc main_arg4) := (W6_of_ne m ρ c main_arg4 (by decide +kernel)).trans (W5_arg4 m ρ c)
theorem W7_arg4 (c : Dev nD) : W7 m ρ c (Proc.devRef .tc main_arg4) = m ((c : Thread nD τ).loc main_arg4) := (host3_keeps _ main_arg4 (by decide +kernel)).trans (W6_arg4 m ρ c)
theorem W8_arg4 (c : Dev nD) : W8 m ρ c (Proc.devRef .tc main_arg4) = m ((c : Thread nD τ).loc main_arg4) := (W8_of_ne m ρ c main_arg4 (by decide +kernel)).trans (W7_arg4 m ρ c)
theorem W9_arg4 (c : Dev nD) : W9 m ρ c (Proc.devRef .tc main_arg4) = m ((c : Thread nD τ).loc main_arg4) := (host4_keeps _ main_arg4 (by decide +kernel)).trans (W8_arg4 m ρ c)
theorem W10_arg4 (c : Dev nD) : W10 m ρ c (Proc.devRef .tc main_arg4) = m ((c : Thread nD τ).loc main_arg4) := (W10_of_ne m ρ c main_arg4 (by decide +kernel)).trans (W9_arg4 m ρ c)
theorem W11_arg4 (c : Dev nD) : W11 m ρ c (Proc.devRef .tc main_arg4) = m ((c : Thread nD τ).loc main_arg4) := (host5_keeps _ main_arg4 (by decide +kernel)).trans (W10_arg4 m ρ c)
theorem W12_arg4 (c : Dev nD) : W12 m ρ c (Proc.devRef .tc main_arg4) = m ((c : Thread nD τ).loc main_arg4) := (W12_of_ne m ρ c main_arg4 (by decide +kernel)).trans (W11_arg4 m ρ c)
theorem W13_arg4 (c : Dev nD) : W13 m ρ c (Proc.devRef .tc main_arg4) = m ((c : Thread nD τ).loc main_arg4) := (host6_keeps _ main_arg4 (by decide +kernel)).trans (W12_arg4 m ρ c)
theorem W14_arg4 (c : Dev nD) : W14 m ρ c (Proc.devRef .tc main_arg4) = m ((c : Thread nD τ).loc main_arg4) := (W14_of_ne m ρ c main_arg4 (by decide +kernel)).trans (W13_arg4 m ρ c)
theorem W15_arg4 (c : Dev nD) : W15 m ρ c (Proc.devRef .tc main_arg4) = m ((c : Thread nD τ).loc main_arg4) := (host7_keeps _ main_arg4 (by decide +kernel)).trans (W14_arg4 m ρ c)
theorem W16_arg4 (c : Dev nD) : W16 m ρ c (Proc.devRef .tc main_arg4) = m ((c : Thread nD τ).loc main_arg4) := (W16_of_ne m ρ c main_arg4 (by decide +kernel)).trans (W15_arg4 m ρ c)
theorem W17_arg4 (c : Dev nD) : W17 m ρ c (Proc.devRef .tc main_arg4) = m ((c : Thread nD τ).loc main_arg4) := (host8_keeps _ main_arg4 (by decide +kernel)).trans (W16_arg4 m ρ c)
theorem W18_arg4 (c : Dev nD) : W18 m ρ c (Proc.devRef .tc main_arg4) = m ((c : Thread nD τ).loc main_arg4) := (W18_of_ne m ρ c main_arg4 (by decide +kernel)).trans (W17_arg4 m ρ c)
theorem W19_arg4 (c : Dev nD) : W19 m ρ c (Proc.devRef .tc main_arg4) = m ((c : Thread nD τ).loc main_arg4) := (host9_keeps _ main_arg4 (by decide +kernel)).trans (W18_arg4 m ρ c)
theorem W20_arg4 (c : Dev nD) : W20 m ρ c (Proc.devRef .tc main_arg4) = m ((c : Thread nD τ).loc main_arg4) := (W20_of_ne m ρ c main_arg4 (by decide +kernel)).trans (W19_arg4 m ρ c)
theorem W21_arg4 (c : Dev nD) : W21 m ρ c (Proc.devRef .tc main_arg4) = m ((c : Thread nD τ).loc main_arg4) := (host10_keeps _ main_arg4 (by decide +kernel)).trans (W20_arg4 m ρ c)
theorem W22_arg4 (c : Dev nD) : W22 m ρ c (Proc.devRef .tc main_arg4) = m ((c : Thread nD τ).loc main_arg4) := (W22_of_ne m ρ c main_arg4 (by decide +kernel)).trans (W21_arg4 m ρ c)
theorem W23_arg4 (c : Dev nD) : W23 m ρ c (Proc.devRef .tc main_arg4) = m ((c : Thread nD τ).loc main_arg4) := (host11_keeps _ main_arg4 (by decide +kernel)).trans (W22_arg4 m ρ c)
theorem W24_arg4 (c : Dev nD) : W24 m ρ c (Proc.devRef .tc main_arg4) = m ((c : Thread nD τ).loc main_arg4) := (W24_of_ne m ρ c main_arg4 (by decide +kernel)).trans (W23_arg4 m ρ c)
theorem W25_arg4 (c : Dev nD) : W25 m ρ c (Proc.devRef .tc main_arg4) = m ((c : Thread nD τ).loc main_arg4) := (host12_keeps _ main_arg4 (by decide +kernel)).trans (W24_arg4 m ρ c)
theorem W26_arg4 (c : Dev nD) : W26 m ρ c (Proc.devRef .tc main_arg4) = m ((c : Thread nD τ).loc main_arg4) := (W26_of_ne m ρ c main_arg4 (by decide +kernel)).trans (W25_arg4 m ρ c)
theorem W27_arg4 (c : Dev nD) : W27 m ρ c (Proc.devRef .tc main_arg4) = m ((c : Thread nD τ).loc main_arg4) := (host13_keeps _ main_arg4 (by decide +kernel)).trans (W26_arg4 m ρ c)
theorem W28_arg4 (c : Dev nD) : W28 m ρ c (Proc.devRef .tc main_arg4) = m ((c : Thread nD τ).loc main_arg4) := (W28_of_ne m ρ c main_arg4 (by decide +kernel)).trans (W27_arg4 m ρ c)
theorem W29_arg4 (c : Dev nD) : W29 m ρ c (Proc.devRef .tc main_arg4) = m ((c : Thread nD τ).loc main_arg4) := (host14_keeps _ main_arg4 (by decide +kernel)).trans (W28_arg4 m ρ c)
theorem W30_arg4 (c : Dev nD) : W30 m ρ c (Proc.devRef .tc main_arg4) = m ((c : Thread nD τ).loc main_arg4) := (W30_of_ne m ρ c main_arg4 (by decide +kernel)).trans (W29_arg4 m ρ c)
theorem W31_arg4 (c : Dev nD) : W31 m ρ c (Proc.devRef .tc main_arg4) = m ((c : Thread nD τ).loc main_arg4) := (host15_keeps _ main_arg4 (by decide +kernel)).trans (W30_arg4 m ρ c)
theorem W32_arg4 (c : Dev nD) : W32 m ρ c (Proc.devRef .tc main_arg4) = m ((c : Thread nD τ).loc main_arg4) := (W32_of_ne m ρ c main_arg4 (by decide +kernel)).trans (W31_arg4 m ρ c)
theorem W33_arg4 (c : Dev nD) : W33 m ρ c (Proc.devRef .tc main_arg4) = m ((c : Thread nD τ).loc main_arg4) := (host16_keeps _ main_arg4 (by decide +kernel)).trans (W32_arg4 m ρ c)
theorem W34_arg4 (c : Dev nD) : W34 m ρ c (Proc.devRef .tc main_arg4) = m ((c : Thread nD τ).loc main_arg4) := (W34_of_ne m ρ c main_arg4 (by decide +kernel)).trans (W33_arg4 m ρ c)

end Cert.KernelIdeal.KRun

end
-- ==== Proof.KWalkArgs5.lean ====
/- Argument array 5 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) := (host0_keeps _ main_arg5 (by decide +kernel)).trans (W0_arg5 m ρ c)
theorem W2_arg5 (c : Dev nD) : W2 m ρ c (Proc.devRef .tc main_arg5) = m ((c : Thread nD τ).loc main_arg5) := (W2_of_ne m ρ c main_arg5 (by decide +kernel)).trans (W1_arg5 m ρ c)
theorem W3_arg5 (c : Dev nD) : W3 m ρ c (Proc.devRef .tc main_arg5) = m ((c : Thread nD τ).loc main_arg5) := (host1_keeps _ main_arg5 (by decide +kernel)).trans (W2_arg5 m ρ c)
theorem W4_arg5 (c : Dev nD) : W4 m ρ c (Proc.devRef .tc main_arg5) = m ((c : Thread nD τ).loc main_arg5) := (W4_of_ne m ρ c main_arg5 (by decide +kernel)).trans (W3_arg5 m ρ c)
theorem W5_arg5 (c : Dev nD) : W5 m ρ c (Proc.devRef .tc main_arg5) = m ((c : Thread nD τ).loc main_arg5) := (host2_keeps _ main_arg5 (by decide +kernel)).trans (W4_arg5 m ρ c)
theorem W6_arg5 (c : Dev nD) : W6 m ρ c (Proc.devRef .tc main_arg5) = m ((c : Thread nD τ).loc main_arg5) := (W6_of_ne m ρ c main_arg5 (by decide +kernel)).trans (W5_arg5 m ρ c)
theorem W7_arg5 (c : Dev nD) : W7 m ρ c (Proc.devRef .tc main_arg5) = m ((c : Thread nD τ).loc main_arg5) := (host3_keeps _ main_arg5 (by decide +kernel)).trans (W6_arg5 m ρ c)
theorem W8_arg5 (c : Dev nD) : W8 m ρ c (Proc.devRef .tc main_arg5) = m ((c : Thread nD τ).loc main_arg5) := (W8_of_ne m ρ c main_arg5 (by decide +kernel)).trans (W7_arg5 m ρ c)
theorem W9_arg5 (c : Dev nD) : W9 m ρ c (Proc.devRef .tc main_arg5) = m ((c : Thread nD τ).loc main_arg5) := (host4_keeps _ main_arg5 (by decide +kernel)).trans (W8_arg5 m ρ c)
theorem W10_arg5 (c : Dev nD) : W10 m ρ c (Proc.devRef .tc main_arg5) = m ((c : Thread nD τ).loc main_arg5) := (W10_of_ne m ρ c main_arg5 (by decide +kernel)).trans (W9_arg5 m ρ c)
theorem W11_arg5 (c : Dev nD) : W11 m ρ c (Proc.devRef .tc main_arg5) = m ((c : Thread nD τ).loc main_arg5) := (host5_keeps _ main_arg5 (by decide +kernel)).trans (W10_arg5 m ρ c)
theorem W12_arg5 (c : Dev nD) : W12 m ρ c (Proc.devRef .tc main_arg5) = m ((c : Thread nD τ).loc main_arg5) := (W12_of_ne m ρ c main_arg5 (by decide +kernel)).trans (W11_arg5 m ρ c)
theorem W13_arg5 (c : Dev nD) : W13 m ρ c (Proc.devRef .tc main_arg5) = m ((c : Thread nD τ).loc main_arg5) := (host6_keeps _ main_arg5 (by decide +kernel)).trans (W12_arg5 m ρ c)
theorem W14_arg5 (c : Dev nD) : W14 m ρ c (Proc.devRef .tc main_arg5) = m ((c : Thread nD τ).loc main_arg5) := (W14_of_ne m ρ c main_arg5 (by decide +kernel)).trans (W13_arg5 m ρ c)
theorem W15_arg5 (c : Dev nD) : W15 m ρ c (Proc.devRef .tc main_arg5) = m ((c : Thread nD τ).loc main_arg5) := (host7_keeps _ main_arg5 (by decide +kernel)).trans (W14_arg5 m ρ c)
theorem W16_arg5 (c : Dev nD) : W16 m ρ c (Proc.devRef .tc main_arg5) = m ((c : Thread nD τ).loc main_arg5) := (W16_of_ne m ρ c main_arg5 (by decide +kernel)).trans (W15_arg5 m ρ c)
theorem W17_arg5 (c : Dev nD) : W17 m ρ c (Proc.devRef .tc main_arg5) = m ((c : Thread nD τ).loc main_arg5) := (host8_keeps _ main_arg5 (by decide +kernel)).trans (W16_arg5 m ρ c)
theorem W18_arg5 (c : Dev nD) : W18 m ρ c (Proc.devRef .tc main_arg5) = m ((c : Thread nD τ).loc main_arg5) := (W18_of_ne m ρ c main_arg5 (by decide +kernel)).trans (W17_arg5 m ρ c)
theorem W19_arg5 (c : Dev nD) : W19 m ρ c (Proc.devRef .tc main_arg5) = m ((c : Thread nD τ).loc main_arg5) := (host9_keeps _ main_arg5 (by decide +kernel)).trans (W18_arg5 m ρ c)
theorem W20_arg5 (c : Dev nD) : W20 m ρ c (Proc.devRef .tc main_arg5) = m ((c : Thread nD τ).loc main_arg5) := (W20_of_ne m ρ c main_arg5 (by decide +kernel)).trans (W19_arg5 m ρ c)
theorem W21_arg5 (c : Dev nD) : W21 m ρ c (Proc.devRef .tc main_arg5) = m ((c : Thread nD τ).loc main_arg5) := (host10_keeps _ main_arg5 (by decide +kernel)).trans (W20_arg5 m ρ c)
theorem W22_arg5 (c : Dev nD) : W22 m ρ c (Proc.devRef .tc main_arg5) = m ((c : Thread nD τ).loc main_arg5) := (W22_of_ne m ρ c main_arg5 (by decide +kernel)).trans (W21_arg5 m ρ c)
theorem W23_arg5 (c : Dev nD) : W23 m ρ c (Proc.devRef .tc main_arg5) = m ((c : Thread nD τ).loc main_arg5) := (host11_keeps _ main_arg5 (by decide +kernel)).trans (W22_arg5 m ρ c)
theorem W24_arg5 (c : Dev nD) : W24 m ρ c (Proc.devRef .tc main_arg5) = m ((c : Thread nD τ).loc main_arg5) := (W24_of_ne m ρ c main_arg5 (by decide +kernel)).trans (W23_arg5 m ρ c)
theorem W25_arg5 (c : Dev nD) : W25 m ρ c (Proc.devRef .tc main_arg5) = m ((c : Thread nD τ).loc main_arg5) := (host12_keeps _ main_arg5 (by decide +kernel)).trans (W24_arg5 m ρ c)
theorem W26_arg5 (c : Dev nD) : W26 m ρ c (Proc.devRef .tc main_arg5) = m ((c : Thread nD τ).loc main_arg5) := (W26_of_ne m ρ c main_arg5 (by decide +kernel)).trans (W25_arg5 m ρ c)
theorem W27_arg5 (c : Dev nD) : W27 m ρ c (Proc.devRef .tc main_arg5) = m ((c : Thread nD τ).loc main_arg5) := (host13_keeps _ main_arg5 (by decide +kernel)).trans (W26_arg5 m ρ c)
theorem W28_arg5 (c : Dev nD) : W28 m ρ c (Proc.devRef .tc main_arg5) = m ((c : Thread nD τ).loc main_arg5) := (W28_of_ne m ρ c main_arg5 (by decide +kernel)).trans (W27_arg5 m ρ c)
theorem W29_arg5 (c : Dev nD) : W29 m ρ c (Proc.devRef .tc main_arg5) = m ((c : Thread nD τ).loc main_arg5) := (host14_keeps _ main_arg5 (by decide +kernel)).trans (W28_arg5 m ρ c)
theorem W30_arg5 (c : Dev nD) : W30 m ρ c (Proc.devRef .tc main_arg5) = m ((c : Thread nD τ).loc main_arg5) := (W30_of_ne m ρ c main_arg5 (by decide +kernel)).trans (W29_arg5 m ρ c)
theorem W31_arg5 (c : Dev nD) : W31 m ρ c (Proc.devRef .tc main_arg5) = m ((c : Thread nD τ).loc main_arg5) := (host15_keeps _ main_arg5 (by decide +kernel)).trans (W30_arg5 m ρ c)
theorem W32_arg5 (c : Dev nD) : W32 m ρ c (Proc.devRef .tc main_arg5) = m ((c : Thread nD τ).loc main_arg5) := (W32_of_ne m ρ c main_arg5 (by decide +kernel)).trans (W31_arg5 m ρ c)
theorem W33_arg5 (c : Dev nD) : W33 m ρ c (Proc.devRef .tc main_arg5) = m ((c : Thread nD τ).loc main_arg5) := (host16_keeps _ main_arg5 (by decide +kernel)).trans (W32_arg5 m ρ c)
theorem W34_arg5 (c : Dev nD) : W34 m ρ c (Proc.devRef .tc main_arg5) = m ((c : Thread nD τ).loc main_arg5) := (W34_of_ne m ρ c main_arg5 (by decide +kernel)).trans (W33_arg5 m ρ c)

end Cert.KernelIdeal.KRun

end
-- ==== Proof.KWalkArgs6.lean ====
/- Argument array 6 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) := (host0_keeps _ main_arg6 (by decide +kernel)).trans (W0_arg6 m ρ c)
theorem W2_arg6 (c : Dev nD) : W2 m ρ c (Proc.devRef .tc main_arg6) = m ((c : Thread nD τ).loc main_arg6) := (W2_of_ne m ρ c main_arg6 (by decide +kernel)).trans (W1_arg6 m ρ c)
theorem W3_arg6 (c : Dev nD) : W3 m ρ c (Proc.devRef .tc main_arg6) = m ((c : Thread nD τ).loc main_arg6) := (host1_keeps _ main_arg6 (by decide +kernel)).trans (W2_arg6 m ρ c)
theorem W4_arg6 (c : Dev nD) : W4 m ρ c (Proc.devRef .tc main_arg6) = m ((c : Thread nD τ).loc main_arg6) := (W4_of_ne m ρ c main_arg6 (by decide +kernel)).trans (W3_arg6 m ρ c)
theorem W5_arg6 (c : Dev nD) : W5 m ρ c (Proc.devRef .tc main_arg6) = m ((c : Thread nD τ).loc main_arg6) := (host2_keeps _ main_arg6 (by decide +kernel)).trans (W4_arg6 m ρ c)
theorem W6_arg6 (c : Dev nD) : W6 m ρ c (Proc.devRef .tc main_arg6) = m ((c : Thread nD τ).loc main_arg6) := (W6_of_ne m ρ c main_arg6 (by decide +kernel)).trans (W5_arg6 m ρ c)
theorem W7_arg6 (c : Dev nD) : W7 m ρ c (Proc.devRef .tc main_arg6) = m ((c : Thread nD τ).loc main_arg6) := (host3_keeps _ main_arg6 (by decide +kernel)).trans (W6_arg6 m ρ c)
theorem W8_arg6 (c : Dev nD) : W8 m ρ c (Proc.devRef .tc main_arg6) = m ((c : Thread nD τ).loc main_arg6) := (W8_of_ne m ρ c main_arg6 (by decide +kernel)).trans (W7_arg6 m ρ c)
theorem W9_arg6 (c : Dev nD) : W9 m ρ c (Proc.devRef .tc main_arg6) = m ((c : Thread nD τ).loc main_arg6) := (host4_keeps _ main_arg6 (by decide +kernel)).trans (W8_arg6 m ρ c)
theorem W10_arg6 (c : Dev nD) : W10 m ρ c (Proc.devRef .tc main_arg6) = m ((c : Thread nD τ).loc main_arg6) := (W10_of_ne m ρ c main_arg6 (by decide +kernel)).trans (W9_arg6 m ρ c)
theorem W11_arg6 (c : Dev nD) : W11 m ρ c (Proc.devRef .tc main_arg6) = m ((c : Thread nD τ).loc main_arg6) := (host5_keeps _ main_arg6 (by decide +kernel)).trans (W10_arg6 m ρ c)
theorem W12_arg6 (c : Dev nD) : W12 m ρ c (Proc.devRef .tc main_arg6) = m ((c : Thread nD τ).loc main_arg6) := (W12_of_ne m ρ c main_arg6 (by decide +kernel)).trans (W11_arg6 m ρ c)
theorem W13_arg6 (c : Dev nD) : W13 m ρ c (Proc.devRef .tc main_arg6) = m ((c : Thread nD τ).loc main_arg6) := (host6_keeps _ main_arg6 (by decide +kernel)).trans (W12_arg6 m ρ c)
theorem W14_arg6 (c : Dev nD) : W14 m ρ c (Proc.devRef .tc main_arg6) = m ((c : Thread nD τ).loc main_arg6) := (W14_of_ne m ρ c main_arg6 (by decide +kernel)).trans (W13_arg6 m ρ c)
theorem W15_arg6 (c : Dev nD) : W15 m ρ c (Proc.devRef .tc main_arg6) = m ((c : Thread nD τ).loc main_arg6) := (host7_keeps _ main_arg6 (by decide +kernel)).trans (W14_arg6 m ρ c)
theorem W16_arg6 (c : Dev nD) : W16 m ρ c (Proc.devRef .tc main_arg6) = m ((c : Thread nD τ).loc main_arg6) := (W16_of_ne m ρ c main_arg6 (by decide +kernel)).trans (W15_arg6 m ρ c)
theorem W17_arg6 (c : Dev nD) : W17 m ρ c (Proc.devRef .tc main_arg6) = m ((c : Thread nD τ).loc main_arg6) := (host8_keeps _ main_arg6 (by decide +kernel)).trans (W16_arg6 m ρ c)
theorem W18_arg6 (c : Dev nD) : W18 m ρ c (Proc.devRef .tc main_arg6) = m ((c : Thread nD τ).loc main_arg6) := (W18_of_ne m ρ c main_arg6 (by decide +kernel)).trans (W17_arg6 m ρ c)
theorem W19_arg6 (c : Dev nD) : W19 m ρ c (Proc.devRef .tc main_arg6) = m ((c : Thread nD τ).loc main_arg6) := (host9_keeps _ main_arg6 (by decide +kernel)).trans (W18_arg6 m ρ c)
theorem W20_arg6 (c : Dev nD) : W20 m ρ c (Proc.devRef .tc main_arg6) = m ((c : Thread nD τ).loc main_arg6) := (W20_of_ne m ρ c main_arg6 (by decide +kernel)).trans (W19_arg6 m ρ c)
theorem W21_arg6 (c : Dev nD) : W21 m ρ c (Proc.devRef .tc main_arg6) = m ((c : Thread nD τ).loc main_arg6) := (host10_keeps _ main_arg6 (by decide +kernel)).trans (W20_arg6 m ρ c)
theorem W22_arg6 (c : Dev nD) : W22 m ρ c (Proc.devRef .tc main_arg6) = m ((c : Thread nD τ).loc main_arg6) := (W22_of_ne m ρ c main_arg6 (by decide +kernel)).trans (W21_arg6 m ρ c)
theorem W23_arg6 (c : Dev nD) : W23 m ρ c (Proc.devRef .tc main_arg6) = m ((c : Thread nD τ).loc main_arg6) := (host11_keeps _ main_arg6 (by decide +kernel)).trans (W22_arg6 m ρ c)
theorem W24_arg6 (c : Dev nD) : W24 m ρ c (Proc.devRef .tc main_arg6) = m ((c : Thread nD τ).loc main_arg6) := (W24_of_ne m ρ c main_arg6 (by decide +kernel)).trans (W23_arg6 m ρ c)
theorem W25_arg6 (c : Dev nD) : W25 m ρ c (Proc.devRef .tc main_arg6) = m ((c : Thread nD τ).loc main_arg6) := (host12_keeps _ main_arg6 (by decide +kernel)).trans (W24_arg6 m ρ c)
theorem W26_arg6 (c : Dev nD) : W26 m ρ c (Proc.devRef .tc main_arg6) = m ((c : Thread nD τ).loc main_arg6) := (W26_of_ne m ρ c main_arg6 (by decide +kernel)).trans (W25_arg6 m ρ c)
theorem W27_arg6 (c : Dev nD) : W27 m ρ c (Proc.devRef .tc main_arg6) = m ((c : Thread nD τ).loc main_arg6) := (host13_keeps _ main_arg6 (by decide +kernel)).trans (W26_arg6 m ρ c)
theorem W28_arg6 (c : Dev nD) : W28 m ρ c (Proc.devRef .tc main_arg6) = m ((c : Thread nD τ).loc main_arg6) := (W28_of_ne m ρ c main_arg6 (by decide +kernel)).trans (W27_arg6 m ρ c)
theorem W29_arg6 (c : Dev nD) : W29 m ρ c (Proc.devRef .tc main_arg6) = m ((c : Thread nD τ).loc main_arg6) := (host14_keeps _ main_arg6 (by decide +kernel)).trans (W28_arg6 m ρ c)
theorem W30_arg6 (c : Dev nD) : W30 m ρ c (Proc.devRef .tc main_arg6) = m ((c : Thread nD τ).loc main_arg6) := (W30_of_ne m ρ c main_arg6 (by decide +kernel)).trans (W29_arg6 m ρ c)
theorem W31_arg6 (c : Dev nD) : W31 m ρ c (Proc.devRef .tc main_arg6) = m ((c : Thread nD τ).loc main_arg6) := (host15_keeps _ main_arg6 (by decide +kernel)).trans (W30_arg6 m ρ c)
theorem W32_arg6 (c : Dev nD) : W32 m ρ c (Proc.devRef .tc main_arg6) = m ((c : Thread nD τ).loc main_arg6) := (W32_of_ne m ρ c main_arg6 (by decide +kernel)).trans (W31_arg6 m ρ c)

end Cert.KernelIdeal.KRun

end
-- ==== Proof.KWalkArgs7.lean ====
/- Argument array 7 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) := (host0_keeps _ main_arg7 (by decide +kernel)).trans (W0_arg7 m ρ c)
theorem W2_arg7 (c : Dev nD) : W2 m ρ c (Proc.devRef .tc main_arg7) = m ((c : Thread nD τ).loc main_arg7) := (W2_of_ne m ρ c main_arg7 (by decide +kernel)).trans (W1_arg7 m ρ c)
theorem W3_arg7 (c : Dev nD) : W3 m ρ c (Proc.devRef .tc main_arg7) = m ((c : Thread nD τ).loc main_arg7) := (host1_keeps _ main_arg7 (by decide +kernel)).trans (W2_arg7 m ρ c)
theorem W4_arg7 (c : Dev nD) : W4 m ρ c (Proc.devRef .tc main_arg7) = m ((c : Thread nD τ).loc main_arg7) := (W4_of_ne m ρ c main_arg7 (by decide +kernel)).trans (W3_arg7 m ρ c)
theorem W5_arg7 (c : Dev nD) : W5 m ρ c (Proc.devRef .tc main_arg7) = m ((c : Thread nD τ).loc main_arg7) := (host2_keeps _ main_arg7 (by decide +kernel)).trans (W4_arg7 m ρ c)
theorem W6_arg7 (c : Dev nD) : W6 m ρ c (Proc.devRef .tc main_arg7) = m ((c : Thread nD τ).loc main_arg7) := (W6_of_ne m ρ c main_arg7 (by decide +kernel)).trans (W5_arg7 m ρ c)
theorem W7_arg7 (c : Dev nD) : W7 m ρ c (Proc.devRef .tc main_arg7) = m ((c : Thread nD τ).loc main_arg7) := (host3_keeps _ main_arg7 (by decide +kernel)).trans (W6_arg7 m ρ c)
theorem W8_arg7 (c : Dev nD) : W8 m ρ c (Proc.devRef .tc main_arg7) = m ((c : Thread nD τ).loc main_arg7) := (W8_of_ne m ρ c main_arg7 (by decide +kernel)).trans (W7_arg7 m ρ c)
theorem W9_arg7 (c : Dev nD) : W9 m ρ c (Proc.devRef .tc main_arg7) = m ((c : Thread nD τ).loc main_arg7) := (host4_keeps _ main_arg7 (by decide +kernel)).trans (W8_arg7 m ρ c)
theorem W10_arg7 (c : Dev nD) : W10 m ρ c (Proc.devRef .tc main_arg7) = m ((c : Thread nD τ).loc main_arg7) := (W10_of_ne m ρ c main_arg7 (by decide +kernel)).trans (W9_arg7 m ρ c)
theorem W11_arg7 (c : Dev nD) : W11 m ρ c (Proc.devRef .tc main_arg7) = m ((c : Thread nD τ).loc main_arg7) := (host5_keeps _ main_arg7 (by decide +kernel)).trans (W10_arg7 m ρ c)
theorem W12_arg7 (c : Dev nD) : W12 m ρ c (Proc.devRef .tc main_arg7) = m ((c : Thread nD τ).loc main_arg7) := (W12_of_ne m ρ c main_arg7 (by decide +kernel)).trans (W11_arg7 m ρ c)
theorem W13_arg7 (c : Dev nD) : W13 m ρ c (Proc.devRef .tc main_arg7) = m ((c : Thread nD τ).loc main_arg7) := (host6_keeps _ main_arg7 (by decide +kernel)).trans (W12_arg7 m ρ c)
theorem W14_arg7 (c : Dev nD) : W14 m ρ c (Proc.devRef .tc main_arg7) = m ((c : Thread nD τ).loc main_arg7) := (W14_of_ne m ρ c main_arg7 (by decide +kernel)).trans (W13_arg7 m ρ c)
theorem W15_arg7 (c : Dev nD) : W15 m ρ c (Proc.devRef .tc main_arg7) = m ((c : Thread nD τ).loc main_arg7) := (host7_keeps _ main_arg7 (by decide +kernel)).trans (W14_arg7 m ρ c)
theorem W16_arg7 (c : Dev nD) : W16 m ρ c (Proc.devRef .tc main_arg7) = m ((c : Thread nD τ).loc main_arg7) := (W16_of_ne m ρ c main_arg7 (by decide +kernel)).trans (W15_arg7 m ρ c)
theorem W17_arg7 (c : Dev nD) : W17 m ρ c (Proc.devRef .tc main_arg7) = m ((c : Thread nD τ).loc main_arg7) := (host8_keeps _ main_arg7 (by decide +kernel)).trans (W16_arg7 m ρ c)
theorem W18_arg7 (c : Dev nD) : W18 m ρ c (Proc.devRef .tc main_arg7) = m ((c : Thread nD τ).loc main_arg7) := (W18_of_ne m ρ c main_arg7 (by decide +kernel)).trans (W17_arg7 m ρ c)
theorem W19_arg7 (c : Dev nD) : W19 m ρ c (Proc.devRef .tc main_arg7) = m ((c : Thread nD τ).loc main_arg7) := (host9_keeps _ main_arg7 (by decide +kernel)).trans (W18_arg7 m ρ c)
theorem W20_arg7 (c : Dev nD) : W20 m ρ c (Proc.devRef .tc main_arg7) = m ((c : Thread nD τ).loc main_arg7) := (W20_of_ne m ρ c main_arg7 (by decide +kernel)).trans (W19_arg7 m ρ c)
theorem W21_arg7 (c : Dev nD) : W21 m ρ c (Proc.devRef .tc main_arg7) = m ((c : Thread nD τ).loc main_arg7) := (host10_keeps _ main_arg7 (by decide +kernel)).trans (W20_arg7 m ρ c)
theorem W22_arg7 (c : Dev nD) : W22 m ρ c (Proc.devRef .tc main_arg7) = m ((c : Thread nD τ).loc main_arg7) := (W22_of_ne m ρ c main_arg7 (by decide +kernel)).trans (W21_arg7 m ρ c)
theorem W23_arg7 (c : Dev nD) : W23 m ρ c (Proc.devRef .tc main_arg7) = m ((c : Thread nD τ).loc main_arg7) := (host11_keeps _ main_arg7 (by decide +kernel)).trans (W22_arg7 m ρ c)
theorem W24_arg7 (c : Dev nD) : W24 m ρ c (Proc.devRef .tc main_arg7) = m ((c : Thread nD τ).loc main_arg7) := (W24_of_ne m ρ c main_arg7 (by decide +kernel)).trans (W23_arg7 m ρ c)
theorem W25_arg7 (c : Dev nD) : W25 m ρ c (Proc.devRef .tc main_arg7) = m ((c : Thread nD τ).loc main_arg7) := (host12_keeps _ main_arg7 (by decide +kernel)).trans (W24_arg7 m ρ c)
theorem W26_arg7 (c : Dev nD) : W26 m ρ c (Proc.devRef .tc main_arg7) = m ((c : Thread nD τ).loc main_arg7) := (W26_of_ne m ρ c main_arg7 (by decide +kernel)).trans (W25_arg7 m ρ c)
theorem W27_arg7 (c : Dev nD) : W27 m ρ c (Proc.devRef .tc main_arg7) = m ((c : Thread nD τ).loc main_arg7) := (host13_keeps _ main_arg7 (by decide +kernel)).trans (W26_arg7 m ρ c)
theorem W28_arg7 (c : Dev nD) : W28 m ρ c (Proc.devRef .tc main_arg7) = m ((c : Thread nD τ).loc main_arg7) := (W28_of_ne m ρ c main_arg7 (by decide +kernel)).trans (W27_arg7 m ρ c)
theorem W29_arg7 (c : Dev nD) : W29 m ρ c (Proc.devRef .tc main_arg7) = m ((c : Thread nD τ).loc main_arg7) := (host14_keeps _ main_arg7 (by decide +kernel)).trans (W28_arg7 m ρ c)
theorem W30_arg7 (c : Dev nD) : W30 m ρ c (Proc.devRef .tc main_arg7) = m ((c : Thread nD τ).loc main_arg7) := (W30_of_ne m ρ c main_arg7 (by decide +kernel)).trans (W29_arg7 m ρ c)
theorem W31_arg7 (c : Dev nD) : W31 m ρ c (Proc.devRef .tc main_arg7) = m ((c : Thread nD τ).loc main_arg7) := (host15_keeps _ main_arg7 (by decide +kernel)).trans (W30_arg7 m ρ c)
theorem W32_arg7 (c : Dev nD) : W32 m ρ c (Proc.devRef .tc main_arg7) = m ((c : Thread nD τ).loc main_arg7) := (W32_of_ne m ρ c main_arg7 (by decide +kernel)).trans (W31_arg7 m ρ c)
theorem W33_arg7 (c : Dev nD) : W33 m ρ c (Proc.devRef .tc main_arg7) = m ((c : Thread nD τ).loc main_arg7) := (host16_keeps _ main_arg7 (by decide +kernel)).trans (W32_arg7 m ρ c)
theorem W34_arg7 (c : Dev nD) : W34 m ρ c (Proc.devRef .tc main_arg7) = m ((c : Thread nD τ).loc main_arg7) := (W34_of_ne m ρ c main_arg7 (by decide +kernel)).trans (W33_arg7 m ρ c)

end Cert.KernelIdeal.KRun

end
-- ==== Proof.KWalkArgs8.lean ====
/- Argument array 8 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) := (host0_keeps _ main_arg8 (by decide +kernel)).trans (W0_arg8 m ρ c)
theorem W2_arg8 (c : Dev nD) : W2 m ρ c (Proc.devRef .tc main_arg8) = m ((c : Thread nD τ).loc main_arg8) := (W2_of_ne m ρ c main_arg8 (by decide +kernel)).trans (W1_arg8 m ρ c)
theorem W3_arg8 (c : Dev nD) : W3 m ρ c (Proc.devRef .tc main_arg8) = m ((c : Thread nD τ).loc main_arg8) := (host1_keeps _ main_arg8 (by decide +kernel)).trans (W2_arg8 m ρ c)
theorem W4_arg8 (c : Dev nD) : W4 m ρ c (Proc.devRef .tc main_arg8) = m ((c : Thread nD τ).loc main_arg8) := (W4_of_ne m ρ c main_arg8 (by decide +kernel)).trans (W3_arg8 m ρ c)
theorem W5_arg8 (c : Dev nD) : W5 m ρ c (Proc.devRef .tc main_arg8) = m ((c : Thread nD τ).loc main_arg8) := (host2_keeps _ main_arg8 (by decide +kernel)).trans (W4_arg8 m ρ c)
theorem W6_arg8 (c : Dev nD) : W6 m ρ c (Proc.devRef .tc main_arg8) = m ((c : Thread nD τ).loc main_arg8) := (W6_of_ne m ρ c main_arg8 (by decide +kernel)).trans (W5_arg8 m ρ c)
theorem W7_arg8 (c : Dev nD) : W7 m ρ c (Proc.devRef .tc main_arg8) = m ((c : Thread nD τ).loc main_arg8) := (host3_keeps _ main_arg8 (by decide +kernel)).trans (W6_arg8 m ρ c)
theorem W8_arg8 (c : Dev nD) : W8 m ρ c (Proc.devRef .tc main_arg8) = m ((c : Thread nD τ).loc main_arg8) := (W8_of_ne m ρ c main_arg8 (by decide +kernel)).trans (W7_arg8 m ρ c)
theorem W9_arg8 (c : Dev nD) : W9 m ρ c (Proc.devRef .tc main_arg8) = m ((c : Thread nD τ).loc main_arg8) := (host4_keeps _ main_arg8 (by decide +kernel)).trans (W8_arg8 m ρ c)
theorem W10_arg8 (c : Dev nD) : W10 m ρ c (Proc.devRef .tc main_arg8) = m ((c : Thread nD τ).loc main_arg8) := (W10_of_ne m ρ c main_arg8 (by decide +kernel)).trans (W9_arg8 m ρ c)
theorem W11_arg8 (c : Dev nD) : W11 m ρ c (Proc.devRef .tc main_arg8) = m ((c : Thread nD τ).loc main_arg8) := (host5_keeps _ main_arg8 (by decide +kernel)).trans (W10_arg8 m ρ c)
theorem W12_arg8 (c : Dev nD) : W12 m ρ c (Proc.devRef .tc main_arg8) = m ((c : Thread nD τ).loc main_arg8) := (W12_of_ne m ρ c main_arg8 (by decide +kernel)).trans (W11_arg8 m ρ c)
theorem W13_arg8 (c : Dev nD) : W13 m ρ c (Proc.devRef .tc main_arg8) = m ((c : Thread nD τ).loc main_arg8) := (host6_keeps _ main_arg8 (by decide +kernel)).trans (W12_arg8 m ρ c)
theorem W14_arg8 (c : Dev nD) : W14 m ρ c (Proc.devRef .tc main_arg8) = m ((c : Thread nD τ).loc main_arg8) := (W14_of_ne m ρ c main_arg8 (by decide +kernel)).trans (W13_arg8 m ρ c)
theorem W15_arg8 (c : Dev nD) : W15 m ρ c (Proc.devRef .tc main_arg8) = m ((c : Thread nD τ).loc main_arg8) := (host7_keeps _ main_arg8 (by decide +kernel)).trans (W14_arg8 m ρ c)
theorem W16_arg8 (c : Dev nD) : W16 m ρ c (Proc.devRef .tc main_arg8) = m ((c : Thread nD τ).loc main_arg8) := (W16_of_ne m ρ c main_arg8 (by decide +kernel)).trans (W15_arg8 m ρ c)
theorem W17_arg8 (c : Dev nD) : W17 m ρ c (Proc.devRef .tc main_arg8) = m ((c : Thread nD τ).loc main_arg8) := (host8_keeps _ main_arg8 (by decide +kernel)).trans (W16_arg8 m ρ c)
theorem W18_arg8 (c : Dev nD) : W18 m ρ c (Proc.devRef .tc main_arg8) = m ((c : Thread nD τ).loc main_arg8) := (W18_of_ne m ρ c main_arg8 (by decide +kernel)).trans (W17_arg8 m ρ c)
theorem W19_arg8 (c : Dev nD) : W19 m ρ c (Proc.devRef .tc main_arg8) = m ((c : Thread nD τ).loc main_arg8) := (host9_keeps _ main_arg8 (by decide +kernel)).trans (W18_arg8 m ρ c)
theorem W20_arg8 (c : Dev nD) : W20 m ρ c (Proc.devRef .tc main_arg8) = m ((c : Thread nD τ).loc main_arg8) := (W20_of_ne m ρ c main_arg8 (by decide +kernel)).trans (W19_arg8 m ρ c)
theorem W21_arg8 (c : Dev nD) : W21 m ρ c (Proc.devRef .tc main_arg8) = m ((c : Thread nD τ).loc main_arg8) := (host10_keeps _ main_arg8 (by decide +kernel)).trans (W20_arg8 m ρ c)
theorem W22_arg8 (c : Dev nD) : W22 m ρ c (Proc.devRef .tc main_arg8) = m ((c : Thread nD τ).loc main_arg8) := (W22_of_ne m ρ c main_arg8 (by decide +kernel)).trans (W21_arg8 m ρ c)
theorem W23_arg8 (c : Dev nD) : W23 m ρ c (Proc.devRef .tc main_arg8) = m ((c : Thread nD τ).loc main_arg8) := (host11_keeps _ main_arg8 (by decide +kernel)).trans (W22_arg8 m ρ c)
theorem W24_arg8 (c : Dev nD) : W24 m ρ c (Proc.devRef .tc main_arg8) = m ((c : Thread nD τ).loc main_arg8) := (W24_of_ne m ρ c main_arg8 (by decide +kernel)).trans (W23_arg8 m ρ c)
theorem W25_arg8 (c : Dev nD) : W25 m ρ c (Proc.devRef .tc main_arg8) = m ((c : Thread nD τ).loc main_arg8) := (host12_keeps _ main_arg8 (by decide +kernel)).trans (W24_arg8 m ρ c)
theorem W26_arg8 (c : Dev nD) : W26 m ρ c (Proc.devRef .tc main_arg8) = m ((c : Thread nD τ).loc main_arg8) := (W26_of_ne m ρ c main_arg8 (by decide +kernel)).trans (W25_arg8 m ρ c)
theorem W27_arg8 (c : Dev nD) : W27 m ρ c (Proc.devRef .tc main_arg8) = m ((c : Thread nD τ).loc main_arg8) := (host13_keeps _ main_arg8 (by decide +kernel)).trans (W26_arg8 m ρ c)
theorem W28_arg8 (c : Dev nD) : W28 m ρ c (Proc.devRef .tc main_arg8) = m ((c : Thread nD τ).loc main_arg8) := (W28_of_ne m ρ c main_arg8 (by decide +kernel)).trans (W27_arg8 m ρ c)
theorem W29_arg8 (c : Dev nD) : W29 m ρ c (Proc.devRef .tc main_arg8) = m ((c : Thread nD τ).loc main_arg8) := (host14_keeps _ main_arg8 (by decide +kernel)).trans (W28_arg8 m ρ c)
theorem W30_arg8 (c : Dev nD) : W30 m ρ c (Proc.devRef .tc main_arg8) = m ((c : Thread nD τ).loc main_arg8) := (W30_of_ne m ρ c main_arg8 (by decide +kernel)).trans (W29_arg8 m ρ c)
theorem W31_arg8 (c : Dev nD) : W31 m ρ c (Proc.devRef .tc main_arg8) = m ((c : Thread nD τ).loc main_arg8) := (host15_keeps _ main_arg8 (by decide +kernel)).trans (W30_arg8 m ρ c)
theorem W32_arg8 (c : Dev nD) : W32 m ρ c (Proc.devRef .tc main_arg8) = m ((c : Thread nD τ).loc main_arg8) := (W32_of_ne m ρ c main_arg8 (by decide +kernel)).trans (W31_arg8 m ρ c)
theorem W33_arg8 (c : Dev nD) : W33 m ρ c (Proc.devRef .tc main_arg8) = m ((c : Thread nD τ).loc main_arg8) := (host16_keeps _ main_arg8 (by decide +kernel)).trans (W32_arg8 m ρ c)
theorem W34_arg8 (c : Dev nD) : W34 m ρ c (Proc.devRef .tc main_arg8) = m ((c : Thread nD τ).loc main_arg8) := (W34_of_ne m ρ c main_arg8 (by decide +kernel)).trans (W33_arg8 m ρ c)
theorem W35_arg8 (c : Dev nD) : W35 m ρ c (Proc.devRef .tc main_arg8) = m ((c : Thread nD τ).loc main_arg8) := (host17_keeps _ main_arg8 (by decide +kernel)).trans (W34_arg8 m ρ c)
theorem W36_arg8 (c : Dev nD) : W36 m ρ c (Proc.devRef .tc main_arg8) = m ((c : Thread nD τ).loc main_arg8) := (W36_of_ne m ρ c main_arg8 (by decide +kernel)).trans (W35_arg8 m ρ c)
theorem W37_arg8 (c : Dev nD) : W37 m ρ c (Proc.devRef .tc main_arg8) = m ((c : Thread nD τ).loc main_arg8) := (host18_keeps _ main_arg8 (by decide +kernel)).trans (W36_arg8 m ρ c)
theorem W38_arg8 (c : Dev nD) : W38 m ρ c (Proc.devRef .tc main_arg8) = m ((c : Thread nD τ).loc main_arg8) := (W38_of_ne m ρ c main_arg8 (by decide +kernel)).trans (W37_arg8 m ρ c)

end Cert.KernelIdeal.KRun

end
-- ==== Proof.KWalkArgs9.lean ====
/- Argument array 9 at the segment boundaries: no host operation and no region writes it, so at every
   boundary up to its last read it holds its launch contents. -/
import proofs.«150895_j60593398612496_1_alg».proof.Proof.KWalkSeg

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

variable {F : FTy → Type} [FloatOps F]

variable (m : (ℓ : Loc nD τ sig) → Buf (Elt F) ℓ) (ρ : Dev nD → PrngReg)

theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) := (host0_keeps _ main_arg9 (by decide +kernel)).trans (W0_arg9 m ρ c)
theorem W2_arg9 (c : Dev nD) : W2 m ρ c (Proc.devRef .tc main_arg9) = m ((c : Thread nD τ).loc main_arg9) := (W2_of_ne m ρ c main_arg9 (by decide +kernel)).trans (W1_arg9 m ρ c)
theorem W3_arg9 (c : Dev nD) : W3 m ρ c (Proc.devRef .tc main_arg9) = m ((c : Thread nD τ).loc main_arg9) := (host1_keeps _ main_arg9 (by decide +kernel)).trans (W2_arg9 m ρ c)
theorem W4_arg9 (c : Dev nD) : W4 m ρ c (Proc.devRef .tc main_arg9) = m ((c : Thread nD τ).loc main_arg9) := (W4_of_ne m ρ c main_arg9 (by decide +kernel)).trans (W3_arg9 m ρ c)
theorem W5_arg9 (c : Dev nD) : W5 m ρ c (Proc.devRef .tc main_arg9) = m ((c : Thread nD τ).loc main_arg9) := (host2_keeps _ main_arg9 (by decide +kernel)).trans (W4_arg9 m ρ c)
theorem W6_arg9 (c : Dev nD) : W6 m ρ c (Proc.devRef .tc main_arg9) = m ((c : Thread nD τ).loc main_arg9) := (W6_of_ne m ρ c main_arg9 (by decide +kernel)).trans (W5_arg9 m ρ c)
theorem W7_arg9 (c : Dev nD) : W7 m ρ c (Proc.devRef .tc main_arg9) = m ((c : Thread nD τ).loc main_arg9) := (host3_keeps _ main_arg9 (by decide +kernel)).trans (W6_arg9 m ρ c)
theorem W8_arg9 (c : Dev nD) : W8 m ρ c (Proc.devRef .tc main_arg9) = m ((c : Thread nD τ).loc main_arg9) := (W8_of_ne m ρ c main_arg9 (by decide +kernel)).trans (W7_arg9 m ρ c)
theorem W9_arg9 (c : Dev nD) : W9 m ρ c (Proc.devRef .tc main_arg9) = m ((c : Thread nD τ).loc main_arg9) := (host4_keeps _ main_arg9 (by decide +kernel)).trans (W8_arg9 m ρ c)
theorem W10_arg9 (c : Dev nD) : W10 m ρ c (Proc.devRef .tc main_arg9) = m ((c : Thread nD τ).loc main_arg9) := (W10_of_ne m ρ c main_arg9 (by decide +kernel)).trans (W9_arg9 m ρ c)
theorem W11_arg9 (c : Dev nD) : W11 m ρ c (Proc.devRef .tc main_arg9) = m ((c : Thread nD τ).loc main_arg9) := (host5_keeps _ main_arg9 (by decide +kernel)).trans (W10_arg9 m ρ c)
theorem W12_arg9 (c : Dev nD) : W12 m ρ c (Proc.devRef .tc main_arg9) = m ((c : Thread nD τ).loc main_arg9) := (W12_of_ne m ρ c main_arg9 (by decide +kernel)).trans (W11_arg9 m ρ c)
theorem W13_arg9 (c : Dev nD) : W13 m ρ c (Proc.devRef .tc main_arg9) = m ((c : Thread nD τ).loc main_arg9) := (host6_keeps _ main_arg9 (by decide +kernel)).trans (W12_arg9 m ρ c)
theorem W14_arg9 (c : Dev nD) : W14 m ρ c (Proc.devRef .tc main_arg9) = m ((c : Thread nD τ).loc main_arg9) := (W14_of_ne m ρ c main_arg9 (by decide +kernel)).trans (W13_arg9 m ρ c)
theorem W15_arg9 (c : Dev nD) : W15 m ρ c (Proc.devRef .tc main_arg9) = m ((c : Thread nD τ).loc main_arg9) := (host7_keeps _ main_arg9 (by decide +kernel)).trans (W14_arg9 m ρ c)
theorem W16_arg9 (c : Dev nD) : W16 m ρ c (Proc.devRef .tc main_arg9) = m ((c : Thread nD τ).loc main_arg9) := (W16_of_ne m ρ c main_arg9 (by decide +kernel)).trans (W15_arg9 m ρ c)
theorem W17_arg9 (c : Dev nD) : W17 m ρ c (Proc.devRef .tc main_arg9) = m ((c : Thread nD τ).loc main_arg9) := (host8_keeps _ main_arg9 (by decide +kernel)).trans (W16_arg9 m ρ c)
theorem W18_arg9 (c : Dev nD) : W18 m ρ c (Proc.devRef .tc main_arg9) = m ((c : Thread nD τ).loc main_arg9) := (W18_of_ne m ρ c main_arg9 (by decide +kernel)).trans (W17_arg9 m ρ c)
theorem W19_arg9 (c : Dev nD) : W19 m ρ c (Proc.devRef .tc main_arg9) = m ((c : Thread nD τ).loc main_arg9) := (host9_keeps _ main_arg9 (by decide +kernel)).trans (W18_arg9 m ρ c)
theorem W20_arg9 (c : Dev nD) : W20 m ρ c (Proc.devRef .tc main_arg9) = m ((c : Thread nD τ).loc main_arg9) := (W20_of_ne m ρ c main_arg9 (by decide +kernel)).trans (W19_arg9 m ρ c)
theorem W21_arg9 (c : Dev nD) : W21 m ρ c (Proc.devRef .tc main_arg9) = m ((c : Thread nD τ).loc main_arg9) := (host10_keeps _ main_arg9 (by decide +kernel)).trans (W20_arg9 m ρ c)
theorem W22_arg9 (c : Dev nD) : W22 m ρ c (Proc.devRef .tc main_arg9) = m ((c : Thread nD τ).loc main_arg9) := (W22_of_ne m ρ c main_arg9 (by decide +kernel)).trans (W21_arg9 m ρ c)
theorem W23_arg9 (c : Dev nD) : W23 m ρ c (Proc.devRef .tc main_arg9) = m ((c : Thread nD τ).loc main_arg9) := (host11_keeps _ main_arg9 (by decide +kernel)).trans (W22_arg9 m ρ c)
theorem W24_arg9 (c : Dev nD) : W24 m ρ c (Proc.devRef .tc main_arg9) = m ((c : Thread nD τ).loc main_arg9) := (W24_of_ne m ρ c main_arg9 (by decide +kernel)).trans (W23_arg9 m ρ c)
theorem W25_arg9 (c : Dev nD) : W25 m ρ c (Proc.devRef .tc main_arg9) = m ((c : Thread nD τ).loc main_arg9) := (host12_keeps _ main_arg9 (by decide +kernel)).trans (W24_arg9 m ρ c)
theorem W26_arg9 (c : Dev nD) : W26 m ρ c (Proc.devRef .tc main_arg9) = m ((c : Thread nD τ).loc main_arg9) := (W26_of_ne m ρ c main_arg9 (by decide +kernel)).trans (W25_arg9 m ρ c)
theorem W27_arg9 (c : Dev nD) : W27 m ρ c (Proc.devRef .tc main_arg9) = m ((c : Thread nD τ).loc main_arg9) := (host13_keeps _ main_arg9 (by decide +kernel)).trans (W26_arg9 m ρ c)
theorem W28_arg9 (c : Dev nD) : W28 m ρ c (Proc.devRef .tc main_arg9) = m ((c : Thread nD τ).loc main_arg9) := (W28_of_ne m ρ c main_arg9 (by decide +kernel)).trans (W27_arg9 m ρ c)
theorem W29_arg9 (c : Dev nD) : W29 m ρ c (Proc.devRef .tc main_arg9) = m ((c : Thread nD τ).loc main_arg9) := (host14_keeps _ main_arg9 (by decide +kernel)).trans (W28_arg9 m ρ c)
theorem W30_arg9 (c : Dev nD) : W30 m ρ c (Proc.devRef .tc main_arg9) = m ((c : Thread nD τ).loc main_arg9) := (W30_of_ne m ρ c main_arg9 (by decide +kernel)).trans (W29_arg9 m ρ c)
theorem W31_arg9 (c : Dev nD) : W31 m ρ c (Proc.devRef .tc main_arg9) = m ((c : Thread nD τ).loc main_arg9) := (host15_keeps _ main_arg9 (by decide +kernel)).trans (W30_arg9 m ρ c)
theorem W32_arg9 (c : Dev nD) : W32 m ρ c (Proc.devRef .tc main_arg9) = m ((c : Thread nD τ).loc main_arg9) := (W32_of_ne m ρ c main_arg9 (by decide +kernel)).trans (W31_arg9 m ρ c)
theorem W33_arg9 (c : Dev nD) : W33 m ρ c (Proc.devRef .tc main_arg9) = m ((c : Thread nD τ).loc main_arg9) := (host16_keeps _ main_arg9 (by decide +kernel)).trans (W32_arg9 m ρ c)
theorem W34_arg9 (c : Dev nD) : W34 m ρ c (Proc.devRef .tc main_arg9) = m ((c : Thread nD τ).loc main_arg9) := (W34_of_ne m ρ c main_arg9 (by decide +kernel)).trans (W33_arg9 m ρ c)
theorem W35_arg9 (c : Dev nD) : W35 m ρ c (Proc.devRef .tc main_arg9) = m ((c : Thread nD τ).loc main_arg9) := (host17_keeps _ main_arg9 (by decide +kernel)).trans (W34_arg9 m ρ c)
theorem W36_arg9 (c : Dev nD) : W36 m ρ c (Proc.devRef .tc main_arg9) = m ((c : Thread nD τ).loc main_arg9) := (W36_of_ne m ρ c main_arg9 (by decide +kernel)).trans (W35_arg9 m ρ c)
theorem W37_arg9 (c : Dev nD) : W37 m ρ c (Proc.devRef .tc main_arg9) = m ((c : Thread nD τ).loc main_arg9) := (host18_keeps _ main_arg9 (by decide +kernel)).trans (W36_arg9 m ρ c)
theorem W38_arg9 (c : Dev nD) : W38 m ρ c (Proc.devRef .tc main_arg9) = m ((c : Thread nD τ).loc main_arg9) := (W38_of_ne m ρ c main_arg9 (by decide +kernel)).trans (W37_arg9 m ρ c)

end Cert.KernelIdeal.KRun

end
-- ==== Proof.Spec.lean ====
/-
  The specification of the two-layer graph network, at the ideal instance (floats are extended reals), index by index.

  One layer, on user rows (60000) and item rows (40000), with two sparse products carried as functions
  `sI : users → items` and `sU : items → users` (gather rows by one edge endpoint, scale by the edge weight, add into the
  row of the other endpoint):
    uho  = leaky (sI (lu · W0) + b0)         iho  = leaky (sU (li · W1) + b1)
    uho2 = leaky (sU (uho · W2) + b2)        iho2 = leaky (sI (iho · W3) + b3)
    lu'  = max (uho2 · P1 + lu · P2 + c0) 0   li'  = max (iho2 · Q1 + li · Q2 + c1) 0
  where `·` is the matrix product over the 128 features, `leaky y = y` for `0 < y` and `y · α` otherwise.
-/
import Idealize.ShloMosaic.PureOps.Ideal
import Idealize.ShloMosaic.Lib.ValueIdx

noncomputable section

namespace Cert.GCN

open Idealize.ShloMosaic Idealize.ShloMosaic.ValueIdx

/-- users × features -/
abbrev SU : Shape := ⟨2, ![60000, 128]⟩
/-- items × features -/
abbrev SI : Shape := ⟨2, ![40000, 128]⟩
/-- a 128 × 128 weight -/
abbrev SW : Shape := ⟨2, ![128, 128]⟩
/-- a bias as one row -/
abbrev SR : Shape := ⟨2, ![1, 128]⟩

/-- The slope of the leaky rectifier, as the program's word. -/
def α : EReal := Ideal.ofBits .f32 0x3E4CCCCD#32

/-- `y` where positive, `y · α` elsewhere. -/
def leaky (y : EReal) : EReal := if 0 < y then y else y * α

/-- The matrix product of user rows with a weight. -/
def mmU (X : Vec Ideal SU .f32) (W : Vec Ideal SW .f32) : Vec Ideal SU .f32 :=
  fun i => ∑ k : Fin 128, X (ix2 (i 0) k) * W (ix2 k (i 1))

/-- The matrix product of item rows with a weight. -/
def mmI (X : Vec Ideal SI .f32) (W : Vec Ideal SW .f32) : Vec Ideal SI .f32 :=
  fun i => ∑ k : Fin 128, X (ix2 (i 0) k) * W (ix2 k (i 1))

/-- Bias, then the leaky rectifier, on user rows. -/
def blU (X : Vec Ideal SU .f32) (b : Vec Ideal SR .f32) : Vec Ideal SU .f32 :=
  fun i => leaky (X i + b (ix2 0 (i 1)))

/-- Bias, then the leaky rectifier, on item rows. -/
def blI (X : Vec Ideal SI .f32) (b : Vec Ideal SR .f32) : Vec Ideal SI .f32 :=
  fun i => leaky (X i + b (ix2 0 (i 1)))

/-- The union step on user rows: two products, a bias, the rectifier. -/
def unU (A B : Vec Ideal SU .f32) (W1 W2 : Vec Ideal SW .f32) (b : Vec Ideal SR .f32) : Vec Ideal SU .f32 :=
  fun i => max ((∑ k : Fin 128, A (ix2 (i 0) k) * W1 (ix2 k (i 1))) + (∑ k : Fin 128, B (ix2 (i 0) k) * W2 (ix2 k (i 1)))
    + b (ix2 0 (i 1))) 0

/-- The union step on item rows. -/
def unI (A B : Vec Ideal SI .f32) (W1 W2 : Vec Ideal SW .f32) (b : Vec Ideal SR .f32) : Vec Ideal SI .f32 :=
  fun i => max ((∑ k : Fin 128, A (ix2 (i 0) k) * W1 (ix2 k (i 1))) + (∑ k : Fin 128, B (ix2 (i 0) k) * W2 (ix2 k (i 1)))
    + b (ix2 0 (i 1))) 0

/-! ## The halves of a 256 × 128 weight -/

/-- a 256 × 128 weight -/
abbrev SW2 : Shape := ⟨2, ![256, 128]⟩

/-- Rows 0 … 127. -/
def top (W : Vec Ideal SW2 .f32) : Vec Ideal SW .f32 := fun j => W (ix2 ⟨(j 0).val, by have := idx2_lt0 j; omega⟩ (j 1))
/-- Rows 128 … 255. -/
def bot (W : Vec Ideal SW2 .f32) : Vec Ideal SW .f32 := fun j => W (ix2 ⟨128 + (j 0).val, by have := idx2_lt0 j; omega⟩ (j 1))

/-! ## The leaky rectifier, in the two spellings the programs use -/

theorem ofBool_eq_one (p : Prop) [Decidable p] : (BitVec.ofBool (decide p) = 1) ↔ p := by
  by_cases h : p <;> simp [h]

/-- Strict comparison, the slope on the right. -/
theorem leaky_gt (y : EReal) : Scalar.select (Ideal.cmp .ogt y 0) y (y * α) = leaky y := by
  unfold Scalar.select Ideal.cmp leaky
  by_cases h : (0 : EReal) < y
  · rw [if_pos ((ofBool_eq_one _).2 h), if_pos h]
  · rw [if_neg (fun e => h ((ofBool_eq_one _).1 e)), if_neg h]

/-- Weak comparison, the slope on the left: at zero both branches are zero. -/
theorem leaky_ge (y : EReal) : Scalar.select (Ideal.cmp .oge y 0) y (α * y) = leaky y := by
  unfold Scalar.select Ideal.cmp leaky
  by_cases h : (0 : EReal) < y
  · rw [if_pos ((ofBool_eq_one _).2 h.le), if_pos h]
  · rw [if_neg h]
    by_cases h0 : (0 : EReal) ≤ y
    · have : y = 0 := le_antisymm (not_lt.1 h) h0
      rw [if_pos ((ofBool_eq_one _).2 h0), this, zero_mul]
    · rw [if_neg (fun e => h0 ((ofBool_eq_one _).1 e)), mul_comm]

/-- A sum over 256 features is the sum over the first 128 plus the sum over the last 128. -/
theorem sum_split256 (f : Fin 256 → EReal) :
    ∑ k : Fin 256, f k = (∑ k : Fin 128, f ⟨k.val, by omega⟩) + ∑ k : Fin 128, f ⟨128 + k.val, by omega⟩ :=
  Fin.sum_univ_add (a := 128) (b := 128) (f : Fin (128 + 128) → EReal)

section Layer

variable (sI : Vec Ideal SU .f32 → Vec Ideal SI .f32) (sU : Vec Ideal SI .f32 → Vec Ideal SU .f32)

/-- First hop from the users: onto the items. -/
def uho (W0 : Vec Ideal SW .f32) (b0 : Vec Ideal SR .f32) (lu : Vec Ideal SU .f32) : Vec Ideal SI .f32 :=
  blI (sI (mmU lu W0)) b0

/-- First hop from the items: onto the users. -/
def iho (W1 : Vec Ideal SW .f32) (b1 : Vec Ideal SR .f32) (li : Vec Ideal SI .f32) : Vec Ideal SU .f32 :=
  blU (sU (mmI li W1)) b1

/-- Second hop: back onto the users. -/
def uho2 (W0 : Vec Ideal SW .f32) (b0 : Vec Ideal SR .f32) (W2 : Vec Ideal SW .f32) (b2 : Vec Ideal SR .f32)
    (lu : Vec Ideal SU .f32) : Vec Ideal SU .f32 :=
  blU (sU (mmI (uho sI W0 b0 lu) W2)) b2

/-- Second hop: back onto the items. -/
def iho2 (W1 : Vec Ideal SW .f32) (b1 : Vec Ideal SR .f32) (W3 : Vec Ideal SW .f32) (b3 : Vec Ideal SR .f32)
    (li : Vec Ideal SI .f32) : Vec Ideal SI .f32 :=
  blI (sI (mmU (iho sU W1 b1 li) W3)) b3

/-- The users after one layer. -/
def nextU (W0 : Vec Ideal SW .f32) (b0 : Vec Ideal SR .f32) (W2 : Vec Ideal SW .f32) (b2 : Vec Ideal SR .f32)
    (P1 P2 : Vec Ideal SW .f32) (c0 : Vec Ideal SR .f32) (lu : Vec Ideal SU .f32) : Vec Ideal SU .f32 :=
  unU (uho2 sI sU W0 b0 W2 b2 lu) lu P1 P2 c0

/-- The items after one layer. -/
def nextI (W1 : Vec Ideal SW .f32) (b1 : Vec Ideal SR .f32) (W3 : Vec Ideal SW .f32) (b3 : Vec Ideal SR .f32)
    (Q1 Q2 : Vec Ideal SW .f32) (c1 : Vec Ideal SR .f32) (li : Vec Ideal SI .f32) : Vec Ideal SI .f32 :=
  unI (iho2 sI sU W1 b1 W3 b3 li) li Q1 Q2 c1

end Layer

end Cert.GCN

end
-- ==== Proof.KTerms.lean ====
/- The ingredients of the kernel's result, each as a function of the argument arrays: the two sparse products (rows
   gathered at one endpoint of every edge, scaled by the edge weight, added into the row of the other endpoint), and the
   slices the program cuts out of the stacked weights and biases. -/
import proofs.«150895_j60593398612496_1_alg».proof.Proof.Gen.KernelIdeal
import proofs.«150895_j60593398612496_1_alg».proof.Proof.Spec

noncomputable section

namespace Cert.KernelIdeal.KRun

open Idealize.ShloMosaic
open Cert.KernelIdeal Cert.KernelIdeal.Facts₀

/-- Users onto items: the user row at `a2` of every edge (a negative index counted from the end), scaled by the
    edge's weight `a5`, added into the item row at `a3`. -/
def sIk (a2 a3 : IVec S1000000 32) (a5 : FVec Ideal S1000000 .f32) (x : FVec Ideal S60000x128 .f32) : FVec Ideal S40000x128 .f32 :=
  Host.scatterAdd (F := Ideal) scatter_S40000x128_S1000000x1_S1000000x128_1_0_0_1
    (broadcastInDim S40000x128 ![] bcast_S_S40000x128 (constant (F := Ideal) S_ .f32 0x00000000#32))
    (broadcastInDim S1000000x1 ![0] bcast_S1000000_S1000000x1_0 a3)
    (mulf (F := Ideal)
      (Host.gather gather_S60000x128_S1000000x1_S1000000x128_1_0_n_n_0_1_1128 x
        (broadcastInDim S1000000x1 ![0] bcast_S1000000_S1000000x1_0
          (select (cmpi .slt a2 (broadcastInDim S1000000 ![] bcast_S_S1000000 (constantI S_ 32 0#32)))
            (addi a2 (broadcastInDim S1000000 ![] bcast_S_S1000000 (constantI S_ 32 60000#32))) a2)))
      (broadcastInDim S1000000x128 ![0, 1] bcast_S1000000x1_S1000000x128_0_1
        (broadcastInDim S1000000x1 ![0] bcast_S1000000_S1000000x1_0 a5)))

/-- Items onto users: the item row at `a3` of every edge (a negative index counted from the end), scaled by the
    edge's weight `a4`, added into the user row at `a2`. -/
def sUk (a2 a3 : IVec S1000000 32) (a4 : FVec Ideal S1000000 .f32) (x : FVec Ideal S40000x128 .f32) : FVec Ideal S60000x128 .f32 :=
  Host.scatterAdd (F := Ideal) scatter_S60000x128_S1000000x1_S1000000x128_1_0_0_1
    (broadcastInDim S60000x128 ![] bcast_S_S60000x128 (constant (F := Ideal) S_ .f32 0x00000000#32))
    (broadcastInDim S1000000x1 ![0] bcast_S1000000_S1000000x1_0 a2)
    (mulf (F := Ideal)
      (Host.gather gather_S40000x128_S1000000x1_S1000000x128_1_0_n_n_0_1_1128 x
        (broadcastInDim S1000000x1 ![0] bcast_S1000000_S1000000x1_0
          (select (cmpi .slt a3 (broadcastInDim S1000000 ![] bcast_S_S1000000 (constantI S_ 32 0#32)))
            (addi a3 (broadcastInDim S1000000 ![] bcast_S_S1000000 (constantI S_ 32 40000#32))) a3)))
      (broadcastInDim S1000000x128 ![0, 1] bcast_S1000000x1_S1000000x128_0_1
        (broadcastInDim S1000000x1 ![0] bcast_S1000000_S1000000x1_0 a4)))

/-- Weight 0 of layer 0: a 128 × 128 slice of the stacked weights. -/
def wk00 (a6 : FVec Ideal S2x4x128x128 .f32) : FVec Ideal S128x128 .f32 :=
  shapeCast S128x128 (extractStridedSlice S1x1x128x128 ![0, 0, 0, 0] a6 slices_S2x4x128x128_S1x1x128x128_0_0_0_0) shapeCasts_S1x1x128x128_S128x128
/-- Bias 0 of layer 0, as one row. -/
def bk00 (a7 : FVec Ideal S2x4x128 .f32) : FVec Ideal S1x128 .f32 :=
  shapeCast S1x128 (shapeCast S128 (extractStridedSlice S1x1x128 ![0, 0, 0] a7 slices_S2x4x128_S1x1x128_0_0_0) shapeCasts_S1x1x128_S128) shapeCasts_S128_S1x128
/-- Weight 1 of layer 0: a 128 × 128 slice of the stacked weights. -/
def wk01 (a6 : FVec Ideal S2x4x128x128 .f32) : FVec Ideal S128x128 .f32 :=
  shapeCast S128x128 (extractStridedSlice S1x1x128x128 ![0, 1, 0, 0] a6 slices_S2x4x128x128_S1x1x128x128_0_1_0_0) shapeCasts_S1x1x128x128_S128x128
/-- Bias 1 of layer 0, as one row. -/
def bk01 (a7 : FVec Ideal S2x4x128 .f32) : FVec Ideal S1x128 .f32 :=
  shapeCast S1x128 (shapeCast S128 (extractStridedSlice S1x1x128 ![0, 1, 0] a7 slices_S2x4x128_S1x1x128_0_1_0) shapeCasts_S1x1x128_S128) shapeCasts_S128_S1x128
/-- Weight 2 of layer 0: a 128 × 128 slice of the stacked weights. -/
def wk02 (a6 : FVec Ideal S2x4x128x128 .f32) : FVec Ideal S128x128 .f32 :=
  shapeCast S128x128 (extractStridedSlice S1x1x128x128 ![0, 2, 0, 0] a6 slices_S2x4x128x128_S1x1x128x128_0_2_0_0) shapeCasts_S1x1x128x128_S128x128
/-- Bias 2 of layer 0, as one row. -/
def bk02 (a7 : FVec Ideal S2x4x128 .f32) : FVec Ideal S1x128 .f32 :=
  shapeCast S1x128 (shapeCast S128 (extractStridedSlice S1x1x128 ![0, 2, 0] a7 slices_S2x4x128_S1x1x128_0_2_0) shapeCasts_S1x1x128_S128) shapeCasts_S128_S1x128
/-- Weight 3 of layer 0: a 128 × 128 slice of the stacked weights. -/
def wk03 (a6 : FVec Ideal S2x4x128x128 .f32) : FVec Ideal S128x128 .f32 :=
  shapeCast S128x128 (extractStridedSlice S1x1x128x128 ![0, 3, 0, 0] a6 slices_S2x4x128x128_S1x1x128x128_0_3_0_0) shapeCasts_S1x1x128x128_S128x128
/-- Bias 3 of layer 0, as one row. -/
def bk03 (a7 : FVec Ideal S2x4x128 .f32) : FVec Ideal S1x128 .f32 :=
  shapeCast S1x128 (shapeCast S128 (extractStridedSlice S1x1x128 ![0, 3, 0] a7 slices_S2x4x128_S1x1x128_0_3_0) shapeCasts_S1x1x128_S128) shapeCasts_S128_S1x128
/-- Weight 0 of layer 1: a 128 × 128 slice of the stacked weights. -/
def wk10 (a6 : FVec Ideal S2x4x128x128 .f32) : FVec Ideal S128x128 .f32 :=
  shapeCast S128x128 (extractStridedSlice S1x1x128x128 ![1, 0, 0, 0] a6 slices_S2x4x128x128_S1x1x128x128_1_0_0_0) shapeCasts_S1x1x128x128_S128x128
/-- Bias 0 of layer 1, as one row. -/
def bk10 (a7 : FVec Ideal S2x4x128 .f32) : FVec Ideal S1x128 .f32 :=
  shapeCast S1x128 (shapeCast S128 (extractStridedSlice S1x1x128 ![1, 0, 0] a7 slices_S2x4x128_S1x1x128_1_0_0) shapeCasts_S1x1x128_S128) shapeCasts_S128_S1x128
/-- Weight 1 of layer 1: a 128 × 128 slice of the stacked weights. -/
def wk11 (a6 : FVec Ideal S2x4x128x128 .f32) : FVec Ideal S128x128 .f32 :=
  shapeCast S128x128 (extractStridedSlice S1x1x128x128 ![1, 1, 0, 0] a6 slices_S2x4x128x128_S1x1x128x128_1_1_0_0) shapeCasts_S1x1x128x128_S128x128
/-- Bias 1 of layer 1, as one row. -/
def bk11 (a7 : FVec Ideal S2x4x128 .f32) : FVec Ideal S1x128 .f32 :=
  shapeCast S1x128 (shapeCast S128 (extractStridedSlice S1x1x128 ![1, 1, 0] a7 slices_S2x4x128_S1x1x128_1_1_0) shapeCasts_S1x1x128_S128) shapeCasts_S128_S1x128
/-- Weight 2 of layer 1: a 128 × 128 slice of the stacked weights. -/
def wk12 (a6 : FVec Ideal S2x4x128x128 .f32) : FVec Ideal S128x128 .f32 :=
  shapeCast S128x128 (extractStridedSlice S1x1x128x128 ![1, 2, 0, 0] a6 slices_S2x4x128x128_S1x1x128x128_1_2_0_0) shapeCasts_S1x1x128x128_S128x128
/-- Bias 2 of layer 1, as one row. -/
def bk12 (a7 : FVec Ideal S2x4x128 .f32) : FVec Ideal S1x128 .f32 :=
  shapeCast S1x128 (shapeCast S128 (extractStridedSlice S1x1x128 ![1, 2, 0] a7 slices_S2x4x128_S1x1x128_1_2_0) shapeCasts_S1x1x128_S128) shapeCasts_S128_S1x128
/-- Weight 3 of layer 1: a 128 × 128 slice of the stacked weights. -/
def wk13 (a6 : FVec Ideal S2x4x128x128 .f32) : FVec Ideal S128x128 .f32 :=
  shapeCast S128x128 (extractStridedSlice S1x1x128x128 ![1, 3, 0, 0] a6 slices_S2x4x128x128_S1x1x128x128_1_3_0_0) shapeCasts_S1x1x128x128_S128x128
/-- Bias 3 of layer 1, as one row. -/
def bk13 (a7 : FVec Ideal S2x4x128 .f32) : FVec Ideal S1x128 .f32 :=
  shapeCast S1x128 (shapeCast S128 (extractStridedSlice S1x1x128 ![1, 3, 0] a7 slices_S2x4x128_S1x1x128_1_3_0) shapeCasts_S1x1x128_S128) shapeCasts_S128_S1x128
/-- Layer 0's union weight on the user side, rows 0 … 127 (they meet the second hop). -/
def uk00t (a8 : FVec Ideal S2x2x256x128 .f32) : FVec Ideal S128x128 .f32 :=
  shapeCast S128x128 (extractStridedSlice S1x1x128x128 ![0, 0, 0, 0] a8 slices_S2x2x256x128_S1x1x128x128_0_0_0_0) shapeCasts_S1x1x128x128_S128x128
/-- Layer 0's union weight on the user side, rows 128 … 255 (they meet the layer's input). -/
def uk00b (a8 : FVec Ideal S2x2x256x128 .f32) : FVec Ideal S128x128 .f32 :=
  shapeCast S128x128 (extractStridedSlice S1x1x128x128 ![0, 0, 128, 0] a8 slices_S2x2x256x128_S1x1x128x128_0_0_128_0) shapeCasts_S1x1x128x128_S128x128
/-- Layer 0's union bias on the user side, as one row. -/
def ck00 (a9 : FVec Ideal S2x2x128 .f32) : FVec Ideal S1x128 .f32 :=
  shapeCast S1x128 (shapeCast S128 (extractStridedSlice S1x1x128 ![0, 0, 0] a9 slices_S2x2x128_S1x1x128_0_0_0) shapeCasts_S1x1x128_S128) shapeCasts_S128_S1x128
/-- Layer 0's union weight on the item side, rows 0 … 127 (they meet the second hop). -/
def uk01t (a8 : FVec Ideal S2x2x256x128 .f32) : FVec Ideal S128x128 .f32 :=
  shapeCast S128x128 (extractStridedSlice S1x1x128x128 ![0, 1, 0, 0] a8 slices_S2x2x256x128_S1x1x128x128_0_1_0_0) shapeCasts_S1x1x128x128_S128x128
/-- Layer 0's union weight on the item side, rows 128 … 255 (they meet the layer's input). -/
def uk01b (a8 : FVec Ideal S2x2x256x128 .f32) : FVec Ideal S128x128 .f32 :=
  shapeCast S128x128 (extractStridedSlice S1x1x128x128 ![0, 1, 128, 0] a8 slices_S2x2x256x128_S1x1x128x128_0_1_128_0) shapeCasts_S1x1x128x128_S128x128
/-- Layer 0's union bias on the item side, as one row. -/
def ck01 (a9 : FVec Ideal S2x2x128 .f32) : FVec Ideal S1x128 .f32 :=
  shapeCast S1x128 (shapeCast S128 (extractStridedSlice S1x1x128 ![0, 1, 0] a9 slices_S2x2x128_S1x1x128_0_1_0) shapeCasts_S1x1x128_S128) shapeCasts_S128_S1x128
/-- Layer 1's union weight on the user side, rows 0 … 127 (they meet the second hop). -/
def uk10t (a8 : FVec Ideal S2x2x256x128 .f32) : FVec Ideal S128x128 .f32 :=
  shapeCast S128x128 (extractStridedSlice S1x1x128x128 ![1, 0, 0, 0] a8 slices_S2x2x256x128_S1x1x128x128_1_0_0_0) shapeCasts_S1x1x128x128_S128x128
/-- Layer 1's union weight on the user side, rows 128 … 255 (they meet the layer's input). -/
def uk10b (a8 : FVec Ideal S2x2x256x128 .f32) : FVec Ideal S128x128 .f32 :=
  shapeCast S128x128 (extractStridedSlice S1x1x128x128 ![1, 0, 128, 0] a8 slices_S2x2x256x128_S1x1x128x128_1_0_128_0) shapeCasts_S1x1x128x128_S128x128
/-- Layer 1's union bias on the user side, as one row. -/
def ck10 (a9 : FVec Ideal S2x2x128 .f32) : FVec Ideal S1x128 .f32 :=
  shapeCast S1x128 (shapeCast S128 (extractStridedSlice S1x1x128 ![1, 0, 0] a9 slices_S2x2x128_S1x1x128_1_0_0) shapeCasts_S1x1x128_S128) shapeCasts_S128_S1x128
/-- Layer 1's union weight on the item side, rows 0 … 127 (they meet the second hop). -/
def uk11t (a8 : FVec Ideal S2x2x256x128 .f32) : FVec Ideal S128x128 .f32 :=
  shapeCast S128x128 (extractStridedSlice S1x1x128x128 ![1, 1, 0, 0] a8 slices_S2x2x256x128_S1x1x128x128_1_1_0_0) shapeCasts_S1x1x128x128_S128x128
/-- Layer 1's union weight on the item side, rows 128 … 255 (they meet the layer's input). -/
def uk11b (a8 : FVec Ideal S2x2x256x128 .f32) : FVec Ideal S128x128 .f32 :=
  shapeCast S128x128 (extractStridedSlice S1x1x128x128 ![1, 1, 128, 0] a8 slices_S2x2x256x128_S1x1x128x128_1_1_128_0) shapeCasts_S1x1x128x128_S128x128
/-- Layer 1's union bias on the item side, as one row. -/
def ck11 (a9 : FVec Ideal S2x2x128 .f32) : FVec Ideal S1x128 .f32 :=
  shapeCast S1x128 (shapeCast S128 (extractStridedSlice S1x1x128 ![1, 1, 0] a9 slices_S2x2x128_S1x1x128_1_1_0) shapeCasts_S1x1x128_S128) shapeCasts_S128_S1x128

/-- The two halves of a result side by side: 256 features per row. -/
def catU (x y : FVec Ideal S60000x128 .f32) : FVec Ideal S60000x256 .f32 :=
  concatenate S60000x256 1 [⟨S60000x128, x⟩, ⟨S60000x128, y⟩] concatenates_S60000x128_S60000x128_S60000x256_d1
def catI (x y : FVec Ideal S40000x128 .f32) : FVec Ideal S40000x256 .f32 :=
  concatenate S40000x256 1 [⟨S40000x128, x⟩, ⟨S40000x128, y⟩] concatenates_S40000x128_S40000x128_S40000x256_d1

end Cert.KernelIdeal.KRun

end
-- ==== Proof.KWalkHost.lean ====
/- What each stretch of host operations leaves in the buffers the regions read, as the named ingredients applied to the
   contents the stretch finds: a sparse product of a region's output, or a slice of the stacked weights or biases. -/
import proofs.«150895_j60593398612496_1_alg».proof.Proof.Gen.KernelIdeal.Launch
import proofs.«150895_j60593398612496_1_alg».proof.Proof.KTerms

set_option maxRecDepth 16384

noncomputable section

namespace Cert.KernelIdeal.KRun

open Idealize.ShloMosaic Idealize.ShloMosaic.TcCoe Idealize.ShloMosaic.StableHlo
open Idealize.SL Idealize.SL.Sem
open Cert.KernelIdeal.Gen

variable (V : Valuation τ sig (Elt Ideal))

set_option maxHeartbeats 1000000 in
theorem host1_spmm : StableHlo.after hostOps1 V (Proc.devRef .tc main_v15) = sIk (V (Proc.devRef .tc main_arg2)) (V (Proc.devRef .tc main_arg3)) (V (Proc.devRef .tc main_arg5)) (V (Proc.devRef .tc main_v2)) := by
  after_results_simp; rfl
theorem host1_bias : StableHlo.after hostOps1 V (Proc.devRef .tc main_v18) = bk00 (V (Proc.devRef .tc main_arg7)) := by
  after_results_simp; rfl
set_option maxHeartbeats 1000000 in
theorem host3_spmm : StableHlo.after hostOps3 V (Proc.devRef .tc main_v35) = sUk (V (Proc.devRef .tc main_arg2)) (V (Proc.devRef .tc main_arg3)) (V (Proc.devRef .tc main_arg4)) (V (Proc.devRef .tc main_v22)) := by
  after_results_simp; rfl
theorem host3_bias : StableHlo.after hostOps3 V (Proc.devRef .tc main_v38) = bk01 (V (Proc.devRef .tc main_arg7)) := by
  after_results_simp; rfl
set_option maxHeartbeats 1000000 in
theorem host5_spmm : StableHlo.after hostOps5 V (Proc.devRef .tc main_v55) = sUk (V (Proc.devRef .tc main_arg2)) (V (Proc.devRef .tc main_arg3)) (V (Proc.devRef .tc main_arg4)) (V (Proc.devRef .tc main_v42)) := by
  after_results_simp; rfl
theorem host5_bias : StableHlo.after hostOps5 V (Proc.devRef .tc main_v58) = bk02 (V (Proc.devRef .tc main_arg7)) := by
  after_results_simp; rfl
set_option maxHeartbeats 1000000 in
theorem host7_spmm : StableHlo.after hostOps7 V (Proc.devRef .tc main_v75) = sIk (V (Proc.devRef .tc main_arg2)) (V (Proc.devRef .tc main_arg3)) (V (Proc.devRef .tc main_arg5)) (V (Proc.devRef .tc main_v62)) := by
  after_results_simp; rfl
theorem host7_bias : StableHlo.after hostOps7 V (Proc.devRef .tc main_v78) = bk03 (V (Proc.devRef .tc main_arg7)) := by
  after_results_simp; rfl
set_option maxHeartbeats 1000000 in
theorem host11_spmm : StableHlo.after hostOps11 V (Proc.devRef .tc main_v111) = sIk (V (Proc.devRef .tc main_arg2)) (V (Proc.devRef .tc main_arg3)) (V (Proc.devRef .tc main_arg5)) (V (Proc.devRef .tc main_v98)) := by
  after_results_simp; rfl
theorem host11_bias : StableHlo.after hostOps11 V (Proc.devRef .tc main_v114) = bk10 (V (Proc.devRef .tc main_arg7)) := by
  after_results_simp; rfl
set_option maxHeartbeats 1000000 in
theorem host13_spmm : StableHlo.after hostOps13 V (Proc.devRef .tc main_v131) = sUk (V (Proc.devRef .tc main_arg2)) (V (Proc.devRef .tc main_arg3)) (V (Proc.devRef .tc main_arg4)) (V (Proc.devRef .tc main_v118)) := by
  after_results_simp; rfl
theorem host13_bias : StableHlo.after hostOps13 V (Proc.devRef .tc main_v134) = bk11 (V (Proc.devRef .tc main_arg7)) := by
  after_results_simp; rfl
set_option maxHeartbeats 1000000 in
theorem host15_spmm : StableHlo.after hostOps15 V (Proc.devRef .tc main_v151) = sUk (V (Proc.devRef .tc main_arg2)) (V (Proc.devRef .tc main_arg3)) (V (Proc.devRef .tc main_arg4)) (V (Proc.devRef .tc main_v138)) := by
  after_results_simp; rfl
theorem host15_bias : StableHlo.after hostOps15 V (Proc.devRef .tc main_v154) = bk12 (V (Proc.devRef .tc main_arg7)) := by
  after_results_simp; rfl
set_option maxHeartbeats 1000000 in
theorem host17_spmm : StableHlo.after hostOps17 V (Proc.devRef .tc main_v171) = sIk (V (Proc.devRef .tc main_arg2)) (V (Proc.devRef .tc main_arg3)) (V (Proc.devRef .tc main_arg5)) (V (Proc.devRef .tc main_v158)) := by
  after_results_simp; rfl
theorem host17_bias : StableHlo.after hostOps17 V (Proc.devRef .tc main_v174) = bk13 (V (Proc.devRef .tc main_arg7)) := by
  after_results_simp; rfl
theorem host0_w : StableHlo.after hostOps0 V (Proc.devRef .tc main_v1) = wk00 (V (Proc.devRef .tc main_arg6)) := by
  after_results_simp; rfl
theorem host2_w : StableHlo.after hostOps2 V (Proc.devRef .tc main_v21) = wk01 (V (Proc.devRef .tc main_arg6)) := by
  after_results_simp; rfl
theorem host4_w : StableHlo.after hostOps4 V (Proc.devRef .tc main_v41) = wk02 (V (Proc.devRef .tc main_arg6)) := by
  after_results_simp; rfl
theorem host6_w : StableHlo.after hostOps6 V (Proc.devRef .tc main_v61) = wk03 (V (Proc.devRef .tc main_arg6)) := by
  after_results_simp; rfl
theorem host10_w : StableHlo.after hostOps10 V (Proc.devRef .tc main_v97) = wk10 (V (Proc.devRef .tc main_arg6)) := by
  after_results_simp; rfl
theorem host12_w : StableHlo.after hostOps12 V (Proc.devRef .tc main_v117) = wk11 (V (Proc.devRef .tc main_arg6)) := by
  after_results_simp; rfl
theorem host14_w : StableHlo.after hostOps14 V (Proc.devRef .tc main_v137) = wk12 (V (Proc.devRef .tc main_arg6)) := by
  after_results_simp; rfl
theorem host16_w : StableHlo.after hostOps16 V (Proc.devRef .tc main_v157) = wk13 (V (Proc.devRef .tc main_arg6)) := by
  after_results_simp; rfl
theorem host8_ut : StableHlo.after hostOps8 V (Proc.devRef .tc main_v81) = uk00t (V (Proc.devRef .tc main_arg8)) := by
  after_results_simp; rfl
theorem host8_ub : StableHlo.after hostOps8 V (Proc.devRef .tc main_v83) = uk00b (V (Proc.devRef .tc main_arg8)) := by
  after_results_simp; rfl
theorem host8_c : StableHlo.after hostOps8 V (Proc.devRef .tc main_v86) = ck00 (V (Proc.devRef .tc main_arg9)) := by
  after_results_simp; rfl
theorem host9_ut : StableHlo.after hostOps9 V (Proc.devRef .tc main_v89) = uk01t (V (Proc.devRef .tc main_arg8)) := by
  after_results_simp; rfl
theorem host9_ub : StableHlo.after hostOps9 V (Proc.devRef .tc main_v91) = uk01b (V (Proc.devRef .tc main_arg8)) := by
  after_results_simp; rfl
theorem host9_c : StableHlo.after hostOps9 V (Proc.devRef .tc main_v94) = ck01 (V (Proc.devRef .tc main_arg9)) := by
  after_results_simp; rfl
theorem host18_ut : StableHlo.after hostOps18 V (Proc.devRef .tc main_v177) = uk10t (V (Proc.devRef .tc main_arg8)) := by
  after_results_simp; rfl
theorem host18_ub : StableHlo.after hostOps18 V (Proc.devRef .tc main_v179) = uk10b (V (Proc.devRef .tc main_arg8)) := by
  after_results_simp; rfl
theorem host18_c : StableHlo.after hostOps18 V (Proc.devRef .tc main_v182) = ck10 (V (Proc.devRef .tc main_arg9)) := by
  after_results_simp; rfl
theorem host19_ut : StableHlo.after hostOps19 V (Proc.devRef .tc main_v185) = uk11t (V (Proc.devRef .tc main_arg8)) := by
  after_results_simp; rfl
theorem host19_ub : StableHlo.after hostOps19 V (Proc.devRef .tc main_v187) = uk11b (V (Proc.devRef .tc main_arg8)) := by
  after_results_simp; rfl
theorem host19_c : StableHlo.after hostOps19 V (Proc.devRef .tc main_v190) = ck11 (V (Proc.devRef .tc main_arg9)) := by
  after_results_simp; rfl
theorem host20_u : StableHlo.after hostOps20 V (Proc.devRef .tc main_v192) = catU (V (Proc.devRef .tc main_v87)) (V (Proc.devRef .tc main_v183)) := by
  after_results_simp; rfl
theorem host20_i : StableHlo.after hostOps20 V (Proc.devRef .tc main_v193) = catI (V (Proc.devRef .tc main_v95)) (V (Proc.devRef .tc main_v191)) := by
  after_results_simp; rfl

end Cert.KernelIdeal.KRun

end
-- ==== Proof.RegPay.lean ====
/- The arithmetic of the three kinds of kernel body, read at one element of the output block, at the ideal values:
   a matrix product of a block of rows with a 128 × 128 weight; a bias added along rows followed by the leaky
   rectifier; the sum of two such products plus a bias, clipped below at zero. -/
import proofs.«150895_j60593398612496_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RegVal

open Idealize.ShloMosaic Idealize.ShloMosaic.ValueIdx
open Cert.KernelIdeal Cert.KernelIdeal.Gen

/-- The dimension numbers of every product here: rows × (128 contracted) times (128 contracted) × columns. -/
local notation "DD" => dot_S4000x128_S128x128_S4000x128_1_0_0_1_n_n

/-- The left operand's row is the output's row. -/
theorem lhs_row (i : S4000x128.Idx) (q : DotDims.contr DD |>.Idx) : (DotDims.lhsIdx DD i q 0).val = (i 0).val := by
  unfold DotDims.lhsIdx
  rw [dif_neg (show ¬(0 : Fin S4000x128.rank) ∈ DotDims.lhsBatch DD by decide),
    dif_pos (show (0 : Fin S4000x128.rank) ∈ DotDims.lhsNonContracting DD by decide)]
  rfl

/-- The left operand's column is the contracted coordinate. -/
theorem lhs_col (i : S4000x128.Idx) (q : DotDims.contr DD |>.Idx) : (DotDims.lhsIdx DD i q 1).val = (q ⟨0, by decide⟩).val :=
  DotDims.lhsIdx_val_of_single DD rfl i q

/-- The right operand's row is the contracted coordinate. -/
theorem rhs_row (i : S4000x128.Idx) (q : DotDims.contr DD |>.Idx) : (DotDims.rhsIdx DD i q 0).val = (q ⟨0, by decide⟩).val :=
  DotDims.rhsIdx_val_of_single DD rfl i q

/-- The right operand's column is the output's column. -/
theorem rhs_col (i : S4000x128.Idx) (q : DotDims.contr DD |>.Idx) : (DotDims.rhsIdx DD i q 1).val = (i 1).val := by
  unfold DotDims.rhsIdx
  rw [dif_neg (show ¬(1 : Fin S128x128.rank) ∈ DotDims.rhsBatch DD by decide),
    dif_pos (show (1 : Fin S128x128.rank) ∈ DotDims.rhsNonContracting DD by decide)]
  rfl

/-- The product into the zero accumulator, at row `r` and column `j`: the sum over the 128 contracted coordinates. -/
theorem mm_at (a : FVec Ideal S4000x128 .bf16) (w : FVec Ideal S128x128 .bf16) (r : Fin 4000) (j : Fin 128) :
    FloatOps.matmul DD none a w (constant (F := Ideal) S4000x128 .f32 0x00000000#32) (ix2 r j)
      = ∑ k : Fin 128, a (ix2 r k) * w (ix2 k j) := by
  rw [Ideal.matmul_constant_zero_apply, ← Equiv.sum_comp (contrEquiv1 DD 128 rfl rfl).symm]
  refine Finset.sum_congr rfl fun k _ => ?_
  have hk := contrEquiv1_symm_val DD 128 rfl rfl k
  have el : DotDims.lhsIdx DD (ix2 r j) ((contrEquiv1 DD 128 rfl rfl).symm k) = ix2 r k := funext fun a => Fin.ext (by
    match a with
    | ⟨0, _⟩ => exact lhs_row _ _
    | ⟨1, _⟩ => exact (lhs_col _ _).trans hk)
  have er : DotDims.rhsIdx DD (ix2 r j) ((contrEquiv1 DD 128 rfl rfl).symm k) = ix2 k j := funext fun a => Fin.ext (by
    match a with
    | ⟨0, _⟩ => exact (rhs_row _ _).trans hk
    | ⟨1, _⟩ => exact rhs_col _ _)
  rw [el, er]

/-- The matrix-product body at an element. -/
theorem pay_mm (x0 : Vec Ideal S4000x128 .f32) (x1 : Vec Ideal S128x128 .f32) (r : Fin 4000) (j : Fin 128) :
    k0_pay1 x0 x1 (ix2 r j) = ∑ k : Fin 128, x0 (ix2 r k) * x1 (ix2 k j) := by
  unfold k0_pay1
  simp only [shapeCast_self]
  exact mm_at _ _ r j

/-- The matrix-product body of each of the other product regions is the same arithmetic. -/
theorem pay_mm2 (x0 : Vec Ideal S4000x128 .f32) (x1 : Vec Ideal S128x128 .f32) (r : Fin 4000) (j : Fin 128) :
    k2_pay1 x0 x1 (ix2 r j) = ∑ k : Fin 128, x0 (ix2 r k) * x1 (ix2 k j) := by
  unfold k2_pay1
  simp only [shapeCast_self]
  exact mm_at _ _ r j

theorem pay_mm4 (x0 : Vec Ideal S4000x128 .f32) (x1 : Vec Ideal S128x128 .f32) (r : Fin 4000) (j : Fin 128) :
    k4_pay1 x0 x1 (ix2 r j) = ∑ k : Fin 128, x0 (ix2 r k) * x1 (ix2 k j) := by
  unfold k4_pay1
  simp only [shapeCast_self]
  exact mm_at _ _ r j

theorem pay_mm6 (x0 : Vec Ideal S4000x128 .f32) (x1 : Vec Ideal S128x128 .f32) (r : Fin 4000) (j : Fin 128) :
    k6_pay1 x0 x1 (ix2 r j) = ∑ k : Fin 128, x0 (ix2 r k) * x1 (ix2 k j) := by
  unfold k6_pay1
  simp only [shapeCast_self]
  exact mm_at _ _ r j

theorem pay_mm10 (x0 : Vec Ideal S4000x128 .f32) (x1 : Vec Ideal S128x128 .f32) (r : Fin 4000) (j : Fin 128) :
    k10_pay1 x0 x1 (ix2 r j) = ∑ k : Fin 128, x0 (ix2 r k) * x1 (ix2 k j) := by
  unfold k10_pay1
  simp only [shapeCast_self]
  exact mm_at _ _ r j

theorem pay_mm12 (x0 : Vec Ideal S4000x128 .f32) (x1 : Vec Ideal S128x128 .f32) (r : Fin 4000) (j : Fin 128) :
    k12_pay1 x0 x1 (ix2 r j) = ∑ k : Fin 128, x0 (ix2 r k) * x1 (ix2 k j) := by
  unfold k12_pay1
  simp only [shapeCast_self]
  exact mm_at _ _ r j

theorem pay_mm14 (x0 : Vec Ideal S4000x128 .f32) (x1 : Vec Ideal S128x128 .f32) (r : Fin 4000) (j : Fin 128) :
    k14_pay1 x0 x1 (ix2 r j) = ∑ k : Fin 128, x0 (ix2 r k) * x1 (ix2 k j) := by
  unfold k14_pay1
  simp only [shapeCast_self]
  exact mm_at _ _ r j

theorem pay_mm16 (x0 : Vec Ideal S4000x128 .f32) (x1 : Vec Ideal S128x128 .f32) (r : Fin 4000) (j : Fin 128) :
    k16_pay1 x0 x1 (ix2 r j) = ∑ k : Fin 128, x0 (ix2 r k) * x1 (ix2 k j) := by
  unfold k16_pay1
  simp only [shapeCast_self]
  exact mm_at _ _ r j

/-- A row of biases spread over the block's rows reads the bias of the element's column. -/
theorem bias_at (b : Vec Ideal S1x128 .f32) (r : Fin 4000) (j : Fin 128) :
    broadcastTo S4000x128 b broadcasts_S1x128_S4000x128 (ix2 r j) = b (ix2 0 j) :=
  broadcastTo_apply b _ (ix2 r j) (ix2 0 j) (fun a => by match a with | ⟨0, _⟩ => rfl | ⟨1, _⟩ => rfl)

/-- The leaky rectifier on one extended real: `y` where positive, `y` times the slope word's value elsewhere. -/
def leakyAt (y : EReal) : EReal := if 0 < y then y else y * Ideal.ofBits .f32 0x3E4CCCCD#32

/-- The body's compare-and-select is that rectifier. -/
theorem leaky_at (y : EReal) :
    Scalar.select (FloatOps.cmpf (F := Ideal) (φ := .f32) .ogt y (Scalar.ofBits (F := Ideal) .f32 0x00000000#32)) y
        (y * Scalar.ofBits (F := Ideal) .f32 0x3E4CCCCD#32) = leakyAt y := by
  unfold leakyAt
  show Scalar.select (BitVec.ofBool (decide (Ideal.ofBits .f32 0x00000000#32 < y))) y (y * Ideal.ofBits .f32 0x3E4CCCCD#32) = _
  rw [Ideal.ofBits_zero_f32]
  by_cases h : 0 < y
  · rw [if_pos h, decide_eq_true h]; exact select_one _ _
  · rw [if_neg h, decide_eq_false h]; exact select_zero _ _

/-- The bias-and-rectifier body at an element. -/
theorem pay_bl1 (x0 : Vec Ideal S4000x128 .f32) (x1 : Vec Ideal S1x128 .f32) (r : Fin 4000) (j : Fin 128) :
    k1_pay1 x0 x1 (ix2 r j) = leakyAt (x0 (ix2 r j) + x1 (ix2 0 j)) := by
  unfold k1_pay1
  simp only [shapeCast_self, select_apply, cmpf_apply, addf_apply, mulf_apply, broadcast_apply]
  rw [bias_at x1 r j]
  exact leaky_at _

theorem pay_bl3 (x0 : Vec Ideal S4000x128 .f32) (x1 : Vec Ideal S1x128 .f32) (r : Fin 4000) (j : Fin 128) :
    k3_pay1 x0 x1 (ix2 r j) = leakyAt (x0 (ix2 r j) + x1 (ix2 0 j)) := by
  unfold k3_pay1
  simp only [shapeCast_self, select_apply, cmpf_apply, addf_apply, mulf_apply, broadcast_apply]
  rw [bias_at x1 r j]
  exact leaky_at _

theorem pay_bl5 (x0 : Vec Ideal S4000x128 .f32) (x1 : Vec Ideal S1x128 .f32) (r : Fin 4000) (j : Fin 128) :
    k5_pay1 x0 x1 (ix2 r j) = leakyAt (x0 (ix2 r j) + x1 (ix2 0 j)) := by
  unfold k5_pay1
  simp only [shapeCast_self, select_apply, cmpf_apply, addf_apply, mulf_apply, broadcast_apply]
  rw [bias_at x1 r j]
  exact leaky_at _

theorem pay_bl7 (x0 : Vec Ideal S4000x128 .f32) (x1 : Vec Ideal S1x128 .f32) (r : Fin 4000) (j : Fin 128) :
    k7_pay1 x0 x1 (ix2 r j) = leakyAt (x0 (ix2 r j) + x1 (ix2 0 j)) := by
  unfold k7_pay1
  simp only [shapeCast_self, select_apply, cmpf_apply, addf_apply, mulf_apply, broadcast_apply]
  rw [bias_at x1 r j]
  exact leaky_at _

theorem pay_bl11 (x0 : Vec Ideal S4000x128 .f32) (x1 : Vec Ideal S1x128 .f32) (r : Fin 4000) (j : Fin 128) :
    k11_pay1 x0 x1 (ix2 r j) = leakyAt (x0 (ix2 r j) + x1 (ix2 0 j)) := by
  unfold k11_pay1
  simp only [shapeCast_self, select_apply, cmpf_apply, addf_apply, mulf_apply, broadcast_apply]
  rw [bias_at x1 r j]
  exact leaky_at _

theorem pay_bl13 (x0 : Vec Ideal S4000x128 .f32) (x1 : Vec Ideal S1x128 .f32) (r : Fin 4000) (j : Fin 128) :
    k13_pay1 x0 x1 (ix2 r j) = leakyAt (x0 (ix2 r j) + x1 (ix2 0 j)) := by
  unfold k13_pay1
  simp only [shapeCast_self, select_apply, cmpf_apply, addf_apply, mulf_apply, broadcast_apply]
  rw [bias_at x1 r j]
  exact leaky_at _

theorem pay_bl15 (x0 : Vec Ideal S4000x128 .f32) (x1 : Vec Ideal S1x128 .f32) (r : Fin 4000) (j : Fin 128) :
    k15_pay1 x0 x1 (ix2 r j) = leakyAt (x0 (ix2 r j) + x1 (ix2 0 j)) := by
  unfold k15_pay1
  simp only [shapeCast_self, select_apply, cmpf_apply, addf_apply, mulf_apply, broadcast_apply]
  rw [bias_at x1 r j]
  exact leaky_at _

theorem pay_bl17 (x0 : Vec Ideal S4000x128 .f32) (x1 : Vec Ideal S1x128 .f32) (r : Fin 4000) (j : Fin 128) :
    k17_pay1 x0 x1 (ix2 r j) = leakyAt (x0 (ix2 r j) + x1 (ix2 0 j)) := by
  unfold k17_pay1
  simp only [shapeCast_self, select_apply, cmpf_apply, addf_apply, mulf_apply, broadcast_apply]
  rw [bias_at x1 r j]
  exact leaky_at _

/-- The union body at an element: two products, the bias, clipped below at zero. -/
theorem pay_un8 (x0 x1 : Vec Ideal S4000x128 .f32) (x2 x3 : Vec Ideal S128x128 .f32) (x4 : Vec Ideal S1x128 .f32) (r : Fin 4000) (j : Fin 128) :
    k8_pay1 x0 x1 x2 x3 x4 (ix2 r j)
      = max ((∑ k : Fin 128, x0 (ix2 r k) * x2 (ix2 k j)) + (∑ k : Fin 128, x1 (ix2 r k) * x3 (ix2 k j)) + x4 (ix2 0 j)) 0 := by
  unfold k8_pay1
  simp only [shapeCast_self, maximumf_apply, addf_apply, broadcast_apply, mm_at, truncf_apply]
  rw [bias_at x4 r j]
  exact congrArg (max _) Ideal.ofBits_zero_f32

theorem pay_un9 (x0 x1 : Vec Ideal S4000x128 .f32) (x2 x3 : Vec Ideal S128x128 .f32) (x4 : Vec Ideal S1x128 .f32) (r : Fin 4000) (j : Fin 128) :
    k9_pay1 x0 x1 x2 x3 x4 (ix2 r j)
      = max ((∑ k : Fin 128, x0 (ix2 r k) * x2 (ix2 k j)) + (∑ k : Fin 128, x1 (ix2 r k) * x3 (ix2 k j)) + x4 (ix2 0 j)) 0 := by
  unfold k9_pay1
  simp only [shapeCast_self, maximumf_apply, addf_apply, broadcast_apply, mm_at, truncf_apply]
  rw [bias_at x4 r j]
  exact congrArg (max _) Ideal.ofBits_zero_f32

theorem pay_un18 (x0 x1 : Vec Ideal S4000x128 .f32) (x2 x3 : Vec Ideal S128x128 .f32) (x4 : Vec Ideal S1x128 .f32) (r : Fin 4000) (j : Fin 128) :
    k18_pay1 x0 x1 x2 x3 x4 (ix2 r j)
      = max ((∑ k : Fin 128, x0 (ix2 r k) * x2 (ix2 k j)) + (∑ k : Fin 128, x1 (ix2 r k) * x3 (ix2 k j)) + x4 (ix2 0 j)) 0 := by
  unfold k18_pay1
  simp only [shapeCast_self, maximumf_apply, addf_apply, broadcast_apply, mm_at, truncf_apply]
  rw [bias_at x4 r j]
  exact congrArg (max _) Ideal.ofBits_zero_f32

theorem pay_un19 (x0 x1 : Vec Ideal S4000x128 .f32) (x2 x3 : Vec Ideal S128x128 .f32) (x4 : Vec Ideal S1x128 .f32) (r : Fin 4000) (j : Fin 128) :
    k19_pay1 x0 x1 x2 x3 x4 (ix2 r j)
      = max ((∑ k : Fin 128, x0 (ix2 r k) * x2 (ix2 k j)) + (∑ k : Fin 128, x1 (ix2 r k) * x3 (ix2 k j)) + x4 (ix2 0 j)) 0 := by
  unfold k19_pay1
  simp only [shapeCast_self, maximumf_apply, addf_apply, broadcast_apply, mm_at, truncf_apply]
  rw [bias_at x4 r j]
  exact congrArg (max _) Ideal.ofBits_zero_f32

end Cert.KernelIdeal.RegVal

end
-- ==== Proof.RegMM.lean ====
/- The matrix-product regions 0, 2, 4, 6: each leaves, in its output array, the product of the rows array it finds
   with the 128 × 128 weight it finds — every point of the grid writes one block of 4000 rows of that product, and the
   blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzA : (![0, 0] : Fin 2 → Nat) = fun _ => 0 := funext fun a => by fin_cases a <;> rfl

/-- The printed index maps of region 0 over its grid: the rows block of the left operand and of the result move
    with the point, the weight is whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What point `t` of region 0 writes back is block `t` of the product of the two arrays the region finds. -/
theorem flushed0 (c : Dev nD) (t : Fin cfg0.N) :
    (dat0 (F := Ideal) V c).flushed 2 t = ((cfg0.win 2).blk t).view.read (Elt Ideal)
      (Cert.GCN.mmU (V c (Pipeline.arrRef spec0 0)) (V c (Pipeline.arrRef spec0 1))) := by
  show (cfg0.win 2).cut (grid0.coords t) ((dat0 V c).after 2 t) = _
  rw [after0_2]
  unfold out0_2
  rw [View.canon_unit_zero hzA]
  simp only [View.ld_unit_zero (S := S4000x128) hzA, View.ld_unit_zero (S := S128x128) hzA]
  obtain ⟨e0, e1, e2, e3, e4, e5⟩ := idx0 t
  funext y
  obtain ⟨r, j, rfl⟩ : ∃ (r : Fin 4000) (j : Fin 128), y = ix2 r j := ⟨y 0, y 1, eq_ix2 y⟩
  show k0_pay1 (iblk0 V c 0 t) (iblk0 V c 1 t) (ix2 r j)
    = Cert.GCN.mmU (V c (Pipeline.arrRef spec0 0)) (V c (Pipeline.arrRef spec0 1)) (((cfg0.win 2).blk t).view.emb (ix2 r j))
  refine (pay_mm (iblk0 V c 0 t) (iblk0 V c 1 t) r j).trans ?_
  unfold Cert.GCN.mmU
  refine Finset.sum_congr rfl fun k _ => ?_
  have h0 : iblk0 V c 0 t (ix2 r k)
      = V c (Pipeline.arrRef spec0 0) (ix2 (((cfg0.win 2).blk t).view.emb (ix2 r j) 0) k) := by
    show V c (Pipeline.arrRef spec0 0) (((cfg0.win 0).blk t).view.emb (ix2 r k)) = _
    refine congrArg _ (funext fun a => Fin.ext ?_)
    match a with
    | ⟨0, _⟩ => show win0_0.index t (0 : Fin 2) * 4000 + 1 * r.val = win0_2.index t (0 : Fin 2) * 4000 + 1 * r.val; omega
    | ⟨1, _⟩ => show win0_0.index t (1 : Fin 2) * 128 + 1 * k.val = k.val; omega
  have h1 : iblk0 V c 1 t (ix2 k j)
      = V c (Pipeline.arrRef spec0 1) (ix2 k (((cfg0.win 2).blk t).view.emb (ix2 r j) 1)) := by
    show V c (Pipeline.arrRef spec0 1) (((cfg0.win 1).blk t).view.emb (ix2 k j)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = win0_2.index t (1 : Fin 2) * 128 + 1 * j.val; omega
  rw [h0, h1]

/-- An index of the array is in point `t`'s block iff each coordinate is in the block's range on its axis. -/
theorem mem_blk0 (t : Fin cfg0.N) (i : S60000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v2).slice (win0_2.rect t)).set ↔ _
  rw [View.set_slice_whole, Rect.mem_set_unit]
  exact Iff.rfl

/-- Every row lies in the block of the point numbered by the row's quotient by 4000. -/
theorem cover0 (i : S60000x128.Idx) :
    ∃ t : Fin cfg0.N, (cfg0.win 2).flush t = true ∧ i ∈ ((cfg0.win 2).blk t).view.set := by
  have hi0 : (i 0).val < 60000 := (i 0).isLt
  have hi1 : (i 1).val < 128 := (i 1).isLt
  obtain ⟨t, ht⟩ : ∃ t : Fin cfg0.N, t.val = (i 0).val / 4000 :=
    ⟨⟨(i 0).val / 4000, by rw [show cfg0.N = 15 from N_0]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- Region 0 leaves the product in its output array. -/
theorem mm_final0 (c : Dev nD) :
    (dat0 (F := Ideal) V c).arrAt 2 cfg0.N
      = Cert.GCN.mmU (V c (Pipeline.arrRef spec0 0)) (V c (Pipeline.arrRef spec0 1)) :=
  (dat0 V c).arrAt_eq_of_cover 2 _ (fun t _ => flushed0 V c t) (cover0)

/-- The printed index maps of region 2 over its grid: the rows block of the left operand and of the result move
    with the point, the weight is whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 1000000 in
/-- What point `t` of region 2 writes back is block `t` of the product of the two arrays the region finds. -/
theorem flushed2 (c : Dev nD) (t : Fin cfg2.N) :
    (dat2 (F := Ideal) V c).flushed 2 t = ((cfg2.win 2).blk t).view.read (Elt Ideal)
      (Cert.GCN.mmI (V c (Pipeline.arrRef spec2 0)) (V c (Pipeline.arrRef spec2 1))) := by
  show (cfg2.win 2).cut (grid2.coords t) ((dat2 V c).after 2 t) = _
  rw [after2_2]
  unfold out2_2
  rw [View.canon_unit_zero hzA]
  simp only [View.ld_unit_zero (S := S4000x128) hzA, View.ld_unit_zero (S := S128x128) hzA]
  obtain ⟨e0, e1, e2, e3, e4, e5⟩ := idx2 t
  funext y
  obtain ⟨r, j, rfl⟩ : ∃ (r : Fin 4000) (j : Fin 128), y = ix2 r j := ⟨y 0, y 1, eq_ix2 y⟩
  show k2_pay1 (iblk2 V c 0 t) (iblk2 V c 1 t) (ix2 r j)
    = Cert.GCN.mmI (V c (Pipeline.arrRef spec2 0)) (V c (Pipeline.arrRef spec2 1)) (((cfg2.win 2).blk t).view.emb (ix2 r j))
  refine (pay_mm2 (iblk2 V c 0 t) (iblk2 V c 1 t) r j).trans ?_
  unfold Cert.GCN.mmI
  refine Finset.sum_congr rfl fun k _ => ?_
  have h0 : iblk2 V c 0 t (ix2 r k)
      = V c (Pipeline.arrRef spec2 0) (ix2 (((cfg2.win 2).blk t).view.emb (ix2 r j) 0) k) := by
    show V c (Pipeline.arrRef spec2 0) (((cfg2.win 0).blk t).view.emb (ix2 r k)) = _
    refine congrArg _ (funext fun a => Fin.ext ?_)
    match a with
    | ⟨0, _⟩ => show win2_0.index t (0 : Fin 2) * 4000 + 1 * r.val = win2_2.index t (0 : Fin 2) * 4000 + 1 * r.val; omega
    | ⟨1, _⟩ => show win2_0.index t (1 : Fin 2) * 128 + 1 * k.val = k.val; omega
  have h1 : iblk2 V c 1 t (ix2 k j)
      = V c (Pipeline.arrRef spec2 1) (ix2 k (((cfg2.win 2).blk t).view.emb (ix2 r j) 1)) := by
    show V c (Pipeline.arrRef spec2 1) (((cfg2.win 1).blk t).view.emb (ix2 k j)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * j.val = win2_2.index t (1 : Fin 2) * 128 + 1 * j.val; omega
  rw [h0, h1]

/-- An index of the array is in point `t`'s block iff each coordinate is in the block's range on its axis. -/
theorem mem_blk2 (t : Fin cfg2.N) (i : S40000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v22).slice (win2_2.rect t)).set ↔ _
  rw [View.set_slice_whole, Rect.mem_set_unit]
  exact Iff.rfl

/-- Every row lies in the block of the point numbered by the row's quotient by 4000. -/
theorem cover2 (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  obtain ⟨t, ht⟩ : ∃ t : Fin cfg2.N, t.val = (i 0).val / 4000 :=
    ⟨⟨(i 0).val / 4000, by rw [show cfg2.N = 10 from N_2]; omega⟩, rfl⟩
  obtain ⟨e0, e1, e2, e3, e4, e5⟩ := idx2 t
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- Region 2 leaves the product in its output array. -/
theorem mm_final2 (c : Dev nD) :
    (dat2 (F := Ideal) V c).arrAt 2 cfg2.N
      = Cert.GCN.mmI (V c (Pipeline.arrRef spec2 0)) (V c (Pipeline.arrRef spec2 1)) :=
  (dat2 V c).arrAt_eq_of_cover 2 _ (fun t _ => flushed2 V c t) (cover2)

/-- The printed index maps of region 4 over its grid: the rows block of the left operand and of the result move
    with the point, the weight is whole. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 1000000 in
/-- What point `t` of region 4 writes back is block `t` of the product of the two arrays the region finds. -/
theorem flushed4 (c : Dev nD) (t : Fin cfg4.N) :
    (dat4 (F := Ideal) V c).flushed 2 t = ((cfg4.win 2).blk t).view.read (Elt Ideal)
      (Cert.GCN.mmI (V c (Pipeline.arrRef spec4 0)) (V c (Pipeline.arrRef spec4 1))) := by
  show (cfg4.win 2).cut (grid4.coords t) ((dat4 V c).after 2 t) = _
  rw [after4_2]
  unfold out4_2
  rw [View.canon_unit_zero hzA]
  simp only [View.ld_unit_zero (S := S4000x128) hzA, View.ld_unit_zero (S := S128x128) hzA]
  obtain ⟨e0, e1, e2, e3, e4, e5⟩ := idx4 t
  funext y
  obtain ⟨r, j, rfl⟩ : ∃ (r : Fin 4000) (j : Fin 128), y = ix2 r j := ⟨y 0, y 1, eq_ix2 y⟩
  show k4_pay1 (iblk4 V c 0 t) (iblk4 V c 1 t) (ix2 r j)
    = Cert.GCN.mmI (V c (Pipeline.arrRef spec4 0)) (V c (Pipeline.arrRef spec4 1)) (((cfg4.win 2).blk t).view.emb (ix2 r j))
  refine (pay_mm4 (iblk4 V c 0 t) (iblk4 V c 1 t) r j).trans ?_
  unfold Cert.GCN.mmI
  refine Finset.sum_congr rfl fun k _ => ?_
  have h0 : iblk4 V c 0 t (ix2 r k)
      = V c (Pipeline.arrRef spec4 0) (ix2 (((cfg4.win 2).blk t).view.emb (ix2 r j) 0) k) := by
    show V c (Pipeline.arrRef spec4 0) (((cfg4.win 0).blk t).view.emb (ix2 r k)) = _
    refine congrArg _ (funext fun a => Fin.ext ?_)
    match a with
    | ⟨0, _⟩ => show win4_0.index t (0 : Fin 2) * 4000 + 1 * r.val = win4_2.index t (0 : Fin 2) * 4000 + 1 * r.val; omega
    | ⟨1, _⟩ => show win4_0.index t (1 : Fin 2) * 128 + 1 * k.val = k.val; omega
  have h1 : iblk4 V c 1 t (ix2 k j)
      = V c (Pipeline.arrRef spec4 1) (ix2 k (((cfg4.win 2).blk t).view.emb (ix2 r j) 1)) := by
    show V c (Pipeline.arrRef spec4 1) (((cfg4.win 1).blk t).view.emb (ix2 k j)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * j.val = win4_2.index t (1 : Fin 2) * 128 + 1 * j.val; omega
  rw [h0, h1]

/-- An index of the array is in point `t`'s block iff each coordinate is in the block's range on its axis. -/
theorem mem_blk4 (t : Fin cfg4.N) (i : S40000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole main_v42).slice (win4_2.rect t)).set ↔ _
  rw [View.set_slice_whole, Rect.mem_set_unit]
  exact Iff.rfl

/-- Every row lies in the block of the point numbered by the row's quotient by 4000. -/
theorem cover4 (i : S40000x128.Idx) :
    ∃ t : Fin cfg4.N, (cfg4.win 2).flush t = true ∧ i ∈ ((cfg4.win 2).blk t).view.set := by
  have hi0 : (i 0).val < 40000 := (i 0).isLt
  have hi1 : (i 1).val < 128 := (i 1).isLt
  obtain ⟨t, ht⟩ : ∃ t : Fin cfg4.N, t.val = (i 0).val / 4000 :=
    ⟨⟨(i 0).val / 4000, by rw [show cfg4.N = 10 from N_4]; omega⟩, rfl⟩
  obtain ⟨e0, e1, e2, e3, e4, e5⟩ := idx4 t
  refine ⟨t, flush4_2 t, ?_⟩
  rw [mem_blk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- Region 4 leaves the product in its output array. -/
theorem mm_final4 (c : Dev nD) :
    (dat4 (F := Ideal) V c).arrAt 2 cfg4.N
      = Cert.GCN.mmI (V c (Pipeline.arrRef spec4 0)) (V c (Pipeline.arrRef spec4 1)) :=
  (dat4 V c).arrAt_eq_of_cover 2 _ (fun t _ => flushed4 V c t) (cover4)

/-- The printed index maps of region 6 over its grid: the rows block of the left operand and of the result move
    with the point, the weight is whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in
/-- What point `t` of region 6 writes back is block `t` of the product of the two arrays the region finds. -/
theorem flushed6 (c : Dev nD) (t : Fin cfg6.N) :
    (dat6 (F := Ideal) V c).flushed 2 t = ((cfg6.win 2).blk t).view.read (Elt Ideal)
      (Cert.GCN.mmU (V c (Pipeline.arrRef spec6 0)) (V c (Pipeline.arrRef spec6 1))) := by
  show (cfg6.win 2).cut (grid6.coords t) ((dat6 V c).after 2 t) = _
  rw [after6_2]
  unfold out6_2
  rw [View.canon_unit_zero hzA]
  simp only [View.ld_unit_zero (S := S4000x128) hzA, View.ld_unit_zero (S := S128x128) hzA]
  obtain ⟨e0, e1, e2, e3, e4, e5⟩ := idx6 t
  funext y
  obtain ⟨r, j, rfl⟩ : ∃ (r : Fin 4000) (j : Fin 128), y = ix2 r j := ⟨y 0, y 1, eq_ix2 y⟩
  show k6_pay1 (iblk6 V c 0 t) (iblk6 V c 1 t) (ix2 r j)
    = Cert.GCN.mmU (V c (Pipeline.arrRef spec6 0)) (V c (Pipeline.arrRef spec6 1)) (((cfg6.win 2).blk t).view.emb (ix2 r j))
  refine (pay_mm6 (iblk6 V c 0 t) (iblk6 V c 1 t) r j).trans ?_
  unfold Cert.GCN.mmU
  refine Finset.sum_congr rfl fun k _ => ?_
  have h0 : iblk6 V c 0 t (ix2 r k)
      = V c (Pipeline.arrRef spec6 0) (ix2 (((cfg6.win 2).blk t).view.emb (ix2 r j) 0) k) := by
    show V c (Pipeline.arrRef spec6 0) (((cfg6.win 0).blk t).view.emb (ix2 r k)) = _
    refine congrArg _ (funext fun a => Fin.ext ?_)
    match a with
    | ⟨0, _⟩ => show win6_0.index t (0 : Fin 2) * 4000 + 1 * r.val = win6_2.index t (0 : Fin 2) * 4000 + 1 * r.val; omega
    | ⟨1, _⟩ => show win6_0.index t (1 : Fin 2) * 128 + 1 * k.val = k.val; omega
  have h1 : iblk6 V c 1 t (ix2 k j)
      = V c (Pipeline.arrRef spec6 1) (ix2 k (((cfg6.win 2).blk t).view.emb (ix2 r j) 1)) := by
    show V c (Pipeline.arrRef spec6 1) (((cfg6.win 1).blk t).view.emb (ix2 k j)) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * j.val = win6_2.index t (1 : Fin 2) * 128 + 1 * j.val; omega
  rw [h0, h1]

/-- An index of the array is in point `t`'s block iff each coordinate is in the block's range on its axis. -/
theorem mem_blk6 (t : Fin cfg6.N) (i : S60000x128.Idx) :
    i ∈ ((cfg6.win 2).blk t).view.set ↔ ∀ a : Fin 2, win6_2.index t a * S4000x128.size a ≤ (i a).val
      ∧ (i a).val < win6_2.index t a * S4000x128.size a + S4000x128.size a := by
  show i ∈ ((View.whole main_v62).slice (win6_2.rect t)).set ↔ _
  rw [View.set_slice_whole, Rect.mem_set_unit]
  exact Iff.rfl

/-- Every row lies in the block of the point numbered by the row's quotient by 4000. -/
theorem cover6 (i : S60000x128.Idx) :
    ∃ t : Fin cfg6.N, (cfg6.win 2).flush t = true ∧ i ∈ ((cfg6.win 2).blk t).view.set := by
  have hi0 : (i 0).val < 60000 := (i 0).isLt
  have hi1 : (i 1).val < 128 := (i 1).isLt
  obtain ⟨t, ht⟩ : ∃ t : Fin cfg6.N, t.val = (i 0).val / 4000 :=
    ⟨⟨(i 0).val / 4000, by rw [show cfg6.N = 15 from N_6]; omega⟩, rfl⟩
  obtain ⟨e0, e1, e2, e3, e4, e5⟩ := idx6 t
  refine ⟨t, flush6_2 t, ?_⟩
  rw [mem_blk6]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 128 ≤ (i 1).val ∧ (i 1).val < win6_2.index t (1 : Fin 2) * 128 + 128; omega

/-- Region 6 leaves the product in its output array. -/
theorem mm_final6 (c : Dev nD) :
    (dat6 (F := Ideal) V c).arrAt 2 cfg6.N
      = Cert.GCN.mmU (V c (Pipeline.arrRef spec6 0)) (V c (Pipeline.arrRef spec6 1)) :=
  (dat6 V c).arrAt_eq_of_cover 2 _ (fun t _ => flushed6 V c t) (cover6)

end Cert.KernelIdeal.RegVal

end
-- ==== Proof.RegMM2.lean ====
/- The matrix-product regions 10, 12, 14, 16: each leaves, in its output array, the product of the rows array it finds
   with the 128 × 128 weight it finds — every point of the grid writes one block of 4000 rows of that product, and the
   blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzB : (![0, 0] : Fin 2 → Nat) = fun _ => 0 := funext fun a => by fin_cases a <;> rfl

/-- The printed index maps of region 10 over its grid: the rows block of the left operand and of the result move
    with the point, the weight is whole. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

set_option maxHeartbeats 1000000 in
/-- What point `t` of region 10 writes back is block `t` of the product of the two arrays the region finds. -/
theorem flushed10 (c : Dev nD) (t : Fin cfg10.N) :
    (dat10 (F := Ideal) V c).flushed 2 t = ((cfg10.win 2).blk t).view.read (Elt Ideal)
      (Cert.GCN.mmU (V c (Pipeline.arrRef spec10 0)) (V c (Pipeline.arrRef spec10 1))) := by
  show (cfg10.win 2).cut (grid10.coords t) ((dat10 V c).after 2 t) = _
  rw [after10_2]
  unfold out10_2
  rw [View.canon_unit_zero hzB]
  simp only [View.ld_unit_zero (S := S4000x128) hzB, View.ld_unit_zero (S := S128x128) hzB]
  obtain ⟨e0, e1, e2, e3, e4, e5⟩ := idx10 t
  funext y
  obtain ⟨r, j, rfl⟩ : ∃ (r : Fin 4000) (j : Fin 128), y = ix2 r j := ⟨y 0, y 1, eq_ix2 y⟩
  show k10_pay1 (iblk10 V c 0 t) (iblk10 V c 1 t) (ix2 r j)
    = Cert.GCN.mmU (V c (Pipeline.arrRef spec10 0)) (V c (Pipeline.arrRef spec10 1)) (((cfg10.win 2).blk t).view.emb (ix2 r j))
  refine (pay_mm10 (iblk10 V c 0 t) (iblk10 V c 1 t) r j).trans ?_
  unfold Cert.GCN.mmU
  refine Finset.sum_congr rfl fun k _ => ?_
  have h0 : iblk10 V c 0 t (ix2 r k)
      = V c (Pipeline.arrRef spec10 0) (ix2 (((cfg10.win 2).blk t).view.emb (ix2 r j) 0) k) := by
    show V c (Pipeline.arrRef spec10 0) (((cfg10.win 0).blk t).view.emb (ix2 r k)) = _
    refine congrArg _ (funext fun a => Fin.ext ?_)
    match a with
    | ⟨0, _⟩ => show win10_0.index t (0 : Fin 2) * 4000 + 1 * r.val = win10_2.index t (0 : Fin 2) * 4000 + 1 * r.val; omega
    | ⟨1, _⟩ => show win10_0.index t (1 : Fin 2) * 128 + 1 * k.val = k.val; omega
  have h1 : iblk10 V c 1 t (ix2 k j)
      = V c (Pipeline.arrRef spec10 1) (ix2 k (((cfg10.win 2).blk t).view.emb (ix2 r j) 1)) := by
    show V c (Pipeline.arrRef spec10 1) (((cfg10.win 1).blk t).view.emb (ix2 k j)) = _
    refine congrArg _ (funext fun a => Fin.ext ?_)
    match a with
    | ⟨0, _⟩ => show win10_1.index t (0 : Fin 2) * 128 + 1 * k.val = k.val; omega
    | ⟨1, _⟩ => show win10_1.index t (1 : Fin 2) * 128 + 1 * j.val = win10_2.index t (1 : Fin 2) * 128 + 1 * j.val; omega
  rw [h0, h1]

/-- An index of the array is in point `t`'s block iff each coordinate is in the block's range on its axis. -/
theorem mem_blk10 (t : Fin cfg10.N) (i : S60000x128.Idx) :
    i ∈ ((cfg10.win 2).blk t).view.set ↔ ∀ a : Fin 2, win10_2.index t a * S4000x128.size a ≤ (i a).val
      ∧ (i a).val < win10_2.index t a * S4000x128.size a + S4000x128.size a := by
  show i ∈ ((View.whole main_v98).slice (win10_2.rect t)).set ↔ _
  rw [View.set_slice_whole, Rect.mem_set_unit]
  exact Iff.rfl

/-- Every row lies in the block of the point numbered by the row's quotient by 4000. -/
theorem cover10 (i : S60000x128.Idx) :
    ∃ t : Fin cfg10.N, (cfg10.win 2).flush t = true ∧ i ∈ ((cfg10.win 2).blk t).view.set := by
  have hi0 : (i 0).val < 60000 := (i 0).isLt
  have hi1 : (i 1).val < 128 := (i 1).isLt
  obtain ⟨t, ht⟩ : ∃ t : Fin cfg10.N, t.val = (i 0).val / 4000 :=
    ⟨⟨(i 0).val / 4000, by rw [show cfg10.N = 15 from N_10]; omega⟩, rfl⟩
  obtain ⟨e0, e1, e2, e3, e4, e5⟩ := idx10 t
  refine ⟨t, flush10_2 t, ?_⟩
  rw [mem_blk10]
  intro a
  match a with
  | ⟨0, _⟩ => show win10_2.index t (0 : Fin 2) * 4000 ≤ (i 0).val ∧ (i 0).val < win10_2.index t (0 : Fin 2) * 4000 + 4000; omega
  | ⟨1, _⟩ => show win10_2.index t (1 : Fin 2) * 128 ≤ (i 1).val ∧ (i 1).val < win10_2.index t (1 : Fin 2) * 128 + 128; omega

/-- Region 10 leaves the product in its output array. -/
theorem mm_final10 (c : Dev nD) :
    (dat10 (F := Ideal) V c).arrAt 2 cfg10.N
      = Cert.GCN.mmU (V c (Pipeline.arrRef spec10 0)) (V c (Pipeline.arrRef spec10 1)) :=
  (dat10 V c).arrAt_eq_of_cover 2 _ (fun t _ => flushed10 V c t) (cover10)

/-- The printed index maps of region 12 over its grid: the rows block of the left operand and of the result move
    with the point, the weight is whole. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

set_option maxHeartbeats 1000000 in
/-- What point `t` of region 12 writes back is block `t` of the product of the two arrays the region finds. -/
theorem flushed12 (c : Dev nD) (t : Fin cfg12.N) :
    (dat12 (F := Ideal) V c).flushed 2 t = ((cfg12.win 2).blk t).view.read (Elt Ideal)
      (Cert.GCN.mmI (V c (Pipeline.arrRef spec12 0)) (V c (Pipeline.arrRef spec12 1))) := by
  show (cfg12.win 2).cut (grid12.coords t) ((dat12 V c).after 2 t) = _
  rw [after12_2]
  unfold out12_2
  rw [View.canon_unit_zero hzB]
  simp only [View.ld_unit_zero (S := S4000x128) hzB, View.ld_unit_zero (S := S128x128) hzB]
  obtain ⟨e0, e1, e2, e3, e4, e5⟩ := idx12 t
  funext y
  obtain ⟨r, j, rfl⟩ : ∃ (r : Fin 4000) (j : Fin 128), y = ix2 r j := ⟨y 0, y 1, eq_ix2 y⟩
  show k12_pay1 (iblk12 V c 0 t) (iblk12 V c 1 t) (ix2 r j)
    = Cert.GCN.mmI (V c (Pipeline.arrRef spec12 0)) (V c (Pipeline.arrRef spec12 1)) (((cfg12.win 2).blk t).view.emb (ix2 r j))
  refine (pay_mm12 (iblk12 V c 0 t) (iblk12 V c 1 t) r j).trans ?_
  unfold Cert.GCN.mmI
  refine Finset.sum_congr rfl fun k _ => ?_
  have h0 : iblk12 V c 0 t (ix2 r k)
      = V c (Pipeline.arrRef spec12 0) (ix2 (((cfg12.win 2).blk t).view.emb (ix2 r j) 0) k) := by
    show V c (Pipeline.arrRef spec12 0) (((cfg12.win 0).blk t).view.emb (ix2 r k)) = _
    refine congrArg _ (funext fun a => Fin.ext ?_)
    match a with
    | ⟨0, _⟩ => show win12_0.index t (0 : Fin 2) * 4000 + 1 * r.val = win12_2.index t (0 : Fin 2) * 4000 + 1 * r.val; omega
    | ⟨1, _⟩ => show win12_0.index t (1 : Fin 2) * 128 + 1 * k.val = k.val; omega
  have h1 : iblk12 V c 1 t (ix2 k j)
      = V c (Pipeline.arrRef spec12 1) (ix2 k (((cfg12.win 2).blk t).view.emb (ix2 r j) 1)) := by
    show V c (Pipeline.arrRef spec12 1) (((cfg12.win 1).blk t).view.emb (ix2 k j)) = _
    refine congrArg _ (funext fun a => Fin.ext ?_)
    match a with
    | ⟨0, _⟩ => show win12_1.index t (0 : Fin 2) * 128 + 1 * k.val = k.val; omega
    | ⟨1, _⟩ => show win12_1.index t (1 : Fin 2) * 128 + 1 * j.val = win12_2.index t (1 : Fin 2) * 128 + 1 * j.val; omega
  rw [h0, h1]

/-- An index of the array is in point `t`'s block iff each coordinate is in the block's range on its axis. -/
theorem mem_blk12 (t : Fin cfg12.N) (i : S40000x128.Idx) :
    i ∈ ((cfg12.win 2).blk t).view.set ↔ ∀ a : Fin 2, win12_2.index t a * S4000x128.size a ≤ (i a).val
      ∧ (i a).val < win12_2.index t a * S4000x128.size a + S4000x128.size a := by
  show i ∈ ((View.whole main_v118).slice (win12_2.rect t)).set ↔ _
  rw [View.set_slice_whole, Rect.mem_set_unit]
  exact Iff.rfl

/-- Every row lies in the block of the point numbered by the row's quotient by 4000. -/
theorem cover12 (i : S40000x128.Idx) :
    ∃ t : Fin cfg12.N, (cfg12.win 2).flush t = true ∧ i ∈ ((cfg12.win 2).blk t).view.set := by
  have hi0 : (i 0).val < 40000 := (i 0).isLt
  have hi1 : (i 1).val < 128 := (i 1).isLt
  obtain ⟨t, ht⟩ : ∃ t : Fin cfg12.N, t.val = (i 0).val / 4000 :=
    ⟨⟨(i 0).val / 4000, by rw [show cfg12.N = 10 from N_12]; omega⟩, rfl⟩
  obtain ⟨e0, e1, e2, e3, e4, e5⟩ := idx12 t
  refine ⟨t, flush12_2 t, ?_⟩
  rw [mem_blk12]
  intro a
  match a with
  | ⟨0, _⟩ => show win12_2.index t (0 : Fin 2) * 4000 ≤ (i 0).val ∧ (i 0).val < win12_2.index t (0 : Fin 2) * 4000 + 4000; omega
  | ⟨1, _⟩ => show win12_2.index t (1 : Fin 2) * 128 ≤ (i 1).val ∧ (i 1).val < win12_2.index t (1 : Fin 2) * 128 + 128; omega

/-- Region 12 leaves the product in its output array. -/
theorem mm_final12 (c : Dev nD) :
    (dat12 (F := Ideal) V c).arrAt 2 cfg12.N
      = Cert.GCN.mmI (V c (Pipeline.arrRef spec12 0)) (V c (Pipeline.arrRef spec12 1)) :=
  (dat12 V c).arrAt_eq_of_cover 2 _ (fun t _ => flushed12 V c t) (cover12)

/-- The printed index maps of region 14 over its grid: the rows block of the left operand and of the result move
    with the point, the weight is whole. -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

set_option maxHeartbeats 1000000 in
/-- What point `t` of region 14 writes back is block `t` of the product of the two arrays the region finds. -/
theorem flushed14 (c : Dev nD) (t : Fin cfg14.N) :
    (dat14 (F := Ideal) V c).flushed 2 t = ((cfg14.win 2).blk t).view.read (Elt Ideal)
      (Cert.GCN.mmI (V c (Pipeline.arrRef spec14 0)) (V c (Pipeline.arrRef spec14 1))) := by
  show (cfg14.win 2).cut (grid14.coords t) ((dat14 V c).after 2 t) = _
  rw [after14_2]
  unfold out14_2
  rw [View.canon_unit_zero hzB]
  simp only [View.ld_unit_zero (S := S4000x128) hzB, View.ld_unit_zero (S := S128x128) hzB]
  obtain ⟨e0, e1, e2, e3, e4, e5⟩ := idx14 t
  funext y
  obtain ⟨r, j, rfl⟩ : ∃ (r : Fin 4000) (j : Fin 128), y = ix2 r j := ⟨y 0, y 1, eq_ix2 y⟩
  show k14_pay1 (iblk14 V c 0 t) (iblk14 V c 1 t) (ix2 r j)
    = Cert.GCN.mmI (V c (Pipeline.arrRef spec14 0)) (V c (Pipeline.arrRef spec14 1)) (((cfg14.win 2).blk t).view.emb (ix2 r j))
  refine (pay_mm14 (iblk14 V c 0 t) (iblk14 V c 1 t) r j).trans ?_
  unfold Cert.GCN.mmI
  refine Finset.sum_congr rfl fun k _ => ?_
  have h0 : iblk14 V c 0 t (ix2 r k)
      = V c (Pipeline.arrRef spec14 0) (ix2 (((cfg14.win 2).blk t).view.emb (ix2 r j) 0) k) := by
    show V c (Pipeline.arrRef spec14 0) (((cfg14.win 0).blk t).view.emb (ix2 r k)) = _
    refine congrArg _ (funext fun a => Fin.ext ?_)
    match a with
    | ⟨0, _⟩ => show win14_0.index t (0 : Fin 2) * 4000 + 1 * r.val = win14_2.index t (0 : Fin 2) * 4000 + 1 * r.val; omega
    | ⟨1, _⟩ => show win14_0.index t (1 : Fin 2) * 128 + 1 * k.val = k.val; omega
  have h1 : iblk14 V c 1 t (ix2 k j)
      = V c (Pipeline.arrRef spec14 1) (ix2 k (((cfg14.win 2).blk t).view.emb (ix2 r j) 1)) := by
    show V c (Pipeline.arrRef spec14 1) (((cfg14.win 1).blk t).view.emb (ix2 k j)) = _
    refine congrArg _ (funext fun a => Fin.ext ?_)
    match a with
    | ⟨0, _⟩ => show win14_1.index t (0 : Fin 2) * 128 + 1 * k.val = k.val; omega
    | ⟨1, _⟩ => show win14_1.index t (1 : Fin 2) * 128 + 1 * j.val = win14_2.index t (1 : Fin 2) * 128 + 1 * j.val; omega
  rw [h0, h1]

/-- An index of the array is in point `t`'s block iff each coordinate is in the block's range on its axis. -/
theorem mem_blk14 (t : Fin cfg14.N) (i : S40000x128.Idx) :
    i ∈ ((cfg14.win 2).blk t).view.set ↔ ∀ a : Fin 2, win14_2.index t a * S4000x128.size a ≤ (i a).val
      ∧ (i a).val < win14_2.index t a * S4000x128.size a + S4000x128.size a := by
  show i ∈ ((View.whole main_v138).slice (win14_2.rect t)).set ↔ _
  rw [View.set_slice_whole, Rect.mem_set_unit]
  exact Iff.rfl

/-- Every row lies in the block of the point numbered by the row's quotient by 4000. -/
theorem cover14 (i : S40000x128.Idx) :
    ∃ t : Fin cfg14.N, (cfg14.win 2).flush t = true ∧ i ∈ ((cfg14.win 2).blk t).view.set := by
  have hi0 : (i 0).val < 40000 := (i 0).isLt
  have hi1 : (i 1).val < 128 := (i 1).isLt
  obtain ⟨t, ht⟩ : ∃ t : Fin cfg14.N, t.val = (i 0).val / 4000 :=
    ⟨⟨(i 0).val / 4000, by rw [show cfg14.N = 10 from N_14]; omega⟩, rfl⟩
  obtain ⟨e0, e1, e2, e3, e4, e5⟩ := idx14 t
  refine ⟨t, flush14_2 t, ?_⟩
  rw [mem_blk14]
  intro a
  match a with
  | ⟨0, _⟩ => show win14_2.index t (0 : Fin 2) * 4000 ≤ (i 0).val ∧ (i 0).val < win14_2.index t (0 : Fin 2) * 4000 + 4000; omega
  | ⟨1, _⟩ => show win14_2.index t (1 : Fin 2) * 128 ≤ (i 1).val ∧ (i 1).val < win14_2.index t (1 : Fin 2) * 128 + 128; omega

/-- Region 14 leaves the product in its output array. -/
theorem mm_final14 (c : Dev nD) :
    (dat14 (F := Ideal) V c).arrAt 2 cfg14.N
      = Cert.GCN.mmI (V c (Pipeline.arrRef spec14 0)) (V c (Pipeline.arrRef spec14 1)) :=
  (dat14 V c).arrAt_eq_of_cover 2 _ (fun t _ => flushed14 V c t) (cover14)

/-- The printed index maps of region 16 over its grid: the rows block of the left operand and of the result move
    with the point, the weight is whole. -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0 :=
  (by decide +kernel : ∀ t : Fin grid16.N, _)

set_option maxHeartbeats 1000000 in
/-- What point `t` of region 16 writes back is block `t` of the product of the two arrays the region finds. -/
theorem flushed16 (c : Dev nD) (t : Fin cfg16.N) :
    (dat16 (F := Ideal) V c).flushed 2 t = ((cfg16.win 2).blk t).view.read (Elt Ideal)
      (Cert.GCN.mmU (V c (Pipeline.arrRef spec16 0)) (V c (Pipeline.arrRef spec16 1))) := by
  show (cfg16.win 2).cut (grid16.coords t) ((dat16 V c).after 2 t) = _
  rw [after16_2]
  unfold out16_2
  rw [View.canon_unit_zero hzB]
  simp only [View.ld_unit_zero (S := S4000x128) hzB, View.ld_unit_zero (S := S128x128) hzB]
  obtain ⟨e0, e1, e2, e3, e4, e5⟩ := idx16 t
  funext y
  obtain ⟨r, j, rfl⟩ : ∃ (r : Fin 4000) (j : Fin 128), y = ix2 r j := ⟨y 0, y 1, eq_ix2 y⟩
  show k16_pay1 (iblk16 V c 0 t) (iblk16 V c 1 t) (ix2 r j)
    = Cert.GCN.mmU (V c (Pipeline.arrRef spec16 0)) (V c (Pipeline.arrRef spec16 1)) (((cfg16.win 2).blk t).view.emb (ix2 r j))
  refine (pay_mm16 (iblk16 V c 0 t) (iblk16 V c 1 t) r j).trans ?_
  unfold Cert.GCN.mmU
  refine Finset.sum_congr rfl fun k _ => ?_
  have h0 : iblk16 V c 0 t (ix2 r k)
      = V c (Pipeline.arrRef spec16 0) (ix2 (((cfg16.win 2).blk t).view.emb (ix2 r j) 0) k) := by
    show V c (Pipeline.arrRef spec16 0) (((cfg16.win 0).blk t).view.emb (ix2 r k)) = _
    refine congrArg _ (funext fun a => Fin.ext ?_)
    match a with
    | ⟨0, _⟩ => show win16_0.index t (0 : Fin 2) * 4000 + 1 * r.val = win16_2.index t (0 : Fin 2) * 4000 + 1 * r.val; omega
    | ⟨1, _⟩ => show win16_0.index t (1 : Fin 2) * 128 + 1 * k.val = k.val; omega
  have h1 : iblk16 V c 1 t (ix2 k j)
      = V c (Pipeline.arrRef spec16 1) (ix2 k (((cfg16.win 2).blk t).view.emb (ix2 r j) 1)) := by
    show V c (Pipeline.arrRef spec16 1) (((cfg16.win 1).blk t).view.emb (ix2 k j)) = _
    refine congrArg _ (funext fun a => Fin.ext ?_)
    match a with
    | ⟨0, _⟩ => show win16_1.index t (0 : Fin 2) * 128 + 1 * k.val = k.val; omega
    | ⟨1, _⟩ => show win16_1.index t (1 : Fin 2) * 128 + 1 * j.val = win16_2.index t (1 : Fin 2) * 128 + 1 * j.val; omega
  rw [h0, h1]

/-- An index of the array is in point `t`'s block iff each coordinate is in the block's range on its axis. -/
theorem mem_blk16 (t : Fin cfg16.N) (i : S60000x128.Idx) :
    i ∈ ((cfg16.win 2).blk t).view.set ↔ ∀ a : Fin 2, win16_2.index t a * S4000x128.size a ≤ (i a).val
      ∧ (i a).val < win16_2.index t a * S4000x128.size a + S4000x128.size a := by
  show i ∈ ((View.whole main_v158).slice (win16_2.rect t)).set ↔ _
  rw [View.set_slice_whole, Rect.mem_set_unit]
  exact Iff.rfl

/-- Every row lies in the block of the point numbered by the row's quotient by 4000. -/
theorem cover16 (i : S60000x128.Idx) :
    ∃ t : Fin cfg16.N, (cfg16.win 2).flush t = true ∧ i ∈ ((cfg16.win 2).blk t).view.set := by
  have hi0 : (i 0).val < 60000 := (i 0).isLt
  have hi1 : (i 1).val < 128 := (i 1).isLt
  obtain ⟨t, ht⟩ : ∃ t : Fin cfg16.N, t.val = (i 0).val / 4000 :=
    ⟨⟨(i 0).val / 4000, by rw [show cfg16.N = 15 from N_16]; omega⟩, rfl⟩
  obtain ⟨e0, e1, e2, e3, e4, e5⟩ := idx16 t
  refine ⟨t, flush16_2 t, ?_⟩
  rw [mem_blk16]
  intro a
  match a with
  | ⟨0, _⟩ => show win16_2.index t (0 : Fin 2) * 4000 ≤ (i 0).val ∧ (i 0).val < win16_2.index t (0 : Fin 2) * 4000 + 4000; omega
  | ⟨1, _⟩ => show win16_2.index t (1 : Fin 2) * 128 ≤ (i 1).val ∧ (i 1).val < win16_2.index t (1 : Fin 2) * 128 + 128; omega

/-- Region 16 leaves the product in its output array. -/
theorem mm_final16 (c : Dev nD) :
    (dat16 (F := Ideal) V c).arrAt 2 cfg16.N
      = Cert.GCN.mmU (V c (Pipeline.arrRef spec16 0)) (V c (Pipeline.arrRef spec16 1)) :=
  (dat16 V c).arrAt_eq_of_cover 2 _ (fun t _ => flushed16 V c t) (cover16)

end Cert.KernelIdeal.RegVal

end
-- ==== Proof.RegBL.lean ====
/- The bias-and-rectifier regions 1, 3, 5, 7: each leaves, in its output array, the array it finds with the bias row
   it finds added along rows and the leaky rectifier applied — every point of the grid writes one block of 4000 rows, and
   the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzC : (![0, 0] : Fin 2 → Nat) = fun _ => 0 := funext fun a => by fin_cases a <;> rfl

/-- The printed index maps of region 1 over its grid: the rows block of the operand and of the result move with the
    point, the bias row is whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1000000 in
/-- What point `t` of region 1 writes back is block `t` of the biased, rectified array. -/
theorem flushed1 (c : Dev nD) (t : Fin cfg1.N) :
    (dat1 (F := Ideal) V c).flushed 2 t = ((cfg1.win 2).blk t).view.read (Elt Ideal)
      (Cert.GCN.blI (V c (Pipeline.arrRef spec1 0)) (V c (Pipeline.arrRef spec1 1))) := by
  show (cfg1.win 2).cut (grid1.coords t) ((dat1 V c).after 2 t) = _
  rw [after1_2]
  unfold out1_2
  rw [View.canon_unit_zero hzC]
  simp only [View.ld_unit_zero (S := S4000x128) hzC, View.ld_unit_zero (S := S1x128) hzC]
  obtain ⟨e0, e1, e2, e3, e4, e5⟩ := idx1 t
  funext y
  obtain ⟨r, j, rfl⟩ : ∃ (r : Fin 4000) (j : Fin 128), y = ix2 r j := ⟨y 0, y 1, eq_ix2 y⟩
  show k1_pay1 (iblk1 V c 0 t) (iblk1 V c 1 t) (ix2 r j)
    = Cert.GCN.blI (V c (Pipeline.arrRef spec1 0)) (V c (Pipeline.arrRef spec1 1)) (((cfg1.win 2).blk t).view.emb (ix2 r j))
  refine (pay_bl1 (iblk1 V c 0 t) (iblk1 V c 1 t) r j).trans ?_
  unfold Cert.GCN.blI
  have h0 : iblk1 V c 0 t (ix2 r j)
      = V c (Pipeline.arrRef spec1 0) (((cfg1.win 2).blk t).view.emb (ix2 r j)) := by
    show V c (Pipeline.arrRef spec1 0) (((cfg1.win 0).blk t).view.emb (ix2 r j)) = _
    refine congrArg _ (funext fun a => Fin.ext ?_)
    match a with
    | ⟨0, _⟩ => show win1_0.index t (0 : Fin 2) * 4000 + 1 * r.val = win1_2.index t (0 : Fin 2) * 4000 + 1 * r.val; omega
    | ⟨1, _⟩ => show win1_0.index t (1 : Fin 2) * 128 + 1 * j.val = win1_2.index t (1 : Fin 2) * 128 + 1 * j.val; omega
  have h1 : iblk1 V c 1 t (ix2 0 j)
      = V c (Pipeline.arrRef spec1 1) (ix2 0 (((cfg1.win 2).blk t).view.emb (ix2 r j) 1)) := by
    show V c (Pipeline.arrRef spec1 1) (((cfg1.win 1).blk t).view.emb (ix2 0 j)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * j.val = win1_2.index t (1 : Fin 2) * 128 + 1 * j.val; omega
  rw [h0, h1]
  rfl

/-- An index of the array is in point `t`'s block iff each coordinate is in the block's range on its axis. -/
theorem mem_blk1 (t : Fin cfg1.N) (i : S40000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v19).slice (win1_2.rect t)).set ↔ _
  rw [View.set_slice_whole, Rect.mem_set_unit]
  exact Iff.rfl

/-- Every row lies in the block of the point numbered by the row's quotient by 4000. -/
theorem cover1 (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  obtain ⟨t, ht⟩ : ∃ t : Fin cfg1.N, t.val = (i 0).val / 4000 :=
    ⟨⟨(i 0).val / 4000, by rw [show cfg1.N = 10 from N_1]; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- Region 1 leaves the biased, rectified array in its output array. -/
theorem bl_final1 (c : Dev nD) :
    (dat1 (F := Ideal) V c).arrAt 2 cfg1.N
      = Cert.GCN.blI (V c (Pipeline.arrRef spec1 0)) (V c (Pipeline.arrRef spec1 1)) :=
  (dat1 V c).arrAt_eq_of_cover 2 _ (fun t _ => flushed1 V c t) (cover1)

/-- The printed index maps of region 3 over its grid: the rows block of the operand and of the result move with the
    point, the bias row is whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point `t` of region 3 writes back is block `t` of the biased, rectified array. -/
theorem flushed3 (c : Dev nD) (t : Fin cfg3.N) :
    (dat3 (F := Ideal) V c).flushed 2 t = ((cfg3.win 2).blk t).view.read (Elt Ideal)
      (Cert.GCN.blU (V c (Pipeline.arrRef spec3 0)) (V c (Pipeline.arrRef spec3 1))) := by
  show (cfg3.win 2).cut (grid3.coords t) ((dat3 V c).after 2 t) = _
  rw [after3_2]
  unfold out3_2
  rw [View.canon_unit_zero hzC]
  simp only [View.ld_unit_zero (S := S4000x128) hzC, View.ld_unit_zero (S := S1x128) hzC]
  obtain ⟨e0, e1, e2, e3, e4, e5⟩ := idx3 t
  funext y
  obtain ⟨r, j, rfl⟩ : ∃ (r : Fin 4000) (j : Fin 128), y = ix2 r j := ⟨y 0, y 1, eq_ix2 y⟩
  show k3_pay1 (iblk3 V c 0 t) (iblk3 V c 1 t) (ix2 r j)
    = Cert.GCN.blU (V c (Pipeline.arrRef spec3 0)) (V c (Pipeline.arrRef spec3 1)) (((cfg3.win 2).blk t).view.emb (ix2 r j))
  refine (pay_bl3 (iblk3 V c 0 t) (iblk3 V c 1 t) r j).trans ?_
  unfold Cert.GCN.blU
  have h0 : iblk3 V c 0 t (ix2 r j)
      = V c (Pipeline.arrRef spec3 0) (((cfg3.win 2).blk t).view.emb (ix2 r j)) := by
    show V c (Pipeline.arrRef spec3 0) (((cfg3.win 0).blk t).view.emb (ix2 r j)) = _
    refine congrArg _ (funext fun a => Fin.ext ?_)
    match a with
    | ⟨0, _⟩ => show win3_0.index t (0 : Fin 2) * 4000 + 1 * r.val = win3_2.index t (0 : Fin 2) * 4000 + 1 * r.val; omega
    | ⟨1, _⟩ => show win3_0.index t (1 : Fin 2) * 128 + 1 * j.val = win3_2.index t (1 : Fin 2) * 128 + 1 * j.val; omega
  have h1 : iblk3 V c 1 t (ix2 0 j)
      = V c (Pipeline.arrRef spec3 1) (ix2 0 (((cfg3.win 2).blk t).view.emb (ix2 r j) 1)) := by
    show V c (Pipeline.arrRef spec3 1) (((cfg3.win 1).blk t).view.emb (ix2 0 j)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * j.val = win3_2.index t (1 : Fin 2) * 128 + 1 * j.val; omega
  rw [h0, h1]
  rfl

/-- An index of the array is in point `t`'s block iff each coordinate is in the block's range on its axis. -/
theorem mem_blk3 (t : Fin cfg3.N) (i : S60000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v39).slice (win3_2.rect t)).set ↔ _
  rw [View.set_slice_whole, Rect.mem_set_unit]
  exact Iff.rfl

/-- Every row lies in the block of the point numbered by the row's quotient by 4000. -/
theorem cover3 (i : S60000x128.Idx) :
    ∃ t : Fin cfg3.N, (cfg3.win 2).flush t = true ∧ i ∈ ((cfg3.win 2).blk t).view.set := by
  have hi0 : (i 0).val < 60000 := (i 0).isLt
  have hi1 : (i 1).val < 128 := (i 1).isLt
  obtain ⟨t, ht⟩ : ∃ t : Fin cfg3.N, t.val = (i 0).val / 4000 :=
    ⟨⟨(i 0).val / 4000, by rw [show cfg3.N = 15 from N_3]; omega⟩, rfl⟩
  obtain ⟨e0, e1, e2, e3, e4, e5⟩ := idx3 t
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- Region 3 leaves the biased, rectified array in its output array. -/
theorem bl_final3 (c : Dev nD) :
    (dat3 (F := Ideal) V c).arrAt 2 cfg3.N
      = Cert.GCN.blU (V c (Pipeline.arrRef spec3 0)) (V c (Pipeline.arrRef spec3 1)) :=
  (dat3 V c).arrAt_eq_of_cover 2 _ (fun t _ => flushed3 V c t) (cover3)

/-- The printed index maps of region 5 over its grid: the rows block of the operand and of the result move with the
    point, the bias row is whole. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

set_option maxHeartbeats 1000000 in
/-- What point `t` of region 5 writes back is block `t` of the biased, rectified array. -/
theorem flushed5 (c : Dev nD) (t : Fin cfg5.N) :
    (dat5 (F := Ideal) V c).flushed 2 t = ((cfg5.win 2).blk t).view.read (Elt Ideal)
      (Cert.GCN.blU (V c (Pipeline.arrRef spec5 0)) (V c (Pipeline.arrRef spec5 1))) := by
  show (cfg5.win 2).cut (grid5.coords t) ((dat5 V c).after 2 t) = _
  rw [after5_2]
  unfold out5_2
  rw [View.canon_unit_zero hzC]
  simp only [View.ld_unit_zero (S := S4000x128) hzC, View.ld_unit_zero (S := S1x128) hzC]
  obtain ⟨e0, e1, e2, e3, e4, e5⟩ := idx5 t
  funext y
  obtain ⟨r, j, rfl⟩ : ∃ (r : Fin 4000) (j : Fin 128), y = ix2 r j := ⟨y 0, y 1, eq_ix2 y⟩
  show k5_pay1 (iblk5 V c 0 t) (iblk5 V c 1 t) (ix2 r j)
    = Cert.GCN.blU (V c (Pipeline.arrRef spec5 0)) (V c (Pipeline.arrRef spec5 1)) (((cfg5.win 2).blk t).view.emb (ix2 r j))
  refine (pay_bl5 (iblk5 V c 0 t) (iblk5 V c 1 t) r j).trans ?_
  unfold Cert.GCN.blU
  have h0 : iblk5 V c 0 t (ix2 r j)
      = V c (Pipeline.arrRef spec5 0) (((cfg5.win 2).blk t).view.emb (ix2 r j)) := by
    show V c (Pipeline.arrRef spec5 0) (((cfg5.win 0).blk t).view.emb (ix2 r j)) = _
    refine congrArg _ (funext fun a => Fin.ext ?_)
    match a with
    | ⟨0, _⟩ => show win5_0.index t (0 : Fin 2) * 4000 + 1 * r.val = win5_2.index t (0 : Fin 2) * 4000 + 1 * r.val; omega
    | ⟨1, _⟩ => show win5_0.index t (1 : Fin 2) * 128 + 1 * j.val = win5_2.index t (1 : Fin 2) * 128 + 1 * j.val; omega
  have h1 : iblk5 V c 1 t (ix2 0 j)
      = V c (Pipeline.arrRef spec5 1) (ix2 0 (((cfg5.win 2).blk t).view.emb (ix2 r j) 1)) := by
    show V c (Pipeline.arrRef spec5 1) (((cfg5.win 1).blk t).view.emb (ix2 0 j)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * j.val = win5_2.index t (1 : Fin 2) * 128 + 1 * j.val; omega
  rw [h0, h1]
  rfl

/-- An index of the array is in point `t`'s block iff each coordinate is in the block's range on its axis. -/
theorem mem_blk5 (t : Fin cfg5.N) (i : S60000x128.Idx) :
    i ∈ ((cfg5.win 2).blk t).view.set ↔ ∀ a : Fin 2, win5_2.index t a * S4000x128.size a ≤ (i a).val
      ∧ (i a).val < win5_2.index t a * S4000x128.size a + S4000x128.size a := by
  show i ∈ ((View.whole main_v59).slice (win5_2.rect t)).set ↔ _
  rw [View.set_slice_whole, Rect.mem_set_unit]
  exact Iff.rfl

/-- Every row lies in the block of the point numbered by the row's quotient by 4000. -/
theorem cover5 (i : S60000x128.Idx) :
    ∃ t : Fin cfg5.N, (cfg5.win 2).flush t = true ∧ i ∈ ((cfg5.win 2).blk t).view.set := by
  have hi0 : (i 0).val < 60000 := (i 0).isLt
  have hi1 : (i 1).val < 128 := (i 1).isLt
  obtain ⟨t, ht⟩ : ∃ t : Fin cfg5.N, t.val = (i 0).val / 4000 :=
    ⟨⟨(i 0).val / 4000, by rw [show cfg5.N = 15 from N_5]; omega⟩, rfl⟩
  obtain ⟨e0, e1, e2, e3, e4, e5⟩ := idx5 t
  refine ⟨t, flush5_2 t, ?_⟩
  rw [mem_blk5]
  intro a
  match a with
  | ⟨0, _⟩ => show win5_2.index t (0 : Fin 2) * 4000 ≤ (i 0).val ∧ (i 0).val < win5_2.index t (0 : Fin 2) * 4000 + 4000; omega
  | ⟨1, _⟩ => show win5_2.index t (1 : Fin 2) * 128 ≤ (i 1).val ∧ (i 1).val < win5_2.index t (1 : Fin 2) * 128 + 128; omega

/-- Region 5 leaves the biased, rectified array in its output array. -/
theorem bl_final5 (c : Dev nD) :
    (dat5 (F := Ideal) V c).arrAt 2 cfg5.N
      = Cert.GCN.blU (V c (Pipeline.arrRef spec5 0)) (V c (Pipeline.arrRef spec5 1)) :=
  (dat5 V c).arrAt_eq_of_cover 2 _ (fun t _ => flushed5 V c t) (cover5)

/-- The printed index maps of region 7 over its grid: the rows block of the operand and of the result move with the
    point, the bias row is whole. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 1000000 in
/-- What point `t` of region 7 writes back is block `t` of the biased, rectified array. -/
theorem flushed7 (c : Dev nD) (t : Fin cfg7.N) :
    (dat7 (F := Ideal) V c).flushed 2 t = ((cfg7.win 2).blk t).view.read (Elt Ideal)
      (Cert.GCN.blI (V c (Pipeline.arrRef spec7 0)) (V c (Pipeline.arrRef spec7 1))) := by
  show (cfg7.win 2).cut (grid7.coords t) ((dat7 V c).after 2 t) = _
  rw [after7_2]
  unfold out7_2
  rw [View.canon_unit_zero hzC]
  simp only [View.ld_unit_zero (S := S4000x128) hzC, View.ld_unit_zero (S := S1x128) hzC]
  obtain ⟨e0, e1, e2, e3, e4, e5⟩ := idx7 t
  funext y
  obtain ⟨r, j, rfl⟩ : ∃ (r : Fin 4000) (j : Fin 128), y = ix2 r j := ⟨y 0, y 1, eq_ix2 y⟩
  show k7_pay1 (iblk7 V c 0 t) (iblk7 V c 1 t) (ix2 r j)
    = Cert.GCN.blI (V c (Pipeline.arrRef spec7 0)) (V c (Pipeline.arrRef spec7 1)) (((cfg7.win 2).blk t).view.emb (ix2 r j))
  refine (pay_bl7 (iblk7 V c 0 t) (iblk7 V c 1 t) r j).trans ?_
  unfold Cert.GCN.blI
  have h0 : iblk7 V c 0 t (ix2 r j)
      = V c (Pipeline.arrRef spec7 0) (((cfg7.win 2).blk t).view.emb (ix2 r j)) := by
    show V c (Pipeline.arrRef spec7 0) (((cfg7.win 0).blk t).view.emb (ix2 r j)) = _
    refine congrArg _ (funext fun a => Fin.ext ?_)
    match a with
    | ⟨0, _⟩ => show win7_0.index t (0 : Fin 2) * 4000 + 1 * r.val = win7_2.index t (0 : Fin 2) * 4000 + 1 * r.val; omega
    | ⟨1, _⟩ => show win7_0.index t (1 : Fin 2) * 128 + 1 * j.val = win7_2.index t (1 : Fin 2) * 128 + 1 * j.val; omega
  have h1 : iblk7 V c 1 t (ix2 0 j)
      = V c (Pipeline.arrRef spec7 1) (ix2 0 (((cfg7.win 2).blk t).view.emb (ix2 r j) 1)) := by
    show V c (Pipeline.arrRef spec7 1) (((cfg7.win 1).blk t).view.emb (ix2 0 j)) = _
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * j.val = win7_2.index t (1 : Fin 2) * 128 + 1 * j.val; omega
  rw [h0, h1]
  rfl

/-- An index of the array is in point `t`'s block iff each coordinate is in the block's range on its axis. -/
theorem mem_blk7 (t : Fin cfg7.N) (i : S40000x128.Idx) :
    i ∈ ((cfg7.win 2).blk t).view.set ↔ ∀ a : Fin 2, win7_2.index t a * S4000x128.size a ≤ (i a).val
      ∧ (i a).val < win7_2.index t a * S4000x128.size a + S4000x128.size a := by
  show i ∈ ((View.whole main_v79).slice (win7_2.rect t)).set ↔ _
  rw [View.set_slice_whole, Rect.mem_set_unit]
  exact Iff.rfl

/-- Every row lies in the block of the point numbered by the row's quotient by 4000. -/
theorem cover7 (i : S40000x128.Idx) :
    ∃ t : Fin cfg7.N, (cfg7.win 2).flush t = true ∧ i ∈ ((cfg7.win 2).blk t).view.set := by
  have hi0 : (i 0).val < 40000 := (i 0).isLt
  have hi1 : (i 1).val < 128 := (i 1).isLt
  obtain ⟨t, ht⟩ : ∃ t : Fin cfg7.N, t.val = (i 0).val / 4000 :=
    ⟨⟨(i 0).val / 4000, by rw [show cfg7.N = 10 from N_7]; omega⟩, rfl⟩
  obtain ⟨e0, e1, e2, e3, e4, e5⟩ := idx7 t
  refine ⟨t, flush7_2 t, ?_⟩
  rw [mem_blk7]
  intro a
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 128 ≤ (i 1).val ∧ (i 1).val < win7_2.index t (1 : Fin 2) * 128 + 128; omega

/-- Region 7 leaves the biased, rectified array in its output array. -/
theorem bl_final7 (c : Dev nD) :
    (dat7 (F := Ideal) V c).arrAt 2 cfg7.N
      = Cert.GCN.blI (V c (Pipeline.arrRef spec7 0)) (V c (Pipeline.arrRef spec7 1)) :=
  (dat7 V c).arrAt_eq_of_cover 2 _ (fun t _ => flushed7 V c t) (cover7)

end Cert.KernelIdeal.RegVal

end
-- ==== Proof.RegBL2.lean ====
/- The bias-and-rectifier regions 11, 13, 15, 17: each leaves, in its output array, the array it finds with the bias row
   it finds added along rows and the leaky rectifier applied — every point of the grid writes one block of 4000 rows, and
   the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzD : (![0, 0] : Fin 2 → Nat) = fun _ => 0 := funext fun a => by fin_cases a <;> rfl

/-- The printed index maps of region 11 over its grid: the rows block of the operand and of the result move with the
    point, the bias row is whole. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

set_option maxHeartbeats 1000000 in
/-- What point `t` of region 11 writes back is block `t` of the biased, rectified array. -/
theorem flushed11 (c : Dev nD) (t : Fin cfg11.N) :
    (dat11 (F := Ideal) V c).flushed 2 t = ((cfg11.win 2).blk t).view.read (Elt Ideal)
      (Cert.GCN.blI (V c (Pipeline.arrRef spec11 0)) (V c (Pipeline.arrRef spec11 1))) := by
  show (cfg11.win 2).cut (grid11.coords t) ((dat11 V c).after 2 t) = _
  rw [after11_2]
  unfold out11_2
  rw [View.canon_unit_zero hzD]
  simp only [View.ld_unit_zero (S := S4000x128) hzD, View.ld_unit_zero (S := S1x128) hzD]
  obtain ⟨e0, e1, e2, e3, e4, e5⟩ := idx11 t
  funext y
  obtain ⟨r, j, rfl⟩ : ∃ (r : Fin 4000) (j : Fin 128), y = ix2 r j := ⟨y 0, y 1, eq_ix2 y⟩
  show k11_pay1 (iblk11 V c 0 t) (iblk11 V c 1 t) (ix2 r j)
    = Cert.GCN.blI (V c (Pipeline.arrRef spec11 0)) (V c (Pipeline.arrRef spec11 1)) (((cfg11.win 2).blk t).view.emb (ix2 r j))
  refine (pay_bl11 (iblk11 V c 0 t) (iblk11 V c 1 t) r j).trans ?_
  unfold Cert.GCN.blI
  have h0 : iblk11 V c 0 t (ix2 r j)
      = V c (Pipeline.arrRef spec11 0) (((cfg11.win 2).blk t).view.emb (ix2 r j)) := by
    show V c (Pipeline.arrRef spec11 0) (((cfg11.win 0).blk t).view.emb (ix2 r j)) = _
    refine congrArg _ (funext fun a => Fin.ext ?_)
    match a with
    | ⟨0, _⟩ => show win11_0.index t (0 : Fin 2) * 4000 + 1 * r.val = win11_2.index t (0 : Fin 2) * 4000 + 1 * r.val; omega
    | ⟨1, _⟩ => show win11_0.index t (1 : Fin 2) * 128 + 1 * j.val = win11_2.index t (1 : Fin 2) * 128 + 1 * j.val; omega
  have h1 : iblk11 V c 1 t (ix2 0 j)
      = V c (Pipeline.arrRef spec11 1) (ix2 0 (((cfg11.win 2).blk t).view.emb (ix2 r j) 1)) := by
    show V c (Pipeline.arrRef spec11 1) (((cfg11.win 1).blk t).view.emb (ix2 0 j)) = _
    refine congrArg _ (funext fun a => Fin.ext ?_)
    match a with
    | ⟨0, _⟩ => show win11_1.index t (0 : Fin 2) * 1 + 1 * 0 = 0; omega
    | ⟨1, _⟩ => show win11_1.index t (1 : Fin 2) * 128 + 1 * j.val = win11_2.index t (1 : Fin 2) * 128 + 1 * j.val; omega
  rw [h0, h1]
  rfl

/-- An index of the array is in point `t`'s block iff each coordinate is in the block's range on its axis. -/
theorem mem_blk11 (t : Fin cfg11.N) (i : S40000x128.Idx) :
    i ∈ ((cfg11.win 2).blk t).view.set ↔ ∀ a : Fin 2, win11_2.index t a * S4000x128.size a ≤ (i a).val
      ∧ (i a).val < win11_2.index t a * S4000x128.size a + S4000x128.size a := by
  show i ∈ ((View.whole main_v115).slice (win11_2.rect t)).set ↔ _
  rw [View.set_slice_whole, Rect.mem_set_unit]
  exact Iff.rfl

/-- Every row lies in the block of the point numbered by the row's quotient by 4000. -/
theorem cover11 (i : S40000x128.Idx) :
    ∃ t : Fin cfg11.N, (cfg11.win 2).flush t = true ∧ i ∈ ((cfg11.win 2).blk t).view.set := by
  have hi0 : (i 0).val < 40000 := (i 0).isLt
  have hi1 : (i 1).val < 128 := (i 1).isLt
  obtain ⟨t, ht⟩ : ∃ t : Fin cfg11.N, t.val = (i 0).val / 4000 :=
    ⟨⟨(i 0).val / 4000, by rw [show cfg11.N = 10 from N_11]; omega⟩, rfl⟩
  obtain ⟨e0, e1, e2, e3, e4, e5⟩ := idx11 t
  refine ⟨t, flush11_2 t, ?_⟩
  rw [mem_blk11]
  intro a
  match a with
  | ⟨0, _⟩ => show win11_2.index t (0 : Fin 2) * 4000 ≤ (i 0).val ∧ (i 0).val < win11_2.index t (0 : Fin 2) * 4000 + 4000; omega
  | ⟨1, _⟩ => show win11_2.index t (1 : Fin 2) * 128 ≤ (i 1).val ∧ (i 1).val < win11_2.index t (1 : Fin 2) * 128 + 128; omega

/-- Region 11 leaves the biased, rectified array in its output array. -/
theorem bl_final11 (c : Dev nD) :
    (dat11 (F := Ideal) V c).arrAt 2 cfg11.N
      = Cert.GCN.blI (V c (Pipeline.arrRef spec11 0)) (V c (Pipeline.arrRef spec11 1)) :=
  (dat11 V c).arrAt_eq_of_cover 2 _ (fun t _ => flushed11 V c t) (cover11)

/-- The printed index maps of region 13 over its grid: the rows block of the operand and of the result move with the
    point, the bias row is whole. -/
theorem idx13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

set_option maxHeartbeats 1000000 in
/-- What point `t` of region 13 writes back is block `t` of the biased, rectified array. -/
theorem flushed13 (c : Dev nD) (t : Fin cfg13.N) :
    (dat13 (F := Ideal) V c).flushed 2 t = ((cfg13.win 2).blk t).view.read (Elt Ideal)
      (Cert.GCN.blU (V c (Pipeline.arrRef spec13 0)) (V c (Pipeline.arrRef spec13 1))) := by
  show (cfg13.win 2).cut (grid13.coords t) ((dat13 V c).after 2 t) = _
  rw [after13_2]
  unfold out13_2
  rw [View.canon_unit_zero hzD]
  simp only [View.ld_unit_zero (S := S4000x128) hzD, View.ld_unit_zero (S := S1x128) hzD]
  obtain ⟨e0, e1, e2, e3, e4, e5⟩ := idx13 t
  funext y
  obtain ⟨r, j, rfl⟩ : ∃ (r : Fin 4000) (j : Fin 128), y = ix2 r j := ⟨y 0, y 1, eq_ix2 y⟩
  show k13_pay1 (iblk13 V c 0 t) (iblk13 V c 1 t) (ix2 r j)
    = Cert.GCN.blU (V c (Pipeline.arrRef spec13 0)) (V c (Pipeline.arrRef spec13 1)) (((cfg13.win 2).blk t).view.emb (ix2 r j))
  refine (pay_bl13 (iblk13 V c 0 t) (iblk13 V c 1 t) r j).trans ?_
  unfold Cert.GCN.blU
  have h0 : iblk13 V c 0 t (ix2 r j)
      = V c (Pipeline.arrRef spec13 0) (((cfg13.win 2).blk t).view.emb (ix2 r j)) := by
    show V c (Pipeline.arrRef spec13 0) (((cfg13.win 0).blk t).view.emb (ix2 r j)) = _
    refine congrArg _ (funext fun a => Fin.ext ?_)
    match a with
    | ⟨0, _⟩ => show win13_0.index t (0 : Fin 2) * 4000 + 1 * r.val = win13_2.index t (0 : Fin 2) * 4000 + 1 * r.val; omega
    | ⟨1, _⟩ => show win13_0.index t (1 : Fin 2) * 128 + 1 * j.val = win13_2.index t (1 : Fin 2) * 128 + 1 * j.val; omega
  have h1 : iblk13 V c 1 t (ix2 0 j)
      = V c (Pipeline.arrRef spec13 1) (ix2 0 (((cfg13.win 2).blk t).view.emb (ix2 r j) 1)) := by
    show V c (Pipeline.arrRef spec13 1) (((cfg13.win 1).blk t).view.emb (ix2 0 j)) = _
    refine congrArg _ (funext fun a => Fin.ext ?_)
    match a with
    | ⟨0, _⟩ => show win13_1.index t (0 : Fin 2) * 1 + 1 * 0 = 0; omega
    | ⟨1, _⟩ => show win13_1.index t (1 : Fin 2) * 128 + 1 * j.val = win13_2.index t (1 : Fin 2) * 128 + 1 * j.val; omega
  rw [h0, h1]
  rfl

/-- An index of the array is in point `t`'s block iff each coordinate is in the block's range on its axis. -/
theorem mem_blk13 (t : Fin cfg13.N) (i : S60000x128.Idx) :
    i ∈ ((cfg13.win 2).blk t).view.set ↔ ∀ a : Fin 2, win13_2.index t a * S4000x128.size a ≤ (i a).val
      ∧ (i a).val < win13_2.index t a * S4000x128.size a + S4000x128.size a := by
  show i ∈ ((View.whole main_v135).slice (win13_2.rect t)).set ↔ _
  rw [View.set_slice_whole, Rect.mem_set_unit]
  exact Iff.rfl

/-- Every row lies in the block of the point numbered by the row's quotient by 4000. -/
theorem cover13 (i : S60000x128.Idx) :
    ∃ t : Fin cfg13.N, (cfg13.win 2).flush t = true ∧ i ∈ ((cfg13.win 2).blk t).view.set := by
  have hi0 : (i 0).val < 60000 := (i 0).isLt
  have hi1 : (i 1).val < 128 := (i 1).isLt
  obtain ⟨t, ht⟩ : ∃ t : Fin cfg13.N, t.val = (i 0).val / 4000 :=
    ⟨⟨(i 0).val / 4000, by rw [show cfg13.N = 15 from N_13]; omega⟩, rfl⟩
  obtain ⟨e0, e1, e2, e3, e4, e5⟩ := idx13 t
  refine ⟨t, flush13_2 t, ?_⟩
  rw [mem_blk13]
  intro a
  match a with
  | ⟨0, _⟩ => show win13_2.index t (0 : Fin 2) * 4000 ≤ (i 0).val ∧ (i 0).val < win13_2.index t (0 : Fin 2) * 4000 + 4000; omega
  | ⟨1, _⟩ => show win13_2.index t (1 : Fin 2) * 128 ≤ (i 1).val ∧ (i 1).val < win13_2.index t (1 : Fin 2) * 128 + 128; omega

/-- Region 13 leaves the biased, rectified array in its output array. -/
theorem bl_final13 (c : Dev nD) :
    (dat13 (F := Ideal) V c).arrAt 2 cfg13.N
      = Cert.GCN.blU (V c (Pipeline.arrRef spec13 0)) (V c (Pipeline.arrRef spec13 1)) :=
  (dat13 V c).arrAt_eq_of_cover 2 _ (fun t _ => flushed13 V c t) (cover13)

/-- The printed index maps of region 15 over its grid: the rows block of the operand and of the result move with the
    point, the bias row is whole. -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

set_option maxHeartbeats 1000000 in
/-- What point `t` of region 15 writes back is block `t` of the biased, rectified array. -/
theorem flushed15 (c : Dev nD) (t : Fin cfg15.N) :
    (dat15 (F := Ideal) V c).flushed 2 t = ((cfg15.win 2).blk t).view.read (Elt Ideal)
      (Cert.GCN.blU (V c (Pipeline.arrRef spec15 0)) (V c (Pipeline.arrRef spec15 1))) := by
  show (cfg15.win 2).cut (grid15.coords t) ((dat15 V c).after 2 t) = _
  rw [after15_2]
  unfold out15_2
  rw [View.canon_unit_zero hzD]
  simp only [View.ld_unit_zero (S := S4000x128) hzD, View.ld_unit_zero (S := S1x128) hzD]
  obtain ⟨e0, e1, e2, e3, e4, e5⟩ := idx15 t
  funext y
  obtain ⟨r, j, rfl⟩ : ∃ (r : Fin 4000) (j : Fin 128), y = ix2 r j := ⟨y 0, y 1, eq_ix2 y⟩
  show k15_pay1 (iblk15 V c 0 t) (iblk15 V c 1 t) (ix2 r j)
    = Cert.GCN.blU (V c (Pipeline.arrRef spec15 0)) (V c (Pipeline.arrRef spec15 1)) (((cfg15.win 2).blk t).view.emb (ix2 r j))
  refine (pay_bl15 (iblk15 V c 0 t) (iblk15 V c 1 t) r j).trans ?_
  unfold Cert.GCN.blU
  have h0 : iblk15 V c 0 t (ix2 r j)
      = V c (Pipeline.arrRef spec15 0) (((cfg15.win 2).blk t).view.emb (ix2 r j)) := by
    show V c (Pipeline.arrRef spec15 0) (((cfg15.win 0).blk t).view.emb (ix2 r j)) = _
    refine congrArg _ (funext fun a => Fin.ext ?_)
    match a with
    | ⟨0, _⟩ => show win15_0.index t (0 : Fin 2) * 4000 + 1 * r.val = win15_2.index t (0 : Fin 2) * 4000 + 1 * r.val; omega
    | ⟨1, _⟩ => show win15_0.index t (1 : Fin 2) * 128 + 1 * j.val = win15_2.index t (1 : Fin 2) * 128 + 1 * j.val; omega
  have h1 : iblk15 V c 1 t (ix2 0 j)
      = V c (Pipeline.arrRef spec15 1) (ix2 0 (((cfg15.win 2).blk t).view.emb (ix2 r j) 1)) := by
    show V c (Pipeline.arrRef spec15 1) (((cfg15.win 1).blk t).view.emb (ix2 0 j)) = _
    refine congrArg _ (funext fun a => Fin.ext ?_)
    match a with
    | ⟨0, _⟩ => show win15_1.index t (0 : Fin 2) * 1 + 1 * 0 = 0; omega
    | ⟨1, _⟩ => show win15_1.index t (1 : Fin 2) * 128 + 1 * j.val = win15_2.index t (1 : Fin 2) * 128 + 1 * j.val; omega
  rw [h0, h1]
  rfl

/-- An index of the array is in point `t`'s block iff each coordinate is in the block's range on its axis. -/
theorem mem_blk15 (t : Fin cfg15.N) (i : S60000x128.Idx) :
    i ∈ ((cfg15.win 2).blk t).view.set ↔ ∀ a : Fin 2, win15_2.index t a * S4000x128.size a ≤ (i a).val
      ∧ (i a).val < win15_2.index t a * S4000x128.size a + S4000x128.size a := by
  show i ∈ ((View.whole main_v155).slice (win15_2.rect t)).set ↔ _
  rw [View.set_slice_whole, Rect.mem_set_unit]
  exact Iff.rfl

/-- Every row lies in the block of the point numbered by the row's quotient by 4000. -/
theorem cover15 (i : S60000x128.Idx) :
    ∃ t : Fin cfg15.N, (cfg15.win 2).flush t = true ∧ i ∈ ((cfg15.win 2).blk t).view.set := by
  have hi0 : (i 0).val < 60000 := (i 0).isLt
  have hi1 : (i 1).val < 128 := (i 1).isLt
  obtain ⟨t, ht⟩ : ∃ t : Fin cfg15.N, t.val = (i 0).val / 4000 :=
    ⟨⟨(i 0).val / 4000, by rw [show cfg15.N = 15 from N_15]; omega⟩, rfl⟩
  obtain ⟨e0, e1, e2, e3, e4, e5⟩ := idx15 t
  refine ⟨t, flush15_2 t, ?_⟩
  rw [mem_blk15]
  intro a
  match a with
  | ⟨0, _⟩ => show win15_2.index t (0 : Fin 2) * 4000 ≤ (i 0).val ∧ (i 0).val < win15_2.index t (0 : Fin 2) * 4000 + 4000; omega
  | ⟨1, _⟩ => show win15_2.index t (1 : Fin 2) * 128 ≤ (i 1).val ∧ (i 1).val < win15_2.index t (1 : Fin 2) * 128 + 128; omega

/-- Region 15 leaves the biased, rectified array in its output array. -/
theorem bl_final15 (c : Dev nD) :
    (dat15 (F := Ideal) V c).arrAt 2 cfg15.N
      = Cert.GCN.blU (V c (Pipeline.arrRef spec15 0)) (V c (Pipeline.arrRef spec15 1)) :=
  (dat15 V c).arrAt_eq_of_cover 2 _ (fun t _ => flushed15 V c t) (cover15)

/-- The printed index maps of region 17 over its grid: the rows block of the operand and of the result move with the
    point, the bias row is whole. -/
theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

set_option maxHeartbeats 1000000 in
/-- What point `t` of region 17 writes back is block `t` of the biased, rectified array. -/
theorem flushed17 (c : Dev nD) (t : Fin cfg17.N) :
    (dat17 (F := Ideal) V c).flushed 2 t = ((cfg17.win 2).blk t).view.read (Elt Ideal)
      (Cert.GCN.blI (V c (Pipeline.arrRef spec17 0)) (V c (Pipeline.arrRef spec17 1))) := by
  show (cfg17.win 2).cut (grid17.coords t) ((dat17 V c).after 2 t) = _
  rw [after17_2]
  unfold out17_2
  rw [View.canon_unit_zero hzD]
  simp only [View.ld_unit_zero (S := S4000x128) hzD, View.ld_unit_zero (S := S1x128) hzD]
  obtain ⟨e0, e1, e2, e3, e4, e5⟩ := idx17 t
  funext y
  obtain ⟨r, j, rfl⟩ : ∃ (r : Fin 4000) (j : Fin 128), y = ix2 r j := ⟨y 0, y 1, eq_ix2 y⟩
  show k17_pay1 (iblk17 V c 0 t) (iblk17 V c 1 t) (ix2 r j)
    = Cert.GCN.blI (V c (Pipeline.arrRef spec17 0)) (V c (Pipeline.arrRef spec17 1)) (((cfg17.win 2).blk t).view.emb (ix2 r j))
  refine (pay_bl17 (iblk17 V c 0 t) (iblk17 V c 1 t) r j).trans ?_
  unfold Cert.GCN.blI
  have h0 : iblk17 V c 0 t (ix2 r j)
      = V c (Pipeline.arrRef spec17 0) (((cfg17.win 2).blk t).view.emb (ix2 r j)) := by
    show V c (Pipeline.arrRef spec17 0) (((cfg17.win 0).blk t).view.emb (ix2 r j)) = _
    refine congrArg _ (funext fun a => Fin.ext ?_)
    match a with
    | ⟨0, _⟩ => show win17_0.index t (0 : Fin 2) * 4000 + 1 * r.val = win17_2.index t (0 : Fin 2) * 4000 + 1 * r.val; omega
    | ⟨1, _⟩ => show win17_0.index t (1 : Fin 2) * 128 + 1 * j.val = win17_2.index t (1 : Fin 2) * 128 + 1 * j.val; omega
  have h1 : iblk17 V c 1 t (ix2 0 j)
      = V c (Pipeline.arrRef spec17 1) (ix2 0 (((cfg17.win 2).blk t).view.emb (ix2 r j) 1)) := by
    show V c (Pipeline.arrRef spec17 1) (((cfg17.win 1).blk t).view.emb (ix2 0 j)) = _
    refine congrArg _ (funext fun a => Fin.ext ?_)
    match a with
    | ⟨0, _⟩ => show win17_1.index t (0 : Fin 2) * 1 + 1 * 0 = 0; omega
    | ⟨1, _⟩ => show win17_1.index t (1 : Fin 2) * 128 + 1 * j.val = win17_2.index t (1 : Fin 2) * 128 + 1 * j.val; omega
  rw [h0, h1]
  rfl

/-- An index of the array is in point `t`'s block iff each coordinate is in the block's range on its axis. -/
theorem mem_blk17 (t : Fin cfg17.N) (i : S40000x128.Idx) :
    i ∈ ((cfg17.win 2).blk t).view.set ↔ ∀ a : Fin 2, win17_2.index t a * S4000x128.size a ≤ (i a).val
      ∧ (i a).val < win17_2.index t a * S4000x128.size a + S4000x128.size a := by
  show i ∈ ((View.whole main_v175).slice (win17_2.rect t)).set ↔ _
  rw [View.set_slice_whole, Rect.mem_set_unit]
  exact Iff.rfl

/-- Every row lies in the block of the point numbered by the row's quotient by 4000. -/
theorem cover17 (i : S40000x128.Idx) :
    ∃ t : Fin cfg17.N, (cfg17.win 2).flush t = true ∧ i ∈ ((cfg17.win 2).blk t).view.set := by
  have hi0 : (i 0).val < 40000 := (i 0).isLt
  have hi1 : (i 1).val < 128 := (i 1).isLt
  obtain ⟨t, ht⟩ : ∃ t : Fin cfg17.N, t.val = (i 0).val / 4000 :=
    ⟨⟨(i 0).val / 4000, by rw [show cfg17.N = 10 from N_17]; omega⟩, rfl⟩
  obtain ⟨e0, e1, e2, e3, e4, e5⟩ := idx17 t
  refine ⟨t, flush17_2 t, ?_⟩
  rw [mem_blk17]
  intro a
  match a with
  | ⟨0, _⟩ => show win17_2.index t (0 : Fin 2) * 4000 ≤ (i 0).val ∧ (i 0).val < win17_2.index t (0 : Fin 2) * 4000 + 4000; omega
  | ⟨1, _⟩ => show win17_2.index t (1 : Fin 2) * 128 ≤ (i 1).val ∧ (i 1).val < win17_2.index t (1 : Fin 2) * 128 + 128; omega

/-- Region 17 leaves the biased, rectified array in its output array. -/
theorem bl_final17 (c : Dev nD) :
    (dat17 (F := Ideal) V c).arrAt 2 cfg17.N
      = Cert.GCN.blI (V c (Pipeline.arrRef spec17 0)) (V c (Pipeline.arrRef spec17 1)) :=
  (dat17 V c).arrAt_eq_of_cover 2 _ (fun t _ => flushed17 V c t) (cover17)

end Cert.KernelIdeal.RegVal

end
-- ==== Proof.RegUN8.lean ====
/- The union region 8: it leaves, in its output array, the sum of the two products (each rows array it finds with the
   128 × 128 weight it finds) plus the bias row it finds, clipped below at zero — every point of the grid writes one block
   of 4000 rows, and the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzE : (![0, 0] : Fin 2 → Nat) = fun _ => 0 := funext fun a => by fin_cases a <;> rfl

/-- The printed index maps of region 8 over its grid: the rows blocks of the two operands and of the result move with
    the point, the two weights and the bias row are whole. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 1000000 in
/-- What point `t` of region 8 writes back is block `t` of the union step of the five arrays the region finds. -/
theorem flushed8 (c : Dev nD) (t : Fin cfg8.N) :
    (dat8 (F := Ideal) V c).flushed 5 t = ((cfg8.win 5).blk t).view.read (Elt Ideal)
      (Cert.GCN.unU (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero hzE]
  simp only [View.ld_unit_zero (S := S4000x128) hzE, View.ld_unit_zero (S := S128x128) hzE, View.ld_unit_zero (S := S1x128) hzE]
  obtain ⟨e0, e1, e2, e3, e4, e5, e6, e7, e8, e9, e10, e11⟩ := idx8 t
  funext y
  obtain ⟨r, j, rfl⟩ : ∃ (r : Fin 4000) (j : Fin 128), y = ix2 r j := ⟨y 0, y 1, eq_ix2 y⟩
  show k8_pay1 (iblk8 V c 0 t) (iblk8 V c 1 t) (iblk8 V c 2 t) (iblk8 V c 3 t) (iblk8 V c 4 t) (ix2 r j)
    = Cert.GCN.unU (V c (Pipeline.arrRef spec8 0)) (V c (Pipeline.arrRef spec8 1)) (V c (Pipeline.arrRef spec8 2)) (V c (Pipeline.arrRef spec8 3)) (V c (Pipeline.arrRef spec8 4)) (((cfg8.win 5).blk t).view.emb (ix2 r j))
  refine (pay_un8 (iblk8 V c 0 t) (iblk8 V c 1 t) (iblk8 V c 2 t) (iblk8 V c 3 t) (iblk8 V c 4 t) r j).trans ?_
  unfold Cert.GCN.unU
  have hA : ∀ k : Fin 128, iblk8 V c 0 t (ix2 r k) = (V c (Pipeline.arrRef spec8 0)) (ix2 ((((cfg8.win 5).blk t).view.emb (ix2 r j)) 0) k) := fun k => by
    show (V c (Pipeline.arrRef spec8 0)) (((cfg8.win 0).blk t).view.emb (ix2 r k)) = _
    refine congrArg _ (funext fun a => Fin.ext ?_)
    match a with
    | ⟨0, _⟩ => show win8_0.index t (0 : Fin 2) * 4000 + 1 * r.val = win8_5.index t (0 : Fin 2) * 4000 + 1 * r.val; omega
    | ⟨1, _⟩ => show win8_0.index t (1 : Fin 2) * 128 + 1 * k.val = k.val; omega
  have hB : ∀ k : Fin 128, iblk8 V c 1 t (ix2 r k) = (V c (Pipeline.arrRef spec8 1)) (ix2 ((((cfg8.win 5).blk t).view.emb (ix2 r j)) 0) k) := fun k => by
    show (V c (Pipeline.arrRef spec8 1)) (((cfg8.win 1).blk t).view.emb (ix2 r k)) = _
    refine congrArg _ (funext fun a => Fin.ext ?_)
    match a with
    | ⟨0, _⟩ => show win8_1.index t (0 : Fin 2) * 4000 + 1 * r.val = win8_5.index t (0 : Fin 2) * 4000 + 1 * r.val; omega
    | ⟨1, _⟩ => show win8_1.index t (1 : Fin 2) * 128 + 1 * k.val = k.val; omega
  have hP : ∀ k : Fin 128, iblk8 V c 2 t (ix2 k j) = (V c (Pipeline.arrRef spec8 2)) (ix2 k ((((cfg8.win 5).blk t).view.emb (ix2 r j)) 1)) := fun k => by
    show (V c (Pipeline.arrRef spec8 2)) (((cfg8.win 2).blk t).view.emb (ix2 k j)) = _
    refine congrArg _ (funext fun a => Fin.ext ?_)
    match a with
    | ⟨0, _⟩ => show win8_2.index t (0 : Fin 2) * 128 + 1 * k.val = k.val; omega
    | ⟨1, _⟩ => show win8_2.index t (1 : Fin 2) * 128 + 1 * j.val = win8_5.index t (1 : Fin 2) * 128 + 1 * j.val; omega
  have hQ : ∀ k : Fin 128, iblk8 V c 3 t (ix2 k j) = (V c (Pipeline.arrRef spec8 3)) (ix2 k ((((cfg8.win 5).blk t).view.emb (ix2 r j)) 1)) := fun k => by
    show (V c (Pipeline.arrRef spec8 3)) (((cfg8.win 3).blk t).view.emb (ix2 k j)) = _
    refine congrArg _ (funext fun a => Fin.ext ?_)
    match a with
    | ⟨0, _⟩ => show win8_3.index t (0 : Fin 2) * 128 + 1 * k.val = k.val; omega
    | ⟨1, _⟩ => show win8_3.index t (1 : Fin 2) * 128 + 1 * j.val = win8_5.index t (1 : Fin 2) * 128 + 1 * j.val; omega
  have hb : iblk8 V c 4 t (ix2 0 j) = (V c (Pipeline.arrRef spec8 4)) (ix2 0 ((((cfg8.win 5).blk t).view.emb (ix2 r j)) 1)) := by
    show (V c (Pipeline.arrRef spec8 4)) (((cfg8.win 4).blk t).view.emb (ix2 0 j)) = _
    refine congrArg _ (funext fun a => Fin.ext ?_)
    match a with
    | ⟨0, _⟩ => show win8_4.index t (0 : Fin 2) * 1 + 1 * 0 = 0; omega
    | ⟨1, _⟩ => show win8_4.index t (1 : Fin 2) * 128 + 1 * j.val = win8_5.index t (1 : Fin 2) * 128 + 1 * j.val; omega
  congr 1
  congr 1
  congr 1
  · exact Finset.sum_congr rfl fun k _ => by rw [hA k, hP k]
  · exact Finset.sum_congr rfl fun k _ => by rw [hB k, hQ k]

/-- An index of the array is in point `t`'s block iff each coordinate is in the block's range on its axis. -/
theorem mem_blk8 (t : Fin cfg8.N) (i : S60000x128.Idx) :
    i ∈ ((cfg8.win 5).blk t).view.set ↔ ∀ a : Fin 2, win8_5.index t a * S4000x128.size a ≤ (i a).val
      ∧ (i a).val < win8_5.index t a * S4000x128.size a + S4000x128.size a := by
  show i ∈ ((View.whole main_v87).slice (win8_5.rect t)).set ↔ _
  rw [View.set_slice_whole, Rect.mem_set_unit]
  exact Iff.rfl

/-- Every row lies in the block of the point numbered by the row's quotient by 4000. -/
theorem cover8 (i : S60000x128.Idx) :
    ∃ t : Fin cfg8.N, (cfg8.win 5).flush t = true ∧ i ∈ ((cfg8.win 5).blk t).view.set := by
  have hi0 : (i 0).val < 60000 := (i 0).isLt
  have hi1 : (i 1).val < 128 := (i 1).isLt
  obtain ⟨t, ht⟩ : ∃ t : Fin cfg8.N, t.val = (i 0).val / 4000 :=
    ⟨⟨(i 0).val / 4000, by rw [show cfg8.N = 15 from N_8]; omega⟩, rfl⟩
  obtain ⟨e0, e1, e2, e3, e4, e5, e6, e7, e8, e9, e10, e11⟩ := idx8 t
  refine ⟨t, flush8_5 t, ?_⟩
  rw [mem_blk8]
  intro a
  match a with
  | ⟨0, _⟩ => show win8_5.index t (0 : Fin 2) * 4000 ≤ (i 0).val ∧ (i 0).val < win8_5.index t (0 : Fin 2) * 4000 + 4000; omega
  | ⟨1, _⟩ => show win8_5.index t (1 : Fin 2) * 128 ≤ (i 1).val ∧ (i 1).val < win8_5.index t (1 : Fin 2) * 128 + 128; omega

/-- Region 8 leaves the union step in its output array. -/
theorem un_final8 (c : Dev nD) :
    (dat8 (F := Ideal) V c).arrAt 5 cfg8.N
      = Cert.GCN.unU (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 _ (fun t _ => flushed8 V c t) (cover8)

end Cert.KernelIdeal.RegVal

end
-- ==== Proof.RegUN9.lean ====
/- The union region 9: it leaves, in its output array, the sum of the two products (each rows array it finds with the
   128 × 128 weight it finds) plus the bias row it finds, clipped below at zero — every point of the grid writes one block
   of 4000 rows, and the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzF : (![0, 0] : Fin 2 → Nat) = fun _ => 0 := funext fun a => by fin_cases a <;> rfl

/-- The printed index maps of region 9 over its grid: the rows blocks of the two operands and of the result move with
    the point, the two weights and the bias row are whole. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

set_option maxHeartbeats 1000000 in
/-- What point `t` of region 9 writes back is block `t` of the union step of the five arrays the region finds. -/
theorem flushed9 (c : Dev nD) (t : Fin cfg9.N) :
    (dat9 (F := Ideal) V c).flushed 5 t = ((cfg9.win 5).blk t).view.read (Elt Ideal)
      (Cert.GCN.unI (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero hzF]
  simp only [View.ld_unit_zero (S := S4000x128) hzF, View.ld_unit_zero (S := S128x128) hzF, View.ld_unit_zero (S := S1x128) hzF]
  obtain ⟨e0, e1, e2, e3, e4, e5, e6, e7, e8, e9, e10, e11⟩ := idx9 t
  funext y
  obtain ⟨r, j, rfl⟩ : ∃ (r : Fin 4000) (j : Fin 128), y = ix2 r j := ⟨y 0, y 1, eq_ix2 y⟩
  show k9_pay1 (iblk9 V c 0 t) (iblk9 V c 1 t) (iblk9 V c 2 t) (iblk9 V c 3 t) (iblk9 V c 4 t) (ix2 r j)
    = Cert.GCN.unI (V c (Pipeline.arrRef spec9 0)) (V c (Pipeline.arrRef spec9 1)) (V c (Pipeline.arrRef spec9 2)) (V c (Pipeline.arrRef spec9 3)) (V c (Pipeline.arrRef spec9 4)) (((cfg9.win 5).blk t).view.emb (ix2 r j))
  refine (pay_un9 (iblk9 V c 0 t) (iblk9 V c 1 t) (iblk9 V c 2 t) (iblk9 V c 3 t) (iblk9 V c 4 t) r j).trans ?_
  unfold Cert.GCN.unI
  have hA : ∀ k : Fin 128, iblk9 V c 0 t (ix2 r k) = (V c (Pipeline.arrRef spec9 0)) (ix2 ((((cfg9.win 5).blk t).view.emb (ix2 r j)) 0) k) := fun k => by
    show (V c (Pipeline.arrRef spec9 0)) (((cfg9.win 0).blk t).view.emb (ix2 r k)) = _
    refine congrArg _ (funext fun a => Fin.ext ?_)
    match a with
    | ⟨0, _⟩ => show win9_0.index t (0 : Fin 2) * 4000 + 1 * r.val = win9_5.index t (0 : Fin 2) * 4000 + 1 * r.val; omega
    | ⟨1, _⟩ => show win9_0.index t (1 : Fin 2) * 128 + 1 * k.val = k.val; omega
  have hB : ∀ k : Fin 128, iblk9 V c 1 t (ix2 r k) = (V c (Pipeline.arrRef spec9 1)) (ix2 ((((cfg9.win 5).blk t).view.emb (ix2 r j)) 0) k) := fun k => by
    show (V c (Pipeline.arrRef spec9 1)) (((cfg9.win 1).blk t).view.emb (ix2 r k)) = _
    refine congrArg _ (funext fun a => Fin.ext ?_)
    match a with
    | ⟨0, _⟩ => show win9_1.index t (0 : Fin 2) * 4000 + 1 * r.val = win9_5.index t (0 : Fin 2) * 4000 + 1 * r.val; omega
    | ⟨1, _⟩ => show win9_1.index t (1 : Fin 2) * 128 + 1 * k.val = k.val; omega
  have hP : ∀ k : Fin 128, iblk9 V c 2 t (ix2 k j) = (V c (Pipeline.arrRef spec9 2)) (ix2 k ((((cfg9.win 5).blk t).view.emb (ix2 r j)) 1)) := fun k => by
    show (V c (Pipeline.arrRef spec9 2)) (((cfg9.win 2).blk t).view.emb (ix2 k j)) = _
    refine congrArg _ (funext fun a => Fin.ext ?_)
    match a with
    | ⟨0, _⟩ => show win9_2.index t (0 : Fin 2) * 128 + 1 * k.val = k.val; omega
    | ⟨1, _⟩ => show win9_2.index t (1 : Fin 2) * 128 + 1 * j.val = win9_5.index t (1 : Fin 2) * 128 + 1 * j.val; omega
  have hQ : ∀ k : Fin 128, iblk9 V c 3 t (ix2 k j) = (V c (Pipeline.arrRef spec9 3)) (ix2 k ((((cfg9.win 5).blk t).view.emb (ix2 r j)) 1)) := fun k => by
    show (V c (Pipeline.arrRef spec9 3)) (((cfg9.win 3).blk t).view.emb (ix2 k j)) = _
    refine congrArg _ (funext fun a => Fin.ext ?_)
    match a with
    | ⟨0, _⟩ => show win9_3.index t (0 : Fin 2) * 128 + 1 * k.val = k.val; omega
    | ⟨1, _⟩ => show win9_3.index t (1 : Fin 2) * 128 + 1 * j.val = win9_5.index t (1 : Fin 2) * 128 + 1 * j.val; omega
  have hb : iblk9 V c 4 t (ix2 0 j) = (V c (Pipeline.arrRef spec9 4)) (ix2 0 ((((cfg9.win 5).blk t).view.emb (ix2 r j)) 1)) := by
    show (V c (Pipeline.arrRef spec9 4)) (((cfg9.win 4).blk t).view.emb (ix2 0 j)) = _
    refine congrArg _ (funext fun a => Fin.ext ?_)
    match a with
    | ⟨0, _⟩ => show win9_4.index t (0 : Fin 2) * 1 + 1 * 0 = 0; omega
    | ⟨1, _⟩ => show win9_4.index t (1 : Fin 2) * 128 + 1 * j.val = win9_5.index t (1 : Fin 2) * 128 + 1 * j.val; omega
  congr 1
  congr 1
  congr 1
  · exact Finset.sum_congr rfl fun k _ => by rw [hA k, hP k]
  · exact Finset.sum_congr rfl fun k _ => by rw [hB k, hQ k]

/-- An index of the array is in point `t`'s block iff each coordinate is in the block's range on its axis. -/
theorem mem_blk9 (t : Fin cfg9.N) (i : S40000x128.Idx) :
    i ∈ ((cfg9.win 5).blk t).view.set ↔ ∀ a : Fin 2, win9_5.index t a * S4000x128.size a ≤ (i a).val
      ∧ (i a).val < win9_5.index t a * S4000x128.size a + S4000x128.size a := by
  show i ∈ ((View.whole main_v95).slice (win9_5.rect t)).set ↔ _
  rw [View.set_slice_whole, Rect.mem_set_unit]
  exact Iff.rfl

/-- Every row lies in the block of the point numbered by the row's quotient by 4000. -/
theorem cover9 (i : S40000x128.Idx) :
    ∃ t : Fin cfg9.N, (cfg9.win 5).flush t = true ∧ i ∈ ((cfg9.win 5).blk t).view.set := by
  have hi0 : (i 0).val < 40000 := (i 0).isLt
  have hi1 : (i 1).val < 128 := (i 1).isLt
  obtain ⟨t, ht⟩ : ∃ t : Fin cfg9.N, t.val = (i 0).val / 4000 :=
    ⟨⟨(i 0).val / 4000, by rw [show cfg9.N = 10 from N_9]; omega⟩, rfl⟩
  obtain ⟨e0, e1, e2, e3, e4, e5, e6, e7, e8, e9, e10, e11⟩ := idx9 t
  refine ⟨t, flush9_5 t, ?_⟩
  rw [mem_blk9]
  intro a
  match a with
  | ⟨0, _⟩ => show win9_5.index t (0 : Fin 2) * 4000 ≤ (i 0).val ∧ (i 0).val < win9_5.index t (0 : Fin 2) * 4000 + 4000; omega
  | ⟨1, _⟩ => show win9_5.index t (1 : Fin 2) * 128 ≤ (i 1).val ∧ (i 1).val < win9_5.index t (1 : Fin 2) * 128 + 128; omega

/-- Region 9 leaves the union step in its output array. -/
theorem un_final9 (c : Dev nD) :
    (dat9 (F := Ideal) V c).arrAt 5 cfg9.N
      = Cert.GCN.unI (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 _ (fun t _ => flushed9 V c t) (cover9)

end Cert.KernelIdeal.RegVal

end
-- ==== Proof.RegUN18.lean ====
/- The union region 18: it leaves, in its output array, the sum of the two products (each rows array it finds with the
   128 × 128 weight it finds) plus the bias row it finds, clipped below at zero — every point of the grid writes one block
   of 4000 rows, and the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzG : (![0, 0] : Fin 2 → Nat) = fun _ => 0 := funext fun a => by fin_cases a <;> rfl

/-- The printed index maps of region 18 over its grid: the rows blocks of the two operands and of the result move with
    the point, the two weights and the bias row are whole. -/
theorem idx18 : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

set_option maxHeartbeats 1000000 in
/-- What point `t` of region 18 writes back is block `t` of the union step of the five arrays the region finds. -/
theorem flushed18 (c : Dev nD) (t : Fin cfg18.N) :
    (dat18 (F := Ideal) V c).flushed 5 t = ((cfg18.win 5).blk t).view.read (Elt Ideal)
      (Cert.GCN.unU (V c (Pipeline.arrRef spec18 0)) (V c (Pipeline.arrRef spec18 1)) (V c (Pipeline.arrRef spec18 2)) (V c (Pipeline.arrRef spec18 3)) (V c (Pipeline.arrRef spec18 4))) := by
  show (cfg18.win 5).cut (grid18.coords t) ((dat18 V c).after 5 t) = _
  rw [after18_5]
  unfold out18_5
  rw [View.canon_unit_zero hzG]
  simp only [View.ld_unit_zero (S := S4000x128) hzG, View.ld_unit_zero (S := S128x128) hzG, View.ld_unit_zero (S := S1x128) hzG]
  obtain ⟨e0, e1, e2, e3, e4, e5, e6, e7, e8, e9, e10, e11⟩ := idx18 t
  funext y
  obtain ⟨r, j, rfl⟩ : ∃ (r : Fin 4000) (j : Fin 128), y = ix2 r j := ⟨y 0, y 1, eq_ix2 y⟩
  show k18_pay1 (iblk18 V c 0 t) (iblk18 V c 1 t) (iblk18 V c 2 t) (iblk18 V c 3 t) (iblk18 V c 4 t) (ix2 r j)
    = Cert.GCN.unU (V c (Pipeline.arrRef spec18 0)) (V c (Pipeline.arrRef spec18 1)) (V c (Pipeline.arrRef spec18 2)) (V c (Pipeline.arrRef spec18 3)) (V c (Pipeline.arrRef spec18 4)) (((cfg18.win 5).blk t).view.emb (ix2 r j))
  refine (pay_un18 (iblk18 V c 0 t) (iblk18 V c 1 t) (iblk18 V c 2 t) (iblk18 V c 3 t) (iblk18 V c 4 t) r j).trans ?_
  unfold Cert.GCN.unU
  have hA : ∀ k : Fin 128, iblk18 V c 0 t (ix2 r k) = (V c (Pipeline.arrRef spec18 0)) (ix2 ((((cfg18.win 5).blk t).view.emb (ix2 r j)) 0) k) := fun k => by
    show (V c (Pipeline.arrRef spec18 0)) (((cfg18.win 0).blk t).view.emb (ix2 r k)) = _
    refine congrArg _ (funext fun a => Fin.ext ?_)
    match a with
    | ⟨0, _⟩ => show win18_0.index t (0 : Fin 2) * 4000 + 1 * r.val = win18_5.index t (0 : Fin 2) * 4000 + 1 * r.val; omega
    | ⟨1, _⟩ => show win18_0.index t (1 : Fin 2) * 128 + 1 * k.val = k.val; omega
  have hB : ∀ k : Fin 128, iblk18 V c 1 t (ix2 r k) = (V c (Pipeline.arrRef spec18 1)) (ix2 ((((cfg18.win 5).blk t).view.emb (ix2 r j)) 0) k) := fun k => by
    show (V c (Pipeline.arrRef spec18 1)) (((cfg18.win 1).blk t).view.emb (ix2 r k)) = _
    refine congrArg _ (funext fun a => Fin.ext ?_)
    match a with
    | ⟨0, _⟩ => show win18_1.index t (0 : Fin 2) * 4000 + 1 * r.val = win18_5.index t (0 : Fin 2) * 4000 + 1 * r.val; omega
    | ⟨1, _⟩ => show win18_1.index t (1 : Fin 2) * 128 + 1 * k.val = k.val; omega
  have hP : ∀ k : Fin 128, iblk18 V c 2 t (ix2 k j) = (V c (Pipeline.arrRef spec18 2)) (ix2 k ((((cfg18.win 5).blk t).view.emb (ix2 r j)) 1)) := fun k => by
    show (V c (Pipeline.arrRef spec18 2)) (((cfg18.win 2).blk t).view.emb (ix2 k j)) = _
    refine congrArg _ (funext fun a => Fin.ext ?_)
    match a with
    | ⟨0, _⟩ => show win18_2.index t (0 : Fin 2) * 128 + 1 * k.val = k.val; omega
    | ⟨1, _⟩ => show win18_2.index t (1 : Fin 2) * 128 + 1 * j.val = win18_5.index t (1 : Fin 2) * 128 + 1 * j.val; omega
  have hQ : ∀ k : Fin 128, iblk18 V c 3 t (ix2 k j) = (V c (Pipeline.arrRef spec18 3)) (ix2 k ((((cfg18.win 5).blk t).view.emb (ix2 r j)) 1)) := fun k => by
    show (V c (Pipeline.arrRef spec18 3)) (((cfg18.win 3).blk t).view.emb (ix2 k j)) = _
    refine congrArg _ (funext fun a => Fin.ext ?_)
    match a with
    | ⟨0, _⟩ => show win18_3.index t (0 : Fin 2) * 128 + 1 * k.val = k.val; omega
    | ⟨1, _⟩ => show win18_3.index t (1 : Fin 2) * 128 + 1 * j.val = win18_5.index t (1 : Fin 2) * 128 + 1 * j.val; omega
  have hb : iblk18 V c 4 t (ix2 0 j) = (V c (Pipeline.arrRef spec18 4)) (ix2 0 ((((cfg18.win 5).blk t).view.emb (ix2 r j)) 1)) := by
    show (V c (Pipeline.arrRef spec18 4)) (((cfg18.win 4).blk t).view.emb (ix2 0 j)) = _
    refine congrArg _ (funext fun a => Fin.ext ?_)
    match a with
    | ⟨0, _⟩ => show win18_4.index t (0 : Fin 2) * 1 + 1 * 0 = 0; omega
    | ⟨1, _⟩ => show win18_4.index t (1 : Fin 2) * 128 + 1 * j.val = win18_5.index t (1 : Fin 2) * 128 + 1 * j.val; omega
  congr 1
  congr 1
  congr 1
  · exact Finset.sum_congr rfl fun k _ => by rw [hA k, hP k]
  · exact Finset.sum_congr rfl fun k _ => by rw [hB k, hQ k]

/-- An index of the array is in point `t`'s block iff each coordinate is in the block's range on its axis. -/
theorem mem_blk18 (t : Fin cfg18.N) (i : S60000x128.Idx) :
    i ∈ ((cfg18.win 5).blk t).view.set ↔ ∀ a : Fin 2, win18_5.index t a * S4000x128.size a ≤ (i a).val
      ∧ (i a).val < win18_5.index t a * S4000x128.size a + S4000x128.size a := by
  show i ∈ ((View.whole main_v183).slice (win18_5.rect t)).set ↔ _
  rw [View.set_slice_whole, Rect.mem_set_unit]
  exact Iff.rfl

/-- Every row lies in the block of the point numbered by the row's quotient by 4000. -/
theorem cover18 (i : S60000x128.Idx) :
    ∃ t : Fin cfg18.N, (cfg18.win 5).flush t = true ∧ i ∈ ((cfg18.win 5).blk t).view.set := by
  have hi0 : (i 0).val < 60000 := (i 0).isLt
  have hi1 : (i 1).val < 128 := (i 1).isLt
  obtain ⟨t, ht⟩ : ∃ t : Fin cfg18.N, t.val = (i 0).val / 4000 :=
    ⟨⟨(i 0).val / 4000, by rw [show cfg18.N = 15 from N_18]; omega⟩, rfl⟩
  obtain ⟨e0, e1, e2, e3, e4, e5, e6, e7, e8, e9, e10, e11⟩ := idx18 t
  refine ⟨t, flush18_5 t, ?_⟩
  rw [mem_blk18]
  intro a
  match a with
  | ⟨0, _⟩ => show win18_5.index t (0 : Fin 2) * 4000 ≤ (i 0).val ∧ (i 0).val < win18_5.index t (0 : Fin 2) * 4000 + 4000; omega
  | ⟨1, _⟩ => show win18_5.index t (1 : Fin 2) * 128 ≤ (i 1).val ∧ (i 1).val < win18_5.index t (1 : Fin 2) * 128 + 128; omega

/-- Region 18 leaves the union step in its output array. -/
theorem un_final18 (c : Dev nD) :
    (dat18 (F := Ideal) V c).arrAt 5 cfg18.N
      = Cert.GCN.unU (V c (Pipeline.arrRef spec18 0)) (V c (Pipeline.arrRef spec18 1)) (V c (Pipeline.arrRef spec18 2)) (V c (Pipeline.arrRef spec18 3)) (V c (Pipeline.arrRef spec18 4)) :=
  (dat18 V c).arrAt_eq_of_cover 5 _ (fun t _ => flushed18 V c t) (cover18)

end Cert.KernelIdeal.RegVal

end
-- ==== Proof.RegUN19.lean ====
/- The union region 19: it leaves, in its output array, the sum of the two products (each rows array it finds with the
   128 × 128 weight it finds) plus the bias row it finds, clipped below at zero — every point of the grid writes one block
   of 4000 rows, and the blocks tile the array. -/
import proofs.«150895_j60593398612496_1_alg».proof.Proof.Gen.KernelIdeal.Frame
import proofs.«150895_j60593398612496_1_alg».proof.Proof.Spec
import proofs.«150895_j60593398612496_1_alg».proof.Proof.RegPay
import Idealize.ShloMosaic.Lib.Pipeline.Value

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offset of a store of a whole block. -/
theorem hzH : (![0, 0] : Fin 2 → Nat) = fun _ => 0 := funext fun a => by fin_cases a <;> rfl

/-- The printed index maps of region 19 over its grid: the rows blocks of the two operands and of the result move with
    the point, the two weights and the bias row are whole. -/
theorem idx19 : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = t.val ∧ win19_5.index t (1 : Fin 2) = 0 :=
  (by decide +kernel : ∀ t : Fin grid19.N, _)

set_option maxHeartbeats 1000000 in
/-- What point `t` of region 19 writes back is block `t` of the union step of the five arrays the region finds. -/
theorem flushed19 (c : Dev nD) (t : Fin cfg19.N) :
    (dat19 (F := Ideal) V c).flushed 5 t = ((cfg19.win 5).blk t).view.read (Elt Ideal)
      (Cert.GCN.unI (V c (Pipeline.arrRef spec19 0)) (V c (Pipeline.arrRef spec19 1)) (V c (Pipeline.arrRef spec19 2)) (V c (Pipeline.arrRef spec19 3)) (V c (Pipeline.arrRef spec19 4))) := by
  show (cfg19.win 5).cut (grid19.coords t) ((dat19 V c).after 5 t) = _
  rw [after19_5]
  unfold out19_5
  rw [View.canon_unit_zero hzH]
  simp only [View.ld_unit_zero (S := S4000x128) hzH, View.ld_unit_zero (S := S128x128) hzH, View.ld_unit_zero (S := S1x128) hzH]
  obtain ⟨e0, e1, e2, e3, e4, e5, e6, e7, e8, e9, e10, e11⟩ := idx19 t
  funext y
  obtain ⟨r, j, rfl⟩ : ∃ (r : Fin 4000) (j : Fin 128), y = ix2 r j := ⟨y 0, y 1, eq_ix2 y⟩
  show k19_pay1 (iblk19 V c 0 t) (iblk19 V c 1 t) (iblk19 V c 2 t) (iblk19 V c 3 t) (iblk19 V c 4 t) (ix2 r j)
    = Cert.GCN.unI (V c (Pipeline.arrRef spec19 0)) (V c (Pipeline.arrRef spec19 1)) (V c (Pipeline.arrRef spec19 2)) (V c (Pipeline.arrRef spec19 3)) (V c (Pipeline.arrRef spec19 4)) (((cfg19.win 5).blk t).view.emb (ix2 r j))
  refine (pay_un19 (iblk19 V c 0 t) (iblk19 V c 1 t) (iblk19 V c 2 t) (iblk19 V c 3 t) (iblk19 V c 4 t) r j).trans ?_
  unfold Cert.GCN.unI
  have hA : ∀ k : Fin 128, iblk19 V c 0 t (ix2 r k) = (V c (Pipeline.arrRef spec19 0)) (ix2 ((((cfg19.win 5).blk t).view.emb (ix2 r j)) 0) k) := fun k => by
    show (V c (Pipeline.arrRef spec19 0)) (((cfg19.win 0).blk t).view.emb (ix2 r k)) = _
    refine congrArg _ (funext fun a => Fin.ext ?_)
    match a with
    | ⟨0, _⟩ => show win19_0.index t (0 : Fin 2) * 4000 + 1 * r.val = win19_5.index t (0 : Fin 2) * 4000 + 1 * r.val; omega
    | ⟨1, _⟩ => show win19_0.index t (1 : Fin 2) * 128 + 1 * k.val = k.val; omega
  have hB : ∀ k : Fin 128, iblk19 V c 1 t (ix2 r k) = (V c (Pipeline.arrRef spec19 1)) (ix2 ((((cfg19.win 5).blk t).view.emb (ix2 r j)) 0) k) := fun k => by
    show (V c (Pipeline.arrRef spec19 1)) (((cfg19.win 1).blk t).view.emb (ix2 r k)) = _
    refine congrArg _ (funext fun a => Fin.ext ?_)
    match a with
    | ⟨0, _⟩ => show win19_1.index t (0 : Fin 2) * 4000 + 1 * r.val = win19_5.index t (0 : Fin 2) * 4000 + 1 * r.val; omega
    | ⟨1, _⟩ => show win19_1.index t (1 : Fin 2) * 128 + 1 * k.val = k.val; omega
  have hP : ∀ k : Fin 128, iblk19 V c 2 t (ix2 k j) = (V c (Pipeline.arrRef spec19 2)) (ix2 k ((((cfg19.win 5).blk t).view.emb (ix2 r j)) 1)) := fun k => by
    show (V c (Pipeline.arrRef spec19 2)) (((cfg19.win 2).blk t).view.emb (ix2 k j)) = _
    refine congrArg _ (funext fun a => Fin.ext ?_)
    match a with
    | ⟨0, _⟩ => show win19_2.index t (0 : Fin 2) * 128 + 1 * k.val = k.val; omega
    | ⟨1, _⟩ => show win19_2.index t (1 : Fin 2) * 128 + 1 * j.val = win19_5.index t (1 : Fin 2) * 128 + 1 * j.val; omega
  have hQ : ∀ k : Fin 128, iblk19 V c 3 t (ix2 k j) = (V c (Pipeline.arrRef spec19 3)) (ix2 k ((((cfg19.win 5).blk t).view.emb (ix2 r j)) 1)) := fun k => by
    show (V c (Pipeline.arrRef spec19 3)) (((cfg19.win 3).blk t).view.emb (ix2 k j)) = _
    refine congrArg _ (funext fun a => Fin.ext ?_)
    match a with
    | ⟨0, _⟩ => show win19_3.index t (0 : Fin 2) * 128 + 1 * k.val = k.val; omega
    | ⟨1, _⟩ => show win19_3.index t (1 : Fin 2) * 128 + 1 * j.val = win19_5.index t (1 : Fin 2) * 128 + 1 * j.val; omega
  have hb : iblk19 V c 4 t (ix2 0 j) = (V c (Pipeline.arrRef spec19 4)) (ix2 0 ((((cfg19.win 5).blk t).view.emb (ix2 r j)) 1)) := by
    show (V c (Pipeline.arrRef spec19 4)) (((cfg19.win 4).blk t).view.emb (ix2 0 j)) = _
    refine congrArg _ (funext fun a => Fin.ext ?_)
    match a with
    | ⟨0, _⟩ => show win19_4.index t (0 : Fin 2) * 1 + 1 * 0 = 0; omega
    | ⟨1, _⟩ => show win19_4.index t (1 : Fin 2) * 128 + 1 * j.val = win19_5.index t (1 : Fin 2) * 128 + 1 * j.val; omega
  congr 1
  congr 1
  congr 1
  · exact Finset.sum_congr rfl fun k _ => by rw [hA k, hP k]
  · exact Finset.sum_congr rfl fun k _ => by rw [hB k, hQ k]

/-- An index of the array is in point `t`'s block iff each coordinate is in the block's range on its axis. -/
theorem mem_blk19 (t : Fin cfg19.N) (i : S40000x128.Idx) :
    i ∈ ((cfg19.win 5).blk t).view.set ↔ ∀ a : Fin 2, win19_5.index t a * S4000x128.size a ≤ (i a).val
      ∧ (i a).val < win19_5.index t a * S4000x128.size a + S4000x128.size a := by
  show i ∈ ((View.whole main_v191).slice (win19_5.rect t)).set ↔ _
  rw [View.set_slice_whole, Rect.mem_set_unit]
  exact Iff.rfl

/-- Every row lies in the block of the point numbered by the row's quotient by 4000. -/
theorem cover19 (i : S40000x128.Idx) :
    ∃ t : Fin cfg19.N, (cfg19.win 5).flush t = true ∧ i ∈ ((cfg19.win 5).blk t).view.set := by
  have hi0 : (i 0).val < 40000 := (i 0).isLt
  have hi1 : (i 1).val < 128 := (i 1).isLt
  obtain ⟨t, ht⟩ : ∃ t : Fin cfg19.N, t.val = (i 0).val / 4000 :=
    ⟨⟨(i 0).val / 4000, by rw [show cfg19.N = 10 from N_19]; omega⟩, rfl⟩
  obtain ⟨e0, e1, e2, e3, e4, e5, e6, e7, e8, e9, e10, e11⟩ := idx19 t
  refine ⟨t, flush19_5 t, ?_⟩
  rw [mem_blk19]
  intro a
  match a with
  | ⟨0, _⟩ => show win19_5.index t (0 : Fin 2) * 4000 ≤ (i 0).val ∧ (i 0).val < win19_5.index t (0 : Fin 2) * 4000 + 4000; omega
  | ⟨1, _⟩ => show win19_5.index t (1 : Fin 2) * 128 ≤ (i 1).val ∧ (i 1).val < win19_5.index t (1 : Fin 2) * 128 + 128; omega

/-- Region 19 leaves the union step in its output array. -/
theorem un_final19 (c : Dev nD) :
    (dat19 (F := Ideal) V c).arrAt 5 cfg19.N
      = Cert.GCN.unI (V c (Pipeline.arrRef spec19 0)) (V c (Pipeline.arrRef spec19 1)) (V c (Pipeline.arrRef spec19 2)) (V c (Pipeline.arrRef spec19 3)) (V c (Pipeline.arrRef spec19 4)) :=
  (dat19 V c).arrAt_eq_of_cover 5 _ (fun t _ => flushed19 V c t) (cover19)

end Cert.KernelIdeal.RegVal

end
-- ==== Proof.RegVal.lean ====
/- What each of the twenty regions leaves in its output array, as one function of the arrays the region finds:
   a matrix product, a bias with the leaky rectifier, or the union step, on user rows or on item rows. -/
import proofs.«150895_j60593398612496_1_alg».proof.Proof.Gen.KernelIdeal.Frame
import proofs.«150895_j60593398612496_1_alg».proof.Proof.Spec
import proofs.«150895_j60593398612496_1_alg».proof.Proof.RegMM
import proofs.«150895_j60593398612496_1_alg».proof.Proof.RegMM2
import proofs.«150895_j60593398612496_1_alg».proof.Proof.RegBL
import proofs.«150895_j60593398612496_1_alg».proof.Proof.RegBL2
import proofs.«150895_j60593398612496_1_alg».proof.Proof.RegUN8
import proofs.«150895_j60593398612496_1_alg».proof.Proof.RegUN9
import proofs.«150895_j60593398612496_1_alg».proof.Proof.RegUN18
import proofs.«150895_j60593398612496_1_alg».proof.Proof.RegUN19

set_option maxRecDepth 16384

noncomputable section

namespace Cert.KernelIdeal.RegVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem final0 (c : Dev nD) :
    (dat0 (F := Ideal) V c).arrAt 2 cfg0.N = Cert.GCN.mmU (V c (Pipeline.arrRef spec0 0)) (V c (Pipeline.arrRef spec0 1)) :=
  mm_final0 V c

theorem final1 (c : Dev nD) :
    (dat1 (F := Ideal) V c).arrAt 2 cfg1.N = Cert.GCN.blI (V c (Pipeline.arrRef spec1 0)) (V c (Pipeline.arrRef spec1 1)) :=
  bl_final1 V c

theorem final2 (c : Dev nD) :
    (dat2 (F := Ideal) V c).arrAt 2 cfg2.N = Cert.GCN.mmI (V c (Pipeline.arrRef spec2 0)) (V c (Pipeline.arrRef spec2 1)) :=
  mm_final2 V c

theorem final3 (c : Dev nD) :
    (dat3 (F := Ideal) V c).arrAt 2 cfg3.N = Cert.GCN.blU (V c (Pipeline.arrRef spec3 0)) (V c (Pipeline.arrRef spec3 1)) :=
  bl_final3 V c

theorem final4 (c : Dev nD) :
    (dat4 (F := Ideal) V c).arrAt 2 cfg4.N = Cert.GCN.mmI (V c (Pipeline.arrRef spec4 0)) (V c (Pipeline.arrRef spec4 1)) :=
  mm_final4 V c

theorem final5 (c : Dev nD) :
    (dat5 (F := Ideal) V c).arrAt 2 cfg5.N = Cert.GCN.blU (V c (Pipeline.arrRef spec5 0)) (V c (Pipeline.arrRef spec5 1)) :=
  bl_final5 V c

theorem final6 (c : Dev nD) :
    (dat6 (F := Ideal) V c).arrAt 2 cfg6.N = Cert.GCN.mmU (V c (Pipeline.arrRef spec6 0)) (V c (Pipeline.arrRef spec6 1)) :=
  mm_final6 V c

theorem final7 (c : Dev nD) :
    (dat7 (F := Ideal) V c).arrAt 2 cfg7.N = Cert.GCN.blI (V c (Pipeline.arrRef spec7 0)) (V c (Pipeline.arrRef spec7 1)) :=
  bl_final7 V c

theorem final8 (c : Dev nD) :
    (dat8 (F := Ideal) V c).arrAt 5 cfg8.N = Cert.GCN.unU (V c (Pipeline.arrRef spec8 0)) (V c (Pipeline.arrRef spec8 1)) (V c (Pipeline.arrRef spec8 2)) (V c (Pipeline.arrRef spec8 3)) (V c (Pipeline.arrRef spec8 4)) :=
  un_final8 V c

theorem final9 (c : Dev nD) :
    (dat9 (F := Ideal) V c).arrAt 5 cfg9.N = Cert.GCN.unI (V c (Pipeline.arrRef spec9 0)) (V c (Pipeline.arrRef spec9 1)) (V c (Pipeline.arrRef spec9 2)) (V c (Pipeline.arrRef spec9 3)) (V c (Pipeline.arrRef spec9 4)) :=
  un_final9 V c

theorem final10 (c : Dev nD) :
    (dat10 (F := Ideal) V c).arrAt 2 cfg10.N = Cert.GCN.mmU (V c (Pipeline.arrRef spec10 0)) (V c (Pipeline.arrRef spec10 1)) :=
  mm_final10 V c

theorem final11 (c : Dev nD) :
    (dat11 (F := Ideal) V c).arrAt 2 cfg11.N = Cert.GCN.blI (V c (Pipeline.arrRef spec11 0)) (V c (Pipeline.arrRef spec11 1)) :=
  bl_final11 V c

theorem final12 (c : Dev nD) :
    (dat12 (F := Ideal) V c).arrAt 2 cfg12.N = Cert.GCN.mmI (V c (Pipeline.arrRef spec12 0)) (V c (Pipeline.arrRef spec12 1)) :=
  mm_final12 V c

theorem final13 (c : Dev nD) :
    (dat13 (F := Ideal) V c).arrAt 2 cfg13.N = Cert.GCN.blU (V c (Pipeline.arrRef spec13 0)) (V c (Pipeline.arrRef spec13 1)) :=
  bl_final13 V c

theorem final14 (c : Dev nD) :
    (dat14 (F := Ideal) V c).arrAt 2 cfg14.N = Cert.GCN.mmI (V c (Pipeline.arrRef spec14 0)) (V c (Pipeline.arrRef spec14 1)) :=
  mm_final14 V c

theorem final15 (c : Dev nD) :
    (dat15 (F := Ideal) V c).arrAt 2 cfg15.N = Cert.GCN.blU (V c (Pipeline.arrRef spec15 0)) (V c (Pipeline.arrRef spec15 1)) :=
  bl_final15 V c

theorem final16 (c : Dev nD) :
    (dat16 (F := Ideal) V c).arrAt 2 cfg16.N = Cert.GCN.mmU (V c (Pipeline.arrRef spec16 0)) (V c (Pipeline.arrRef spec16 1)) :=
  mm_final16 V c

theorem final17 (c : Dev nD) :
    (dat17 (F := Ideal) V c).arrAt 2 cfg17.N = Cert.GCN.blI (V c (Pipeline.arrRef spec17 0)) (V c (Pipeline.arrRef spec17 1)) :=
  bl_final17 V c

theorem final18 (c : Dev nD) :
    (dat18 (F := Ideal) V c).arrAt 5 cfg18.N = Cert.GCN.unU (V c (Pipeline.arrRef spec18 0)) (V c (Pipeline.arrRef spec18 1)) (V c (Pipeline.arrRef spec18 2)) (V c (Pipeline.arrRef spec18 3)) (V c (Pipeline.arrRef spec18 4)) :=
  un_final18 V c

theorem final19 (c : Dev nD) :
    (dat19 (F := Ideal) V c).arrAt 5 cfg19.N = Cert.GCN.unI (V c (Pipeline.arrRef spec19 0)) (V c (Pipeline.arrRef spec19 1)) (V c (Pipeline.arrRef spec19 2)) (V c (Pipeline.arrRef spec19 3)) (V c (Pipeline.arrRef spec19 4)) :=
  un_final19 V c

end Cert.KernelIdeal.RegVal

end
-- ==== Proof.KWalkA.lean ====
/- The first layer, boundary by boundary: each live buffer holds the named value, from the segment that writes it
   to the last segment that reads it. A stretch of host operations writes a sparse product or a slice; a region writes a
   matrix product, a bias with the leaky rectifier, or the union step of what it finds in its input arrays. -/
import proofs.«150895_j60593398612496_1_alg».proof.Proof.KWalkArgs0
import proofs.«150895_j60593398612496_1_alg».proof.Proof.KWalkArgs1
import proofs.«150895_j60593398612496_1_alg».proof.Proof.KWalkArgs2
import proofs.«150895_j60593398612496_1_alg».proof.Proof.KWalkArgs3
import proofs.«150895_j60593398612496_1_alg».proof.Proof.KWalkArgs4
import proofs.«150895_j60593398612496_1_alg».proof.Proof.KWalkArgs5
import proofs.«150895_j60593398612496_1_alg».proof.Proof.KWalkArgs6
import proofs.«150895_j60593398612496_1_alg».proof.Proof.KWalkArgs7
import proofs.«150895_j60593398612496_1_alg».proof.Proof.KWalkArgs8
import proofs.«150895_j60593398612496_1_alg».proof.Proof.KWalkArgs9
import proofs.«150895_j60593398612496_1_alg».proof.Proof.KWalkHost
import proofs.«150895_j60593398612496_1_alg».proof.Proof.RegVal

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

open Cert.KernelIdeal.RegVal

variable (m : (ℓ : Loc nD τ sig) → Buf (Elt Ideal) ℓ) (ρ : Dev nD → PrngReg) (c : Dev nD)

set_option quotPrecheck false
-- the argument arrays as launched
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
-- the value each live buffer holds, named by the buffer's number
local notation "X1" => wk00 A6
local notation "X2" => Cert.GCN.mmU A0 X1
local notation "X15" => sIk A2 A3 A5 X2
local notation "X18" => bk00 A7
local notation "X19" => Cert.GCN.blI X15 X18
local notation "X21" => wk01 A6
local notation "X22" => Cert.GCN.mmI A1 X21
local notation "X35" => sUk A2 A3 A4 X22
local notation "X38" => bk01 A7
local notation "X39" => Cert.GCN.blU X35 X38
local notation "X41" => wk02 A6
local notation "X42" => Cert.GCN.mmI X19 X41
local notation "X55" => sUk A2 A3 A4 X42
local notation "X58" => bk02 A7
local notation "X59" => Cert.GCN.blU X55 X58
local notation "X61" => wk03 A6
local notation "X62" => Cert.GCN.mmU X39 X61
local notation "X75" => sIk A2 A3 A5 X62
local notation "X78" => bk03 A7
local notation "X79" => Cert.GCN.blI X75 X78
local notation "X81" => uk00t A8
local notation "X83" => uk00b A8
local notation "X86" => ck00 A9
local notation "X87" => Cert.GCN.unU X59 A0 X81 X83 X86
local notation "X89" => uk01t A8
local notation "X91" => uk01b A8
local notation "X94" => ck01 A9
local notation "X95" => Cert.GCN.unI X79 A1 X89 X91 X94
local notation "X97" => wk10 A6
local notation "X98" => Cert.GCN.mmU X87 X97
local notation "X111" => sIk A2 A3 A5 X98
local notation "X114" => bk10 A7
local notation "X115" => Cert.GCN.blI X111 X114
local notation "X117" => wk11 A6
local notation "X118" => Cert.GCN.mmI X95 X117
local notation "X131" => sUk A2 A3 A4 X118
local notation "X134" => bk11 A7
local notation "X135" => Cert.GCN.blU X131 X134
local notation "X137" => wk12 A6
local notation "X138" => Cert.GCN.mmI X115 X137
local notation "X151" => sUk A2 A3 A4 X138
local notation "X154" => bk12 A7
local notation "X155" => Cert.GCN.blU X151 X154
local notation "X157" => wk13 A6
local notation "X158" => Cert.GCN.mmU X135 X157
local notation "X171" => sIk A2 A3 A5 X158
local notation "X174" => bk13 A7
local notation "X175" => Cert.GCN.blI X171 X174
local notation "X177" => uk10t A8
local notation "X179" => uk10b A8
local notation "X182" => ck10 A9
local notation "X183" => Cert.GCN.unU X155 X87 X177 X179 X182
local notation "X185" => uk11t A8
local notation "X187" => uk11b A8
local notation "X190" => ck11 A9
local notation "X191" => Cert.GCN.unI X175 X95 X185 X187 X190
local notation "X192" => catU X87 X183
local notation "X193" => catI X95 X191

/-! ### boundary 1 -/
theorem W1_v1 : W1 m ρ c (Proc.devRef .tc main_v1) = X1 :=
  (host0_w (W0 m ρ c)).trans (by rw [W0_arg6 m ρ c])

/-! ### boundary 2 -/
theorem W2_v2 : W2 m ρ c (Proc.devRef .tc main_v2) = X2 :=
  (W2_arr m ρ c 2).trans ((final0 (V1 m ρ) c).trans (by
    show Cert.GCN.mmU (W1 m ρ c (Proc.devRef .tc main_arg0)) (W1 m ρ c (Proc.devRef .tc main_v1)) = _
    rw [W1_arg0 m ρ c, W1_v1 m ρ c]))

/-! ### boundary 3 -/
theorem W3_v15 : W3 m ρ c (Proc.devRef .tc main_v15) = X15 :=
  (host1_spmm (W2 m ρ c)).trans (by rw [W2_arg2 m ρ c, W2_arg3 m ρ c, W2_arg5 m ρ c, W2_v2 m ρ c])
theorem W3_v18 : W3 m ρ c (Proc.devRef .tc main_v18) = X18 :=
  (host1_bias (W2 m ρ c)).trans (by rw [W2_arg7 m ρ c])

/-! ### boundary 4 -/
theorem W4_v19 : W4 m ρ c (Proc.devRef .tc main_v19) = X19 :=
  (W4_arr m ρ c 2).trans ((final1 (V3 m ρ) c).trans (by
    show Cert.GCN.blI (W3 m ρ c (Proc.devRef .tc main_v15)) (W3 m ρ c (Proc.devRef .tc main_v18)) = _
    rw [W3_v15 m ρ c, W3_v18 m ρ c]))

/-! ### boundary 5 -/
theorem W5_v19 : W5 m ρ c (Proc.devRef .tc main_v19) = X19 := (host2_keeps _ main_v19 (by decide +kernel)).trans (W4_v19 m ρ c)
theorem W5_v21 : W5 m ρ c (Proc.devRef .tc main_v21) = X21 :=
  (host2_w (W4 m ρ c)).trans (by rw [W4_arg6 m ρ c])

/-! ### boundary 6 -/
theorem W6_v19 : W6 m ρ c (Proc.devRef .tc main_v19) = X19 := (W6_of_ne m ρ c main_v19 (by decide +kernel)).trans (W5_v19 m ρ c)
theorem W6_v22 : W6 m ρ c (Proc.devRef .tc main_v22) = X22 :=
  (W6_arr m ρ c 2).trans ((final2 (V5 m ρ) c).trans (by
    show Cert.GCN.mmI (W5 m ρ c (Proc.devRef .tc main_arg1)) (W5 m ρ c (Proc.devRef .tc main_v21)) = _
    rw [W5_arg1 m ρ c, W5_v21 m ρ c]))

/-! ### boundary 7 -/
theorem W7_v19 : W7 m ρ c (Proc.devRef .tc main_v19) = X19 := (host3_keeps _ main_v19 (by decide +kernel)).trans (W6_v19 m ρ c)
theorem W7_v35 : W7 m ρ c (Proc.devRef .tc main_v35) = X35 :=
  (host3_spmm (W6 m ρ c)).trans (by rw [W6_arg2 m ρ c, W6_arg3 m ρ c, W6_arg4 m ρ c, W6_v22 m ρ c])
theorem W7_v38 : W7 m ρ c (Proc.devRef .tc main_v38) = X38 :=
  (host3_bias (W6 m ρ c)).trans (by rw [W6_arg7 m ρ c])

/-! ### boundary 8 -/
theorem W8_v19 : W8 m ρ c (Proc.devRef .tc main_v19) = X19 := (W8_of_ne m ρ c main_v19 (by decide +kernel)).trans (W7_v19 m ρ c)
theorem W8_v39 : W8 m ρ c (Proc.devRef .tc main_v39) = X39 :=
  (W8_arr m ρ c 2).trans ((final3 (V7 m ρ) c).trans (by
    show Cert.GCN.blU (W7 m ρ c (Proc.devRef .tc main_v35)) (W7 m ρ c (Proc.devRef .tc main_v38)) = _
    rw [W7_v35 m ρ c, W7_v38 m ρ c]))

/-! ### boundary 9 -/
theorem W9_v19 : W9 m ρ c (Proc.devRef .tc main_v19) = X19 := (host4_keeps _ main_v19 (by decide +kernel)).trans (W8_v19 m ρ c)
theorem W9_v39 : W9 m ρ c (Proc.devRef .tc main_v39) = X39 := (host4_keeps _ main_v39 (by decide +kernel)).trans (W8_v39 m ρ c)
theorem W9_v41 : W9 m ρ c (Proc.devRef .tc main_v41) = X41 :=
  (host4_w (W8 m ρ c)).trans (by rw [W8_arg6 m ρ c])

/-! ### boundary 10 -/
theorem W10_v39 : W10 m ρ c (Proc.devRef .tc main_v39) = X39 := (W10_of_ne m ρ c main_v39 (by decide +kernel)).trans (W9_v39 m ρ c)
theorem W10_v42 : W10 m ρ c (Proc.devRef .tc main_v42) = X42 :=
  (W10_arr m ρ c 2).trans ((final4 (V9 m ρ) c).trans (by
    show Cert.GCN.mmI (W9 m ρ c (Proc.devRef .tc main_v19)) (W9 m ρ c (Proc.devRef .tc main_v41)) = _
    rw [W9_v19 m ρ c, W9_v41 m ρ c]))

/-! ### boundary 11 -/
theorem W11_v39 : W11 m ρ c (Proc.devRef .tc main_v39) = X39 := (host5_keeps _ main_v39 (by decide +kernel)).trans (W10_v39 m ρ c)
theorem W11_v55 : W11 m ρ c (Proc.devRef .tc main_v55) = X55 :=
  (host5_spmm (W10 m ρ c)).trans (by rw [W10_arg2 m ρ c, W10_arg3 m ρ c, W10_arg4 m ρ c, W10_v42 m ρ c])
theorem W11_v58 : W11 m ρ c (Proc.devRef .tc main_v58) = X58 :=
  (host5_bias (W10 m ρ c)).trans (by rw [W10_arg7 m ρ c])

/-! ### boundary 12 -/
theorem W12_v39 : W12 m ρ c (Proc.devRef .tc main_v39) = X39 := (W12_of_ne m ρ c main_v39 (by decide +kernel)).trans (W11_v39 m ρ c)
theorem W12_v59 : W12 m ρ c (Proc.devRef .tc main_v59) = X59 :=
  (W12_arr m ρ c 2).trans ((final5 (V11 m ρ) c).trans (by
    show Cert.GCN.blU (W11 m ρ c (Proc.devRef .tc main_v55)) (W11 m ρ c (Proc.devRef .tc main_v58)) = _
    rw [W11_v55 m ρ c, W11_v58 m ρ c]))

/-! ### boundary 13 -/
theorem W13_v39 : W13 m ρ c (Proc.devRef .tc main_v39) = X39 := (host6_keeps _ main_v39 (by decide +kernel)).trans (W12_v39 m ρ c)
theorem W13_v59 : W13 m ρ c (Proc.devRef .tc main_v59) = X59 := (host6_keeps _ main_v59 (by decide +kernel)).trans (W12_v59 m ρ c)
theorem W13_v61 : W13 m ρ c (Proc.devRef .tc main_v61) = X61 :=
  (host6_w (W12 m ρ c)).trans (by rw [W12_arg6 m ρ c])

/-! ### boundary 14 -/
theorem W14_v59 : W14 m ρ c (Proc.devRef .tc main_v59) = X59 := (W14_of_ne m ρ c main_v59 (by decide +kernel)).trans (W13_v59 m ρ c)
theorem W14_v62 : W14 m ρ c (Proc.devRef .tc main_v62) = X62 :=
  (W14_arr m ρ c 2).trans ((final6 (V13 m ρ) c).trans (by
    show Cert.GCN.mmU (W13 m ρ c (Proc.devRef .tc main_v39)) (W13 m ρ c (Proc.devRef .tc main_v61)) = _
    rw [W13_v39 m ρ c, W13_v61 m ρ c]))

/-! ### boundary 15 -/
theorem W15_v59 : W15 m ρ c (Proc.devRef .tc main_v59) = X59 := (host7_keeps _ main_v59 (by decide +kernel)).trans (W14_v59 m ρ c)
theorem W15_v75 : W15 m ρ c (Proc.devRef .tc main_v75) = X75 :=
  (host7_spmm (W14 m ρ c)).trans (by rw [W14_arg2 m ρ c, W14_arg3 m ρ c, W14_arg5 m ρ c, W14_v62 m ρ c])
theorem W15_v78 : W15 m ρ c (Proc.devRef .tc main_v78) = X78 :=
  (host7_bias (W14 m ρ c)).trans (by rw [W14_arg7 m ρ c])

/-! ### boundary 16 -/
theorem W16_v59 : W16 m ρ c (Proc.devRef .tc main_v59) = X59 := (W16_of_ne m ρ c main_v59 (by decide +kernel)).trans (W15_v59 m ρ c)
theorem W16_v79 : W16 m ρ c (Proc.devRef .tc main_v79) = X79 :=
  (W16_arr m ρ c 2).trans ((final7 (V15 m ρ) c).trans (by
    show Cert.GCN.blI (W15 m ρ c (Proc.devRef .tc main_v75)) (W15 m ρ c (Proc.devRef .tc main_v78)) = _
    rw [W15_v75 m ρ c, W15_v78 m ρ c]))

/-! ### boundary 17 -/
theorem W17_v59 : W17 m ρ c (Proc.devRef .tc main_v59) = X59 := (host8_keeps _ main_v59 (by decide +kernel)).trans (W16_v59 m ρ c)
theorem W17_v79 : W17 m ρ c (Proc.devRef .tc main_v79) = X79 := (host8_keeps _ main_v79 (by decide +kernel)).trans (W16_v79 m ρ c)
theorem W17_v81 : W17 m ρ c (Proc.devRef .tc main_v81) = X81 :=
  (host8_ut (W16 m ρ c)).trans (by rw [W16_arg8 m ρ c])
theorem W17_v83 : W17 m ρ c (Proc.devRef .tc main_v83) = X83 :=
  (host8_ub (W16 m ρ c)).trans (by rw [W16_arg8 m ρ c])
theorem W17_v86 : W17 m ρ c (Proc.devRef .tc main_v86) = X86 :=
  (host8_c (W16 m ρ c)).trans (by rw [W16_arg9 m ρ c])

/-! ### boundary 18 -/
theorem W18_v79 : W18 m ρ c (Proc.devRef .tc main_v79) = X79 := (W18_of_ne m ρ c main_v79 (by decide +kernel)).trans (W17_v79 m ρ c)
theorem W18_v87 : W18 m ρ c (Proc.devRef .tc main_v87) = X87 :=
  (W18_arr m ρ c 5).trans ((final8 (V17 m ρ) c).trans (by
    show Cert.GCN.unU (W17 m ρ c (Proc.devRef .tc main_v59)) (W17 m ρ c (Proc.devRef .tc main_arg0)) (W17 m ρ c (Proc.devRef .tc main_v81)) (W17 m ρ c (Proc.devRef .tc main_v83)) (W17 m ρ c (Proc.devRef .tc main_v86)) = _
    rw [W17_v59 m ρ c, W17_arg0 m ρ c, W17_v81 m ρ c, W17_v83 m ρ c, W17_v86 m ρ c]))

/-! ### boundary 19 -/
theorem W19_v79 : W19 m ρ c (Proc.devRef .tc main_v79) = X79 := (host9_keeps _ main_v79 (by decide +kernel)).trans (W18_v79 m ρ c)
theorem W19_v87 : W19 m ρ c (Proc.devRef .tc main_v87) = X87 := (host9_keeps _ main_v87 (by decide +kernel)).trans (W18_v87 m ρ c)
theorem W19_v89 : W19 m ρ c (Proc.devRef .tc main_v89) = X89 :=
  (host9_ut (W18 m ρ c)).trans (by rw [W18_arg8 m ρ c])
theorem W19_v91 : W19 m ρ c (Proc.devRef .tc main_v91) = X91 :=
  (host9_ub (W18 m ρ c)).trans (by rw [W18_arg8 m ρ c])
theorem W19_v94 : W19 m ρ c (Proc.devRef .tc main_v94) = X94 :=
  (host9_c (W18 m ρ c)).trans (by rw [W18_arg9 m ρ c])

/-! ### boundary 20 -/
theorem W20_v87 : W20 m ρ c (Proc.devRef .tc main_v87) = X87 := (W20_of_ne m ρ c main_v87 (by decide +kernel)).trans (W19_v87 m ρ c)
theorem W20_v95 : W20 m ρ c (Proc.devRef .tc main_v95) = X95 :=
  (W20_arr m ρ c 5).trans ((final9 (V19 m ρ) c).trans (by
    show Cert.GCN.unI (W19 m ρ c (Proc.devRef .tc main_v79)) (W19 m ρ c (Proc.devRef .tc main_arg1)) (W19 m ρ c (Proc.devRef .tc main_v89)) (W19 m ρ c (Proc.devRef .tc main_v91)) (W19 m ρ c (Proc.devRef .tc main_v94)) = _
    rw [W19_v79 m ρ c, W19_arg1 m ρ c, W19_v89 m ρ c, W19_v91 m ρ c, W19_v94 m ρ c]))

end Cert.KernelIdeal.KRun

end
-- ==== Proof.KWalk1.lean ====
/- The first layer as the specification's layer function: at the boundary after the tenth region the two union outputs
   hold the next user rows and the next item rows, computed from the argument arrays by the kernel's own sparse products
   and slices. -/
import proofs.«150895_j60593398612496_1_alg».proof.Proof.KWalkA

set_option maxRecDepth 16384

noncomputable section

namespace Cert.KernelIdeal.KRun

open Idealize.ShloMosaic Idealize.ShloMosaic.TcCoe
open Idealize.SL Idealize.SL.Sem
open Cert.KernelIdeal.Gen

variable (m : (ℓ : Loc nD τ sig) → Buf (Elt Ideal) ℓ) (ρ : Dev nD → PrngReg) (c : Dev nD)

set_option quotPrecheck false
-- the argument arrays as launched
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)

/-- The user rows after the first layer: two hops through the sparse products, then the union step with the layer's
    input. Unfolding the layer function gives the chain of region outputs the walk found. -/
theorem layer1U : Gen.W20 m ρ c (Proc.devRef .tc main_v87)
    = Cert.GCN.nextU (sIk A2 A3 A5) (sUk A2 A3 A4) (wk00 A6) (bk00 A7) (wk02 A6) (bk02 A7) (uk00t A8) (uk00b A8) (ck00 A9) A0 :=
  (W20_v87 m ρ c).trans rfl

/-- The item rows after the first layer. -/
theorem layer1I : Gen.W20 m ρ c (Proc.devRef .tc main_v95)
    = Cert.GCN.nextI (sIk A2 A3 A5) (sUk A2 A3 A4) (wk01 A6) (bk01 A7) (wk03 A6) (bk03 A7) (uk01t A8) (uk01b A8) (ck01 A9) A1 :=
  (W20_v95 m ρ c).trans rfl

end Cert.KernelIdeal.KRun

end
-- ==== Proof.KWalkB.lean ====
/- The second layer and the two results, boundary by boundary, from the contents at the first layer's end: each live
   buffer holds the named value, from the segment that writes it to the last segment that reads it. A stretch of host
   operations writes a sparse product or a slice; a region writes a matrix product, a bias with the leaky rectifier, or
   the union step of what it finds in its input arrays. The two results are the first layer's rows beside the
   specification's layer applied to them. -/
import proofs.«150895_j60593398612496_1_alg».proof.Proof.KWalkArgs0
import proofs.«150895_j60593398612496_1_alg».proof.Proof.KWalkArgs1
import proofs.«150895_j60593398612496_1_alg».proof.Proof.KWalkArgs2
import proofs.«150895_j60593398612496_1_alg».proof.Proof.KWalkArgs3
import proofs.«150895_j60593398612496_1_alg».proof.Proof.KWalkArgs4
import proofs.«150895_j60593398612496_1_alg».proof.Proof.KWalkArgs5
import proofs.«150895_j60593398612496_1_alg».proof.Proof.KWalkArgs6
import proofs.«150895_j60593398612496_1_alg».proof.Proof.KWalkArgs7
import proofs.«150895_j60593398612496_1_alg».proof.Proof.KWalkArgs8
import proofs.«150895_j60593398612496_1_alg».proof.Proof.KWalkArgs9
import proofs.«150895_j60593398612496_1_alg».proof.Proof.KWalkSeg
import proofs.«150895_j60593398612496_1_alg».proof.Proof.KWalkHost
import proofs.«150895_j60593398612496_1_alg».proof.Proof.RegVal

set_option maxRecDepth 16384

noncomputable section

namespace Cert.KernelIdeal.KRun

open Idealize.ShloMosaic Idealize.ShloMosaic.TcCoe Idealize.ShloMosaic.Tactic
open Idealize.SL Idealize.SL.Sem
open Cert.KernelIdeal.Gen

open Cert.KernelIdeal.RegVal

variable (m : (ℓ : Loc nD τ sig) → Buf (Elt Ideal) ℓ) (ρ : Dev nD → PrngReg) (c : Dev nD)

-- the notations below name terms over the section's variables
set_option quotPrecheck false

-- the argument arrays as launched
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
-- the value each live buffer holds, named by the buffer's number
-- the two arrays the first layer ends with
local notation "X87" => W20 m ρ c (Proc.devRef .tc main_v87)
local notation "X95" => W20 m ρ c (Proc.devRef .tc main_v95)
local notation "X97" => wk10 A6
local notation "X98" => Cert.GCN.mmU X87 X97
local notation "X111" => sIk A2 A3 A5 X98
local notation "X114" => bk10 A7
local notation "X115" => Cert.GCN.blI X111 X114
local notation "X117" => wk11 A6
local notation "X118" => Cert.GCN.mmI X95 X117
local notation "X131" => sUk A2 A3 A4 X118
local notation "X134" => bk11 A7
local notation "X135" => Cert.GCN.blU X131 X134
local notation "X137" => wk12 A6
local notation "X138" => Cert.GCN.mmI X115 X137
local notation "X151" => sUk A2 A3 A4 X138
local notation "X154" => bk12 A7
local notation "X155" => Cert.GCN.blU X151 X154
local notation "X157" => wk13 A6
local notation "X158" => Cert.GCN.mmU X135 X157
local notation "X171" => sIk A2 A3 A5 X158
local notation "X174" => bk13 A7
local notation "X175" => Cert.GCN.blI X171 X174
local notation "X177" => uk10t A8
local notation "X179" => uk10b A8
local notation "X182" => ck10 A9
local notation "X183" => Cert.GCN.unU X155 X87 X177 X179 X182
local notation "X185" => uk11t A8
local notation "X187" => uk11b A8
local notation "X190" => ck11 A9
local notation "X191" => Cert.GCN.unI X175 X95 X185 X187 X190
local notation "X192" => catU X87 X183
local notation "X193" => catI X95 X191

/-! ### boundary 21 -/
theorem W21_v87 : W21 m ρ c (Proc.devRef .tc main_v87) = X87 := host10_keeps _ main_v87 (by decide +kernel)
theorem W21_v95 : W21 m ρ c (Proc.devRef .tc main_v95) = X95 := host10_keeps _ main_v95 (by decide +kernel)
theorem W21_v97 : W21 m ρ c (Proc.devRef .tc main_v97) = X97 :=
  (host10_w (W20 m ρ c)).trans (by rw [W20_arg6 m ρ c])

/-! ### boundary 22 -/
theorem W22_v87 : W22 m ρ c (Proc.devRef .tc main_v87) = X87 := (W22_in m ρ c 0 rfl).trans (W21_v87 m ρ c)
theorem W22_v95 : W22 m ρ c (Proc.devRef .tc main_v95) = X95 := (W22_of_ne m ρ c main_v95 (by decide +kernel)).trans (W21_v95 m ρ c)
theorem W22_v98 : W22 m ρ c (Proc.devRef .tc main_v98) = X98 :=
  (W22_arr m ρ c 2).trans ((final10 (V21 m ρ) c).trans (by
    show Cert.GCN.mmU (W21 m ρ c (Proc.devRef .tc main_v87)) (W21 m ρ c (Proc.devRef .tc main_v97)) = _
    rw [W21_v87 m ρ c, W21_v97 m ρ c]))

/-! ### boundary 23 -/
theorem W23_v87 : W23 m ρ c (Proc.devRef .tc main_v87) = X87 := (host11_keeps _ main_v87 (by decide +kernel)).trans (W22_v87 m ρ c)
theorem W23_v95 : W23 m ρ c (Proc.devRef .tc main_v95) = X95 := (host11_keeps _ main_v95 (by decide +kernel)).trans (W22_v95 m ρ c)
theorem W23_v111 : W23 m ρ c (Proc.devRef .tc main_v111) = X111 :=
  (host11_spmm (W22 m ρ c)).trans (by rw [W22_arg2 m ρ c, W22_arg3 m ρ c, W22_arg5 m ρ c, W22_v98 m ρ c])
theorem W23_v114 : W23 m ρ c (Proc.devRef .tc main_v114) = X114 :=
  (host11_bias (W22 m ρ c)).trans (by rw [W22_arg7 m ρ c])

/-! ### boundary 24 -/
theorem W24_v87 : W24 m ρ c (Proc.devRef .tc main_v87) = X87 := (W24_of_ne m ρ c main_v87 (by decide +kernel)).trans (W23_v87 m ρ c)
theorem W24_v95 : W24 m ρ c (Proc.devRef .tc main_v95) = X95 := (W24_of_ne m ρ c main_v95 (by decide +kernel)).trans (W23_v95 m ρ c)
theorem W24_v115 : W24 m ρ c (Proc.devRef .tc main_v115) = X115 :=
  (W24_arr m ρ c 2).trans ((final11 (V23 m ρ) c).trans (by
    show Cert.GCN.blI (W23 m ρ c (Proc.devRef .tc main_v111)) (W23 m ρ c (Proc.devRef .tc main_v114)) = _
    rw [W23_v111 m ρ c, W23_v114 m ρ c]))

/-! ### boundary 25 -/
theorem W25_v87 : W25 m ρ c (Proc.devRef .tc main_v87) = X87 := (host12_keeps _ main_v87 (by decide +kernel)).trans (W24_v87 m ρ c)
theorem W25_v95 : W25 m ρ c (Proc.devRef .tc main_v95) = X95 := (host12_keeps _ main_v95 (by decide +kernel)).trans (W24_v95 m ρ c)
theorem W25_v115 : W25 m ρ c (Proc.devRef .tc main_v115) = X115 := (host12_keeps _ main_v115 (by decide +kernel)).trans (W24_v115 m ρ c)
theorem W25_v117 : W25 m ρ c (Proc.devRef .tc main_v117) = X117 :=
  (host12_w (W24 m ρ c)).trans (by rw [W24_arg6 m ρ c])

/-! ### boundary 26 -/
theorem W26_v87 : W26 m ρ c (Proc.devRef .tc main_v87) = X87 := (W26_of_ne m ρ c main_v87 (by decide +kernel)).trans (W25_v87 m ρ c)
theorem W26_v95 : W26 m ρ c (Proc.devRef .tc main_v95) = X95 := (W26_in m ρ c 0 rfl).trans (W25_v95 m ρ c)
theorem W26_v115 : W26 m ρ c (Proc.devRef .tc main_v115) = X115 := (W26_of_ne m ρ c main_v115 (by decide +kernel)).trans (W25_v115 m ρ c)
theorem W26_v118 : W26 m ρ c (Proc.devRef .tc main_v118) = X118 :=
  (W26_arr m ρ c 2).trans ((final12 (V25 m ρ) c).trans (by
    show Cert.GCN.mmI (W25 m ρ c (Proc.devRef .tc main_v95)) (W25 m ρ c (Proc.devRef .tc main_v117)) = _
    rw [W25_v95 m ρ c, W25_v117 m ρ c]))

/-! ### boundary 27 -/
theorem W27_v87 : W27 m ρ c (Proc.devRef .tc main_v87) = X87 := (host13_keeps _ main_v87 (by decide +kernel)).trans (W26_v87 m ρ c)
theorem W27_v95 : W27 m ρ c (Proc.devRef .tc main_v95) = X95 := (host13_keeps _ main_v95 (by decide +kernel)).trans (W26_v95 m ρ c)
theorem W27_v115 : W27 m ρ c (Proc.devRef .tc main_v115) = X115 := (host13_keeps _ main_v115 (by decide +kernel)).trans (W26_v115 m ρ c)
theorem W27_v131 : W27 m ρ c (Proc.devRef .tc main_v131) = X131 :=
  (host13_spmm (W26 m ρ c)).trans (by rw [W26_arg2 m ρ c, W26_arg3 m ρ c, W26_arg4 m ρ c, W26_v118 m ρ c])
theorem W27_v134 : W27 m ρ c (Proc.devRef .tc main_v134) = X134 :=
  (host13_bias (W26 m ρ c)).trans (by rw [W26_arg7 m ρ c])

/-! ### boundary 28 -/
theorem W28_v87 : W28 m ρ c (Proc.devRef .tc main_v87) = X87 := (W28_of_ne m ρ c main_v87 (by decide +kernel)).trans (W27_v87 m ρ c)
theorem W28_v95 : W28 m ρ c (Proc.devRef .tc main_v95) = X95 := (W28_of_ne m ρ c main_v95 (by decide +kernel)).trans (W27_v95 m ρ c)
theorem W28_v115 : W28 m ρ c (Proc.devRef .tc main_v115) = X115 := (W28_of_ne m ρ c main_v115 (by decide +kernel)).trans (W27_v115 m ρ c)
theorem W28_v135 : W28 m ρ c (Proc.devRef .tc main_v135) = X135 :=
  (W28_arr m ρ c 2).trans ((final13 (V27 m ρ) c).trans (by
    show Cert.GCN.blU (W27 m ρ c (Proc.devRef .tc main_v131)) (W27 m ρ c (Proc.devRef .tc main_v134)) = _
    rw [W27_v131 m ρ c, W27_v134 m ρ c]))

/-! ### boundary 29 -/
theorem W29_v87 : W29 m ρ c (Proc.devRef .tc main_v87) = X87 := (host14_keeps _ main_v87 (by decide +kernel)).trans (W28_v87 m ρ c)
theorem W29_v95 : W29 m ρ c (Proc.devRef .tc main_v95) = X95 := (host14_keeps _ main_v95 (by decide +kernel)).trans (W28_v95 m ρ c)
theorem W29_v115 : W29 m ρ c (Proc.devRef .tc main_v115) = X115 := (host14_keeps _ main_v115 (by decide +kernel)).trans (W28_v115 m ρ c)
theorem W29_v135 : W29 m ρ c (Proc.devRef .tc main_v135) = X135 := (host14_keeps _ main_v135 (by decide +kernel)).trans (W28_v135 m ρ c)
theorem W29_v137 : W29 m ρ c (Proc.devRef .tc main_v137) = X137 :=
  (host14_w (W28 m ρ c)).trans (by rw [W28_arg6 m ρ c])

/-! ### boundary 30 -/
theorem W30_v87 : W30 m ρ c (Proc.devRef .tc main_v87) = X87 := (W30_of_ne m ρ c main_v87 (by decide +kernel)).trans (W29_v87 m ρ c)
theorem W30_v95 : W30 m ρ c (Proc.devRef .tc main_v95) = X95 := (W30_of_ne m ρ c main_v95 (by decide +kernel)).trans (W29_v95 m ρ c)
theorem W30_v135 : W30 m ρ c (Proc.devRef .tc main_v135) = X135 := (W30_of_ne m ρ c main_v135 (by decide +kernel)).trans (W29_v135 m ρ c)
theorem W30_v138 : W30 m ρ c (Proc.devRef .tc main_v138) = X138 :=
  (W30_arr m ρ c 2).trans ((final14 (V29 m ρ) c).trans (by
    show Cert.GCN.mmI (W29 m ρ c (Proc.devRef .tc main_v115)) (W29 m ρ c (Proc.devRef .tc main_v137)) = _
    rw [W29_v115 m ρ c, W29_v137 m ρ c]))

/-! ### boundary 31 -/
theorem W31_v87 : W31 m ρ c (Proc.devRef .tc main_v87) = X87 := (host15_keeps _ main_v87 (by decide +kernel)).trans (W30_v87 m ρ c)
theorem W31_v95 : W31 m ρ c (Proc.devRef .tc main_v95) = X95 := (host15_keeps _ main_v95 (by decide +kernel)).trans (W30_v95 m ρ c)
theorem W31_v135 : W31 m ρ c (Proc.devRef .tc main_v135) = X135 := (host15_keeps _ main_v135 (by decide +kernel)).trans (W30_v135 m ρ c)
theorem W31_v151 : W31 m ρ c (Proc.devRef .tc main_v151) = X151 :=
  (host15_spmm (W30 m ρ c)).trans (by rw [W30_arg2 m ρ c, W30_arg3 m ρ c, W30_arg4 m ρ c, W30_v138 m ρ c])
theorem W31_v154 : W31 m ρ c (Proc.devRef .tc main_v154) = X154 :=
  (host15_bias (W30 m ρ c)).trans (by rw [W30_arg7 m ρ c])

/-! ### boundary 32 -/
theorem W32_v87 : W32 m ρ c (Proc.devRef .tc main_v87) = X87 := (W32_of_ne m ρ c main_v87 (by decide +kernel)).trans (W31_v87 m ρ c)
theorem W32_v95 : W32 m ρ c (Proc.devRef .tc main_v95) = X95 := (W32_of_ne m ρ c main_v95 (by decide +kernel)).trans (W31_v95 m ρ c)
theorem W32_v135 : W32 m ρ c (Proc.devRef .tc main_v135) = X135 := (W32_of_ne m ρ c main_v135 (by decide +kernel)).trans (W31_v135 m ρ c)
theorem W32_v155 : W32 m ρ c (Proc.devRef .tc main_v155) = X155 :=
  (W32_arr m ρ c 2).trans ((final15 (V31 m ρ) c).trans (by
    show Cert.GCN.blU (W31 m ρ c (Proc.devRef .tc main_v151)) (W31 m ρ c (Proc.devRef .tc main_v154)) = _
    rw [W31_v151 m ρ c, W31_v154 m ρ c]))

/-! ### boundary 33 -/
theorem W33_v87 : W33 m ρ c (Proc.devRef .tc main_v87) = X87 := (host16_keeps _ main_v87 (by decide +kernel)).trans (W32_v87 m ρ c)
theorem W33_v95 : W33 m ρ c (Proc.devRef .tc main_v95) = X95 := (host16_keeps _ main_v95 (by decide +kernel)).trans (W32_v95 m ρ c)
theorem W33_v135 : W33 m ρ c (Proc.devRef .tc main_v135) = X135 := (host16_keeps _ main_v135 (by decide +kernel)).trans (W32_v135 m ρ c)
theorem W33_v155 : W33 m ρ c (Proc.devRef .tc main_v155) = X155 := (host16_keeps _ main_v155 (by decide +kernel)).trans (W32_v155 m ρ c)
theorem W33_v157 : W33 m ρ c (Proc.devRef .tc main_v157) = X157 :=
  (host16_w (W32 m ρ c)).trans (by rw [W32_arg6 m ρ c])

/-! ### boundary 34 -/
theorem W34_v87 : W34 m ρ c (Proc.devRef .tc main_v87) = X87 := (W34_of_ne m ρ c main_v87 (by decide +kernel)).trans (W33_v87 m ρ c)
theorem W34_v95 : W34 m ρ c (Proc.devRef .tc main_v95) = X95 := (W34_of_ne m ρ c main_v95 (by decide +kernel)).trans (W33_v95 m ρ c)
theorem W34_v155 : W34 m ρ c (Proc.devRef .tc main_v155) = X155 := (W34_of_ne m ρ c main_v155 (by decide +kernel)).trans (W33_v155 m ρ c)
theorem W34_v158 : W34 m ρ c (Proc.devRef .tc main_v158) = X158 :=
  (W34_arr m ρ c 2).trans ((final16 (V33 m ρ) c).trans (by
    show Cert.GCN.mmU (W33 m ρ c (Proc.devRef .tc main_v135)) (W33 m ρ c (Proc.devRef .tc main_v157)) = _
    rw [W33_v135 m ρ c, W33_v157 m ρ c]))

/-! ### boundary 35 -/
theorem W35_v87 : W35 m ρ c (Proc.devRef .tc main_v87) = X87 := (host17_keeps _ main_v87 (by decide +kernel)).trans (W34_v87 m ρ c)
theorem W35_v95 : W35 m ρ c (Proc.devRef .tc main_v95) = X95 := (host17_keeps _ main_v95 (by decide +kernel)).trans (W34_v95 m ρ c)
theorem W35_v155 : W35 m ρ c (Proc.devRef .tc main_v155) = X155 := (host17_keeps _ main_v155 (by decide +kernel)).trans (W34_v155 m ρ c)
theorem W35_v171 : W35 m ρ c (Proc.devRef .tc main_v171) = X171 :=
  (host17_spmm (W34 m ρ c)).trans (by rw [W34_arg2 m ρ c, W34_arg3 m ρ c, W34_arg5 m ρ c, W34_v158 m ρ c])
theorem W35_v174 : W35 m ρ c (Proc.devRef .tc main_v174) = X174 :=
  (host17_bias (W34 m ρ c)).trans (by rw [W34_arg7 m ρ c])

/-! ### boundary 36 -/
theorem W36_v87 : W36 m ρ c (Proc.devRef .tc main_v87) = X87 := (W36_of_ne m ρ c main_v87 (by decide +kernel)).trans (W35_v87 m ρ c)
theorem W36_v95 : W36 m ρ c (Proc.devRef .tc main_v95) = X95 := (W36_of_ne m ρ c main_v95 (by decide +kernel)).trans (W35_v95 m ρ c)
theorem W36_v155 : W36 m ρ c (Proc.devRef .tc main_v155) = X155 := (W36_of_ne m ρ c main_v155 (by decide +kernel)).trans (W35_v155 m ρ c)
theorem W36_v175 : W36 m ρ c (Proc.devRef .tc main_v175) = X175 :=
  (W36_arr m ρ c 2).trans ((final17 (V35 m ρ) c).trans (by
    show Cert.GCN.blI (W35 m ρ c (Proc.devRef .tc main_v171)) (W35 m ρ c (Proc.devRef .tc main_v174)) = _
    rw [W35_v171 m ρ c, W35_v174 m ρ c]))

/-! ### boundary 37 -/
theorem W37_v87 : W37 m ρ c (Proc.devRef .tc main_v87) = X87 := (host18_keeps _ main_v87 (by decide +kernel)).trans (W36_v87 m ρ c)
theorem W37_v95 : W37 m ρ c (Proc.devRef .tc main_v95) = X95 := (host18_keeps _ main_v95 (by decide +kernel)).trans (W36_v95 m ρ c)
theorem W37_v155 : W37 m ρ c (Proc.devRef .tc main_v155) = X155 := (host18_keeps _ main_v155 (by decide +kernel)).trans (W36_v155 m ρ c)
theorem W37_v175 : W37 m ρ c (Proc.devRef .tc main_v175) = X175 := (host18_keeps _ main_v175 (by decide +kernel)).trans (W36_v175 m ρ c)
theorem W37_v177 : W37 m ρ c (Proc.devRef .tc main_v177) = X177 :=
  (host18_ut (W36 m ρ c)).trans (by rw [W36_arg8 m ρ c])
theorem W37_v179 : W37 m ρ c (Proc.devRef .tc main_v179) = X179 :=
  (host18_ub (W36 m ρ c)).trans (by rw [W36_arg8 m ρ c])
theorem W37_v182 : W37 m ρ c (Proc.devRef .tc main_v182) = X182 :=
  (host18_c (W36 m ρ c)).trans (by rw [W36_arg9 m ρ c])

/-! ### boundary 38 -/
theorem W38_v87 : W38 m ρ c (Proc.devRef .tc main_v87) = X87 := (W38_in m ρ c 1 rfl).trans (W37_v87 m ρ c)
theorem W38_v95 : W38 m ρ c (Proc.devRef .tc main_v95) = X95 := (W38_of_ne m ρ c main_v95 (by decide +kernel)).trans (W37_v95 m ρ c)
theorem W38_v175 : W38 m ρ c (Proc.devRef .tc main_v175) = X175 := (W38_of_ne m ρ c main_v175 (by decide +kernel)).trans (W37_v175 m ρ c)
theorem W38_v183 : W38 m ρ c (Proc.devRef .tc main_v183) = X183 :=
  (W38_arr m ρ c 5).trans ((final18 (V37 m ρ) c).trans (by
    show Cert.GCN.unU (W37 m ρ c (Proc.devRef .tc main_v155)) (W37 m ρ c (Proc.devRef .tc main_v87)) (W37 m ρ c (Proc.devRef .tc main_v177)) (W37 m ρ c (Proc.devRef .tc main_v179)) (W37 m ρ c (Proc.devRef .tc main_v182)) = _
    rw [W37_v155 m ρ c, W37_v87 m ρ c, W37_v177 m ρ c, W37_v179 m ρ c, W37_v182 m ρ c]))

/-! ### boundary 39 -/
theorem W39_v87 : W39 m ρ c (Proc.devRef .tc main_v87) = X87 := (host19_keeps _ main_v87 (by decide +kernel)).trans (W38_v87 m ρ c)
theorem W39_v95 : W39 m ρ c (Proc.devRef .tc main_v95) = X95 := (host19_keeps _ main_v95 (by decide +kernel)).trans (W38_v95 m ρ c)
theorem W39_v175 : W39 m ρ c (Proc.devRef .tc main_v175) = X175 := (host19_keeps _ main_v175 (by decide +kernel)).trans (W38_v175 m ρ c)
theorem W39_v183 : W39 m ρ c (Proc.devRef .tc main_v183) = X183 := (host19_keeps _ main_v183 (by decide +kernel)).trans (W38_v183 m ρ c)
theorem W39_v185 : W39 m ρ c (Proc.devRef .tc main_v185) = X185 :=
  (host19_ut (W38 m ρ c)).trans (by rw [W38_arg8 m ρ c])
theorem W39_v187 : W39 m ρ c (Proc.devRef .tc main_v187) = X187 :=
  (host19_ub (W38 m ρ c)).trans (by rw [W38_arg8 m ρ c])
theorem W39_v190 : W39 m ρ c (Proc.devRef .tc main_v190) = X190 :=
  (host19_c (W38 m ρ c)).trans (by rw [W38_arg9 m ρ c])

/-! ### boundary 40 -/
theorem W40_v87 : W40 m ρ c (Proc.devRef .tc main_v87) = X87 := (W40_of_ne m ρ c main_v87 (by decide +kernel)).trans (W39_v87 m ρ c)
theorem W40_v95 : W40 m ρ c (Proc.devRef .tc main_v95) = X95 := (W40_in m ρ c 1 rfl).trans (W39_v95 m ρ c)
theorem W40_v183 : W40 m ρ c (Proc.devRef .tc main_v183) = X183 := (W40_of_ne m ρ c main_v183 (by decide +kernel)).trans (W39_v183 m ρ c)
theorem W40_v191 : W40 m ρ c (Proc.devRef .tc main_v191) = X191 :=
  (W40_arr m ρ c 5).trans ((final19 (V39 m ρ) c).trans (by
    show Cert.GCN.unI (W39 m ρ c (Proc.devRef .tc main_v175)) (W39 m ρ c (Proc.devRef .tc main_v95)) (W39 m ρ c (Proc.devRef .tc main_v185)) (W39 m ρ c (Proc.devRef .tc main_v187)) (W39 m ρ c (Proc.devRef .tc main_v190)) = _
    rw [W39_v175 m ρ c, W39_v95 m ρ c, W39_v185 m ρ c, W39_v187 m ρ c, W39_v190 m ρ c]))

/-! ### boundary 41 -/
theorem W41_v192 : W41 m ρ c (Proc.devRef .tc main_v192) = X192 :=
  (host20_u (W40 m ρ c)).trans (by rw [W40_v87 m ρ c, W40_v183 m ρ c])
theorem W41_v193 : W41 m ρ c (Proc.devRef .tc main_v193) = X193 :=
  (host20_i (W40 m ρ c)).trans (by rw [W40_v95 m ρ c, W40_v191 m ρ c])

/-! ### the layer -/

/-- The users' result: the first layer's user rows beside the specification's layer applied to them. -/
theorem layer2U : W41 m ρ c (Proc.devRef .tc main_v192)
    = catU X87 (Cert.GCN.nextU (sIk A2 A3 A5) (sUk A2 A3 A4) (wk10 A6) (bk10 A7) (wk12 A6) (bk12 A7) (uk10t A8) (uk10b A8) (ck10 A9) X87) :=
  W41_v192 m ρ c

/-- The items' result: the first layer's item rows beside the specification's layer applied to them. -/
theorem layer2I : W41 m ρ c (Proc.devRef .tc main_v193)
    = catI X95 (Cert.GCN.nextI (sIk A2 A3 A5) (sUk A2 A3 A4) (wk11 A6) (bk11 A7) (wk13 A6) (bk13 A7) (uk11t A8) (uk11b A8) (ck11 A9) X95) :=
  W41_v193 m ρ c

end Cert.KernelIdeal.KRun

end
-- ==== Proof.RefOps.lean ====
/-
  The reference program's run, as a list. @main of the printed reference is a straight line of host operations: its own,
  and at each call of a module-local function (the leaky rectifier, which calls the selection function, eight times; the
  rectifier four times) the callee's operations over that call's record of buffers. The list is cut at the calls into
  thirteen consecutive pieces — eight message-passing steps (weight and bias sliced out, matrix product, gather of
  rows by one edge endpoint, scaling by the edge weight, scatter-add by the other endpoint, bias, leaky rectifier),
  four union steps (concatenation, weight and bias sliced out, matrix product, bias, rectifier) and the two final
  concatenations — so that the values can be read piece by piece. Every weakly fair execution of @main ends with each
  buffer at the list's fold over the launch contents.
-/
import proofs.«150895_j60593398612496_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Piece 0: the first message-passing step of layer one (users to items). -/
abbrev ops0 : List (HloOp τ sig (Elt F)) :=
  [ StableHlo.unary main_arg6 main_v0 ((extractStridedSlice S1x1x128x128 ![0, 0, 0, 0] · slices_S2x4x128x128_S1x1x128x128_0_0_0_0) : (⟨S2x4x128x128, .f32⟩ : BufTy).Contents (Elt F) → (⟨S1x1x128x128, .f32⟩ : BufTy).Contents (Elt F)),
    StableHlo.reshape main_v0 main_v1 rfl shapeCasts_S1x1x128x128_S128x128,
    StableHlo.unary main_arg7 main_v2 ((extractStridedSlice S1x1x128 ![0, 0, 0] · slices_S2x4x128_S1x1x128_0_0_0) : (⟨S2x4x128, .f32⟩ : BufTy).Contents (Elt F) → (⟨S1x1x128, .f32⟩ : BufTy).Contents (Elt F)),
    StableHlo.reshape main_v2 main_v3 rfl shapeCasts_S1x1x128_S128,
    StableHlo.binary main_arg0 main_v1 main_v4 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    StableHlo.nullary main_c (constantI S_ 32 0#32),
    StableHlo.unary main_c main_v5 (broadcastInDim S1000000 ![] bcast_S_S1000000 : (⟨S_, .i32⟩ : BufTy).Contents (Elt F) → (⟨S1000000, .i32⟩ : BufTy).Contents (Elt F)),
    StableHlo.binary main_arg2 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 60000#32),
    StableHlo.unary main_c_0 main_v7 (broadcastInDim S1000000 ![] bcast_S_S1000000 : (⟨S_, .i32⟩ : BufTy).Contents (Elt F) → (⟨S1000000, .i32⟩ : BufTy).Contents (Elt F)),
    StableHlo.binary main_arg2 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_arg2 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v10 (broadcastInDim S1000000x1 ![0] bcast_S1000000_S1000000x1_0 : (⟨S1000000, .i32⟩ : BufTy).Contents (Elt F) → (⟨S1000000x1, .i32⟩ : BufTy).Contents (Elt F)),
    StableHlo.binary main_v4 main_v10 main_v11 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    StableHlo.unary main_arg5 main_v12 (broadcastInDim S1000000x1 ![0] bcast_S1000000_S1000000x1_0 : (⟨S1000000, .f32⟩ : BufTy).Contents (Elt F) → (⟨S1000000x1, .f32⟩ : BufTy).Contents (Elt F)),
    StableHlo.unary main_v12 main_v13 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v11 main_v13 main_v14 (mulf : (⟨S1000000x128, .f32⟩ : BufTy).Contents (Elt F) → (⟨S1000000x128, .f32⟩ : BufTy).Contents (Elt F) → (⟨S1000000x128, .f32⟩ : BufTy).Contents (Elt F)),
    StableHlo.nullary main_cst (constant S_ .f32 0x00000000#32),
    StableHlo.unary main_cst main_v15 (broadcastInDim S40000x128 ![] bcast_S_S40000x128 : (⟨S_, .f32⟩ : BufTy).Contents (Elt F) → (⟨S40000x128, .f32⟩ : BufTy).Contents (Elt F)),
    StableHlo.unary main_arg3 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)),
    StableHlo.unary main_v3 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S40000x128 ![0, 1] bcast_S1x128_S40000x128_0_1 : (⟨S1x128, .f32⟩ : BufTy).Contents (Elt F) → (⟨S40000x128, .f32⟩ : BufTy).Contents (Elt F)),
    StableHlo.binary main_v17 main_v19 main_v20 (addf : (⟨S40000x128, .f32⟩ : BufTy).Contents (Elt F) → (⟨S40000x128, .f32⟩ : BufTy).Contents (Elt F) → (⟨S40000x128, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S40000x128 ![] bcast_S_S40000x128),
    StableHlo.TRef.binary (.of main_v20 : StableHlo.TRef sig ⟨S40000x128, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S40000x128 ![] bcast_S_S40000x128),
    StableHlo.TRef.binary main_call0.v3 (.of main_v20 : StableHlo.TRef sig ⟨S40000x128, .f32⟩) main_call0.v4 mulf,
    StableHlo.TRef.ternary main_call0.v1 (.of main_v20 : StableHlo.TRef sig ⟨S40000x128, .f32⟩) main_call0.v4 main_call0.call0.v0 select ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 1: the second of layer one (items to users). -/
abbrev ops1 : List (HloOp τ sig (Elt F)) :=
  [ StableHlo.unary main_arg6 main_v22 ((extractStridedSlice S1x1x128x128 ![0, 1, 0, 0] · slices_S2x4x128x128_S1x1x128x128_0_1_0_0) : (⟨S2x4x128x128, .f32⟩ : BufTy).Contents (Elt F) → (⟨S1x1x128x128, .f32⟩ : BufTy).Contents (Elt F)),
    StableHlo.reshape main_v22 main_v23 rfl shapeCasts_S1x1x128x128_S128x128,
    StableHlo.unary main_arg7 main_v24 ((extractStridedSlice S1x1x128 ![0, 1, 0] · slices_S2x4x128_S1x1x128_0_1_0) : (⟨S2x4x128, .f32⟩ : BufTy).Contents (Elt F) → (⟨S1x1x128, .f32⟩ : BufTy).Contents (Elt F)),
    StableHlo.reshape main_v24 main_v25 rfl shapeCasts_S1x1x128_S128,
    StableHlo.binary main_arg1 main_v23 main_v26 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_2 (constantI S_ 32 0#32),
    StableHlo.unary main_c_2 main_v27 (broadcastInDim S1000000 ![] bcast_S_S1000000 : (⟨S_, .i32⟩ : BufTy).Contents (Elt F) → (⟨S1000000, .i32⟩ : BufTy).Contents (Elt F)),
    StableHlo.binary main_arg3 main_v27 main_v28 (cmpi .slt : (⟨S1000000, .i32⟩ : BufTy).Contents (Elt F) → (⟨S1000000, .i32⟩ : BufTy).Contents (Elt F) → (⟨S1000000, .i1⟩ : BufTy).Contents (Elt F)),
    StableHlo.nullary main_c_3 (constantI S_ 32 40000#32),
    StableHlo.unary main_c_3 main_v29 (broadcastInDim S1000000 ![] bcast_S_S1000000 : (⟨S_, .i32⟩ : BufTy).Contents (Elt F) → (⟨S1000000, .i32⟩ : BufTy).Contents (Elt F)),
    StableHlo.binary main_arg3 main_v29 main_v30 (addi : (⟨S1000000, .i32⟩ : BufTy).Contents (Elt F) → (⟨S1000000, .i32⟩ : BufTy).Contents (Elt F) → (⟨S1000000, .i32⟩ : BufTy).Contents (Elt F)),
    StableHlo.ternary main_v28 main_v30 main_arg3 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v31 main_v32 (broadcastInDim S1000000x1 ![0] bcast_S1000000_S1000000x1_0 : (⟨S1000000, .i32⟩ : BufTy).Contents (Elt F) → (⟨S1000000x1, .i32⟩ : BufTy).Contents (Elt F)),
    StableHlo.binary main_v26 main_v32 main_v33 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_arg4 main_v34 (broadcastInDim S1000000x1 ![0] bcast_S1000000_S1000000x1_0 : (⟨S1000000, .f32⟩ : BufTy).Contents (Elt F) → (⟨S1000000x1, .f32⟩ : BufTy).Contents (Elt F)),
    StableHlo.unary main_v34 main_v35 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v33 main_v35 main_v36 (mulf : (⟨S1000000x128, .f32⟩ : BufTy).Contents (Elt F) → (⟨S1000000x128, .f32⟩ : BufTy).Contents (Elt F) → (⟨S1000000x128, .f32⟩ : BufTy).Contents (Elt F)),
    StableHlo.nullary main_cst_4 (constant S_ .f32 0x00000000#32),
    StableHlo.unary main_cst_4 main_v37 (broadcastInDim S60000x128 ![] bcast_S_S60000x128 : (⟨S_, .f32⟩ : BufTy).Contents (Elt F) → (⟨S60000x128, .f32⟩ : BufTy).Contents (Elt F)),
    StableHlo.unary main_arg2 main_v38 (broadcastInDim S1000000x1 ![0] bcast_S1000000_S1000000x1_0 : (⟨S1000000, .i32⟩ : BufTy).Contents (Elt F) → (⟨S1000000x1, .i32⟩ : BufTy).Contents (Elt F)),
    StableHlo.ternary main_v37 main_v38 main_v36 main_v39 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    StableHlo.unary main_v25 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S60000x128 ![0, 1] bcast_S1x128_S60000x128_0_1 : (⟨S1x128, .f32⟩ : BufTy).Contents (Elt F) → (⟨S60000x128, .f32⟩ : BufTy).Contents (Elt F)),
    StableHlo.binary main_v39 main_v41 main_v42 (addf : (⟨S60000x128, .f32⟩ : BufTy).Contents (Elt F) → (⟨S60000x128, .f32⟩ : BufTy).Contents (Elt F) → (⟨S60000x128, .f32⟩ : BufTy).Contents (Elt F)),
    StableHlo.nullary main_cst_5 (constant S_ .f32 0x3E4CCCCD#32),
    StableHlo.TRef.nullary main_call1.cst (constant S_ .f32 0x00000000#32),
    StableHlo.TRef.unary main_call1.cst main_call1.v0 (broadcastInDim S60000x128 ![] bcast_S_S60000x128),
    StableHlo.TRef.binary (.of main_v42 : StableHlo.TRef sig ⟨S60000x128, .f32⟩) main_call1.v0 main_call1.v1 (cmpf .oge),
    StableHlo.TRef.unary (.of main_cst_5 : StableHlo.TRef sig ⟨S_, .f32⟩) main_call1.v2 id,
    StableHlo.TRef.unary main_call1.v2 main_call1.v3 (broadcastInDim S60000x128 ![] bcast_S_S60000x128),
    StableHlo.TRef.binary main_call1.v3 (.of main_v42 : StableHlo.TRef sig ⟨S60000x128, .f32⟩) main_call1.v4 mulf,
    StableHlo.TRef.ternary main_call1.v1 (.of main_v42 : StableHlo.TRef sig ⟨S60000x128, .f32⟩) main_call1.v4 main_call1.call0.v0 select ]

theorem ops1_sub : (ops1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 2: the third of layer one (items, from the first step's result, to users). -/
abbrev ops2 : List (HloOp τ sig (Elt F)) :=
  [ StableHlo.unary main_arg6 main_v44 ((extractStridedSlice S1x1x128x128 ![0, 2, 0, 0] · slices_S2x4x128x128_S1x1x128x128_0_2_0_0) : (⟨S2x4x128x128, .f32⟩ : BufTy).Contents (Elt F) → (⟨S1x1x128x128, .f32⟩ : BufTy).Contents (Elt F)),
    StableHlo.reshape main_v44 main_v45 rfl shapeCasts_S1x1x128x128_S128x128,
    StableHlo.unary main_arg7 main_v46 ((extractStridedSlice S1x1x128 ![0, 2, 0] · slices_S2x4x128_S1x1x128_0_2_0) : (⟨S2x4x128, .f32⟩ : BufTy).Contents (Elt F) → (⟨S1x1x128, .f32⟩ : BufTy).Contents (Elt F)),
    StableHlo.reshape main_v46 main_v47 rfl shapeCasts_S1x1x128_S128,
    StableHlo.binary main_v21 main_v45 main_v48 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_6 (constantI S_ 32 0#32),
    StableHlo.unary main_c_6 main_v49 (broadcastInDim S1000000 ![] bcast_S_S1000000 : (⟨S_, .i32⟩ : BufTy).Contents (Elt F) → (⟨S1000000, .i32⟩ : BufTy).Contents (Elt F)),
    StableHlo.binary main_arg3 main_v49 main_v50 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 40000#32),
    StableHlo.unary main_c_7 main_v51 (broadcastInDim S1000000 ![] bcast_S_S1000000 : (⟨S_, .i32⟩ : BufTy).Contents (Elt F) → (⟨S1000000, .i32⟩ : BufTy).Contents (Elt F)),
    StableHlo.binary main_arg3 main_v51 main_v52 (addi : (⟨S1000000, .i32⟩ : BufTy).Contents (Elt F) → (⟨S1000000, .i32⟩ : BufTy).Contents (Elt F) → (⟨S1000000, .i32⟩ : BufTy).Contents (Elt F)),
    StableHlo.ternary main_v50 main_v52 main_arg3 main_v53 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v53 main_v54 (broadcastInDim S1000000x1 ![0] bcast_S1000000_S1000000x1_0 : (⟨S1000000, .i32⟩ : BufTy).Contents (Elt F) → (⟨S1000000x1, .i32⟩ : BufTy).Contents (Elt F)),
    StableHlo.binary main_v48 main_v54 main_v55 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_arg4 main_v56 (broadcastInDim S1000000x1 ![0] bcast_S1000000_S1000000x1_0 : (⟨S1000000, .f32⟩ : BufTy).Contents (Elt F) → (⟨S1000000x1, .f32⟩ : BufTy).Contents (Elt F)),
    StableHlo.unary main_v56 main_v57 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v55 main_v57 main_v58 (mulf : (⟨S1000000x128, .f32⟩ : BufTy).Contents (Elt F) → (⟨S1000000x128, .f32⟩ : BufTy).Contents (Elt F) → (⟨S1000000x128, .f32⟩ : BufTy).Contents (Elt F)),
    StableHlo.nullary main_cst_8 (constant S_ .f32 0x00000000#32),
    StableHlo.unary main_cst_8 main_v59 (broadcastInDim S60000x128 ![] bcast_S_S60000x128 : (⟨S_, .f32⟩ : BufTy).Contents (Elt F) → (⟨S60000x128, .f32⟩ : BufTy).Contents (Elt F)),
    StableHlo.unary main_arg2 main_v60 (broadcastInDim S1000000x1 ![0] bcast_S1000000_S1000000x1_0 : (⟨S1000000, .i32⟩ : BufTy).Contents (Elt F) → (⟨S1000000x1, .i32⟩ : BufTy).Contents (Elt F)),
    StableHlo.ternary main_v59 main_v60 main_v58 main_v61 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    StableHlo.unary main_v47 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S60000x128 ![0, 1] bcast_S1x128_S60000x128_0_1 : (⟨S1x128, .f32⟩ : BufTy).Contents (Elt F) → (⟨S60000x128, .f32⟩ : BufTy).Contents (Elt F)),
    StableHlo.binary main_v61 main_v63 main_v64 (addf : (⟨S60000x128, .f32⟩ : BufTy).Contents (Elt F) → (⟨S60000x128, .f32⟩ : BufTy).Contents (Elt F) → (⟨S60000x128, .f32⟩ : BufTy).Contents (Elt F)),
    StableHlo.nullary main_cst_9 (constant S_ .f32 0x3E4CCCCD#32),
    StableHlo.TRef.nullary main_call2.cst (constant S_ .f32 0x00000000#32),
    StableHlo.TRef.unary main_call2.cst main_call2.v0 (broadcastInDim S60000x128 ![] bcast_S_S60000x128),
    StableHlo.TRef.binary (.of main_v64 : StableHlo.TRef sig ⟨S60000x128, .f32⟩) main_call2.v0 main_call2.v1 (cmpf .oge),
    StableHlo.TRef.unary (.of main_cst_9 : StableHlo.TRef sig ⟨S_, .f32⟩) main_call2.v2 id,
    StableHlo.TRef.unary main_call2.v2 main_call2.v3 (broadcastInDim S60000x128 ![] bcast_S_S60000x128),
    StableHlo.TRef.binary main_call2.v3 (.of main_v64 : StableHlo.TRef sig ⟨S60000x128, .f32⟩) main_call2.v4 mulf,
    StableHlo.TRef.ternary main_call2.v1 (.of main_v64 : StableHlo.TRef sig ⟨S60000x128, .f32⟩) main_call2.v4 main_call2.call0.v0 select ]

theorem ops2_sub : (ops2 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 3: the fourth of layer one (users, from the second step's result, to items). -/
abbrev ops3 : List (HloOp τ sig (Elt F)) :=
  [ StableHlo.unary main_arg6 main_v66 ((extractStridedSlice S1x1x128x128 ![0, 3, 0, 0] · slices_S2x4x128x128_S1x1x128x128_0_3_0_0) : (⟨S2x4x128x128, .f32⟩ : BufTy).Contents (Elt F) → (⟨S1x1x128x128, .f32⟩ : BufTy).Contents (Elt F)),
    StableHlo.reshape main_v66 main_v67 rfl shapeCasts_S1x1x128x128_S128x128,
    StableHlo.unary main_arg7 main_v68 ((extractStridedSlice S1x1x128 ![0, 3, 0] · slices_S2x4x128_S1x1x128_0_3_0) : (⟨S2x4x128, .f32⟩ : BufTy).Contents (Elt F) → (⟨S1x1x128, .f32⟩ : BufTy).Contents (Elt F)),
    StableHlo.reshape main_v68 main_v69 rfl shapeCasts_S1x1x128_S128,
    StableHlo.binary main_v43 main_v67 main_v70 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    StableHlo.nullary main_c_10 (constantI S_ 32 0#32),
    StableHlo.unary main_c_10 main_v71 (broadcastInDim S1000000 ![] bcast_S_S1000000 : (⟨S_, .i32⟩ : BufTy).Contents (Elt F) → (⟨S1000000, .i32⟩ : BufTy).Contents (Elt F)),
    StableHlo.binary main_arg2 main_v71 main_v72 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 60000#32),
    StableHlo.unary main_c_11 main_v73 (broadcastInDim S1000000 ![] bcast_S_S1000000 : (⟨S_, .i32⟩ : BufTy).Contents (Elt F) → (⟨S1000000, .i32⟩ : BufTy).Contents (Elt F)),
    StableHlo.binary main_arg2 main_v73 main_v74 (addi : (⟨S1000000, .i32⟩ : BufTy).Contents (Elt F) → (⟨S1000000, .i32⟩ : BufTy).Contents (Elt F) → (⟨S1000000, .i32⟩ : BufTy).Contents (Elt F)),
    StableHlo.ternary main_v72 main_v74 main_arg2 main_v75 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v75 main_v76 (broadcastInDim S1000000x1 ![0] bcast_S1000000_S1000000x1_0 : (⟨S1000000, .i32⟩ : BufTy).Contents (Elt F) → (⟨S1000000x1, .i32⟩ : BufTy).Contents (Elt F)),
    StableHlo.binary main_v70 main_v76 main_v77 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    StableHlo.unary main_arg5 main_v78 (broadcastInDim S1000000x1 ![0] bcast_S1000000_S1000000x1_0 : (⟨S1000000, .f32⟩ : BufTy).Contents (Elt F) → (⟨S1000000x1, .f32⟩ : BufTy).Contents (Elt F)),
    StableHlo.unary main_v78 main_v79 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v77 main_v79 main_v80 (mulf : (⟨S1000000x128, .f32⟩ : BufTy).Contents (Elt F) → (⟨S1000000x128, .f32⟩ : BufTy).Contents (Elt F) → (⟨S1000000x128, .f32⟩ : BufTy).Contents (Elt F)),
    StableHlo.nullary main_cst_12 (constant S_ .f32 0x00000000#32),
    StableHlo.unary main_cst_12 main_v81 (broadcastInDim S40000x128 ![] bcast_S_S40000x128 : (⟨S_, .f32⟩ : BufTy).Contents (Elt F) → (⟨S40000x128, .f32⟩ : BufTy).Contents (Elt F)),
    StableHlo.unary main_arg3 main_v82 (broadcastInDim S1000000x1 ![0] bcast_S1000000_S1000000x1_0 : (⟨S1000000, .i32⟩ : BufTy).Contents (Elt F) → (⟨S1000000x1, .i32⟩ : BufTy).Contents (Elt F)),
    StableHlo.ternary main_v81 main_v82 main_v80 main_v83 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)),
    StableHlo.unary main_v69 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S40000x128 ![0, 1] bcast_S1x128_S40000x128_0_1 : (⟨S1x128, .f32⟩ : BufTy).Contents (Elt F) → (⟨S40000x128, .f32⟩ : BufTy).Contents (Elt F)),
    StableHlo.binary main_v83 main_v85 main_v86 (addf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3E4CCCCD#32),
    StableHlo.TRef.nullary main_call3.cst (constant S_ .f32 0x00000000#32),
    StableHlo.TRef.unary main_call3.cst main_call3.v0 (broadcastInDim S40000x128 ![] bcast_S_S40000x128),
    StableHlo.TRef.binary (.of main_v86 : StableHlo.TRef sig ⟨S40000x128, .f32⟩) main_call3.v0 main_call3.v1 (cmpf .oge),
    StableHlo.TRef.unary (.of main_cst_13 : StableHlo.TRef sig ⟨S_, .f32⟩) main_call3.v2 id,
    StableHlo.TRef.unary main_call3.v2 main_call3.v3 (broadcastInDim S40000x128 ![] bcast_S_S40000x128),
    StableHlo.TRef.binary main_call3.v3 (.of main_v86 : StableHlo.TRef sig ⟨S40000x128, .f32⟩) main_call3.v4 mulf,
    StableHlo.TRef.ternary main_call3.v1 (.of main_v86 : StableHlo.TRef sig ⟨S40000x128, .f32⟩) main_call3.v4 main_call3.call0.v0 select ]

theorem ops3_sub : (ops3 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 4: layer one's union step on the users. -/
abbrev ops4 : List (HloOp τ sig (Elt F)) :=
  [ StableHlo.binary main_v65 main_arg0 main_v88 ((fun a b => concatenate S60000x256 1 [⟨S60000x128, a⟩, ⟨S60000x128, b⟩] concatenates_S60000x128_S60000x128_S60000x256_d1) : (⟨S60000x128, .f32⟩ : BufTy).Contents (Elt F) → (⟨S60000x128, .f32⟩ : BufTy).Contents (Elt F) → (⟨S60000x256, .f32⟩ : BufTy).Contents (Elt F)),
    StableHlo.unary main_arg8 main_v89 ((extractStridedSlice S1x1x256x128 ![0, 0, 0, 0] · slices_S2x2x256x128_S1x1x256x128_0_0_0_0) : (⟨S2x2x256x128, .f32⟩ : BufTy).Contents (Elt F) → (⟨S1x1x256x128, .f32⟩ : BufTy).Contents (Elt F)),
    StableHlo.reshape main_v89 main_v90 rfl shapeCasts_S1x1x256x128_S256x128,
    StableHlo.binary main_v88 main_v90 main_v91 ((fun l r => Host.dotGeneral dot_S60000x256_S256x128_S60000x128_1_0_0_1_n_n none l r) : (⟨S60000x256, .f32⟩ : BufTy).Contents (Elt F) → (⟨S256x128, .f32⟩ : BufTy).Contents (Elt F) → (⟨S60000x128, .f32⟩ : BufTy).Contents (Elt F)),
    StableHlo.unary main_arg9 main_v92 ((extractStridedSlice S1x1x128 ![0, 0, 0] · slices_S2x2x128_S1x1x128_0_0_0) : (⟨S2x2x128, .f32⟩ : BufTy).Contents (Elt F) → (⟨S1x1x128, .f32⟩ : BufTy).Contents (Elt F)),
    StableHlo.reshape main_v92 main_v93 rfl shapeCasts_S1x1x128_S128,
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S60000x128 ![0, 1] bcast_S1x128_S60000x128_0_1 : (⟨S1x128, .f32⟩ : BufTy).Contents (Elt F) → (⟨S60000x128, .f32⟩ : BufTy).Contents (Elt F)),
    StableHlo.binary main_v91 main_v95 main_v96 (addf : (⟨S60000x128, .f32⟩ : BufTy).Contents (Elt F) → (⟨S60000x128, .f32⟩ : BufTy).Contents (Elt F) → (⟨S60000x128, .f32⟩ : BufTy).Contents (Elt F)),
    StableHlo.TRef.nullary main_call4.cst (constant S_ .f32 0x00000000#32),
    StableHlo.TRef.unary main_call4.cst main_call4.v0 (broadcastInDim S60000x128 ![] bcast_S_S60000x128),
    StableHlo.TRef.binary (.of main_v96 : StableHlo.TRef sig ⟨S60000x128, .f32⟩) main_call4.v0 main_call4.v1 maximumf ]

theorem ops4_sub : (ops4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Piece 5: layer one's union step on the items. -/
abbrev ops5 : List (HloOp τ sig (Elt F)) :=
  [ StableHlo.binary main_v87 main_arg1 main_v98 ((fun a b => concatenate S40000x256 1 [⟨S40000x128, a⟩, ⟨S40000x128, b⟩] concatenates_S40000x128_S40000x128_S40000x256_d1) : (⟨S40000x128, .f32⟩ : BufTy).Contents (Elt F) → (⟨S40000x128, .f32⟩ : BufTy).Contents (Elt F) → (⟨S40000x256, .f32⟩ : BufTy).Contents (Elt F)),
    StableHlo.unary main_arg8 main_v99 ((extractStridedSlice S1x1x256x128 ![0, 1, 0, 0] · slices_S2x2x256x128_S1x1x256x128_0_1_0_0) : (⟨S2x2x256x128, .f32⟩ : BufTy).Contents (Elt F) → (⟨S1x1x256x128, .f32⟩ : BufTy).Contents (Elt F)),
    StableHlo.reshape main_v99 main_v100 rfl shapeCasts_S1x1x256x128_S256x128,
    StableHlo.binary main_v98 main_v100 main_v101 ((fun l r => Host.dotGeneral dot_S40000x256_S256x128_S40000x128_1_0_0_1_n_n none l r) : (⟨S40000x256, .f32⟩ : BufTy).Contents (Elt F) → (⟨S256x128, .f32⟩ : BufTy).Contents (Elt F) → (⟨S40000x128, .f32⟩ : BufTy).Contents (Elt F)),
    StableHlo.unary main_arg9 main_v102 ((extractStridedSlice S1x1x128 ![0, 1, 0] · slices_S2x2x128_S1x1x128_0_1_0) : (⟨S2x2x128, .f32⟩ : BufTy).Contents (Elt F) → (⟨S1x1x128, .f32⟩ : BufTy).Contents (Elt F)),
    StableHlo.reshape main_v102 main_v103 rfl shapeCasts_S1x1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S40000x128 ![0, 1] bcast_S1x128_S40000x128_0_1 : (⟨S1x128, .f32⟩ : BufTy).Contents (Elt F) → (⟨S40000x128, .f32⟩ : BufTy).Contents (Elt F)),
    StableHlo.binary main_v101 main_v105 main_v106 (addf : (⟨S40000x128, .f32⟩ : BufTy).Contents (Elt F) → (⟨S40000x128, .f32⟩ : BufTy).Contents (Elt F) → (⟨S40000x128, .f32⟩ : BufTy).Contents (Elt F)),
    StableHlo.TRef.nullary main_call5.cst (constant S_ .f32 0x00000000#32),
    StableHlo.TRef.unary main_call5.cst main_call5.v0 (broadcastInDim S40000x128 ![] bcast_S_S40000x128),
    StableHlo.TRef.binary (.of main_v106 : StableHlo.TRef sig ⟨S40000x128, .f32⟩) main_call5.v0 main_call5.v1 maximumf ]

theorem ops5_sub : (ops5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Piece 6: the first message-passing step of layer two (users to items). -/
abbrev ops6 : List (HloOp τ sig (Elt F)) :=
  [ StableHlo.unary main_arg6 main_v108 ((extractStridedSlice S1x1x128x128 ![1, 0, 0, 0] · slices_S2x4x128x128_S1x1x128x128_1_0_0_0) : (⟨S2x4x128x128, .f32⟩ : BufTy).Contents (Elt F) → (⟨S1x1x128x128, .f32⟩ : BufTy).Contents (Elt F)),
    StableHlo.reshape main_v108 main_v109 rfl shapeCasts_S1x1x128x128_S128x128,
    StableHlo.unary main_arg7 main_v110 ((extractStridedSlice S1x1x128 ![1, 0, 0] · slices_S2x4x128_S1x1x128_1_0_0) : (⟨S2x4x128, .f32⟩ : BufTy).Contents (Elt F) → (⟨S1x1x128, .f32⟩ : BufTy).Contents (Elt F)),
    StableHlo.reshape main_v110 main_v111 rfl shapeCasts_S1x1x128_S128,
    StableHlo.binary main_v97 main_v109 main_v112 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    StableHlo.nullary main_c_14 (constantI S_ 32 0#32),
    StableHlo.unary main_c_14 main_v113 (broadcastInDim S1000000 ![] bcast_S_S1000000 : (⟨S_, .i32⟩ : BufTy).Contents (Elt F) → (⟨S1000000, .i32⟩ : BufTy).Contents (Elt F)),
    StableHlo.binary main_arg2 main_v113 main_v114 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 60000#32),
    StableHlo.unary main_c_15 main_v115 (broadcastInDim S1000000 ![] bcast_S_S1000000 : (⟨S_, .i32⟩ : BufTy).Contents (Elt F) → (⟨S1000000, .i32⟩ : BufTy).Contents (Elt F)),
    StableHlo.binary main_arg2 main_v115 main_v116 (addi : (⟨S1000000, .i32⟩ : BufTy).Contents (Elt F) → (⟨S1000000, .i32⟩ : BufTy).Contents (Elt F) → (⟨S1000000, .i32⟩ : BufTy).Contents (Elt F)),
    StableHlo.ternary main_v114 main_v116 main_arg2 main_v117 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v117 main_v118 (broadcastInDim S1000000x1 ![0] bcast_S1000000_S1000000x1_0 : (⟨S1000000, .i32⟩ : BufTy).Contents (Elt F) → (⟨S1000000x1, .i32⟩ : BufTy).Contents (Elt F)),
    StableHlo.binary main_v112 main_v118 main_v119 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    StableHlo.unary main_arg5 main_v120 (broadcastInDim S1000000x1 ![0] bcast_S1000000_S1000000x1_0 : (⟨S1000000, .f32⟩ : BufTy).Contents (Elt F) → (⟨S1000000x1, .f32⟩ : BufTy).Contents (Elt F)),
    StableHlo.unary main_v120 main_v121 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v119 main_v121 main_v122 (mulf : (⟨S1000000x128, .f32⟩ : BufTy).Contents (Elt F) → (⟨S1000000x128, .f32⟩ : BufTy).Contents (Elt F) → (⟨S1000000x128, .f32⟩ : BufTy).Contents (Elt F)),
    StableHlo.nullary main_cst_16 (constant S_ .f32 0x00000000#32),
    StableHlo.unary main_cst_16 main_v123 (broadcastInDim S40000x128 ![] bcast_S_S40000x128 : (⟨S_, .f32⟩ : BufTy).Contents (Elt F) → (⟨S40000x128, .f32⟩ : BufTy).Contents (Elt F)),
    StableHlo.unary main_arg3 main_v124 (broadcastInDim S1000000x1 ![0] bcast_S1000000_S1000000x1_0 : (⟨S1000000, .i32⟩ : BufTy).Contents (Elt F) → (⟨S1000000x1, .i32⟩ : BufTy).Contents (Elt F)),
    StableHlo.ternary main_v123 main_v124 main_v122 main_v125 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)),
    StableHlo.unary main_v111 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S40000x128 ![0, 1] bcast_S1x128_S40000x128_0_1 : (⟨S1x128, .f32⟩ : BufTy).Contents (Elt F) → (⟨S40000x128, .f32⟩ : BufTy).Contents (Elt F)),
    StableHlo.binary main_v125 main_v127 main_v128 (addf : (⟨S40000x128, .f32⟩ : BufTy).Contents (Elt F) → (⟨S40000x128, .f32⟩ : BufTy).Contents (Elt F) → (⟨S40000x128, .f32⟩ : BufTy).Contents (Elt F)),
    StableHlo.nullary main_cst_17 (constant S_ .f32 0x3E4CCCCD#32),
    StableHlo.TRef.nullary main_call6.cst (constant S_ .f32 0x00000000#32),
    StableHlo.TRef.unary main_call6.cst main_call6.v0 (broadcastInDim S40000x128 ![] bcast_S_S40000x128),
    StableHlo.TRef.binary (.of main_v128 : StableHlo.TRef sig ⟨S40000x128, .f32⟩) main_call6.v0 main_call6.v1 (cmpf .oge),
    StableHlo.TRef.unary (.of main_cst_17 : StableHlo.TRef sig ⟨S_, .f32⟩) main_call6.v2 id,
    StableHlo.TRef.unary main_call6.v2 main_call6.v3 (broadcastInDim S40000x128 ![] bcast_S_S40000x128),
    StableHlo.TRef.binary main_call6.v3 (.of main_v128 : StableHlo.TRef sig ⟨S40000x128, .f32⟩) main_call6.v4 mulf,
    StableHlo.TRef.ternary main_call6.v1 (.of main_v128 : StableHlo.TRef sig ⟨S40000x128, .f32⟩) main_call6.v4 main_call6.call0.v0 select ]

theorem ops6_sub : (ops6 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 7: the second of layer two (items to users). -/
abbrev ops7 : List (HloOp τ sig (Elt F)) :=
  [ StableHlo.unary main_arg6 main_v130 ((extractStridedSlice S1x1x128x128 ![1, 1, 0, 0] · slices_S2x4x128x128_S1x1x128x128_1_1_0_0) : (⟨S2x4x128x128, .f32⟩ : BufTy).Contents (Elt F) → (⟨S1x1x128x128, .f32⟩ : BufTy).Contents (Elt F)),
    StableHlo.reshape main_v130 main_v131 rfl shapeCasts_S1x1x128x128_S128x128,
    StableHlo.unary main_arg7 main_v132 ((extractStridedSlice S1x1x128 ![1, 1, 0] · slices_S2x4x128_S1x1x128_1_1_0) : (⟨S2x4x128, .f32⟩ : BufTy).Contents (Elt F) → (⟨S1x1x128, .f32⟩ : BufTy).Contents (Elt F)),
    StableHlo.reshape main_v132 main_v133 rfl shapeCasts_S1x1x128_S128,
    StableHlo.binary main_v107 main_v131 main_v134 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_18 (constantI S_ 32 0#32),
    StableHlo.unary main_c_18 main_v135 (broadcastInDim S1000000 ![] bcast_S_S1000000 : (⟨S_, .i32⟩ : BufTy).Contents (Elt F) → (⟨S1000000, .i32⟩ : BufTy).Contents (Elt F)),
    StableHlo.binary main_arg3 main_v135 main_v136 (cmpi .slt : (⟨S1000000, .i32⟩ : BufTy).Contents (Elt F) → (⟨S1000000, .i32⟩ : BufTy).Contents (Elt F) → (⟨S1000000, .i1⟩ : BufTy).Contents (Elt F)),
    StableHlo.nullary main_c_19 (constantI S_ 32 40000#32),
    StableHlo.unary main_c_19 main_v137 (broadcastInDim S1000000 ![] bcast_S_S1000000 : (⟨S_, .i32⟩ : BufTy).Contents (Elt F) → (⟨S1000000, .i32⟩ : BufTy).Contents (Elt F)),
    StableHlo.binary main_arg3 main_v137 main_v138 (addi : (⟨S1000000, .i32⟩ : BufTy).Contents (Elt F) → (⟨S1000000, .i32⟩ : BufTy).Contents (Elt F) → (⟨S1000000, .i32⟩ : BufTy).Contents (Elt F)),
    StableHlo.ternary main_v136 main_v138 main_arg3 main_v139 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v139 main_v140 (broadcastInDim S1000000x1 ![0] bcast_S1000000_S1000000x1_0 : (⟨S1000000, .i32⟩ : BufTy).Contents (Elt F) → (⟨S1000000x1, .i32⟩ : BufTy).Contents (Elt F)),
    StableHlo.binary main_v134 main_v140 main_v141 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_arg4 main_v142 (broadcastInDim S1000000x1 ![0] bcast_S1000000_S1000000x1_0 : (⟨S1000000, .f32⟩ : BufTy).Contents (Elt F) → (⟨S1000000x1, .f32⟩ : BufTy).Contents (Elt F)),
    StableHlo.unary main_v142 main_v143 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v141 main_v143 main_v144 (mulf : (⟨S1000000x128, .f32⟩ : BufTy).Contents (Elt F) → (⟨S1000000x128, .f32⟩ : BufTy).Contents (Elt F) → (⟨S1000000x128, .f32⟩ : BufTy).Contents (Elt F)),
    StableHlo.nullary main_cst_20 (constant S_ .f32 0x00000000#32),
    StableHlo.unary main_cst_20 main_v145 (broadcastInDim S60000x128 ![] bcast_S_S60000x128 : (⟨S_, .f32⟩ : BufTy).Contents (Elt F) → (⟨S60000x128, .f32⟩ : BufTy).Contents (Elt F)),
    StableHlo.unary main_arg2 main_v146 (broadcastInDim S1000000x1 ![0] bcast_S1000000_S1000000x1_0 : (⟨S1000000, .i32⟩ : BufTy).Contents (Elt F) → (⟨S1000000x1, .i32⟩ : BufTy).Contents (Elt F)),
    StableHlo.ternary main_v145 main_v146 main_v144 main_v147 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    StableHlo.unary main_v133 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S60000x128 ![0, 1] bcast_S1x128_S60000x128_0_1 : (⟨S1x128, .f32⟩ : BufTy).Contents (Elt F) → (⟨S60000x128, .f32⟩ : BufTy).Contents (Elt F)),
    StableHlo.binary main_v147 main_v149 main_v150 (addf : (⟨S60000x128, .f32⟩ : BufTy).Contents (Elt F) → (⟨S60000x128, .f32⟩ : BufTy).Contents (Elt F) → (⟨S60000x128, .f32⟩ : BufTy).Contents (Elt F)),
    StableHlo.nullary main_cst_21 (constant S_ .f32 0x3E4CCCCD#32),
    StableHlo.TRef.nullary main_call7.cst (constant S_ .f32 0x00000000#32),
    StableHlo.TRef.unary main_call7.cst main_call7.v0 (broadcastInDim S60000x128 ![] bcast_S_S60000x128),
    StableHlo.TRef.binary (.of main_v150 : StableHlo.TRef sig ⟨S60000x128, .f32⟩) main_call7.v0 main_call7.v1 (cmpf .oge),
    StableHlo.TRef.unary (.of main_cst_21 : StableHlo.TRef sig ⟨S_, .f32⟩) main_call7.v2 id,
    StableHlo.TRef.unary main_call7.v2 main_call7.v3 (broadcastInDim S60000x128 ![] bcast_S_S60000x128),
    StableHlo.TRef.binary main_call7.v3 (.of main_v150 : StableHlo.TRef sig ⟨S60000x128, .f32⟩) main_call7.v4 mulf,
    StableHlo.TRef.ternary main_call7.v1 (.of main_v150 : StableHlo.TRef sig ⟨S60000x128, .f32⟩) main_call7.v4 main_call7.call0.v0 select ]

theorem ops7_sub : (ops7 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 8: the third of layer two. -/
abbrev ops8 : List (HloOp τ sig (Elt F)) :=
  [ StableHlo.unary main_arg6 main_v152 ((extractStridedSlice S1x1x128x128 ![1, 2, 0, 0] · slices_S2x4x128x128_S1x1x128x128_1_2_0_0) : (⟨S2x4x128x128, .f32⟩ : BufTy).Contents (Elt F) → (⟨S1x1x128x128, .f32⟩ : BufTy).Contents (Elt F)),
    StableHlo.reshape main_v152 main_v153 rfl shapeCasts_S1x1x128x128_S128x128,
    StableHlo.unary main_arg7 main_v154 ((extractStridedSlice S1x1x128 ![1, 2, 0] · slices_S2x4x128_S1x1x128_1_2_0) : (⟨S2x4x128, .f32⟩ : BufTy).Contents (Elt F) → (⟨S1x1x128, .f32⟩ : BufTy).Contents (Elt F)),
    StableHlo.reshape main_v154 main_v155 rfl shapeCasts_S1x1x128_S128,
    StableHlo.binary main_v129 main_v153 main_v156 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_22 (constantI S_ 32 0#32),
    StableHlo.unary main_c_22 main_v157 (broadcastInDim S1000000 ![] bcast_S_S1000000 : (⟨S_, .i32⟩ : BufTy).Contents (Elt F) → (⟨S1000000, .i32⟩ : BufTy).Contents (Elt F)),
    StableHlo.binary main_arg3 main_v157 main_v158 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 40000#32),
    StableHlo.unary main_c_23 main_v159 (broadcastInDim S1000000 ![] bcast_S_S1000000 : (⟨S_, .i32⟩ : BufTy).Contents (Elt F) → (⟨S1000000, .i32⟩ : BufTy).Contents (Elt F)),
    StableHlo.binary main_arg3 main_v159 main_v160 (addi : (⟨S1000000, .i32⟩ : BufTy).Contents (Elt F) → (⟨S1000000, .i32⟩ : BufTy).Contents (Elt F) → (⟨S1000000, .i32⟩ : BufTy).Contents (Elt F)),
    StableHlo.ternary main_v158 main_v160 main_arg3 main_v161 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v161 main_v162 (broadcastInDim S1000000x1 ![0] bcast_S1000000_S1000000x1_0 : (⟨S1000000, .i32⟩ : BufTy).Contents (Elt F) → (⟨S1000000x1, .i32⟩ : BufTy).Contents (Elt F)),
    StableHlo.binary main_v156 main_v162 main_v163 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_arg4 main_v164 (broadcastInDim S1000000x1 ![0] bcast_S1000000_S1000000x1_0 : (⟨S1000000, .f32⟩ : BufTy).Contents (Elt F) → (⟨S1000000x1, .f32⟩ : BufTy).Contents (Elt F)),
    StableHlo.unary main_v164 main_v165 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v163 main_v165 main_v166 (mulf : (⟨S1000000x128, .f32⟩ : BufTy).Contents (Elt F) → (⟨S1000000x128, .f32⟩ : BufTy).Contents (Elt F) → (⟨S1000000x128, .f32⟩ : BufTy).Contents (Elt F)),
    StableHlo.nullary main_cst_24 (constant S_ .f32 0x00000000#32),
    StableHlo.unary main_cst_24 main_v167 (broadcastInDim S60000x128 ![] bcast_S_S60000x128 : (⟨S_, .f32⟩ : BufTy).Contents (Elt F) → (⟨S60000x128, .f32⟩ : BufTy).Contents (Elt F)),
    StableHlo.unary main_arg2 main_v168 (broadcastInDim S1000000x1 ![0] bcast_S1000000_S1000000x1_0 : (⟨S1000000, .i32⟩ : BufTy).Contents (Elt F) → (⟨S1000000x1, .i32⟩ : BufTy).Contents (Elt F)),
    StableHlo.ternary main_v167 main_v168 main_v166 main_v169 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    StableHlo.unary main_v155 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S60000x128 ![0, 1] bcast_S1x128_S60000x128_0_1 : (⟨S1x128, .f32⟩ : BufTy).Contents (Elt F) → (⟨S60000x128, .f32⟩ : BufTy).Contents (Elt F)),
    StableHlo.binary main_v169 main_v171 main_v172 (addf : (⟨S60000x128, .f32⟩ : BufTy).Contents (Elt F) → (⟨S60000x128, .f32⟩ : BufTy).Contents (Elt F) → (⟨S60000x128, .f32⟩ : BufTy).Contents (Elt F)),
    StableHlo.nullary main_cst_25 (constant S_ .f32 0x3E4CCCCD#32),
    StableHlo.TRef.nullary main_call8.cst (constant S_ .f32 0x00000000#32),
    StableHlo.TRef.unary main_call8.cst main_call8.v0 (broadcastInDim S60000x128 ![] bcast_S_S60000x128),
    StableHlo.TRef.binary (.of main_v172 : StableHlo.TRef sig ⟨S60000x128, .f32⟩) main_call8.v0 main_call8.v1 (cmpf .oge),
    StableHlo.TRef.unary (.of main_cst_25 : StableHlo.TRef sig ⟨S_, .f32⟩) main_call8.v2 id,
    StableHlo.TRef.unary main_call8.v2 main_call8.v3 (broadcastInDim S60000x128 ![] bcast_S_S60000x128),
    StableHlo.TRef.binary main_call8.v3 (.of main_v172 : StableHlo.TRef sig ⟨S60000x128, .f32⟩) main_call8.v4 mulf,
    StableHlo.TRef.ternary main_call8.v1 (.of main_v172 : StableHlo.TRef sig ⟨S60000x128, .f32⟩) main_call8.v4 main_call8.call0.v0 select ]

theorem ops8_sub : (ops8 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 9: the fourth of layer two. -/
abbrev ops9 : List (HloOp τ sig (Elt F)) :=
  [ StableHlo.unary main_arg6 main_v174 ((extractStridedSlice S1x1x128x128 ![1, 3, 0, 0] · slices_S2x4x128x128_S1x1x128x128_1_3_0_0) : (⟨S2x4x128x128, .f32⟩ : BufTy).Contents (Elt F) → (⟨S1x1x128x128, .f32⟩ : BufTy).Contents (Elt F)),
    StableHlo.reshape main_v174 main_v175 rfl shapeCasts_S1x1x128x128_S128x128,
    StableHlo.unary main_arg7 main_v176 ((extractStridedSlice S1x1x128 ![1, 3, 0] · slices_S2x4x128_S1x1x128_1_3_0) : (⟨S2x4x128, .f32⟩ : BufTy).Contents (Elt F) → (⟨S1x1x128, .f32⟩ : BufTy).Contents (Elt F)),
    StableHlo.reshape main_v176 main_v177 rfl shapeCasts_S1x1x128_S128,
    StableHlo.binary main_v151 main_v175 main_v178 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    StableHlo.nullary main_c_26 (constantI S_ 32 0#32),
    StableHlo.unary main_c_26 main_v179 (broadcastInDim S1000000 ![] bcast_S_S1000000 : (⟨S_, .i32⟩ : BufTy).Contents (Elt F) → (⟨S1000000, .i32⟩ : BufTy).Contents (Elt F)),
    StableHlo.binary main_arg2 main_v179 main_v180 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 60000#32),
    StableHlo.unary main_c_27 main_v181 (broadcastInDim S1000000 ![] bcast_S_S1000000 : (⟨S_, .i32⟩ : BufTy).Contents (Elt F) → (⟨S1000000, .i32⟩ : BufTy).Contents (Elt F)),
    StableHlo.binary main_arg2 main_v181 main_v182 (addi : (⟨S1000000, .i32⟩ : BufTy).Contents (Elt F) → (⟨S1000000, .i32⟩ : BufTy).Contents (Elt F) → (⟨S1000000, .i32⟩ : BufTy).Contents (Elt F)),
    StableHlo.ternary main_v180 main_v182 main_arg2 main_v183 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v183 main_v184 (broadcastInDim S1000000x1 ![0] bcast_S1000000_S1000000x1_0 : (⟨S1000000, .i32⟩ : BufTy).Contents (Elt F) → (⟨S1000000x1, .i32⟩ : BufTy).Contents (Elt F)),
    StableHlo.binary main_v178 main_v184 main_v185 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    StableHlo.unary main_arg5 main_v186 (broadcastInDim S1000000x1 ![0] bcast_S1000000_S1000000x1_0 : (⟨S1000000, .f32⟩ : BufTy).Contents (Elt F) → (⟨S1000000x1, .f32⟩ : BufTy).Contents (Elt F)),
    StableHlo.unary main_v186 main_v187 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v185 main_v187 main_v188 (mulf : (⟨S1000000x128, .f32⟩ : BufTy).Contents (Elt F) → (⟨S1000000x128, .f32⟩ : BufTy).Contents (Elt F) → (⟨S1000000x128, .f32⟩ : BufTy).Contents (Elt F)),
    StableHlo.nullary main_cst_28 (constant S_ .f32 0x00000000#32),
    StableHlo.unary main_cst_28 main_v189 (broadcastInDim S40000x128 ![] bcast_S_S40000x128 : (⟨S_, .f32⟩ : BufTy).Contents (Elt F) → (⟨S40000x128, .f32⟩ : BufTy).Contents (Elt F)),
    StableHlo.unary main_arg3 main_v190 (broadcastInDim S1000000x1 ![0] bcast_S1000000_S1000000x1_0 : (⟨S1000000, .i32⟩ : BufTy).Contents (Elt F) → (⟨S1000000x1, .i32⟩ : BufTy).Contents (Elt F)),
    StableHlo.ternary main_v189 main_v190 main_v188 main_v191 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)),
    StableHlo.unary main_v177 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S40000x128 ![0, 1] bcast_S1x128_S40000x128_0_1 : (⟨S1x128, .f32⟩ : BufTy).Contents (Elt F) → (⟨S40000x128, .f32⟩ : BufTy).Contents (Elt F)),
    StableHlo.binary main_v191 main_v193 main_v194 (addf : (⟨S40000x128, .f32⟩ : BufTy).Contents (Elt F) → (⟨S40000x128, .f32⟩ : BufTy).Contents (Elt F) → (⟨S40000x128, .f32⟩ : BufTy).Contents (Elt F)),
    StableHlo.nullary main_cst_29 (constant S_ .f32 0x3E4CCCCD#32),
    StableHlo.TRef.nullary main_call9.cst (constant S_ .f32 0x00000000#32),
    StableHlo.TRef.unary main_call9.cst main_call9.v0 (broadcastInDim S40000x128 ![] bcast_S_S40000x128),
    StableHlo.TRef.binary (.of main_v194 : StableHlo.TRef sig ⟨S40000x128, .f32⟩) main_call9.v0 main_call9.v1 (cmpf .oge),
    StableHlo.TRef.unary (.of main_cst_29 : StableHlo.TRef sig ⟨S_, .f32⟩) main_call9.v2 id,
    StableHlo.TRef.unary main_call9.v2 main_call9.v3 (broadcastInDim S40000x128 ![] bcast_S_S40000x128),
    StableHlo.TRef.binary main_call9.v3 (.of main_v194 : StableHlo.TRef sig ⟨S40000x128, .f32⟩) main_call9.v4 mulf,
    StableHlo.TRef.ternary main_call9.v1 (.of main_v194 : StableHlo.TRef sig ⟨S40000x128, .f32⟩) main_call9.v4 main_call9.call0.v0 select ]

theorem ops9_sub : (ops9 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Piece 10: layer two's union step on the users. -/
abbrev ops10 : List (HloOp τ sig (Elt F)) :=
  [ StableHlo.binary main_v173 main_v97 main_v196 ((fun a b => concatenate S60000x256 1 [⟨S60000x128, a⟩, ⟨S60000x128, b⟩] concatenates_S60000x128_S60000x128_S60000x256_d1) : (⟨S60000x128, .f32⟩ : BufTy).Contents (Elt F) → (⟨S60000x128, .f32⟩ : BufTy).Contents (Elt F) → (⟨S60000x256, .f32⟩ : BufTy).Contents (Elt F)),
    StableHlo.unary main_arg8 main_v197 ((extractStridedSlice S1x1x256x128 ![1, 0, 0, 0] · slices_S2x2x256x128_S1x1x256x128_1_0_0_0) : (⟨S2x2x256x128, .f32⟩ : BufTy).Contents (Elt F) → (⟨S1x1x256x128, .f32⟩ : BufTy).Contents (Elt F)),
    StableHlo.reshape main_v197 main_v198 rfl shapeCasts_S1x1x256x128_S256x128,
    StableHlo.binary main_v196 main_v198 main_v199 ((fun l r => Host.dotGeneral dot_S60000x256_S256x128_S60000x128_1_0_0_1_n_n none l r) : (⟨S60000x256, .f32⟩ : BufTy).Contents (Elt F) → (⟨S256x128, .f32⟩ : BufTy).Contents (Elt F) → (⟨S60000x128, .f32⟩ : BufTy).Contents (Elt F)),
    StableHlo.unary main_arg9 main_v200 ((extractStridedSlice S1x1x128 ![1, 0, 0] · slices_S2x2x128_S1x1x128_1_0_0) : (⟨S2x2x128, .f32⟩ : BufTy).Contents (Elt F) → (⟨S1x1x128, .f32⟩ : BufTy).Contents (Elt F)),
    StableHlo.reshape main_v200 main_v201 rfl shapeCasts_S1x1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S60000x128 ![0, 1] bcast_S1x128_S60000x128_0_1 : (⟨S1x128, .f32⟩ : BufTy).Contents (Elt F) → (⟨S60000x128, .f32⟩ : BufTy).Contents (Elt F)),
    StableHlo.binary main_v199 main_v203 main_v204 (addf : (⟨S60000x128, .f32⟩ : BufTy).Contents (Elt F) → (⟨S60000x128, .f32⟩ : BufTy).Contents (Elt F) → (⟨S60000x128, .f32⟩ : BufTy).Contents (Elt F)),
    StableHlo.TRef.nullary main_call10.cst (constant S_ .f32 0x00000000#32),
    StableHlo.TRef.unary main_call10.cst main_call10.v0 (broadcastInDim S60000x128 ![] bcast_S_S60000x128),
    StableHlo.TRef.binary (.of main_v204 : StableHlo.TRef sig ⟨S60000x128, .f32⟩) main_call10.v0 main_call10.v1 maximumf ]

theorem ops10_sub : (ops10 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Piece 11: layer two's union step on the items. -/
abbrev ops11 : List (HloOp τ sig (Elt F)) :=
  [ StableHlo.binary main_v195 main_v107 main_v206 ((fun a b => concatenate S40000x256 1 [⟨S40000x128, a⟩, ⟨S40000x128, b⟩] concatenates_S40000x128_S40000x128_S40000x256_d1) : (⟨S40000x128, .f32⟩ : BufTy).Contents (Elt F) → (⟨S40000x128, .f32⟩ : BufTy).Contents (Elt F) → (⟨S40000x256, .f32⟩ : BufTy).Contents (Elt F)),
    StableHlo.unary main_arg8 main_v207 ((extractStridedSlice S1x1x256x128 ![1, 1, 0, 0] · slices_S2x2x256x128_S1x1x256x128_1_1_0_0) : (⟨S2x2x256x128, .f32⟩ : BufTy).Contents (Elt F) → (⟨S1x1x256x128, .f32⟩ : BufTy).Contents (Elt F)),
    StableHlo.reshape main_v207 main_v208 rfl shapeCasts_S1x1x256x128_S256x128,
    StableHlo.binary main_v206 main_v208 main_v209 ((fun l r => Host.dotGeneral dot_S40000x256_S256x128_S40000x128_1_0_0_1_n_n none l r) : (⟨S40000x256, .f32⟩ : BufTy).Contents (Elt F) → (⟨S256x128, .f32⟩ : BufTy).Contents (Elt F) → (⟨S40000x128, .f32⟩ : BufTy).Contents (Elt F)),
    StableHlo.unary main_arg9 main_v210 ((extractStridedSlice S1x1x128 ![1, 1, 0] · slices_S2x2x128_S1x1x128_1_1_0) : (⟨S2x2x128, .f32⟩ : BufTy).Contents (Elt F) → (⟨S1x1x128, .f32⟩ : BufTy).Contents (Elt F)),
    StableHlo.reshape main_v210 main_v211 rfl shapeCasts_S1x1x128_S128,
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S40000x128 ![0, 1] bcast_S1x128_S40000x128_0_1 : (⟨S1x128, .f32⟩ : BufTy).Contents (Elt F) → (⟨S40000x128, .f32⟩ : BufTy).Contents (Elt F)),
    StableHlo.binary main_v209 main_v213 main_v214 (addf : (⟨S40000x128, .f32⟩ : BufTy).Contents (Elt F) → (⟨S40000x128, .f32⟩ : BufTy).Contents (Elt F) → (⟨S40000x128, .f32⟩ : BufTy).Contents (Elt F)),
    StableHlo.TRef.nullary main_call11.cst (constant S_ .f32 0x00000000#32),
    StableHlo.TRef.unary main_call11.cst main_call11.v0 (broadcastInDim S40000x128 ![] bcast_S_S40000x128),
    StableHlo.TRef.binary (.of main_v214 : StableHlo.TRef sig ⟨S40000x128, .f32⟩) main_call11.v0 main_call11.v1 maximumf ]

theorem ops11_sub : (ops11 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Piece 12: the two results: each side's two layers side by side. -/
abbrev ops12 : List (HloOp τ sig (Elt F)) :=
  [ StableHlo.binary main_v97 main_v205 main_v216 ((fun a b => concatenate S60000x256 1 [⟨S60000x128, a⟩, ⟨S60000x128, b⟩] concatenates_S60000x128_S60000x128_S60000x256_d1) : (⟨S60000x128, .f32⟩ : BufTy).Contents (Elt F) → (⟨S60000x128, .f32⟩ : BufTy).Contents (Elt F) → (⟨S60000x256, .f32⟩ : BufTy).Contents (Elt F)),
    StableHlo.binary main_v107 main_v215 main_v217 ((fun a b => concatenate S40000x256 1 [⟨S40000x128, a⟩, ⟨S40000x128, b⟩] concatenates_S40000x128_S40000x128_S40000x256_d1) : (⟨S40000x128, .f32⟩ : BufTy).Contents (Elt F) → (⟨S40000x128, .f32⟩ : BufTy).Contents (Elt F) → (⟨S40000x256, .f32⟩ : BufTy).Contents (Elt F)) ]

theorem ops12_sub : (ops12 : List (HloOp τ sig (Elt F))).Forall fun op => op.bufs ⊆ tcRefs τ sig :=
  ⟨binary_bufs_sub .., binary_bufs_sub ..⟩

/-- @main's operations in order, the calls unfolded: the thirteen pieces one after the other. -/
abbrev ops : List (HloOp τ sig (Elt F)) := ops0 ++ (ops1 ++ (ops2 ++ (ops3 ++ (ops4 ++ (ops5 ++ (ops6 ++ (ops7 ++ (ops8 ++ (ops9 ++ (ops10 ++ (ops11 ++ (ops12))))))))))))

-- some three hundred binds re-associated: the rewrite under the chain recurses once per statement
set_option maxRecDepth 8192 in
set_option maxHeartbeats 4000000 in
/-- @main is that straight line: its windows, the functions' definitions at their calls and the records at their
    fields unfolded, both sides are one chain of steps once sequencing is reassociated. -/
theorem main_eq (c : Dev nD) : main (F := F) c = seq ops := by
  simp only [main, main_part0, main_part1, main_part2, main_part3, main_part4,
    fn_leaky_relu.body, fn_leaky_relu_0.body, fn_where.body, fn_where_1.body, fn_relu.body, fn_relu_2.body,
    ops, ops0, ops1, ops2, ops3, ops4, ops5, ops6, ops7, ops8, ops9, ops10, ops11, ops12, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app ops0_sub (forall_app ops1_sub (forall_app ops2_sub (forall_app ops3_sub (forall_app ops4_sub (forall_app ops5_sub (forall_app ops6_sub (forall_app ops7_sub (forall_app ops8_sub (forall_app ops9_sub (forall_app ops10_sub (forall_app ops11_sub (ops12_sub))))))))))))

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStage.lean ====
/-
  The reference's thirteen pieces, one at a time. The pure functions the reference applies are named once —
  a weight or a bias cut out of the stacked parameters, the matrix product, the two sparse products (gather the rows one
  edge endpoint names, scale by the edge weight, add into the row the other endpoint names), bias with the leaky
  rectifier, the union step — and each piece's result is one of them applied to the contents the piece starts at.
  A piece writes only its own intermediate buffers; every other buffer is as it was.
-/
import proofs.«150895_j60593398612496_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure functions -/

/-- Row numbers, a negative one counted back from `n` rows (the indexing convention of the array library). -/
def wrap (n : BitVec 32) (I : IVec S1000000 32) : IVec S1000000 32 :=
  select (cmpi .slt I (broadcastInDim S1000000 ![] bcast_S_S1000000 (constantI S_ 32 0#32)))
    (addi I (broadcastInDim S1000000 ![] bcast_S_S1000000 (constantI S_ 32 n))) I

/-- One 128 × 128 weight out of the stacked weights: the block at offset `o`, as a matrix. -/
def wgt (o : Fin 4 → Nat) (h : S2x4x128x128.Slices o S1x1x128x128) (A : FVec F S2x4x128x128 .f32) : FVec F S128x128 .f32 :=
  shapeCast S128x128 (extractStridedSlice S1x1x128x128 o A h) shapeCasts_S1x1x128x128_S128x128

/-- One bias out of the stacked biases: the block at offset `o`, as one row. -/
def bia (o : Fin 3 → Nat) (h : S2x4x128.Slices o S1x1x128) (B : FVec F S2x4x128 .f32) : FVec F S1x128 .f32 :=
  broadcastInDim S1x128 ![1] bcast_S128_S1x128_1
    (shapeCast S128 (extractStridedSlice S1x1x128 o B h) shapeCasts_S1x1x128_S128)

/-- One 256 × 128 weight out of the stacked union weights. -/
def wgt2 (o : Fin 4 → Nat) (h : S2x2x256x128.Slices o S1x1x256x128) (A : FVec F S2x2x256x128 .f32) : FVec F S256x128 .f32 :=
  shapeCast S256x128 (extractStridedSlice S1x1x256x128 o A h) shapeCasts_S1x1x256x128_S256x128

/-- One bias out of the stacked union biases, as one row. -/
def bia2 (o : Fin 3 → Nat) (h : S2x2x128.Slices o S1x1x128) (B : FVec F S2x2x128 .f32) : FVec F S1x128 .f32 :=
  broadcastInDim S1x128 ![1] bcast_S128_S1x128_1
    (shapeCast S128 (extractStridedSlice S1x1x128 o B h) shapeCasts_S1x1x128_S128)

/-- The sparse product from user rows onto item rows: gather the rows `src` names, scale each by its edge weight,
    add each into the row `dst` names, from zero. -/
def spI (src dst : IVec S1000000 32) (w : FVec F S1000000 .f32) (X : FVec F S60000x128 .f32) : FVec F S40000x128 .f32 :=
  Host.scatterAdd scatter_S40000x128_S1000000x1_S1000000x128_1_0_0_1
    (broadcastInDim S40000x128 ![] bcast_S_S40000x128 (constant S_ .f32 0x00000000#32))
    (broadcastInDim S1000000x1 ![0] bcast_S1000000_S1000000x1_0 dst)
    (mulf (Host.gather gather_S60000x128_S1000000x1_S1000000x128_1_0_n_n_0_1_1128 X
            (broadcastInDim S1000000x1 ![0] bcast_S1000000_S1000000x1_0 (wrap 60000#32 src)))
      (broadcastInDim S1000000x128 ![0, 1] bcast_S1000000x1_S1000000x128_0_1
        (broadcastInDim S1000000x1 ![0] bcast_S1000000_S1000000x1_0 w)))

/-- The sparse product from item rows onto user rows. -/
def spU (src dst : IVec S1000000 32) (w : FVec F S1000000 .f32) (X : FVec F S40000x128 .f32) : FVec F S60000x128 .f32 :=
  Host.scatterAdd scatter_S60000x128_S1000000x1_S1000000x128_1_0_0_1
    (broadcastInDim S60000x128 ![] bcast_S_S60000x128 (constant S_ .f32 0x00000000#32))
    (broadcastInDim S1000000x1 ![0] bcast_S1000000_S1000000x1_0 dst)
    (mulf (Host.gather gather_S40000x128_S1000000x1_S1000000x128_1_0_n_n_0_1_1128 X
            (broadcastInDim S1000000x1 ![0] bcast_S1000000_S1000000x1_0 (wrap 40000#32 src)))
      (broadcastInDim S1000000x128 ![0, 1] bcast_S1000000x1_S1000000x128_0_1
        (broadcastInDim S1000000x1 ![0] bcast_S1000000_S1000000x1_0 w)))

/-- Bias (one row, repeated down the rows), then the leaky rectifier as the reference spells it, on item rows. -/
def lkI (S : FVec F S40000x128 .f32) (b : FVec F S1x128 .f32) : FVec F S40000x128 .f32 :=
  select (cmpf .oge (addf S (broadcastInDim S40000x128 ![0, 1] bcast_S1x128_S40000x128_0_1 b))
      (broadcastInDim S40000x128 ![] bcast_S_S40000x128 (constant S_ .f32 0x00000000#32)))
    (addf S (broadcastInDim S40000x128 ![0, 1] bcast_S1x128_S40000x128_0_1 b))
    (mulf (broadcastInDim S40000x128 ![] bcast_S_S40000x128 (constant S_ .f32 0x3E4CCCCD#32))
      (addf S (broadcastInDim S40000x128 ![0, 1] bcast_S1x128_S40000x128_0_1 b)))

/-- The same on user rows. -/
def lkU (S : FVec F S60000x128 .f32) (b : FVec F S1x128 .f32) : FVec F S60000x128 .f32 :=
  select (cmpf .oge (addf S (broadcastInDim S60000x128 ![0, 1] bcast_S1x128_S60000x128_0_1 b))
      (broadcastInDim S60000x128 ![] bcast_S_S60000x128 (constant S_ .f32 0x00000000#32)))
    (addf S (broadcastInDim S60000x128 ![0, 1] bcast_S1x128_S60000x128_0_1 b))
    (mulf (broadcastInDim S60000x128 ![] bcast_S_S60000x128 (constant S_ .f32 0x3E4CCCCD#32))
      (addf S (broadcastInDim S60000x128 ![0, 1] bcast_S1x128_S60000x128_0_1 b)))

/-- The matrix product of user rows with a weight, as the reference spells it. -/
def dtU (X : FVec F S60000x128 .f32) (Wt : FVec F S128x128 .f32) : FVec F S60000x128 .f32 :=
  Host.dotGeneral dot_S60000x128_S128x128_S60000x128_1_0_0_1_n_n none X Wt

/-- The matrix product of item rows with a weight, as the reference spells it. -/
def dtI (X : FVec F S40000x128 .f32) (Wt : FVec F S128x128 .f32) : FVec F S40000x128 .f32 :=
  Host.dotGeneral dot_S40000x128_S128x128_S40000x128_1_0_0_1_n_n none X Wt

/-- The union step on user rows as the reference spells it: the two arrays side by side times one 256 × 128 weight,
    a bias, the rectifier. -/
def uuU (A B : FVec F S60000x128 .f32) (P : FVec F S256x128 .f32) (c : FVec F S1x128 .f32) : FVec F S60000x128 .f32 :=
  maximumf (addf (Host.dotGeneral dot_S60000x256_S256x128_S60000x128_1_0_0_1_n_n none
        (concatenate S60000x256 1 [⟨S60000x128, A⟩, ⟨S60000x128, B⟩] concatenates_S60000x128_S60000x128_S60000x256_d1) P)
      (broadcastInDim S60000x128 ![0, 1] bcast_S1x128_S60000x128_0_1 c))
    (broadcastInDim S60000x128 ![] bcast_S_S60000x128 (constant S_ .f32 0x00000000#32))

/-- The union step on item rows as the reference spells it. -/
def uuI (A B : FVec F S40000x128 .f32) (P : FVec F S256x128 .f32) (c : FVec F S1x128 .f32) : FVec F S40000x128 .f32 :=
  maximumf (addf (Host.dotGeneral dot_S40000x256_S256x128_S40000x128_1_0_0_1_n_n none
        (concatenate S40000x256 1 [⟨S40000x128, A⟩, ⟨S40000x128, B⟩] concatenates_S40000x128_S40000x128_S40000x256_d1) P)
      (broadcastInDim S40000x128 ![0, 1] bcast_S1x128_S40000x128_0_1 c))
    (broadcastInDim S40000x128 ![] bcast_S_S40000x128 (constant S_ .f32 0x00000000#32))

/-! ## What a piece leaves alone -/

/-- An operation that writes the one buffer `y`, a member of the list `W`, writes inside `W`. -/
theorem ws {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- What piece 0 writes. -/
abbrev wr0 : List (Ref sig .tc) :=
  [main_v0, main_v1, main_v2, main_v3, main_v4, main_c, main_v5, main_v6, main_c_0, main_v7, main_v8, main_v9, main_v10, main_v11, main_v12, main_v13, main_v14, main_cst, main_v15, main_v16, main_v17, main_v18, main_v19, main_v20, main_cst_1, main_call0.cst.ref, main_call0.v0.ref, main_call0.v1.ref, main_call0.v2.ref, main_call0.v3.ref, main_call0.v4.ref, main_call0.call0.v0.ref]

/-- Piece 0 leaves every buffer it does not write as it was. -/
theorem fr0 (W : Valuation τ sig (Elt F)) {r : Ref sig .tc} (hr : r ∉ wr0) :
    after ops0 W (r : DevRef τ sig) = W (r : DevRef τ sig) :=
  after_of_writes_sub (W := wr0) ops0 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 1 writes. -/
abbrev wr1 : List (Ref sig .tc) :=
  [main_v22, main_v23, main_v24, main_v25, main_v26, main_c_2, main_v27, main_v28, main_c_3, main_v29, main_v30, main_v31, main_v32, main_v33, main_v34, main_v35, main_v36, main_cst_4, main_v37, main_v38, main_v39, main_v40, main_v41, main_v42, main_cst_5, main_call1.cst.ref, main_call1.v0.ref, main_call1.v1.ref, main_call1.v2.ref, main_call1.v3.ref, main_call1.v4.ref, main_call1.call0.v0.ref]

/-- Piece 1 leaves every buffer it does not write as it was. -/
theorem fr1 (W : Valuation τ sig (Elt F)) {r : Ref sig .tc} (hr : r ∉ wr1) :
    after ops1 W (r : DevRef τ sig) = W (r : DevRef τ sig) :=
  after_of_writes_sub (W := wr1) ops1 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 2 writes. -/
abbrev wr2 : List (Ref sig .tc) :=
  [main_v44, main_v45, main_v46, main_v47, main_v48, main_c_6, main_v49, main_v50, main_c_7, main_v51, main_v52, main_v53, main_v54, main_v55, main_v56, main_v57, main_v58, main_cst_8, main_v59, main_v60, main_v61, main_v62, main_v63, main_v64, main_cst_9, main_call2.cst.ref, main_call2.v0.ref, main_call2.v1.ref, main_call2.v2.ref, main_call2.v3.ref, main_call2.v4.ref, main_call2.call0.v0.ref]

/-- Piece 2 leaves every buffer it does not write as it was. -/
theorem fr2 (W : Valuation τ sig (Elt F)) {r : Ref sig .tc} (hr : r ∉ wr2) :
    after ops2 W (r : DevRef τ sig) = W (r : DevRef τ sig) :=
  after_of_writes_sub (W := wr2) ops2 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 3 writes. -/
abbrev wr3 : List (Ref sig .tc) :=
  [main_v66, main_v67, main_v68, main_v69, main_v70, main_c_10, main_v71, main_v72, main_c_11, main_v73, main_v74, main_v75, main_v76, main_v77, main_v78, main_v79, main_v80, main_cst_12, main_v81, main_v82, main_v83, main_v84, main_v85, main_v86, main_cst_13, main_call3.cst.ref, main_call3.v0.ref, main_call3.v1.ref, main_call3.v2.ref, main_call3.v3.ref, main_call3.v4.ref, main_call3.call0.v0.ref]

/-- Piece 3 leaves every buffer it does not write as it was. -/
theorem fr3 (W : Valuation τ sig (Elt F)) {r : Ref sig .tc} (hr : r ∉ wr3) :
    after ops3 W (r : DevRef τ sig) = W (r : DevRef τ sig) :=
  after_of_writes_sub (W := wr3) ops3 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 4 writes. -/
abbrev wr4 : List (Ref sig .tc) :=
  [main_v88, main_v89, main_v90, main_v91, main_v92, main_v93, main_v94, main_v95, main_v96, main_call4.cst.ref, main_call4.v0.ref, main_call4.v1.ref]

/-- Piece 4 leaves every buffer it does not write as it was. -/
theorem fr4 (W : Valuation τ sig (Elt F)) {r : Ref sig .tc} (hr : r ∉ wr4) :
    after ops4 W (r : DevRef τ sig) = W (r : DevRef τ sig) :=
  after_of_writes_sub (W := wr4) ops4 W
    ⟨ws (binary_writes ..) (by decide),
     ws (unary_writes ..) (by decide),
     ws (reshape_writes ..) (by decide),
     ws (binary_writes ..) (by decide),
     ws (unary_writes ..) (by decide),
     ws (reshape_writes ..) (by decide),
     ws (unary_writes ..) (by decide),
     ws (unary_writes ..) (by decide),
     ws (binary_writes ..) (by decide),
     ws (nullary_writes ..) (by decide),
     ws (unary_writes ..) (by decide),
     ws (binary_writes ..) (by decide)⟩ hr

/-- What piece 5 writes. -/
abbrev wr5 : List (Ref sig .tc) :=
  [main_v98, main_v99, main_v100, main_v101, main_v102, main_v103, main_v104, main_v105, main_v106, main_call5.cst.ref, main_call5.v0.ref, main_call5.v1.ref]

/-- Piece 5 leaves every buffer it does not write as it was. -/
theorem fr5 (W : Valuation τ sig (Elt F)) {r : Ref sig .tc} (hr : r ∉ wr5) :
    after ops5 W (r : DevRef τ sig) = W (r : DevRef τ sig) :=
  after_of_writes_sub (W := wr5) ops5 W
    ⟨ws (binary_writes ..) (by decide),
     ws (unary_writes ..) (by decide),
     ws (reshape_writes ..) (by decide),
     ws (binary_writes ..) (by decide),
     ws (unary_writes ..) (by decide),
     ws (reshape_writes ..) (by decide),
     ws (unary_writes ..) (by decide),
     ws (unary_writes ..) (by decide),
     ws (binary_writes ..) (by decide),
     ws (nullary_writes ..) (by decide),
     ws (unary_writes ..) (by decide),
     ws (binary_writes ..) (by decide)⟩ hr

/-- What piece 6 writes. -/
abbrev wr6 : List (Ref sig .tc) :=
  [main_v108, main_v109, main_v110, main_v111, main_v112, main_c_14, main_v113, main_v114, main_c_15, main_v115, main_v116, main_v117, main_v118, main_v119, main_v120, main_v121, main_v122, main_cst_16, main_v123, main_v124, main_v125, main_v126, main_v127, main_v128, main_cst_17, main_call6.cst.ref, main_call6.v0.ref, main_call6.v1.ref, main_call6.v2.ref, main_call6.v3.ref, main_call6.v4.ref, main_call6.call0.v0.ref]

/-- Piece 6 leaves every buffer it does not write as it was. -/
theorem fr6 (W : Valuation τ sig (Elt F)) {r : Ref sig .tc} (hr : r ∉ wr6) :
    after ops6 W (r : DevRef τ sig) = W (r : DevRef τ sig) :=
  after_of_writes_sub (W := wr6) ops6 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 7 writes. -/
abbrev wr7 : List (Ref sig .tc) :=
  [main_v130, main_v131, main_v132, main_v133, main_v134, main_c_18, main_v135, main_v136, main_c_19, main_v137, main_v138, main_v139, main_v140, main_v141, main_v142, main_v143, main_v144, main_cst_20, main_v145, main_v146, main_v147, main_v148, main_v149, main_v150, main_cst_21, main_call7.cst.ref, main_call7.v0.ref, main_call7.v1.ref, main_call7.v2.ref, main_call7.v3.ref, main_call7.v4.ref, main_call7.call0.v0.ref]

/-- Piece 7 leaves every buffer it does not write as it was. -/
theorem fr7 (W : Valuation τ sig (Elt F)) {r : Ref sig .tc} (hr : r ∉ wr7) :
    after ops7 W (r : DevRef τ sig) = W (r : DevRef τ sig) :=
  after_of_writes_sub (W := wr7) ops7 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 8 writes. -/
abbrev wr8 : List (Ref sig .tc) :=
  [main_v152, main_v153, main_v154, main_v155, main_v156, main_c_22, main_v157, main_v158, main_c_23, main_v159, main_v160, main_v161, main_v162, main_v163, main_v164, main_v165, main_v166, main_cst_24, main_v167, main_v168, main_v169, main_v170, main_v171, main_v172, main_cst_25, main_call8.cst.ref, main_call8.v0.ref, main_call8.v1.ref, main_call8.v2.ref, main_call8.v3.ref, main_call8.v4.ref, main_call8.call0.v0.ref]

/-- Piece 8 leaves every buffer it does not write as it was. -/
theorem fr8 (W : Valuation τ sig (Elt F)) {r : Ref sig .tc} (hr : r ∉ wr8) :
    after ops8 W (r : DevRef τ sig) = W (r : DevRef τ sig) :=
  after_of_writes_sub (W := wr8) ops8 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 9 writes. -/
abbrev wr9 : List (Ref sig .tc) :=
  [main_v174, main_v175, main_v176, main_v177, main_v178, main_c_26, main_v179, main_v180, main_c_27, main_v181, main_v182, main_v183, main_v184, main_v185, main_v186, main_v187, main_v188, main_cst_28, main_v189, main_v190, main_v191, main_v192, main_v193, main_v194, main_cst_29, main_call9.cst.ref, main_call9.v0.ref, main_call9.v1.ref, main_call9.v2.ref, main_call9.v3.ref, main_call9.v4.ref, main_call9.call0.v0.ref]

/-- Piece 9 leaves every buffer it does not write as it was. -/
theorem fr9 (W : Valuation τ sig (Elt F)) {r : Ref sig .tc} (hr : r ∉ wr9) :
    after ops9 W (r : DevRef τ sig) = W (r : DevRef τ sig) :=
  after_of_writes_sub (W := wr9) ops9 W
    ⟨ws (unary_writes ..) (by decide),
     ws (reshape_writes ..) (by decide),
     ws (unary_writes ..) (by decide),
     ws (reshape_writes ..) (by decide),
     ws (binary_writes ..) (by decide),
     ws (nullary_writes ..) (by decide),
     ws (unary_writes ..) (by decide),
     ws (binary_writes ..) (by decide),
     ws (nullary_writes ..) (by decide),
     ws (unary_writes ..) (by decide),
     ws (binary_writes ..) (by decide),
     ws (ternary_writes ..) (by decide),
     ws (unary_writes ..) (by decide),
     ws (binary_writes ..) (by decide),
     ws (unary_writes ..) (by decide),
     ws (unary_writes ..) (by decide),
     ws (binary_writes ..) (by decide),
     ws (nullary_writes ..) (by decide),
     ws (unary_writes ..) (by decide),
     ws (unary_writes ..) (by decide),
     ws (ternary_writes ..) (by decide),
     ws (unary_writes ..) (by decide),
     ws (unary_writes ..) (by decide),
     ws (binary_writes ..) (by decide),
     ws (nullary_writes ..) (by decide),
     ws (nullary_writes ..) (by decide),
     ws (unary_writes ..) (by decide),
     ws (binary_writes ..) (by decide),
     ws (unary_writes ..) (by decide),
     ws (unary_writes ..) (by decide),
     ws (binary_writes ..) (by decide),
     ws (ternary_writes ..) (by decide)⟩ hr

/-- What piece 10 writes. -/
abbrev wr10 : List (Ref sig .tc) :=
  [main_v196, main_v197, main_v198, main_v199, main_v200, main_v201, main_v202, main_v203, main_v204, main_call10.cst.ref, main_call10.v0.ref, main_call10.v1.ref]

/-- Piece 10 leaves every buffer it does not write as it was. -/
theorem fr10 (W : Valuation τ sig (Elt F)) {r : Ref sig .tc} (hr : r ∉ wr10) :
    after ops10 W (r : DevRef τ sig) = W (r : DevRef τ sig) :=
  after_of_writes_sub (W := wr10) ops10 W
    ⟨ws (binary_writes ..) (by decide),
     ws (unary_writes ..) (by decide),
     ws (reshape_writes ..) (by decide),
     ws (binary_writes ..) (by decide),
     ws (unary_writes ..) (by decide),
     ws (reshape_writes ..) (by decide),
     ws (unary_writes ..) (by decide),
     ws (unary_writes ..) (by decide),
     ws (binary_writes ..) (by decide),
     ws (nullary_writes ..) (by decide),
     ws (unary_writes ..) (by decide),
     ws (binary_writes ..) (by decide)⟩ hr

/-- What piece 11 writes. -/
abbrev wr11 : List (Ref sig .tc) :=
  [main_v206, main_v207, main_v208, main_v209, main_v210, main_v211, main_v212, main_v213, main_v214, main_call11.cst.ref, main_call11.v0.ref, main_call11.v1.ref]

/-- Piece 11 leaves every buffer it does not write as it was. -/
theorem fr11 (W : Valuation τ sig (Elt F)) {r : Ref sig .tc} (hr : r ∉ wr11) :
    after ops11 W (r : DevRef τ sig) = W (r : DevRef τ sig) :=
  after_of_writes_sub (W := wr11) ops11 W
    ⟨ws (binary_writes ..) (by decide),
     ws (unary_writes ..) (by decide),
     ws (reshape_writes ..) (by decide),
     ws (binary_writes ..) (by decide),
     ws (unary_writes ..) (by decide),
     ws (reshape_writes ..) (by decide),
     ws (unary_writes ..) (by decide),
     ws (unary_writes ..) (by decide),
     ws (binary_writes ..) (by decide),
     ws (nullary_writes ..) (by decide),
     ws (unary_writes ..) (by decide),
     ws (binary_writes ..) (by decide)⟩ hr

/-- What piece 12 writes. -/
abbrev wr12 : List (Ref sig .tc) :=
  [main_v216, main_v217]

/-- Piece 12 leaves every buffer it does not write as it was. -/
theorem fr12 (W : Valuation τ sig (Elt F)) {r : Ref sig .tc} (hr : r ∉ wr12) :
    after ops12 W (r : DevRef τ sig) = W (r : DevRef τ sig) :=
  after_of_writes_sub (W := wr12) ops12 W
    ⟨ws (binary_writes ..) (by decide),
     ws (binary_writes ..) (by decide)⟩ hr

/-! ## What a piece computes -/

attribute [local irreducible] Host.gather Host.scatterAdd concatenate in
set_option maxRecDepth 8192 in
/-- The value piece 0 leaves in its result buffer, from the contents it starts at: the fold unrolled, each operation's
    result read at its own buffer, the typed references' transports the identity at these literal references. -/
theorem st0 (W : Valuation τ sig (Elt F)) :
    after ops0 W (main_v21 : DevRef τ sig)
      = lkI (spI (W (main_arg2 : DevRef τ sig)) (W (main_arg3 : DevRef τ sig)) (W (main_arg5 : DevRef τ sig)) (dtU (W (main_arg0 : DevRef τ sig)) (wgt ![0, 0, 0, 0] slices_S2x4x128x128_S1x1x128x128_0_0_0_0 (W (main_arg6 : DevRef τ sig))))) (bia ![0, 0, 0] slices_S2x4x128_S1x1x128_0_0_0 (W (main_arg7 : DevRef τ sig))) := by
  simp only [after_cons, after_nil]
  rfl

attribute [local irreducible] Host.gather Host.scatterAdd concatenate in
set_option maxRecDepth 8192 in
/-- The value piece 1 leaves in its result buffer, from the contents it starts at: the fold unrolled, each operation's
    result read at its own buffer, the typed references' transports the identity at these literal references. -/
theorem st1 (W : Valuation τ sig (Elt F)) :
    after ops1 W (main_v43 : DevRef τ sig)
      = lkU (spU (W (main_arg3 : DevRef τ sig)) (W (main_arg2 : DevRef τ sig)) (W (main_arg4 : DevRef τ sig)) (dtI (W (main_arg1 : DevRef τ sig)) (wgt ![0, 1, 0, 0] slices_S2x4x128x128_S1x1x128x128_0_1_0_0 (W (main_arg6 : DevRef τ sig))))) (bia ![0, 1, 0] slices_S2x4x128_S1x1x128_0_1_0 (W (main_arg7 : DevRef τ sig))) := by
  simp only [after_cons, after_nil]
  rfl

attribute [local irreducible] Host.gather Host.scatterAdd concatenate in
set_option maxRecDepth 8192 in
/-- The value piece 2 leaves in its result buffer, from the contents it starts at: the fold unrolled, each operation's
    result read at its own buffer, the typed references' transports the identity at these literal references. -/
theorem st2 (W : Valuation τ sig (Elt F)) :
    after ops2 W (main_v65 : DevRef τ sig)
      = lkU (spU (W (main_arg3 : DevRef τ sig)) (W (main_arg2 : DevRef τ sig)) (W (main_arg4 : DevRef τ sig)) (dtI (W (main_v21 : DevRef τ sig)) (wgt ![0, 2, 0, 0] slices_S2x4x128x128_S1x1x128x128_0_2_0_0 (W (main_arg6 : DevRef τ sig))))) (bia ![0, 2, 0] slices_S2x4x128_S1x1x128_0_2_0 (W (main_arg7 : DevRef τ sig))) := by
  simp only [after_cons, after_nil]
  rfl

attribute [local irreducible] Host.gather Host.scatterAdd concatenate in
set_option maxRecDepth 8192 in
/-- The value piece 3 leaves in its result buffer, from the contents it starts at: the fold unrolled, each operation's
    result read at its own buffer, the typed references' transports the identity at these literal references. -/
theorem st3 (W : Valuation τ sig (Elt F)) :
    after ops3 W (main_v87 : DevRef τ sig)
      = lkI (spI (W (main_arg2 : DevRef τ sig)) (W (main_arg3 : DevRef τ sig)) (W (main_arg5 : DevRef τ sig)) (dtU (W (main_v43 : DevRef τ sig)) (wgt ![0, 3, 0, 0] slices_S2x4x128x128_S1x1x128x128_0_3_0_0 (W (main_arg6 : DevRef τ sig))))) (bia ![0, 3, 0] slices_S2x4x128_S1x1x128_0_3_0 (W (main_arg7 : DevRef τ sig))) := by
  simp only [after_cons, after_nil]
  rfl

attribute [local irreducible] Host.gather Host.scatterAdd concatenate in
set_option maxRecDepth 8192 in
/-- The value piece 4 leaves in its result buffer, from the contents it starts at: the fold unrolled, each operation's
    result read at its own buffer, the typed references' transports the identity at these literal references. -/
theorem st4 (W : Valuation τ sig (Elt F)) :
    after ops4 W (main_v97 : DevRef τ sig)
      = uuU (W (main_v65 : DevRef τ sig)) (W (main_arg0 : DevRef τ sig)) (wgt2 ![0, 0, 0, 0] slices_S2x2x256x128_S1x1x256x128_0_0_0_0 (W (main_arg8 : DevRef τ sig))) (bia2 ![0, 0, 0] slices_S2x2x128_S1x1x128_0_0_0 (W (main_arg9 : DevRef τ sig))) := by
  simp only [after_cons, after_nil]
  rfl

attribute [local irreducible] Host.gather Host.scatterAdd concatenate in
set_option maxRecDepth 8192 in
/-- The value piece 5 leaves in its result buffer, from the contents it starts at: the fold unrolled, each operation's
    result read at its own buffer, the typed references' transports the identity at these literal references. -/
theorem st5 (W : Valuation τ sig (Elt F)) :
    after ops5 W (main_v107 : DevRef τ sig)
      = uuI (W (main_v87 : DevRef τ sig)) (W (main_arg1 : DevRef τ sig)) (wgt2 ![0, 1, 0, 0] slices_S2x2x256x128_S1x1x256x128_0_1_0_0 (W (main_arg8 : DevRef τ sig))) (bia2 ![0, 1, 0] slices_S2x2x128_S1x1x128_0_1_0 (W (main_arg9 : DevRef τ sig))) := by
  simp only [after_cons, after_nil]
  rfl

attribute [local irreducible] Host.gather Host.scatterAdd concatenate in
set_option maxRecDepth 8192 in
/-- The value piece 6 leaves in its result buffer, from the contents it starts at: the fold unrolled, each operation's
    result read at its own buffer, the typed references' transports the identity at these literal references. -/
theorem st6 (W : Valuation τ sig (Elt F)) :
    after ops6 W (main_v129 : DevRef τ sig)
      = lkI (spI (W (main_arg2 : DevRef τ sig)) (W (main_arg3 : DevRef τ sig)) (W (main_arg5 : DevRef τ sig)) (dtU (W (main_v97 : DevRef τ sig)) (wgt ![1, 0, 0, 0] slices_S2x4x128x128_S1x1x128x128_1_0_0_0 (W (main_arg6 : DevRef τ sig))))) (bia ![1, 0, 0] slices_S2x4x128_S1x1x128_1_0_0 (W (main_arg7 : DevRef τ sig))) := by
  simp only [after_cons, after_nil]
  rfl

attribute [local irreducible] Host.gather Host.scatterAdd concatenate in
set_option maxRecDepth 8192 in
/-- The value piece 7 leaves in its result buffer, from the contents it starts at: the fold unrolled, each operation's
    result read at its own buffer, the typed references' transports the identity at these literal references. -/
theorem st7 (W : Valuation τ sig (Elt F)) :
    after ops7 W (main_v151 : DevRef τ sig)
      = lkU (spU (W (main_arg3 : DevRef τ sig)) (W (main_arg2 : DevRef τ sig)) (W (main_arg4 : DevRef τ sig)) (dtI (W (main_v107 : DevRef τ sig)) (wgt ![1, 1, 0, 0] slices_S2x4x128x128_S1x1x128x128_1_1_0_0 (W (main_arg6 : DevRef τ sig))))) (bia ![1, 1, 0] slices_S2x4x128_S1x1x128_1_1_0 (W (main_arg7 : DevRef τ sig))) := by
  simp only [after_cons, after_nil]
  rfl

attribute [local irreducible] Host.gather Host.scatterAdd concatenate in
set_option maxRecDepth 8192 in
/-- The value piece 8 leaves in its result buffer, from the contents it starts at: the fold unrolled, each operation's
    result read at its own buffer, the typed references' transports the identity at these literal references. -/
theorem st8 (W : Valuation τ sig (Elt F)) :
    after ops8 W (main_v173 : DevRef τ sig)
      = lkU (spU (W (main_arg3 : DevRef τ sig)) (W (main_arg2 : DevRef τ sig)) (W (main_arg4 : DevRef τ sig)) (dtI (W (main_v129 : DevRef τ sig)) (wgt ![1, 2, 0, 0] slices_S2x4x128x128_S1x1x128x128_1_2_0_0 (W (main_arg6 : DevRef τ sig))))) (bia ![1, 2, 0] slices_S2x4x128_S1x1x128_1_2_0 (W (main_arg7 : DevRef τ sig))) := by
  simp only [after_cons, after_nil]
  rfl

attribute [local irreducible] Host.gather Host.scatterAdd concatenate in
set_option maxRecDepth 8192 in
/-- The value piece 9 leaves in its result buffer, from the contents it starts at: the fold unrolled, each operation's
    result read at its own buffer, the typed references' transports the identity at these literal references. -/
theorem st9 (W : Valuation τ sig (Elt F)) :
    after ops9 W (main_v195 : DevRef τ sig)
      = lkI (spI (W (main_arg2 : DevRef τ sig)) (W (main_arg3 : DevRef τ sig)) (W (main_arg5 : DevRef τ sig)) (dtU (W (main_v151 : DevRef τ sig)) (wgt ![1, 3, 0, 0] slices_S2x4x128x128_S1x1x128x128_1_3_0_0 (W (main_arg6 : DevRef τ sig))))) (bia ![1, 3, 0] slices_S2x4x128_S1x1x128_1_3_0 (W (main_arg7 : DevRef τ sig))) := by
  simp only [after_cons, after_nil]
  rfl

attribute [local irreducible] Host.gather Host.scatterAdd concatenate in
set_option maxRecDepth 8192 in
/-- The value piece 10 leaves in its result buffer, from the contents it starts at: the fold unrolled, each operation's
    result read at its own buffer, the typed references' transports the identity at these literal references. -/
theorem st10 (W : Valuation τ sig (Elt F)) :
    after ops10 W (main_v205 : DevRef τ sig)
      = uuU (W (main_v173 : DevRef τ sig)) (W (main_v97 : DevRef τ sig)) (wgt2 ![1, 0, 0, 0] slices_S2x2x256x128_S1x1x256x128_1_0_0_0 (W (main_arg8 : DevRef τ sig))) (bia2 ![1, 0, 0] slices_S2x2x128_S1x1x128_1_0_0 (W (main_arg9 : DevRef τ sig))) := by
  simp only [after_cons, after_nil]
  rfl

attribute [local irreducible] Host.gather Host.scatterAdd concatenate in
set_option maxRecDepth 8192 in
/-- The value piece 11 leaves in its result buffer, from the contents it starts at: the fold unrolled, each operation's
    result read at its own buffer, the typed references' transports the identity at these literal references. -/
theorem st11 (W : Valuation τ sig (Elt F)) :
    after ops11 W (main_v215 : DevRef τ sig)
      = uuI (W (main_v195 : DevRef τ sig)) (W (main_v107 : DevRef τ sig)) (wgt2 ![1, 1, 0, 0] slices_S2x2x256x128_S1x1x256x128_1_1_0_0 (W (main_arg8 : DevRef τ sig))) (bia2 ![1, 1, 0] slices_S2x2x128_S1x1x128_1_1_0 (W (main_arg9 : DevRef τ sig))) := by
  simp only [after_cons, after_nil]
  rfl

attribute [local irreducible] concatenate in
/-- The users' result: the two layers' user rows side by side. -/
theorem st12u (W : Valuation τ sig (Elt F)) :
    after ops12 W (main_v216 : DevRef τ sig)
      = concatenate S60000x256 1 [⟨S60000x128, (W (main_v97 : DevRef τ sig))⟩, ⟨S60000x128, (W (main_v205 : DevRef τ sig))⟩] concatenates_S60000x128_S60000x128_S60000x256_d1 := by
  simp only [after_cons, after_nil]
  rfl

attribute [local irreducible] concatenate in
/-- The items' result: the two layers' item rows side by side. -/
theorem st12i (W : Valuation τ sig (Elt F)) :
    after ops12 W (main_v217 : DevRef τ sig)
      = concatenate S40000x256 1 [⟨S40000x128, (W (main_v107 : DevRef τ sig))⟩, ⟨S40000x128, (W (main_v215 : DevRef τ sig))⟩] concatenates_S40000x128_S40000x128_S40000x256_d1 := by
  simp only [after_cons, after_nil]
  rfl

end Cert.ReferenceIdeal.RefRun

end
-- ==== Proof.RefMath.lean ====
/-
  The reference's host operations read as the specification's functions, at the ideal instance: a product with a
  128 × 128 weight is the sum over the 128 features; the leaky rectifier after a bias is `leaky (x + b)`.
-/
import proofs.«150895_j60593398612496_1_alg».proof.ReferenceIdeal
import proofs.«150895_j60593398612496_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefMath

open Idealize.ShloMosaic Idealize.ShloMosaic.ValueIdx Cert.ReferenceIdeal Cert.GCN

variable [Facts₀]
open Facts₀

/-- The reference's product of user rows with a weight is the sum over the 128 features. -/
theorem dotU (X : FVec Ideal S60000x128 .f32) (W : FVec Ideal S128x128 .f32) :
    Host.dotGeneral (F := Ideal) dot_S60000x128_S128x128_S60000x128_1_0_0_1_n_n none X W = mmU X W := by
  funext i
  refine (Ideal.dotGeneral_apply dot_S60000x128_S128x128_S60000x128_1_0_0_1_n_n none _ X W i).trans ?_
  rw [← Equiv.sum_comp (contrEquiv1 dot_S60000x128_S128x128_S60000x128_1_0_0_1_n_n 128 rfl rfl).symm]
  unfold mmU
  refine Finset.sum_congr rfl fun k _ => ?_
  have hl : dot_S60000x128_S128x128_S60000x128_1_0_0_1_n_n.lhsIdx i ((contrEquiv1 dot_S60000x128_S128x128_S60000x128_1_0_0_1_n_n 128 rfl rfl).symm k) = ix2 (i 0) k := by
    funext a; apply Fin.ext
    match a with
    | ⟨0, _⟩ => rfl
    | ⟨1, _⟩ => exact (DotDims.lhsIdx_val_of_single _ rfl i _).trans (contrEquiv1_symm_val _ 128 rfl rfl k)
  have hr : dot_S60000x128_S128x128_S60000x128_1_0_0_1_n_n.rhsIdx i ((contrEquiv1 dot_S60000x128_S128x128_S60000x128_1_0_0_1_n_n 128 rfl rfl).symm k) = ix2 k (i 1) := by
    funext a; apply Fin.ext
    match a with
    | ⟨0, _⟩ => exact (DotDims.rhsIdx_val_of_single _ rfl i _).trans (contrEquiv1_symm_val _ 128 rfl rfl k)
    | ⟨1, _⟩ => rfl
  rw [hl, hr]
  rfl

/-- The reference's product of item rows with a weight is the sum over the 128 features. -/
theorem dotI (X : FVec Ideal S40000x128 .f32) (W : FVec Ideal S128x128 .f32) :
    Host.dotGeneral (F := Ideal) dot_S40000x128_S128x128_S40000x128_1_0_0_1_n_n none X W = mmI X W := by
  funext i
  refine (Ideal.dotGeneral_apply dot_S40000x128_S128x128_S40000x128_1_0_0_1_n_n none _ X W i).trans ?_
  rw [← Equiv.sum_comp (contrEquiv1 dot_S40000x128_S128x128_S40000x128_1_0_0_1_n_n 128 rfl rfl).symm]
  unfold mmI
  refine Finset.sum_congr rfl fun k _ => ?_
  have hl : dot_S40000x128_S128x128_S40000x128_1_0_0_1_n_n.lhsIdx i ((contrEquiv1 dot_S40000x128_S128x128_S40000x128_1_0_0_1_n_n 128 rfl rfl).symm k) = ix2 (i 0) k := by
    funext a; apply Fin.ext
    match a with
    | ⟨0, _⟩ => rfl
    | ⟨1, _⟩ => exact (DotDims.lhsIdx_val_of_single _ rfl i _).trans (contrEquiv1_symm_val _ 128 rfl rfl k)
  have hr : dot_S40000x128_S128x128_S40000x128_1_0_0_1_n_n.rhsIdx i ((contrEquiv1 dot_S40000x128_S128x128_S40000x128_1_0_0_1_n_n 128 rfl rfl).symm k) = ix2 k (i 1) := by
    funext a; apply Fin.ext
    match a with
    | ⟨0, _⟩ => exact (DotDims.rhsIdx_val_of_single _ rfl i _).trans (contrEquiv1_symm_val _ 128 rfl rfl k)
    | ⟨1, _⟩ => rfl
  rw [hl, hr]
  rfl

/-- Bias as one row, spread over every row, read at an index. -/
theorem biasU_apply (b : FVec Ideal S1x128 .f32) (i : S60000x128.Idx) :
    broadcastInDim S60000x128 ![0, 1] bcast_S1x128_S60000x128_0_1 b i = b (ix2 0 (i 1)) :=
  broadcastInDim_apply _ _ b i (ix2 0 (i 1)) fun a => by
    match a with
    | ⟨0, _⟩ => rfl
    | ⟨1, _⟩ => rfl

theorem biasI_apply (b : FVec Ideal S1x128 .f32) (i : S40000x128.Idx) :
    broadcastInDim S40000x128 ![0, 1] bcast_S1x128_S40000x128_0_1 b i = b (ix2 0 (i 1)) :=
  broadcastInDim_apply _ _ b i (ix2 0 (i 1)) fun a => by
    match a with
    | ⟨0, _⟩ => rfl
    | ⟨1, _⟩ => rfl

/-- The reference's leaky rectifier after the bias, on item rows: compare with zero weakly, the slope times the value. -/
theorem leakyI (X : FVec Ideal S40000x128 .f32) (b : FVec Ideal S1x128 .f32) (z a : FVec Ideal S40000x128 .f32)
    (hz : ∀ i, z i = 0) (ha : ∀ i, a i = α) :
    select (cmpf .oge (addf X (broadcastInDim S40000x128 ![0, 1] bcast_S1x128_S40000x128_0_1 b)) z)
      (addf X (broadcastInDim S40000x128 ![0, 1] bcast_S1x128_S40000x128_0_1 b))
      (mulf a (addf X (broadcastInDim S40000x128 ![0, 1] bcast_S1x128_S40000x128_0_1 b))) = blI X b := by
  funext i
  show Scalar.select (Ideal.cmp .oge (X i + broadcastInDim S40000x128 ![0, 1] bcast_S1x128_S40000x128_0_1 b i) (z i))
      (X i + broadcastInDim S40000x128 ![0, 1] bcast_S1x128_S40000x128_0_1 b i)
      (a i * (X i + broadcastInDim S40000x128 ![0, 1] bcast_S1x128_S40000x128_0_1 b i)) = _
  rw [hz i, ha i, biasI_apply, leaky_ge]
  rfl

theorem leakyU (X : FVec Ideal S60000x128 .f32) (b : FVec Ideal S1x128 .f32) (z a : FVec Ideal S60000x128 .f32)
    (hz : ∀ i, z i = 0) (ha : ∀ i, a i = α) :
    select (cmpf .oge (addf X (broadcastInDim S60000x128 ![0, 1] bcast_S1x128_S60000x128_0_1 b)) z)
      (addf X (broadcastInDim S60000x128 ![0, 1] bcast_S1x128_S60000x128_0_1 b))
      (mulf a (addf X (broadcastInDim S60000x128 ![0, 1] bcast_S1x128_S60000x128_0_1 b))) = blU X b := by
  funext i
  show Scalar.select (Ideal.cmp .oge (X i + broadcastInDim S60000x128 ![0, 1] bcast_S1x128_S60000x128_0_1 b i) (z i))
      (X i + broadcastInDim S60000x128 ![0, 1] bcast_S1x128_S60000x128_0_1 b i)
      (a i * (X i + broadcastInDim S60000x128 ![0, 1] bcast_S1x128_S60000x128_0_1 b i)) = _
  rw [hz i, ha i, biasU_apply, leaky_ge]
  rfl

/-- The reference's union step on user rows: the product of the two feature blocks side by side with a 256 × 128 weight
    is the first block times the weight's top half plus the second block times its bottom half. -/
theorem unionU (A B : FVec Ideal S60000x128 .f32) (W : FVec Ideal S256x128 .f32) (b : FVec Ideal S1x128 .f32)
    (z : FVec Ideal S60000x128 .f32) (hz : ∀ i, z i = 0) :
    maximumf (addf (Host.dotGeneral (F := Ideal) dot_S60000x256_S256x128_S60000x128_1_0_0_1_n_n none
        (concatenate S60000x256 1 [⟨S60000x128, A⟩, ⟨S60000x128, B⟩] concatenates_S60000x128_S60000x128_S60000x256_d1) W)
      (broadcastInDim S60000x128 ![0, 1] bcast_S1x128_S60000x128_0_1 b)) z = unU A B (top W) (bot W) b := by
  funext i
  show max (Host.dotGeneral (F := Ideal) dot_S60000x256_S256x128_S60000x128_1_0_0_1_n_n none
        (concatenate S60000x256 1 [⟨S60000x128, A⟩, ⟨S60000x128, B⟩] concatenates_S60000x128_S60000x128_S60000x256_d1) W i
      + broadcastInDim S60000x128 ![0, 1] bcast_S1x128_S60000x128_0_1 b i) (z i) = _
  rw [hz i, biasU_apply]
  refine congrArg (fun s => max (s + b (ix2 0 (i 1))) 0) ?_
  refine (Ideal.dotGeneral_apply dot_S60000x256_S256x128_S60000x128_1_0_0_1_n_n none _ _ W i).trans ?_
  rw [← Equiv.sum_comp (contrEquiv1 dot_S60000x256_S256x128_S60000x128_1_0_0_1_n_n 256 rfl rfl).symm]
  have hl : ∀ k : Fin 256, dot_S60000x256_S256x128_S60000x128_1_0_0_1_n_n.lhsIdx i ((contrEquiv1 dot_S60000x256_S256x128_S60000x128_1_0_0_1_n_n 256 rfl rfl).symm k) = ix2 (i 0) k := fun k => by
    funext a; apply Fin.ext
    match a with
    | ⟨0, _⟩ => rfl
    | ⟨1, _⟩ => exact (DotDims.lhsIdx_val_of_single _ rfl i _).trans (contrEquiv1_symm_val _ 256 rfl rfl k)
  have hr : ∀ k : Fin 256, dot_S60000x256_S256x128_S60000x128_1_0_0_1_n_n.rhsIdx i ((contrEquiv1 dot_S60000x256_S256x128_S60000x128_1_0_0_1_n_n 256 rfl rfl).symm k) = ix2 k (i 1) := fun k => by
    funext a; apply Fin.ext
    match a with
    | ⟨0, _⟩ => exact (DotDims.rhsIdx_val_of_single _ rfl i _).trans (contrEquiv1_symm_val _ 256 rfl rfl k)
    | ⟨1, _⟩ => rfl
  simp only [hl, hr]
  rw [sum_split256]
  refine congrArg₂ (· + ·) (Finset.sum_congr rfl fun k _ => ?_) (Finset.sum_congr rfl fun k _ => ?_)
  · have e : concatenate S60000x256 1 [⟨S60000x128, A⟩, ⟨S60000x128, B⟩] concatenates_S60000x128_S60000x128_S60000x256_d1
        (ix2 (i 0) ⟨k.val, by omega⟩) = A (ix2 (i 0) k) :=
      concatenate_apply_piece (t := S60000x256) (1 : Fin 2) [⟨S60000x128, A⟩, ⟨S60000x128, B⟩] concatenates_S60000x128_S60000x128_S60000x256_d1 _ 0 Nat.zero_lt_two S60000x128 A rfl rfl 0 rfl (ix2 (i 0) k)
        (fun b hb => by
          match b with
          | ⟨0, _⟩ => rfl
          | ⟨1, _⟩ => exact absurd rfl hb)
        (Nat.zero_add _)
    exact congrArg₂ (· * ·) e rfl
  · have e : concatenate S60000x256 1 [⟨S60000x128, A⟩, ⟨S60000x128, B⟩] concatenates_S60000x128_S60000x128_S60000x256_d1
        (ix2 (i 0) ⟨128 + k.val, by omega⟩) = B (ix2 (i 0) k) :=
      concatenate_apply_piece (t := S60000x256) (1 : Fin 2) [⟨S60000x128, A⟩, ⟨S60000x128, B⟩] concatenates_S60000x128_S60000x128_S60000x256_d1 _ 1 Nat.one_lt_two S60000x128 B rfl rfl 128 rfl (ix2 (i 0) k)
        (fun b hb => by
          match b with
          | ⟨0, _⟩ => rfl
          | ⟨1, _⟩ => exact absurd rfl hb)
        rfl
    exact congrArg₂ (· * ·) e rfl

/-- The reference's union step on item rows: the product of the two feature blocks side by side with a 256 × 128 weight
    is the first block times the weight's top half plus the second block times its bottom half. -/
theorem unionI (A B : FVec Ideal S40000x128 .f32) (W : FVec Ideal S256x128 .f32) (b : FVec Ideal S1x128 .f32)
    (z : FVec Ideal S40000x128 .f32) (hz : ∀ i, z i = 0) :
    maximumf (addf (Host.dotGeneral (F := Ideal) dot_S40000x256_S256x128_S40000x128_1_0_0_1_n_n none
        (concatenate S40000x256 1 [⟨S40000x128, A⟩, ⟨S40000x128, B⟩] concatenates_S40000x128_S40000x128_S40000x256_d1) W)
      (broadcastInDim S40000x128 ![0, 1] bcast_S1x128_S40000x128_0_1 b)) z = unI A B (top W) (bot W) b := by
  funext i
  show max (Host.dotGeneral (F := Ideal) dot_S40000x256_S256x128_S40000x128_1_0_0_1_n_n none
        (concatenate S40000x256 1 [⟨S40000x128, A⟩, ⟨S40000x128, B⟩] concatenates_S40000x128_S40000x128_S40000x256_d1) W i
      + broadcastInDim S40000x128 ![0, 1] bcast_S1x128_S40000x128_0_1 b i) (z i) = _
  rw [hz i, biasI_apply]
  refine congrArg (fun s => max (s + b (ix2 0 (i 1))) 0) ?_
  refine (Ideal.dotGeneral_apply dot_S40000x256_S256x128_S40000x128_1_0_0_1_n_n none _ _ W i).trans ?_
  rw [← Equiv.sum_comp (contrEquiv1 dot_S40000x256_S256x128_S40000x128_1_0_0_1_n_n 256 rfl rfl).symm]
  have hl : ∀ k : Fin 256, dot_S40000x256_S256x128_S40000x128_1_0_0_1_n_n.lhsIdx i ((contrEquiv1 dot_S40000x256_S256x128_S40000x128_1_0_0_1_n_n 256 rfl rfl).symm k) = ix2 (i 0) k := fun k => by
    funext a; apply Fin.ext
    match a with
    | ⟨0, _⟩ => rfl
    | ⟨1, _⟩ => exact (DotDims.lhsIdx_val_of_single _ rfl i _).trans (contrEquiv1_symm_val _ 256 rfl rfl k)
  have hr : ∀ k : Fin 256, dot_S40000x256_S256x128_S40000x128_1_0_0_1_n_n.rhsIdx i ((contrEquiv1 dot_S40000x256_S256x128_S40000x128_1_0_0_1_n_n 256 rfl rfl).symm k) = ix2 k (i 1) := fun k => by
    funext a; apply Fin.ext
    match a with
    | ⟨0, _⟩ => exact (DotDims.rhsIdx_val_of_single _ rfl i _).trans (contrEquiv1_symm_val _ 256 rfl rfl k)
    | ⟨1, _⟩ => rfl
  simp only [hl, hr]
  rw [sum_split256]
  refine congrArg₂ (· + ·) (Finset.sum_congr rfl fun k _ => ?_) (Finset.sum_congr rfl fun k _ => ?_)
  · have e : concatenate S40000x256 1 [⟨S40000x128, A⟩, ⟨S40000x128, B⟩] concatenates_S40000x128_S40000x128_S40000x256_d1
        (ix2 (i 0) ⟨k.val, by omega⟩) = A (ix2 (i 0) k) :=
      concatenate_apply_piece (t := S40000x256) (1 : Fin 2) [⟨S40000x128, A⟩, ⟨S40000x128, B⟩] concatenates_S40000x128_S40000x128_S40000x256_d1 _ 0 Nat.zero_lt_two S40000x128 A rfl rfl 0 rfl (ix2 (i 0) k)
        (fun b hb => by
          match b with
          | ⟨0, _⟩ => rfl
          | ⟨1, _⟩ => exact absurd rfl hb)
        (Nat.zero_add _)
    exact congrArg₂ (· * ·) e rfl
  · have e : concatenate S40000x256 1 [⟨S40000x128, A⟩, ⟨S40000x128, B⟩] concatenates_S40000x128_S40000x128_S40000x256_d1
        (ix2 (i 0) ⟨128 + k.val, by omega⟩) = B (ix2 (i 0) k) :=
      concatenate_apply_piece (t := S40000x256) (1 : Fin 2) [⟨S40000x128, A⟩, ⟨S40000x128, B⟩] concatenates_S40000x128_S40000x128_S40000x256_d1 _ 1 Nat.one_lt_two S40000x128 B rfl rfl 128 rfl (ix2 (i 0) k)
        (fun b hb => by
          match b with
          | ⟨0, _⟩ => rfl
          | ⟨1, _⟩ => exact absurd rfl hb)
        rfl
    exact congrArg₂ (· * ·) e rfl

end Cert.ReferenceIdeal.RefMath

end
-- ==== Proof.RefVal.lean ====
/-
  The reference's two results as functions of its ten argument arrays. The contents after each of the thirteen pieces
  are followed through the buffers still to be read (the arguments, and each piece's result until its last reader); the
  users' and the items' result buffers end at the two layers' rows side by side, every argument as it was. At the ideal
  instance each hop (matrix product, sparse product, bias, leaky rectifier) and each union step is the
  specification's, so the results are the specification's layers applied twice.
-/
import proofs.«150895_j60593398612496_1_alg».proof.Proof.RefStage
import proofs.«150895_j60593398612496_1_alg».proof.Proof.Spec
import proofs.«150895_j60593398612496_1_alg».proof.Proof.RefMath

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The intermediate values, as functions of the ten argument arrays -/

/-- As the reference computes them: the items after the first hop from the users, layer one. -/
def r21 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  lkI (spI a2 a3 a5 (dtU a0 (wgt ![0, 0, 0, 0] slices_S2x4x128x128_S1x1x128x128_0_0_0_0 a6))) (bia ![0, 0, 0] slices_S2x4x128_S1x1x128_0_0_0 a7)

/-- As the reference computes them: the users after the first hop from the items, layer one. -/
def r43 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  lkU (spU a3 a2 a4 (dtI a1 (wgt ![0, 1, 0, 0] slices_S2x4x128x128_S1x1x128x128_0_1_0_0 a6))) (bia ![0, 1, 0] slices_S2x4x128_S1x1x128_0_1_0 a7)

/-- As the reference computes them: the users after the second hop, layer one. -/
def r65 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  lkU (spU a3 a2 a4 (dtI (r21 a0 a1 a2 a3 a4 a5 a6 a7 a8 a9) (wgt ![0, 2, 0, 0] slices_S2x4x128x128_S1x1x128x128_0_2_0_0 a6))) (bia ![0, 2, 0] slices_S2x4x128_S1x1x128_0_2_0 a7)

/-- As the reference computes them: the items after the second hop, layer one. -/
def r87 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  lkI (spI a2 a3 a5 (dtU (r43 a0 a1 a2 a3 a4 a5 a6 a7 a8 a9) (wgt ![0, 3, 0, 0] slices_S2x4x128x128_S1x1x128x128_0_3_0_0 a6))) (bia ![0, 3, 0] slices_S2x4x128_S1x1x128_0_3_0 a7)

/-- As the reference computes them: the users after layer one. -/
def r97 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  uuU (r65 a0 a1 a2 a3 a4 a5 a6 a7 a8 a9) a0 (wgt2 ![0, 0, 0, 0] slices_S2x2x256x128_S1x1x256x128_0_0_0_0 a8) (bia2 ![0, 0, 0] slices_S2x2x128_S1x1x128_0_0_0 a9)

/-- As the reference computes them: the items after layer one. -/
def r107 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  uuI (r87 a0 a1 a2 a3 a4 a5 a6 a7 a8 a9) a1 (wgt2 ![0, 1, 0, 0] slices_S2x2x256x128_S1x1x256x128_0_1_0_0 a8) (bia2 ![0, 1, 0] slices_S2x2x128_S1x1x128_0_1_0 a9)

/-- As the reference computes them: the items after the first hop from the users, layer two. -/
def r129 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  lkI (spI a2 a3 a5 (dtU (r97 a0 a1 a2 a3 a4 a5 a6 a7 a8 a9) (wgt ![1, 0, 0, 0] slices_S2x4x128x128_S1x1x128x128_1_0_0_0 a6))) (bia ![1, 0, 0] slices_S2x4x128_S1x1x128_1_0_0 a7)

/-- As the reference computes them: the users after the first hop from the items, layer two. -/
def r151 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  lkU (spU a3 a2 a4 (dtI (r107 a0 a1 a2 a3 a4 a5 a6 a7 a8 a9) (wgt ![1, 1, 0, 0] slices_S2x4x128x128_S1x1x128x128_1_1_0_0 a6))) (bia ![1, 1, 0] slices_S2x4x128_S1x1x128_1_1_0 a7)

/-- As the reference computes them: the users after the second hop, layer two. -/
def r173 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  lkU (spU a3 a2 a4 (dtI (r129 a0 a1 a2 a3 a4 a5 a6 a7 a8 a9) (wgt ![1, 2, 0, 0] slices_S2x4x128x128_S1x1x128x128_1_2_0_0 a6))) (bia ![1, 2, 0] slices_S2x4x128_S1x1x128_1_2_0 a7)

/-- As the reference computes them: the items after the second hop, layer two. -/
def r195 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  lkI (spI a2 a3 a5 (dtU (r151 a0 a1 a2 a3 a4 a5 a6 a7 a8 a9) (wgt ![1, 3, 0, 0] slices_S2x4x128x128_S1x1x128x128_1_3_0_0 a6))) (bia ![1, 3, 0] slices_S2x4x128_S1x1x128_1_3_0 a7)

/-- As the reference computes them: the users after layer two. -/
def r205 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x128 .f32 :=
  uuU (r173 a0 a1 a2 a3 a4 a5 a6 a7 a8 a9) (r97 a0 a1 a2 a3 a4 a5 a6 a7 a8 a9) (wgt2 ![1, 0, 0, 0] slices_S2x2x256x128_S1x1x256x128_1_0_0_0 a8) (bia2 ![1, 0, 0] slices_S2x2x128_S1x1x128_1_0_0 a9)

/-- As the reference computes them: the items after layer two. -/
def r215 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x128 .f32 :=
  uuI (r195 a0 a1 a2 a3 a4 a5 a6 a7 a8 a9) (r107 a0 a1 a2 a3 a4 a5 a6 a7 a8 a9) (wgt2 ![1, 1, 0, 0] slices_S2x2x256x128_S1x1x256x128_1_1_0_0 a8) (bia2 ![1, 1, 0] slices_S2x2x128_S1x1x128_1_1_0 a9)

/-- The users' result. -/
def r216 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S60000x256 .f32 :=
  concatenate S60000x256 1 [⟨S60000x128, (r97 a0 a1 a2 a3 a4 a5 a6 a7 a8 a9)⟩, ⟨S60000x128, (r205 a0 a1 a2 a3 a4 a5 a6 a7 a8 a9)⟩] concatenates_S60000x128_S60000x128_S60000x256_d1

/-- The items' result. -/
def r217 (a0 : FVec F S60000x128 .f32) (a1 : FVec F S40000x128 .f32) (a2 a3 : IVec S1000000 32) (a4 a5 : FVec F S1000000 .f32)
    (a6 : FVec F S2x4x128x128 .f32) (a7 : FVec F S2x4x128 .f32) (a8 : FVec F S2x2x256x128 .f32) (a9 : FVec F S2x2x128 .f32) : FVec F S40000x256 .f32 :=
  concatenate S40000x256 1 [⟨S40000x128, (r107 a0 a1 a2 a3 a4 a5 a6 a7 a8 a9)⟩, ⟨S40000x128, (r215 a0 a1 a2 a3 a4 a5 a6 a7 a8 a9)⟩] concatenates_S40000x128_S40000x128_S40000x256_d1

/-! ## The contents after each piece -/

/-- The contents after piece 0. -/
def V1 (V : Valuation τ sig (Elt F)) : Valuation τ sig (Elt F) := after ops0 V

/-- The contents after piece 1. -/
def V2 (V : Valuation τ sig (Elt F)) : Valuation τ sig (Elt F) := after ops1 (V1 V)

/-- The contents after piece 2. -/
def V3 (V : Valuation τ sig (Elt F)) : Valuation τ sig (Elt F) := after ops2 (V2 V)

/-- The contents after piece 3. -/
def V4 (V : Valuation τ sig (Elt F)) : Valuation τ sig (Elt F) := after ops3 (V3 V)

/-- The contents after piece 4. -/
def V5 (V : Valuation τ sig (Elt F)) : Valuation τ sig (Elt F) := after ops4 (V4 V)

/-- The contents after piece 5. -/
def V6 (V : Valuation τ sig (Elt F)) : Valuation τ sig (Elt F) := after ops5 (V5 V)

/-- The contents after piece 6. -/
def V7 (V : Valuation τ sig (Elt F)) : Valuation τ sig (Elt F) := after ops6 (V6 V)

/-- The contents after piece 7. -/
def V8 (V : Valuation τ sig (Elt F)) : Valuation τ sig (Elt F) := after ops7 (V7 V)

/-- The contents after piece 8. -/
def V9 (V : Valuation τ sig (Elt F)) : Valuation τ sig (Elt F) := after ops8 (V8 V)

/-- The contents after piece 9. -/
def V10 (V : Valuation τ sig (Elt F)) : Valuation τ sig (Elt F) := after ops9 (V9 V)

/-- The contents after piece 10. -/
def V11 (V : Valuation τ sig (Elt F)) : Valuation τ sig (Elt F) := after ops10 (V10 V)

/-- The contents after piece 11. -/
def V12 (V : Valuation τ sig (Elt F)) : Valuation τ sig (Elt F) := after ops11 (V11 V)

/-- The contents after piece 12. -/
def V13 (V : Valuation τ sig (Elt F)) : Valuation τ sig (Elt F) := after ops12 (V12 V)

/-- The whole list's fold is the last of them. -/
theorem after_ops (V : Valuation τ sig (Elt F)) : after ops V = V13 V := by
  simp only [ops, after_app]
  rfl

theorem V1_arg0 (V : Valuation τ sig (Elt F)) : V1 V (main_arg0 : DevRef τ sig) = V (main_arg0 : DevRef τ sig) :=
  fr0 (r := main_arg0) V (by decide)
theorem V1_arg1 (V : Valuation τ sig (Elt F)) : V1 V (main_arg1 : DevRef τ sig) = V (main_arg1 : DevRef τ sig) :=
  fr0 (r := main_arg1) V (by decide)
theorem V1_arg2 (V : Valuation τ sig (Elt F)) : V1 V (main_arg2 : DevRef τ sig) = V (main_arg2 : DevRef τ sig) :=
  fr0 (r := main_arg2) V (by decide)
theorem V1_arg3 (V : Valuation τ sig (Elt F)) : V1 V (main_arg3 : DevRef τ sig) = V (main_arg3 : DevRef τ sig) :=
  fr0 (r := main_arg3) V (by decide)
theorem V1_arg4 (V : Valuation τ sig (Elt F)) : V1 V (main_arg4 : DevRef τ sig) = V (main_arg4 : DevRef τ sig) :=
  fr0 (r := main_arg4) V (by decide)
theorem V1_arg5 (V : Valuation τ sig (Elt F)) : V1 V (main_arg5 : DevRef τ sig) = V (main_arg5 : DevRef τ sig) :=
  fr0 (r := main_arg5) V (by decide)
theorem V1_arg6 (V : Valuation τ sig (Elt F)) : V1 V (main_arg6 : DevRef τ sig) = V (main_arg6 : DevRef τ sig) :=
  fr0 (r := main_arg6) V (by decide)
theorem V1_arg7 (V : Valuation τ sig (Elt F)) : V1 V (main_arg7 : DevRef τ sig) = V (main_arg7 : DevRef τ sig) :=
  fr0 (r := main_arg7) V (by decide)
theorem V1_arg8 (V : Valuation τ sig (Elt F)) : V1 V (main_arg8 : DevRef τ sig) = V (main_arg8 : DevRef τ sig) :=
  fr0 (r := main_arg8) V (by decide)
theorem V1_arg9 (V : Valuation τ sig (Elt F)) : V1 V (main_arg9 : DevRef τ sig) = V (main_arg9 : DevRef τ sig) :=
  fr0 (r := main_arg9) V (by decide)
theorem V1_v21 (V : Valuation τ sig (Elt F)) : V1 V (main_v21 : DevRef τ sig) = r21 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st0 V).trans ?_
  rfl

theorem V2_arg0 (V : Valuation τ sig (Elt F)) : V2 V (main_arg0 : DevRef τ sig) = V (main_arg0 : DevRef τ sig) :=
  (fr1 (r := main_arg0) (V1 V) (by decide)).trans (V1_arg0 V)
theorem V2_arg1 (V : Valuation τ sig (Elt F)) : V2 V (main_arg1 : DevRef τ sig) = V (main_arg1 : DevRef τ sig) :=
  (fr1 (r := main_arg1) (V1 V) (by decide)).trans (V1_arg1 V)
theorem V2_arg2 (V : Valuation τ sig (Elt F)) : V2 V (main_arg2 : DevRef τ sig) = V (main_arg2 : DevRef τ sig) :=
  (fr1 (r := main_arg2) (V1 V) (by decide)).trans (V1_arg2 V)
theorem V2_arg3 (V : Valuation τ sig (Elt F)) : V2 V (main_arg3 : DevRef τ sig) = V (main_arg3 : DevRef τ sig) :=
  (fr1 (r := main_arg3) (V1 V) (by decide)).trans (V1_arg3 V)
theorem V2_arg4 (V : Valuation τ sig (Elt F)) : V2 V (main_arg4 : DevRef τ sig) = V (main_arg4 : DevRef τ sig) :=
  (fr1 (r := main_arg4) (V1 V) (by decide)).trans (V1_arg4 V)
theorem V2_arg5 (V : Valuation τ sig (Elt F)) : V2 V (main_arg5 : DevRef τ sig) = V (main_arg5 : DevRef τ sig) :=
  (fr1 (r := main_arg5) (V1 V) (by decide)).trans (V1_arg5 V)
theorem V2_arg6 (V : Valuation τ sig (Elt F)) : V2 V (main_arg6 : DevRef τ sig) = V (main_arg6 : DevRef τ sig) :=
  (fr1 (r := main_arg6) (V1 V) (by decide)).trans (V1_arg6 V)
theorem V2_arg7 (V : Valuation τ sig (Elt F)) : V2 V (main_arg7 : DevRef τ sig) = V (main_arg7 : DevRef τ sig) :=
  (fr1 (r := main_arg7) (V1 V) (by decide)).trans (V1_arg7 V)
theorem V2_arg8 (V : Valuation τ sig (Elt F)) : V2 V (main_arg8 : DevRef τ sig) = V (main_arg8 : DevRef τ sig) :=
  (fr1 (r := main_arg8) (V1 V) (by decide)).trans (V1_arg8 V)
theorem V2_arg9 (V : Valuation τ sig (Elt F)) : V2 V (main_arg9 : DevRef τ sig) = V (main_arg9 : DevRef τ sig) :=
  (fr1 (r := main_arg9) (V1 V) (by decide)).trans (V1_arg9 V)
theorem V2_v21 (V : Valuation τ sig (Elt F)) : V2 V (main_v21 : DevRef τ sig) = r21 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr1 (r := main_v21) (V1 V) (by decide)).trans (V1_v21 V)
theorem V2_v43 (V : Valuation τ sig (Elt F)) : V2 V (main_v43 : DevRef τ sig) = r43 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st1 (V1 V)).trans ?_
  rw [V1_arg1, V1_arg2, V1_arg3, V1_arg4, V1_arg6, V1_arg7]
  rfl

theorem V3_arg0 (V : Valuation τ sig (Elt F)) : V3 V (main_arg0 : DevRef τ sig) = V (main_arg0 : DevRef τ sig) :=
  (fr2 (r := main_arg0) (V2 V) (by decide)).trans (V2_arg0 V)
theorem V3_arg1 (V : Valuation τ sig (Elt F)) : V3 V (main_arg1 : DevRef τ sig) = V (main_arg1 : DevRef τ sig) :=
  (fr2 (r := main_arg1) (V2 V) (by decide)).trans (V2_arg1 V)
theorem V3_arg2 (V : Valuation τ sig (Elt F)) : V3 V (main_arg2 : DevRef τ sig) = V (main_arg2 : DevRef τ sig) :=
  (fr2 (r := main_arg2) (V2 V) (by decide)).trans (V2_arg2 V)
theorem V3_arg3 (V : Valuation τ sig (Elt F)) : V3 V (main_arg3 : DevRef τ sig) = V (main_arg3 : DevRef τ sig) :=
  (fr2 (r := main_arg3) (V2 V) (by decide)).trans (V2_arg3 V)
theorem V3_arg4 (V : Valuation τ sig (Elt F)) : V3 V (main_arg4 : DevRef τ sig) = V (main_arg4 : DevRef τ sig) :=
  (fr2 (r := main_arg4) (V2 V) (by decide)).trans (V2_arg4 V)
theorem V3_arg5 (V : Valuation τ sig (Elt F)) : V3 V (main_arg5 : DevRef τ sig) = V (main_arg5 : DevRef τ sig) :=
  (fr2 (r := main_arg5) (V2 V) (by decide)).trans (V2_arg5 V)
theorem V3_arg6 (V : Valuation τ sig (Elt F)) : V3 V (main_arg6 : DevRef τ sig) = V (main_arg6 : DevRef τ sig) :=
  (fr2 (r := main_arg6) (V2 V) (by decide)).trans (V2_arg6 V)
theorem V3_arg7 (V : Valuation τ sig (Elt F)) : V3 V (main_arg7 : DevRef τ sig) = V (main_arg7 : DevRef τ sig) :=
  (fr2 (r := main_arg7) (V2 V) (by decide)).trans (V2_arg7 V)
theorem V3_arg8 (V : Valuation τ sig (Elt F)) : V3 V (main_arg8 : DevRef τ sig) = V (main_arg8 : DevRef τ sig) :=
  (fr2 (r := main_arg8) (V2 V) (by decide)).trans (V2_arg8 V)
theorem V3_arg9 (V : Valuation τ sig (Elt F)) : V3 V (main_arg9 : DevRef τ sig) = V (main_arg9 : DevRef τ sig) :=
  (fr2 (r := main_arg9) (V2 V) (by decide)).trans (V2_arg9 V)
theorem V3_v43 (V : Valuation τ sig (Elt F)) : V3 V (main_v43 : DevRef τ sig) = r43 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr2 (r := main_v43) (V2 V) (by decide)).trans (V2_v43 V)
theorem V3_v65 (V : Valuation τ sig (Elt F)) : V3 V (main_v65 : DevRef τ sig) = r65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st2 (V2 V)).trans ?_
  rw [V2_arg2, V2_arg3, V2_arg4, V2_arg6, V2_arg7, V2_v21]
  rfl

theorem V4_arg0 (V : Valuation τ sig (Elt F)) : V4 V (main_arg0 : DevRef τ sig) = V (main_arg0 : DevRef τ sig) :=
  (fr3 (r := main_arg0) (V3 V) (by decide)).trans (V3_arg0 V)
theorem V4_arg1 (V : Valuation τ sig (Elt F)) : V4 V (main_arg1 : DevRef τ sig) = V (main_arg1 : DevRef τ sig) :=
  (fr3 (r := main_arg1) (V3 V) (by decide)).trans (V3_arg1 V)
theorem V4_arg2 (V : Valuation τ sig (Elt F)) : V4 V (main_arg2 : DevRef τ sig) = V (main_arg2 : DevRef τ sig) :=
  (fr3 (r := main_arg2) (V3 V) (by decide)).trans (V3_arg2 V)
theorem V4_arg3 (V : Valuation τ sig (Elt F)) : V4 V (main_arg3 : DevRef τ sig) = V (main_arg3 : DevRef τ sig) :=
  (fr3 (r := main_arg3) (V3 V) (by decide)).trans (V3_arg3 V)
theorem V4_arg4 (V : Valuation τ sig (Elt F)) : V4 V (main_arg4 : DevRef τ sig) = V (main_arg4 : DevRef τ sig) :=
  (fr3 (r := main_arg4) (V3 V) (by decide)).trans (V3_arg4 V)
theorem V4_arg5 (V : Valuation τ sig (Elt F)) : V4 V (main_arg5 : DevRef τ sig) = V (main_arg5 : DevRef τ sig) :=
  (fr3 (r := main_arg5) (V3 V) (by decide)).trans (V3_arg5 V)
theorem V4_arg6 (V : Valuation τ sig (Elt F)) : V4 V (main_arg6 : DevRef τ sig) = V (main_arg6 : DevRef τ sig) :=
  (fr3 (r := main_arg6) (V3 V) (by decide)).trans (V3_arg6 V)
theorem V4_arg7 (V : Valuation τ sig (Elt F)) : V4 V (main_arg7 : DevRef τ sig) = V (main_arg7 : DevRef τ sig) :=
  (fr3 (r := main_arg7) (V3 V) (by decide)).trans (V3_arg7 V)
theorem V4_arg8 (V : Valuation τ sig (Elt F)) : V4 V (main_arg8 : DevRef τ sig) = V (main_arg8 : DevRef τ sig) :=
  (fr3 (r := main_arg8) (V3 V) (by decide)).trans (V3_arg8 V)
theorem V4_arg9 (V : Valuation τ sig (Elt F)) : V4 V (main_arg9 : DevRef τ sig) = V (main_arg9 : DevRef τ sig) :=
  (fr3 (r := main_arg9) (V3 V) (by decide)).trans (V3_arg9 V)
theorem V4_v65 (V : Valuation τ sig (Elt F)) : V4 V (main_v65 : DevRef τ sig) = r65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr3 (r := main_v65) (V3 V) (by decide)).trans (V3_v65 V)
theorem V4_v87 (V : Valuation τ sig (Elt F)) : V4 V (main_v87 : DevRef τ sig) = r87 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st3 (V3 V)).trans ?_
  rw [V3_arg2, V3_arg3, V3_arg5, V3_arg6, V3_arg7, V3_v43]
  rfl

theorem V5_arg0 (V : Valuation τ sig (Elt F)) : V5 V (main_arg0 : DevRef τ sig) = V (main_arg0 : DevRef τ sig) :=
  (fr4 (r := main_arg0) (V4 V) (by decide)).trans (V4_arg0 V)
theorem V5_arg1 (V : Valuation τ sig (Elt F)) : V5 V (main_arg1 : DevRef τ sig) = V (main_arg1 : DevRef τ sig) :=
  (fr4 (r := main_arg1) (V4 V) (by decide)).trans (V4_arg1 V)
theorem V5_arg2 (V : Valuation τ sig (Elt F)) : V5 V (main_arg2 : DevRef τ sig) = V (main_arg2 : DevRef τ sig) :=
  (fr4 (r := main_arg2) (V4 V) (by decide)).trans (V4_arg2 V)
theorem V5_arg3 (V : Valuation τ sig (Elt F)) : V5 V (main_arg3 : DevRef τ sig) = V (main_arg3 : DevRef τ sig) :=
  (fr4 (r := main_arg3) (V4 V) (by decide)).trans (V4_arg3 V)
theorem V5_arg4 (V : Valuation τ sig (Elt F)) : V5 V (main_arg4 : DevRef τ sig) = V (main_arg4 : DevRef τ sig) :=
  (fr4 (r := main_arg4) (V4 V) (by decide)).trans (V4_arg4 V)
theorem V5_arg5 (V : Valuation τ sig (Elt F)) : V5 V (main_arg5 : DevRef τ sig) = V (main_arg5 : DevRef τ sig) :=
  (fr4 (r := main_arg5) (V4 V) (by decide)).trans (V4_arg5 V)
theorem V5_arg6 (V : Valuation τ sig (Elt F)) : V5 V (main_arg6 : DevRef τ sig) = V (main_arg6 : DevRef τ sig) :=
  (fr4 (r := main_arg6) (V4 V) (by decide)).trans (V4_arg6 V)
theorem V5_arg7 (V : Valuation τ sig (Elt F)) : V5 V (main_arg7 : DevRef τ sig) = V (main_arg7 : DevRef τ sig) :=
  (fr4 (r := main_arg7) (V4 V) (by decide)).trans (V4_arg7 V)
theorem V5_arg8 (V : Valuation τ sig (Elt F)) : V5 V (main_arg8 : DevRef τ sig) = V (main_arg8 : DevRef τ sig) :=
  (fr4 (r := main_arg8) (V4 V) (by decide)).trans (V4_arg8 V)
theorem V5_arg9 (V : Valuation τ sig (Elt F)) : V5 V (main_arg9 : DevRef τ sig) = V (main_arg9 : DevRef τ sig) :=
  (fr4 (r := main_arg9) (V4 V) (by decide)).trans (V4_arg9 V)
theorem V5_v87 (V : Valuation τ sig (Elt F)) : V5 V (main_v87 : DevRef τ sig) = r87 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr4 (r := main_v87) (V4 V) (by decide)).trans (V4_v87 V)
theorem V5_v97 (V : Valuation τ sig (Elt F)) : V5 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st4 (V4 V)).trans ?_
  rw [V4_arg0, V4_arg8, V4_arg9, V4_v65]
  rfl

theorem V6_arg0 (V : Valuation τ sig (Elt F)) : V6 V (main_arg0 : DevRef τ sig) = V (main_arg0 : DevRef τ sig) :=
  (fr5 (r := main_arg0) (V5 V) (by decide)).trans (V5_arg0 V)
theorem V6_arg1 (V : Valuation τ sig (Elt F)) : V6 V (main_arg1 : DevRef τ sig) = V (main_arg1 : DevRef τ sig) :=
  (fr5 (r := main_arg1) (V5 V) (by decide)).trans (V5_arg1 V)
theorem V6_arg2 (V : Valuation τ sig (Elt F)) : V6 V (main_arg2 : DevRef τ sig) = V (main_arg2 : DevRef τ sig) :=
  (fr5 (r := main_arg2) (V5 V) (by decide)).trans (V5_arg2 V)
theorem V6_arg3 (V : Valuation τ sig (Elt F)) : V6 V (main_arg3 : DevRef τ sig) = V (main_arg3 : DevRef τ sig) :=
  (fr5 (r := main_arg3) (V5 V) (by decide)).trans (V5_arg3 V)
theorem V6_arg4 (V : Valuation τ sig (Elt F)) : V6 V (main_arg4 : DevRef τ sig) = V (main_arg4 : DevRef τ sig) :=
  (fr5 (r := main_arg4) (V5 V) (by decide)).trans (V5_arg4 V)
theorem V6_arg5 (V : Valuation τ sig (Elt F)) : V6 V (main_arg5 : DevRef τ sig) = V (main_arg5 : DevRef τ sig) :=
  (fr5 (r := main_arg5) (V5 V) (by decide)).trans (V5_arg5 V)
theorem V6_arg6 (V : Valuation τ sig (Elt F)) : V6 V (main_arg6 : DevRef τ sig) = V (main_arg6 : DevRef τ sig) :=
  (fr5 (r := main_arg6) (V5 V) (by decide)).trans (V5_arg6 V)
theorem V6_arg7 (V : Valuation τ sig (Elt F)) : V6 V (main_arg7 : DevRef τ sig) = V (main_arg7 : DevRef τ sig) :=
  (fr5 (r := main_arg7) (V5 V) (by decide)).trans (V5_arg7 V)
theorem V6_arg8 (V : Valuation τ sig (Elt F)) : V6 V (main_arg8 : DevRef τ sig) = V (main_arg8 : DevRef τ sig) :=
  (fr5 (r := main_arg8) (V5 V) (by decide)).trans (V5_arg8 V)
theorem V6_arg9 (V : Valuation τ sig (Elt F)) : V6 V (main_arg9 : DevRef τ sig) = V (main_arg9 : DevRef τ sig) :=
  (fr5 (r := main_arg9) (V5 V) (by decide)).trans (V5_arg9 V)
theorem V6_v97 (V : Valuation τ sig (Elt F)) : V6 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr5 (r := main_v97) (V5 V) (by decide)).trans (V5_v97 V)
theorem V6_v107 (V : Valuation τ sig (Elt F)) : V6 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st5 (V5 V)).trans ?_
  rw [V5_arg1, V5_arg8, V5_arg9, V5_v87]
  rfl

theorem V7_arg0 (V : Valuation τ sig (Elt F)) : V7 V (main_arg0 : DevRef τ sig) = V (main_arg0 : DevRef τ sig) :=
  (fr6 (r := main_arg0) (V6 V) (by decide)).trans (V6_arg0 V)
theorem V7_arg1 (V : Valuation τ sig (Elt F)) : V7 V (main_arg1 : DevRef τ sig) = V (main_arg1 : DevRef τ sig) :=
  (fr6 (r := main_arg1) (V6 V) (by decide)).trans (V6_arg1 V)
theorem V7_arg2 (V : Valuation τ sig (Elt F)) : V7 V (main_arg2 : DevRef τ sig) = V (main_arg2 : DevRef τ sig) :=
  (fr6 (r := main_arg2) (V6 V) (by decide)).trans (V6_arg2 V)
theorem V7_arg3 (V : Valuation τ sig (Elt F)) : V7 V (main_arg3 : DevRef τ sig) = V (main_arg3 : DevRef τ sig) :=
  (fr6 (r := main_arg3) (V6 V) (by decide)).trans (V6_arg3 V)
theorem V7_arg4 (V : Valuation τ sig (Elt F)) : V7 V (main_arg4 : DevRef τ sig) = V (main_arg4 : DevRef τ sig) :=
  (fr6 (r := main_arg4) (V6 V) (by decide)).trans (V6_arg4 V)
theorem V7_arg5 (V : Valuation τ sig (Elt F)) : V7 V (main_arg5 : DevRef τ sig) = V (main_arg5 : DevRef τ sig) :=
  (fr6 (r := main_arg5) (V6 V) (by decide)).trans (V6_arg5 V)
theorem V7_arg6 (V : Valuation τ sig (Elt F)) : V7 V (main_arg6 : DevRef τ sig) = V (main_arg6 : DevRef τ sig) :=
  (fr6 (r := main_arg6) (V6 V) (by decide)).trans (V6_arg6 V)
theorem V7_arg7 (V : Valuation τ sig (Elt F)) : V7 V (main_arg7 : DevRef τ sig) = V (main_arg7 : DevRef τ sig) :=
  (fr6 (r := main_arg7) (V6 V) (by decide)).trans (V6_arg7 V)
theorem V7_arg8 (V : Valuation τ sig (Elt F)) : V7 V (main_arg8 : DevRef τ sig) = V (main_arg8 : DevRef τ sig) :=
  (fr6 (r := main_arg8) (V6 V) (by decide)).trans (V6_arg8 V)
theorem V7_arg9 (V : Valuation τ sig (Elt F)) : V7 V (main_arg9 : DevRef τ sig) = V (main_arg9 : DevRef τ sig) :=
  (fr6 (r := main_arg9) (V6 V) (by decide)).trans (V6_arg9 V)
theorem V7_v97 (V : Valuation τ sig (Elt F)) : V7 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr6 (r := main_v97) (V6 V) (by decide)).trans (V6_v97 V)
theorem V7_v107 (V : Valuation τ sig (Elt F)) : V7 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr6 (r := main_v107) (V6 V) (by decide)).trans (V6_v107 V)
theorem V7_v129 (V : Valuation τ sig (Elt F)) : V7 V (main_v129 : DevRef τ sig) = r129 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st6 (V6 V)).trans ?_
  rw [V6_arg2, V6_arg3, V6_arg5, V6_arg6, V6_arg7, V6_v97]
  rfl

theorem V8_arg0 (V : Valuation τ sig (Elt F)) : V8 V (main_arg0 : DevRef τ sig) = V (main_arg0 : DevRef τ sig) :=
  (fr7 (r := main_arg0) (V7 V) (by decide)).trans (V7_arg0 V)
theorem V8_arg1 (V : Valuation τ sig (Elt F)) : V8 V (main_arg1 : DevRef τ sig) = V (main_arg1 : DevRef τ sig) :=
  (fr7 (r := main_arg1) (V7 V) (by decide)).trans (V7_arg1 V)
theorem V8_arg2 (V : Valuation τ sig (Elt F)) : V8 V (main_arg2 : DevRef τ sig) = V (main_arg2 : DevRef τ sig) :=
  (fr7 (r := main_arg2) (V7 V) (by decide)).trans (V7_arg2 V)
theorem V8_arg3 (V : Valuation τ sig (Elt F)) : V8 V (main_arg3 : DevRef τ sig) = V (main_arg3 : DevRef τ sig) :=
  (fr7 (r := main_arg3) (V7 V) (by decide)).trans (V7_arg3 V)
theorem V8_arg4 (V : Valuation τ sig (Elt F)) : V8 V (main_arg4 : DevRef τ sig) = V (main_arg4 : DevRef τ sig) :=
  (fr7 (r := main_arg4) (V7 V) (by decide)).trans (V7_arg4 V)
theorem V8_arg5 (V : Valuation τ sig (Elt F)) : V8 V (main_arg5 : DevRef τ sig) = V (main_arg5 : DevRef τ sig) :=
  (fr7 (r := main_arg5) (V7 V) (by decide)).trans (V7_arg5 V)
theorem V8_arg6 (V : Valuation τ sig (Elt F)) : V8 V (main_arg6 : DevRef τ sig) = V (main_arg6 : DevRef τ sig) :=
  (fr7 (r := main_arg6) (V7 V) (by decide)).trans (V7_arg6 V)
theorem V8_arg7 (V : Valuation τ sig (Elt F)) : V8 V (main_arg7 : DevRef τ sig) = V (main_arg7 : DevRef τ sig) :=
  (fr7 (r := main_arg7) (V7 V) (by decide)).trans (V7_arg7 V)
theorem V8_arg8 (V : Valuation τ sig (Elt F)) : V8 V (main_arg8 : DevRef τ sig) = V (main_arg8 : DevRef τ sig) :=
  (fr7 (r := main_arg8) (V7 V) (by decide)).trans (V7_arg8 V)
theorem V8_arg9 (V : Valuation τ sig (Elt F)) : V8 V (main_arg9 : DevRef τ sig) = V (main_arg9 : DevRef τ sig) :=
  (fr7 (r := main_arg9) (V7 V) (by decide)).trans (V7_arg9 V)
theorem V8_v97 (V : Valuation τ sig (Elt F)) : V8 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr7 (r := main_v97) (V7 V) (by decide)).trans (V7_v97 V)
theorem V8_v107 (V : Valuation τ sig (Elt F)) : V8 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr7 (r := main_v107) (V7 V) (by decide)).trans (V7_v107 V)
theorem V8_v129 (V : Valuation τ sig (Elt F)) : V8 V (main_v129 : DevRef τ sig) = r129 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr7 (r := main_v129) (V7 V) (by decide)).trans (V7_v129 V)
theorem V8_v151 (V : Valuation τ sig (Elt F)) : V8 V (main_v151 : DevRef τ sig) = r151 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st7 (V7 V)).trans ?_
  rw [V7_arg2, V7_arg3, V7_arg4, V7_arg6, V7_arg7, V7_v107]
  rfl

theorem V9_arg0 (V : Valuation τ sig (Elt F)) : V9 V (main_arg0 : DevRef τ sig) = V (main_arg0 : DevRef τ sig) :=
  (fr8 (r := main_arg0) (V8 V) (by decide)).trans (V8_arg0 V)
theorem V9_arg1 (V : Valuation τ sig (Elt F)) : V9 V (main_arg1 : DevRef τ sig) = V (main_arg1 : DevRef τ sig) :=
  (fr8 (r := main_arg1) (V8 V) (by decide)).trans (V8_arg1 V)
theorem V9_arg2 (V : Valuation τ sig (Elt F)) : V9 V (main_arg2 : DevRef τ sig) = V (main_arg2 : DevRef τ sig) :=
  (fr8 (r := main_arg2) (V8 V) (by decide)).trans (V8_arg2 V)
theorem V9_arg3 (V : Valuation τ sig (Elt F)) : V9 V (main_arg3 : DevRef τ sig) = V (main_arg3 : DevRef τ sig) :=
  (fr8 (r := main_arg3) (V8 V) (by decide)).trans (V8_arg3 V)
theorem V9_arg4 (V : Valuation τ sig (Elt F)) : V9 V (main_arg4 : DevRef τ sig) = V (main_arg4 : DevRef τ sig) :=
  (fr8 (r := main_arg4) (V8 V) (by decide)).trans (V8_arg4 V)
theorem V9_arg5 (V : Valuation τ sig (Elt F)) : V9 V (main_arg5 : DevRef τ sig) = V (main_arg5 : DevRef τ sig) :=
  (fr8 (r := main_arg5) (V8 V) (by decide)).trans (V8_arg5 V)
theorem V9_arg6 (V : Valuation τ sig (Elt F)) : V9 V (main_arg6 : DevRef τ sig) = V (main_arg6 : DevRef τ sig) :=
  (fr8 (r := main_arg6) (V8 V) (by decide)).trans (V8_arg6 V)
theorem V9_arg7 (V : Valuation τ sig (Elt F)) : V9 V (main_arg7 : DevRef τ sig) = V (main_arg7 : DevRef τ sig) :=
  (fr8 (r := main_arg7) (V8 V) (by decide)).trans (V8_arg7 V)
theorem V9_arg8 (V : Valuation τ sig (Elt F)) : V9 V (main_arg8 : DevRef τ sig) = V (main_arg8 : DevRef τ sig) :=
  (fr8 (r := main_arg8) (V8 V) (by decide)).trans (V8_arg8 V)
theorem V9_arg9 (V : Valuation τ sig (Elt F)) : V9 V (main_arg9 : DevRef τ sig) = V (main_arg9 : DevRef τ sig) :=
  (fr8 (r := main_arg9) (V8 V) (by decide)).trans (V8_arg9 V)
theorem V9_v97 (V : Valuation τ sig (Elt F)) : V9 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr8 (r := main_v97) (V8 V) (by decide)).trans (V8_v97 V)
theorem V9_v107 (V : Valuation τ sig (Elt F)) : V9 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr8 (r := main_v107) (V8 V) (by decide)).trans (V8_v107 V)
theorem V9_v151 (V : Valuation τ sig (Elt F)) : V9 V (main_v151 : DevRef τ sig) = r151 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr8 (r := main_v151) (V8 V) (by decide)).trans (V8_v151 V)
theorem V9_v173 (V : Valuation τ sig (Elt F)) : V9 V (main_v173 : DevRef τ sig) = r173 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st8 (V8 V)).trans ?_
  rw [V8_arg2, V8_arg3, V8_arg4, V8_arg6, V8_arg7, V8_v129]
  rfl

theorem V10_arg0 (V : Valuation τ sig (Elt F)) : V10 V (main_arg0 : DevRef τ sig) = V (main_arg0 : DevRef τ sig) :=
  (fr9 (r := main_arg0) (V9 V) (by decide)).trans (V9_arg0 V)
theorem V10_arg1 (V : Valuation τ sig (Elt F)) : V10 V (main_arg1 : DevRef τ sig) = V (main_arg1 : DevRef τ sig) :=
  (fr9 (r := main_arg1) (V9 V) (by decide)).trans (V9_arg1 V)
theorem V10_arg2 (V : Valuation τ sig (Elt F)) : V10 V (main_arg2 : DevRef τ sig) = V (main_arg2 : DevRef τ sig) :=
  (fr9 (r := main_arg2) (V9 V) (by decide)).trans (V9_arg2 V)
theorem V10_arg3 (V : Valuation τ sig (Elt F)) : V10 V (main_arg3 : DevRef τ sig) = V (main_arg3 : DevRef τ sig) :=
  (fr9 (r := main_arg3) (V9 V) (by decide)).trans (V9_arg3 V)
theorem V10_arg4 (V : Valuation τ sig (Elt F)) : V10 V (main_arg4 : DevRef τ sig) = V (main_arg4 : DevRef τ sig) :=
  (fr9 (r := main_arg4) (V9 V) (by decide)).trans (V9_arg4 V)
theorem V10_arg5 (V : Valuation τ sig (Elt F)) : V10 V (main_arg5 : DevRef τ sig) = V (main_arg5 : DevRef τ sig) :=
  (fr9 (r := main_arg5) (V9 V) (by decide)).trans (V9_arg5 V)
theorem V10_arg6 (V : Valuation τ sig (Elt F)) : V10 V (main_arg6 : DevRef τ sig) = V (main_arg6 : DevRef τ sig) :=
  (fr9 (r := main_arg6) (V9 V) (by decide)).trans (V9_arg6 V)
theorem V10_arg7 (V : Valuation τ sig (Elt F)) : V10 V (main_arg7 : DevRef τ sig) = V (main_arg7 : DevRef τ sig) :=
  (fr9 (r := main_arg7) (V9 V) (by decide)).trans (V9_arg7 V)
theorem V10_arg8 (V : Valuation τ sig (Elt F)) : V10 V (main_arg8 : DevRef τ sig) = V (main_arg8 : DevRef τ sig) :=
  (fr9 (r := main_arg8) (V9 V) (by decide)).trans (V9_arg8 V)
theorem V10_arg9 (V : Valuation τ sig (Elt F)) : V10 V (main_arg9 : DevRef τ sig) = V (main_arg9 : DevRef τ sig) :=
  (fr9 (r := main_arg9) (V9 V) (by decide)).trans (V9_arg9 V)
theorem V10_v97 (V : Valuation τ sig (Elt F)) : V10 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr9 (r := main_v97) (V9 V) (by decide)).trans (V9_v97 V)
theorem V10_v107 (V : Valuation τ sig (Elt F)) : V10 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr9 (r := main_v107) (V9 V) (by decide)).trans (V9_v107 V)
theorem V10_v173 (V : Valuation τ sig (Elt F)) : V10 V (main_v173 : DevRef τ sig) = r173 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr9 (r := main_v173) (V9 V) (by decide)).trans (V9_v173 V)
theorem V10_v195 (V : Valuation τ sig (Elt F)) : V10 V (main_v195 : DevRef τ sig) = r195 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st9 (V9 V)).trans ?_
  rw [V9_arg2, V9_arg3, V9_arg5, V9_arg6, V9_arg7, V9_v151]
  rfl

theorem V11_arg0 (V : Valuation τ sig (Elt F)) : V11 V (main_arg0 : DevRef τ sig) = V (main_arg0 : DevRef τ sig) :=
  (fr10 (r := main_arg0) (V10 V) (by decide)).trans (V10_arg0 V)
theorem V11_arg1 (V : Valuation τ sig (Elt F)) : V11 V (main_arg1 : DevRef τ sig) = V (main_arg1 : DevRef τ sig) :=
  (fr10 (r := main_arg1) (V10 V) (by decide)).trans (V10_arg1 V)
theorem V11_arg2 (V : Valuation τ sig (Elt F)) : V11 V (main_arg2 : DevRef τ sig) = V (main_arg2 : DevRef τ sig) :=
  (fr10 (r := main_arg2) (V10 V) (by decide)).trans (V10_arg2 V)
theorem V11_arg3 (V : Valuation τ sig (Elt F)) : V11 V (main_arg3 : DevRef τ sig) = V (main_arg3 : DevRef τ sig) :=
  (fr10 (r := main_arg3) (V10 V) (by decide)).trans (V10_arg3 V)
theorem V11_arg4 (V : Valuation τ sig (Elt F)) : V11 V (main_arg4 : DevRef τ sig) = V (main_arg4 : DevRef τ sig) :=
  (fr10 (r := main_arg4) (V10 V) (by decide)).trans (V10_arg4 V)
theorem V11_arg5 (V : Valuation τ sig (Elt F)) : V11 V (main_arg5 : DevRef τ sig) = V (main_arg5 : DevRef τ sig) :=
  (fr10 (r := main_arg5) (V10 V) (by decide)).trans (V10_arg5 V)
theorem V11_arg6 (V : Valuation τ sig (Elt F)) : V11 V (main_arg6 : DevRef τ sig) = V (main_arg6 : DevRef τ sig) :=
  (fr10 (r := main_arg6) (V10 V) (by decide)).trans (V10_arg6 V)
theorem V11_arg7 (V : Valuation τ sig (Elt F)) : V11 V (main_arg7 : DevRef τ sig) = V (main_arg7 : DevRef τ sig) :=
  (fr10 (r := main_arg7) (V10 V) (by decide)).trans (V10_arg7 V)
theorem V11_arg8 (V : Valuation τ sig (Elt F)) : V11 V (main_arg8 : DevRef τ sig) = V (main_arg8 : DevRef τ sig) :=
  (fr10 (r := main_arg8) (V10 V) (by decide)).trans (V10_arg8 V)
theorem V11_arg9 (V : Valuation τ sig (Elt F)) : V11 V (main_arg9 : DevRef τ sig) = V (main_arg9 : DevRef τ sig) :=
  (fr10 (r := main_arg9) (V10 V) (by decide)).trans (V10_arg9 V)
theorem V11_v97 (V : Valuation τ sig (Elt F)) : V11 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr10 (r := main_v97) (V10 V) (by decide)).trans (V10_v97 V)
theorem V11_v107 (V : Valuation τ sig (Elt F)) : V11 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr10 (r := main_v107) (V10 V) (by decide)).trans (V10_v107 V)
theorem V11_v195 (V : Valuation τ sig (Elt F)) : V11 V (main_v195 : DevRef τ sig) = r195 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr10 (r := main_v195) (V10 V) (by decide)).trans (V10_v195 V)
theorem V11_v205 (V : Valuation τ sig (Elt F)) : V11 V (main_v205 : DevRef τ sig) = r205 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st10 (V10 V)).trans ?_
  rw [V10_arg8, V10_arg9, V10_v173, V10_v97]
  rfl

theorem V12_arg0 (V : Valuation τ sig (Elt F)) : V12 V (main_arg0 : DevRef τ sig) = V (main_arg0 : DevRef τ sig) :=
  (fr11 (r := main_arg0) (V11 V) (by decide)).trans (V11_arg0 V)
theorem V12_arg1 (V : Valuation τ sig (Elt F)) : V12 V (main_arg1 : DevRef τ sig) = V (main_arg1 : DevRef τ sig) :=
  (fr11 (r := main_arg1) (V11 V) (by decide)).trans (V11_arg1 V)
theorem V12_arg2 (V : Valuation τ sig (Elt F)) : V12 V (main_arg2 : DevRef τ sig) = V (main_arg2 : DevRef τ sig) :=
  (fr11 (r := main_arg2) (V11 V) (by decide)).trans (V11_arg2 V)
theorem V12_arg3 (V : Valuation τ sig (Elt F)) : V12 V (main_arg3 : DevRef τ sig) = V (main_arg3 : DevRef τ sig) :=
  (fr11 (r := main_arg3) (V11 V) (by decide)).trans (V11_arg3 V)
theorem V12_arg4 (V : Valuation τ sig (Elt F)) : V12 V (main_arg4 : DevRef τ sig) = V (main_arg4 : DevRef τ sig) :=
  (fr11 (r := main_arg4) (V11 V) (by decide)).trans (V11_arg4 V)
theorem V12_arg5 (V : Valuation τ sig (Elt F)) : V12 V (main_arg5 : DevRef τ sig) = V (main_arg5 : DevRef τ sig) :=
  (fr11 (r := main_arg5) (V11 V) (by decide)).trans (V11_arg5 V)
theorem V12_arg6 (V : Valuation τ sig (Elt F)) : V12 V (main_arg6 : DevRef τ sig) = V (main_arg6 : DevRef τ sig) :=
  (fr11 (r := main_arg6) (V11 V) (by decide)).trans (V11_arg6 V)
theorem V12_arg7 (V : Valuation τ sig (Elt F)) : V12 V (main_arg7 : DevRef τ sig) = V (main_arg7 : DevRef τ sig) :=
  (fr11 (r := main_arg7) (V11 V) (by decide)).trans (V11_arg7 V)
theorem V12_arg8 (V : Valuation τ sig (Elt F)) : V12 V (main_arg8 : DevRef τ sig) = V (main_arg8 : DevRef τ sig) :=
  (fr11 (r := main_arg8) (V11 V) (by decide)).trans (V11_arg8 V)
theorem V12_arg9 (V : Valuation τ sig (Elt F)) : V12 V (main_arg9 : DevRef τ sig) = V (main_arg9 : DevRef τ sig) :=
  (fr11 (r := main_arg9) (V11 V) (by decide)).trans (V11_arg9 V)
theorem V12_v97 (V : Valuation τ sig (Elt F)) : V12 V (main_v97 : DevRef τ sig) = r97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr11 (r := main_v97) (V11 V) (by decide)).trans (V11_v97 V)
theorem V12_v107 (V : Valuation τ sig (Elt F)) : V12 V (main_v107 : DevRef τ sig) = r107 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr11 (r := main_v107) (V11 V) (by decide)).trans (V11_v107 V)
theorem V12_v205 (V : Valuation τ sig (Elt F)) : V12 V (main_v205 : DevRef τ sig) = r205 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  (fr11 (r := main_v205) (V11 V) (by decide)).trans (V11_v205 V)
theorem V12_v215 (V : Valuation τ sig (Elt F)) : V12 V (main_v215 : DevRef τ sig) = r215 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st11 (V11 V)).trans ?_
  rw [V11_arg8, V11_arg9, V11_v195, V11_v107]
  rfl

theorem V13_arg0 (V : Valuation τ sig (Elt F)) : V13 V (main_arg0 : DevRef τ sig) = V (main_arg0 : DevRef τ sig) :=
  (fr12 (r := main_arg0) (V12 V) (by decide)).trans (V12_arg0 V)
theorem V13_arg1 (V : Valuation τ sig (Elt F)) : V13 V (main_arg1 : DevRef τ sig) = V (main_arg1 : DevRef τ sig) :=
  (fr12 (r := main_arg1) (V12 V) (by decide)).trans (V12_arg1 V)
theorem V13_arg2 (V : Valuation τ sig (Elt F)) : V13 V (main_arg2 : DevRef τ sig) = V (main_arg2 : DevRef τ sig) :=
  (fr12 (r := main_arg2) (V12 V) (by decide)).trans (V12_arg2 V)
theorem V13_arg3 (V : Valuation τ sig (Elt F)) : V13 V (main_arg3 : DevRef τ sig) = V (main_arg3 : DevRef τ sig) :=
  (fr12 (r := main_arg3) (V12 V) (by decide)).trans (V12_arg3 V)
theorem V13_arg4 (V : Valuation τ sig (Elt F)) : V13 V (main_arg4 : DevRef τ sig) = V (main_arg4 : DevRef τ sig) :=
  (fr12 (r := main_arg4) (V12 V) (by decide)).trans (V12_arg4 V)
theorem V13_arg5 (V : Valuation τ sig (Elt F)) : V13 V (main_arg5 : DevRef τ sig) = V (main_arg5 : DevRef τ sig) :=
  (fr12 (r := main_arg5) (V12 V) (by decide)).trans (V12_arg5 V)
theorem V13_arg6 (V : Valuation τ sig (Elt F)) : V13 V (main_arg6 : DevRef τ sig) = V (main_arg6 : DevRef τ sig) :=
  (fr12 (r := main_arg6) (V12 V) (by decide)).trans (V12_arg6 V)
theorem V13_arg7 (V : Valuation τ sig (Elt F)) : V13 V (main_arg7 : DevRef τ sig) = V (main_arg7 : DevRef τ sig) :=
  (fr12 (r := main_arg7) (V12 V) (by decide)).trans (V12_arg7 V)
theorem V13_arg8 (V : Valuation τ sig (Elt F)) : V13 V (main_arg8 : DevRef τ sig) = V (main_arg8 : DevRef τ sig) :=
  (fr12 (r := main_arg8) (V12 V) (by decide)).trans (V12_arg8 V)
theorem V13_arg9 (V : Valuation τ sig (Elt F)) : V13 V (main_arg9 : DevRef τ sig) = V (main_arg9 : DevRef τ sig) :=
  (fr12 (r := main_arg9) (V12 V) (by decide)).trans (V12_arg9 V)
theorem V13_v216 (V : Valuation τ sig (Elt F)) : V13 V (main_v216 : DevRef τ sig) = r216 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st12u (V12 V)).trans ?_
  rw [V12_v97, V12_v205]
  rfl
theorem V13_v217 (V : Valuation τ sig (Elt F)) : V13 V (main_v217 : DevRef τ sig) = r217 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  refine (st12i (V12 V)).trans ?_
  rw [V12_v107, V12_v215]
  rfl

/-! ## The run's results -/

/-- The users' result buffer ends at `r216` of the argument arrays. -/
theorem out216 (V : Valuation τ sig (Elt F)) : after ops V (main_v216 : DevRef τ sig) = r216 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops]; exact V13_v216 V

/-- The items' result buffer ends at `r217` of the argument arrays. -/
theorem out217 (V : Valuation τ sig (Elt F)) : after ops V (main_v217 : DevRef τ sig) = r217 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops]; exact V13_v217 V

/-- Argument 0 is unchanged. -/
theorem arg0_eq (V : Valuation τ sig (Elt F)) : after ops V (main_arg0 : DevRef τ sig) = V (main_arg0 : DevRef τ sig) := by
  rw [after_ops]; exact V13_arg0 V

/-- Argument 1 is unchanged. -/
theorem arg1_eq (V : Valuation τ sig (Elt F)) : after ops V (main_arg1 : DevRef τ sig) = V (main_arg1 : DevRef τ sig) := by
  rw [after_ops]; exact V13_arg1 V

/-- Argument 2 is unchanged. -/
theorem arg2_eq (V : Valuation τ sig (Elt F)) : after ops V (main_arg2 : DevRef τ sig) = V (main_arg2 : DevRef τ sig) := by
  rw [after_ops]; exact V13_arg2 V

/-- Argument 3 is unchanged. -/
theorem arg3_eq (V : Valuation τ sig (Elt F)) : after ops V (main_arg3 : DevRef τ sig) = V (main_arg3 : DevRef τ sig) := by
  rw [after_ops]; exact V13_arg3 V

/-- Argument 4 is unchanged. -/
theorem arg4_eq (V : Valuation τ sig (Elt F)) : after ops V (main_arg4 : DevRef τ sig) = V (main_arg4 : DevRef τ sig) := by
  rw [after_ops]; exact V13_arg4 V

/-- Argument 5 is unchanged. -/
theorem arg5_eq (V : Valuation τ sig (Elt F)) : after ops V (main_arg5 : DevRef τ sig) = V (main_arg5 : DevRef τ sig) := by
  rw [after_ops]; exact V13_arg5 V

/-- Argument 6 is unchanged. -/
theorem arg6_eq (V : Valuation τ sig (Elt F)) : after ops V (main_arg6 : DevRef τ sig) = V (main_arg6 : DevRef τ sig) := by
  rw [after_ops]; exact V13_arg6 V

/-- Argument 7 is unchanged. -/
theorem arg7_eq (V : Valuation τ sig (Elt F)) : after ops V (main_arg7 : DevRef τ sig) = V (main_arg7 : DevRef τ sig) := by
  rw [after_ops]; exact V13_arg7 V

/-- Argument 8 is unchanged. -/
theorem arg8_eq (V : Valuation τ sig (Elt F)) : after ops V (main_arg8 : DevRef τ sig) = V (main_arg8 : DevRef τ sig) := by
  rw [after_ops]; exact V13_arg8 V

/-- Argument 9 is unchanged. -/
theorem arg9_eq (V : Valuation τ sig (Elt F)) : after ops V (main_arg9 : DevRef τ sig) = V (main_arg9 : DevRef τ sig) := by
  rw [after_ops]; exact V13_arg9 V

/-! ## At the ideal instance: the specification's layer -/

section AtIdeal

open Cert.GCN

/-- The reference's sparse product from user rows onto item rows, of the edge arrays. -/
def sIr (a2 a3 : IVec S1000000 32) (a5 : FVec Ideal S1000000 .f32) : Vec Ideal SU .f32 → Vec Ideal SI .f32 :=
  spI a2 a3 a5

/-- The reference's sparse product from item rows onto user rows, of the edge arrays. -/
def sUr (a2 a3 : IVec S1000000 32) (a4 : FVec Ideal S1000000 .f32) : Vec Ideal SI .f32 → Vec Ideal SU .f32 :=
  spU a3 a2 a4

/-- Weight 0 of layer 1. -/
def w00 (a6 : FVec Ideal S2x4x128x128 .f32) : Vec Ideal SW .f32 := wgt ![0, 0, 0, 0] slices_S2x4x128x128_S1x1x128x128_0_0_0_0 a6
/-- Bias 0 of layer 1, as one row. -/
def b00 (a7 : FVec Ideal S2x4x128 .f32) : Vec Ideal SR .f32 := bia ![0, 0, 0] slices_S2x4x128_S1x1x128_0_0_0 a7
/-- Weight 1 of layer 1. -/
def w01 (a6 : FVec Ideal S2x4x128x128 .f32) : Vec Ideal SW .f32 := wgt ![0, 1, 0, 0] slices_S2x4x128x128_S1x1x128x128_0_1_0_0 a6
/-- Bias 1 of layer 1, as one row. -/
def b01 (a7 : FVec Ideal S2x4x128 .f32) : Vec Ideal SR .f32 := bia ![0, 1, 0] slices_S2x4x128_S1x1x128_0_1_0 a7
/-- Weight 2 of layer 1. -/
def w02 (a6 : FVec Ideal S2x4x128x128 .f32) : Vec Ideal SW .f32 := wgt ![0, 2, 0, 0] slices_S2x4x128x128_S1x1x128x128_0_2_0_0 a6
/-- Bias 2 of layer 1, as one row. -/
def b02 (a7 : FVec Ideal S2x4x128 .f32) : Vec Ideal SR .f32 := bia ![0, 2, 0] slices_S2x4x128_S1x1x128_0_2_0 a7
/-- Weight 3 of layer 1. -/
def w03 (a6 : FVec Ideal S2x4x128x128 .f32) : Vec Ideal SW .f32 := wgt ![0, 3, 0, 0] slices_S2x4x128x128_S1x1x128x128_0_3_0_0 a6
/-- Bias 3 of layer 1, as one row. -/
def b03 (a7 : FVec Ideal S2x4x128 .f32) : Vec Ideal SR .f32 := bia ![0, 3, 0] slices_S2x4x128_S1x1x128_0_3_0 a7
/-- Weight 0 of layer 2. -/
def w10 (a6 : FVec Ideal S2x4x128x128 .f32) : Vec Ideal SW .f32 := wgt ![1, 0, 0, 0] slices_S2x4x128x128_S1x1x128x128_1_0_0_0 a6
/-- Bias 0 of layer 2, as one row. -/
def b10 (a7 : FVec Ideal S2x4x128 .f32) : Vec Ideal SR .f32 := bia ![1, 0, 0] slices_S2x4x128_S1x1x128_1_0_0 a7
/-- Weight 1 of layer 2. -/
def w11 (a6 : FVec Ideal S2x4x128x128 .f32) : Vec Ideal SW .f32 := wgt ![1, 1, 0, 0] slices_S2x4x128x128_S1x1x128x128_1_1_0_0 a6
/-- Bias 1 of layer 2, as one row. -/
def b11 (a7 : FVec Ideal S2x4x128 .f32) : Vec Ideal SR .f32 := bia ![1, 1, 0] slices_S2x4x128_S1x1x128_1_1_0 a7
/-- Weight 2 of layer 2. -/
def w12 (a6 : FVec Ideal S2x4x128x128 .f32) : Vec Ideal SW .f32 := wgt ![1, 2, 0, 0] slices_S2x4x128x128_S1x1x128x128_1_2_0_0 a6
/-- Bias 2 of layer 2, as one row. -/
def b12 (a7 : FVec Ideal S2x4x128 .f32) : Vec Ideal SR .f32 := bia ![1, 2, 0] slices_S2x4x128_S1x1x128_1_2_0 a7
/-- Weight 3 of layer 2. -/
def w13 (a6 : FVec Ideal S2x4x128x128 .f32) : Vec Ideal SW .f32 := wgt ![1, 3, 0, 0] slices_S2x4x128x128_S1x1x128x128_1_3_0_0 a6
/-- Bias 3 of layer 2, as one row. -/
def b13 (a7 : FVec Ideal S2x4x128 .f32) : Vec Ideal SR .f32 := bia ![1, 3, 0] slices_S2x4x128_S1x1x128_1_3_0 a7
/-- Union weight 0 of layer 1. -/
def u00 (a8 : FVec Ideal S2x2x256x128 .f32) : Vec Ideal SW2 .f32 := wgt2 ![0, 0, 0, 0] slices_S2x2x256x128_S1x1x256x128_0_0_0_0 a8
/-- Union bias 0 of layer 1, as one row. -/
def c00 (a9 : FVec Ideal S2x2x128 .f32) : Vec Ideal SR .f32 := bia2 ![0, 0, 0] slices_S2x2x128_S1x1x128_0_0_0 a9
/-- Union weight 1 of layer 1. -/
def u01 (a8 : FVec Ideal S2x2x256x128 .f32) : Vec Ideal SW2 .f32 := wgt2 ![0, 1, 0, 0] slices_S2x2x256x128_S1x1x256x128_0_1_0_0 a8
/-- Union bias 1 of layer 1, as one row. -/
def c01 (a9 : FVec Ideal S2x2x128 .f32) : Vec Ideal SR .f32 := bia2 ![0, 1, 0] slices_S2x2x128_S1x1x128_0_1_0 a9
/-- Union weight 0 of layer 2. -/
def u10 (a8 : FVec Ideal S2x2x256x128 .f32) : Vec Ideal SW2 .f32 := wgt2 ![1, 0, 0, 0] slices_S2x2x256x128_S1x1x256x128_1_0_0_0 a8
/-- Union bias 0 of layer 2, as one row. -/
def c10 (a9 : FVec Ideal S2x2x128 .f32) : Vec Ideal SR .f32 := bia2 ![1, 0, 0] slices_S2x2x128_S1x1x128_1_0_0 a9
/-- Union weight 1 of layer 2. -/
def u11 (a8 : FVec Ideal S2x2x256x128 .f32) : Vec Ideal SW2 .f32 := wgt2 ![1, 1, 0, 0] slices_S2x2x256x128_S1x1x256x128_1_1_0_0 a8
/-- Union bias 1 of layer 2, as one row. -/
def c11 (a9 : FVec Ideal S2x2x128 .f32) : Vec Ideal SR .f32 := bia2 ![1, 1, 0] slices_S2x2x128_S1x1x128_1_1_0 a9

theorem zeroU (i : S60000x128.Idx) :
    broadcastInDim S60000x128 ![] bcast_S_S60000x128 (constant (F := Ideal) S_ .f32 0x00000000#32) i = 0 := Ideal.ofBits_zero_f32
theorem zeroI (i : S40000x128.Idx) :
    broadcastInDim S40000x128 ![] bcast_S_S40000x128 (constant (F := Ideal) S_ .f32 0x00000000#32) i = 0 := Ideal.ofBits_zero_f32
theorem slopeU (i : S60000x128.Idx) :
    broadcastInDim S60000x128 ![] bcast_S_S60000x128 (constant (F := Ideal) S_ .f32 0x3E4CCCCD#32) i = α := rfl
theorem slopeI (i : S40000x128.Idx) :
    broadcastInDim S40000x128 ![] bcast_S_S40000x128 (constant (F := Ideal) S_ .f32 0x3E4CCCCD#32) i = α := rfl

/-- One hop onto the items, as the reference spells it, is the specification's. -/
theorem hopI (a2 a3 : IVec S1000000 32) (a5 : FVec Ideal S1000000 .f32) (X : FVec Ideal S60000x128 .f32)
    (Wt : FVec Ideal S128x128 .f32) (b : FVec Ideal S1x128 .f32) :
    lkI (spI a2 a3 a5 (dtU X Wt)) b = blI (sIr a2 a3 a5 (mmU X Wt)) b := by
  unfold lkI dtU sIr
  rw [RefMath.dotU, RefMath.leakyI _ _ _ _ zeroI slopeI]

/-- One hop onto the users, as the reference spells it, is the specification's. -/
theorem hopU (a2 a3 : IVec S1000000 32) (a4 : FVec Ideal S1000000 .f32) (X : FVec Ideal S40000x128 .f32)
    (Wt : FVec Ideal S128x128 .f32) (b : FVec Ideal S1x128 .f32) :
    lkU (spU a3 a2 a4 (dtI X Wt)) b = blU (sUr a2 a3 a4 (mmI X Wt)) b := by
  unfold lkU dtI sUr
  rw [RefMath.dotI, RefMath.leakyU _ _ _ _ zeroU slopeU]

/-- The users' side of one layer, as the reference spells it, is the specification's. -/
theorem layerU (a2 a3 : IVec S1000000 32) (a4 a5 : FVec Ideal S1000000 .f32) (w0 w2 : FVec Ideal S128x128 .f32)
    (b0 b2 c : FVec Ideal S1x128 .f32) (P : FVec Ideal S256x128 .f32) (lu : FVec Ideal S60000x128 .f32) :
    uuU (lkU (spU a3 a2 a4 (dtI (lkI (spI a2 a3 a5 (dtU lu w0)) b0) w2)) b2) lu P c
      = nextU (sIr a2 a3 a5) (sUr a2 a3 a4) w0 b0 w2 b2 (top P) (bot P) c lu := by
  rw [hopI, hopU]
  unfold uuU
  rw [RefMath.unionU _ _ _ _ _ zeroU]
  rfl

/-- The items' side of one layer, as the reference spells it, is the specification's. -/
theorem layerI (a2 a3 : IVec S1000000 32) (a4 a5 : FVec Ideal S1000000 .f32) (w1 w3 : FVec Ideal S128x128 .f32)
    (b1 b3 c : FVec Ideal S1x128 .f32) (Q : FVec Ideal S256x128 .f32) (li : FVec Ideal S40000x128 .f32) :
    uuI (lkI (spI a2 a3 a5 (dtU (lkU (spU a3 a2 a4 (dtI li w1)) b1) w3)) b3) li Q c
      = nextI (sIr a2 a3 a5) (sUr a2 a3 a4) w1 b1 w3 b3 (top Q) (bot Q) c li := by
  rw [hopU, hopI]
  unfold uuI
  rw [RefMath.unionI _ _ _ _ _ zeroI]
  rfl

section Results

variable (a0 : FVec Ideal S60000x128 .f32) (a1 : FVec Ideal S40000x128 .f32) (a2 a3 : IVec S1000000 32) (a4 a5 : FVec Ideal S1000000 .f32)
    (a6 : FVec Ideal S2x4x128x128 .f32) (a7 : FVec Ideal S2x4x128 .f32) (a8 : FVec Ideal S2x2x256x128 .f32) (a9 : FVec Ideal S2x2x128 .f32)

/-- The users after layer one, by the specification. -/
def lu1 : Vec Ideal SU .f32 :=
  nextU (sIr a2 a3 a5) (sUr a2 a3 a4) (w00 a6) (b00 a7) (w02 a6) (b02 a7) (top (u00 a8)) (bot (u00 a8)) (c00 a9) a0
/-- The items after layer one, by the specification. -/
def li1 : Vec Ideal SI .f32 :=
  nextI (sIr a2 a3 a5) (sUr a2 a3 a4) (w01 a6) (b01 a7) (w03 a6) (b03 a7) (top (u01 a8)) (bot (u01 a8)) (c01 a9) a1
/-- The users after layer two, by the specification. -/
def lu2 : Vec Ideal SU .f32 :=
  nextU (sIr a2 a3 a5) (sUr a2 a3 a4) (w10 a6) (b10 a7) (w12 a6) (b12 a7) (top (u10 a8)) (bot (u10 a8)) (c10 a9)
    (lu1 a0 a2 a3 a4 a5 a6 a7 a8 a9)
/-- The items after layer two, by the specification. -/
def li2 : Vec Ideal SI .f32 :=
  nextI (sIr a2 a3 a5) (sUr a2 a3 a4) (w11 a6) (b11 a7) (w13 a6) (b13 a7) (top (u11 a8)) (bot (u11 a8)) (c11 a9)
    (li1 a1 a2 a3 a4 a5 a6 a7 a8 a9)

theorem r97_eq : r97 a0 a1 a2 a3 a4 a5 a6 a7 a8 a9 = lu1 a0 a2 a3 a4 a5 a6 a7 a8 a9 := by
  unfold r97 r65 r21 lu1 w00 b00 w02 b02 u00 c00
  exact layerU ..

theorem r107_eq : r107 a0 a1 a2 a3 a4 a5 a6 a7 a8 a9 = li1 a1 a2 a3 a4 a5 a6 a7 a8 a9 := by
  unfold r107 r87 r43 li1 w01 b01 w03 b03 u01 c01
  exact layerI ..

theorem r205_eq : r205 a0 a1 a2 a3 a4 a5 a6 a7 a8 a9 = lu2 a0 a2 a3 a4 a5 a6 a7 a8 a9 := by
  unfold r205 r173 r129 lu2 w10 b10 w12 b12 u10 c10
  rw [r97_eq]
  exact layerU ..

theorem r215_eq : r215 a0 a1 a2 a3 a4 a5 a6 a7 a8 a9 = li2 a1 a2 a3 a4 a5 a6 a7 a8 a9 := by
  unfold r215 r195 r151 li2 w11 b11 w13 b13 u11 c11
  rw [r107_eq]
  exact layerI ..

end Results

/-- The reference's users' result: the specification's two layers of user rows, side by side. -/
theorem out216_spec (V : Valuation τ sig (Elt Ideal)) :
    after ops V (main_v216 : DevRef τ sig)
      = concatenate S60000x256 1
          [⟨S60000x128, lu1 (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))⟩,
           ⟨S60000x128, lu2 (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))⟩]
          concatenates_S60000x128_S60000x128_S60000x256_d1 := by
  rw [out216]
  unfold r216
  rw [r97_eq, r205_eq]

/-- The reference's items' result: the specification's two layers of item rows, side by side. -/
theorem out217_spec (V : Valuation τ sig (Elt Ideal)) :
    after ops V (main_v217 : DevRef τ sig)
      = concatenate S40000x256 1
          [⟨S40000x128, li1 (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))⟩,
           ⟨S40000x128, li2 (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))⟩]
          concatenates_S40000x128_S40000x128_S40000x256_d1 := by
  rw [out217]
  unfold r217
  rw [r107_eq, r215_eq]

end AtIdeal

end Cert.ReferenceIdeal.RefRun

end
-- ==== Proof.Layout.lean ====
/-
  Layout facts that join the two programs' spellings of the same array, for any element type:
  a 128-vector reshaped to one row is the same vector spread along the row axis; a 128 × 128 slice of a 256 × 128 weight,
  taken at row offset 0 or 128, is the top or bottom half of the 256 × 128 slice.
-/
import proofs.«150895_j60593398612496_1_alg».proof.Proof.Spec
import Idealize.ShloMosaic.Lib.ValueIdx
import Idealize.ShloMosaic.Lib.Pipeline.Value

noncomputable section

namespace Cert.GCN

open Idealize.ShloMosaic Idealize.ShloMosaic.ValueIdx

/-- A vector of 128 as one row: by reshape, or by spreading along the second axis. -/
theorem row_eq {α : Type} (v : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ ![1]) :
    shapeCast (⟨2, ![1, 128]⟩ : Shape) v h = broadcastInDim (⟨2, ![1, 128]⟩ : Shape) ![1] h' v := by
  funext j
  have hj0 : (j 0).val < 1 := idx2_lt0 j
  rw [shapeCast_apply v h j (ix1 (j 1)) (by
      rw [Shape.rowMajor_val_one, Shape.rowMajor_val_two]
      show (j 1).val = (j 0).val * 128 + (j 1).val
      omega),
    broadcastInDim_apply ![1] h' v j (ix1 (j 1)) (fun a => by
      match a with
      | ⟨0, _⟩ => rfl)]

/-- The 128 × 128 slice at row offset 0 of a stacked weight is the top half of its 256 × 128 slice. -/
theorem half_top (o0 o1 : Nat) (ho0 : o0 < 2) (ho1 : o1 < 2)
    (x : Vec Ideal (⟨4, ![2, 2, 256, 128]⟩ : Shape) .f32)
    (hs : (⟨4, ![2, 2, 256, 128]⟩ : Shape).Slices ![o0, o1, 0, 0] ⟨4, ![1, 1, 128, 128]⟩)
    (hc : (⟨4, ![1, 1, 128, 128]⟩ : Shape).ShapeCasts ⟨2, ![128, 128]⟩)
    (hs' : (⟨4, ![2, 2, 256, 128]⟩ : Shape).Slices ![o0, o1, 0, 0] ⟨4, ![1, 1, 256, 128]⟩)
    (hc' : (⟨4, ![1, 1, 256, 128]⟩ : Shape).ShapeCasts ⟨2, ![256, 128]⟩) :
    shapeCast (⟨2, ![128, 128]⟩ : Shape) (extractStridedSlice (⟨4, ![1, 1, 128, 128]⟩ : Shape) ![o0, o1, 0, 0] x hs) hc
      = top (shapeCast (⟨2, ![256, 128]⟩ : Shape) (extractStridedSlice (⟨4, ![1, 1, 256, 128]⟩ : Shape) ![o0, o1, 0, 0] x hs') hc') := by
  funext j
  have hj0 : (j 0).val < 128 := idx2_lt0 j
  have hj1 : (j 1).val < 128 := idx2_lt1 j
  -- the element of the stacked weight both sides read
  let k : (⟨4, ![2, 2, 256, 128]⟩ : Shape).Idx := ix4 ⟨o0, ho0⟩ ⟨o1, ho1⟩ ⟨(j 0).val, by omega⟩ ⟨(j 1).val, hj1⟩
  have eL : shapeCast (⟨2, ![128, 128]⟩ : Shape) (extractStridedSlice (⟨4, ![1, 1, 128, 128]⟩ : Shape) ![o0, o1, 0, 0] x hs) hc j = x k := by
    rw [shapeCast_apply _ hc j (ix4 0 0 ⟨(j 0).val, hj0⟩ ⟨(j 1).val, hj1⟩) (by
        rw [Shape.rowMajor_val_four, Shape.rowMajor_val_two]
        show (((0 * 1 + 0) * 128 + (j 0).val) * 128 + (j 1).val) = (j 0).val * 128 + (j 1).val
        omega)]
    exact extractStridedSlice_apply _ x hs _ k (fun a => by
      match a with
      | ⟨0, _⟩ => rfl
      | ⟨1, _⟩ => rfl
      | ⟨2, _⟩ => exact (Nat.zero_add _).symm
      | ⟨3, _⟩ => exact (Nat.zero_add _).symm)
  have eR : top (shapeCast (⟨2, ![256, 128]⟩ : Shape) (extractStridedSlice (⟨4, ![1, 1, 256, 128]⟩ : Shape) ![o0, o1, 0, 0] x hs') hc') j = x k := by
    show shapeCast (⟨2, ![256, 128]⟩ : Shape) (extractStridedSlice (⟨4, ![1, 1, 256, 128]⟩ : Shape) ![o0, o1, 0, 0] x hs') hc'
      (ix2 ⟨(j 0).val, by omega⟩ (j 1)) = x k
    rw [shapeCast_apply _ hc' _ (ix4 0 0 ⟨(j 0).val, by omega⟩ ⟨(j 1).val, hj1⟩) (by
        rw [Shape.rowMajor_val_four, Shape.rowMajor_val_two]
        show (((0 * 1 + 0) * 256 + ((j 0).val)) * 128 + (j 1).val) = ((j 0).val) * 128 + (j 1).val
        omega)]
    exact extractStridedSlice_apply _ x hs' _ k (fun a => by
      match a with
      | ⟨0, _⟩ => rfl
      | ⟨1, _⟩ => rfl
      | ⟨2, _⟩ => exact (Nat.zero_add _).symm
      | ⟨3, _⟩ => exact (Nat.zero_add _).symm)
  rw [eL, eR]

/-- The 128 × 128 slice at row offset 128 of a stacked weight is the bottom half of its 256 × 128 slice. -/
theorem half_bot (o0 o1 : Nat) (ho0 : o0 < 2) (ho1 : o1 < 2)
    (x : Vec Ideal (⟨4, ![2, 2, 256, 128]⟩ : Shape) .f32)
    (hs : (⟨4, ![2, 2, 256, 128]⟩ : Shape).Slices ![o0, o1, 128, 0] ⟨4, ![1, 1, 128, 128]⟩)
    (hc : (⟨4, ![1, 1, 128, 128]⟩ : Shape).ShapeCasts ⟨2, ![128, 128]⟩)
    (hs' : (⟨4, ![2, 2, 256, 128]⟩ : Shape).Slices ![o0, o1, 0, 0] ⟨4, ![1, 1, 256, 128]⟩)
    (hc' : (⟨4, ![1, 1, 256, 128]⟩ : Shape).ShapeCasts ⟨2, ![256, 128]⟩) :
    shapeCast (⟨2, ![128, 128]⟩ : Shape) (extractStridedSlice (⟨4, ![1, 1, 128, 128]⟩ : Shape) ![o0, o1, 128, 0] x hs) hc
      = bot (shapeCast (⟨2, ![256, 128]⟩ : Shape) (extractStridedSlice (⟨4, ![1, 1, 256, 128]⟩ : Shape) ![o0, o1, 0, 0] x hs') hc') := by
  funext j
  have hj0 : (j 0).val < 128 := idx2_lt0 j
  have hj1 : (j 1).val < 128 := idx2_lt1 j
  -- the element of the stacked weight both sides read
  let k : (⟨4, ![2, 2, 256, 128]⟩ : Shape).Idx := ix4 ⟨o0, ho0⟩ ⟨o1, ho1⟩ ⟨128 + (j 0).val, by omega⟩ ⟨(j 1).val, hj1⟩
  have eL : shapeCast (⟨2, ![128, 128]⟩ : Shape) (extractStridedSlice (⟨4, ![1, 1, 128, 128]⟩ : Shape) ![o0, o1, 128, 0] x hs) hc j = x k := by
    rw [shapeCast_apply _ hc j (ix4 0 0 ⟨(j 0).val, hj0⟩ ⟨(j 1).val, hj1⟩) (by
        rw [Shape.rowMajor_val_four, Shape.rowMajor_val_two]
        show (((0 * 1 + 0) * 128 + (j 0).val) * 128 + (j 1).val) = (j 0).val * 128 + (j 1).val
        omega)]
    exact extractStridedSlice_apply _ x hs _ k (fun a => by
      match a with
      | ⟨0, _⟩ => rfl
      | ⟨1, _⟩ => rfl
      | ⟨2, _⟩ => rfl
      | ⟨3, _⟩ => exact (Nat.zero_add _).symm)
  have eR : bot (shapeCast (⟨2, ![256, 128]⟩ : Shape) (extractStridedSlice (⟨4, ![1, 1, 256, 128]⟩ : Shape) ![o0, o1, 0, 0] x hs') hc') j = x k := by
    show shapeCast (⟨2, ![256, 128]⟩ : Shape) (extractStridedSlice (⟨4, ![1, 1, 256, 128]⟩ : Shape) ![o0, o1, 0, 0] x hs') hc'
      (ix2 ⟨128 + (j 0).val, by omega⟩ (j 1)) = x k
    rw [shapeCast_apply _ hc' _ (ix4 0 0 ⟨128 + (j 0).val, by omega⟩ ⟨(j 1).val, hj1⟩) (by
        rw [Shape.rowMajor_val_four, Shape.rowMajor_val_two]
        show (((0 * 1 + 0) * 256 + (128 + (j 0).val)) * 128 + (j 1).val) = (128 + (j 0).val) * 128 + (j 1).val
        omega)]
    exact extractStridedSlice_apply _ x hs' _ k (fun a => by
      match a with
      | ⟨0, _⟩ => rfl
      | ⟨1, _⟩ => rfl
      | ⟨2, _⟩ => exact (Nat.zero_add _).symm
      | ⟨3, _⟩ => exact (Nat.zero_add _).symm)
  rw [eL, eR]

end Cert.GCN

end
-- ==== Proof.Bridge.lean ====
/-
  The kernel's and the reference's ingredients are the same functions of the argument arrays: the two sparse products and
  the 128 × 128 weights are the same operations; a bias reshaped to one row is the bias spread along a row; the kernel's
  two 128 × 128 slices of a union weight are the top and bottom halves of the reference's 256 × 128 slice. Hence the
  specification's layers, fed either side's ingredients, agree.
-/
import proofs.«150895_j60593398612496_1_alg».proof.Proof.KTerms
import proofs.«150895_j60593398612496_1_alg».proof.Proof.RefVal
import proofs.«150895_j60593398612496_1_alg».proof.Proof.Layout

noncomputable section

namespace Cert.Bridge

open Idealize.ShloMosaic Cert.GCN Cert.KernelIdeal.KRun Cert.ReferenceIdeal.RefRun
open Cert.ReferenceIdeal (S60000x128 S40000x128 S1000000 S2x4x128x128 S2x4x128 S2x2x256x128 S2x2x128 S60000x256 S40000x256)

variable (a0 : FVec Ideal S60000x128 .f32) (a1 : FVec Ideal S40000x128 .f32) (a2 a3 : IVec S1000000 32)
  (a4 a5 : FVec Ideal S1000000 .f32) (a6 : FVec Ideal S2x4x128x128 .f32) (a7 : FVec Ideal S2x4x128 .f32)
  (a8 : FVec Ideal S2x2x256x128 .f32) (a9 : FVec Ideal S2x2x128 .f32)

/-- Users onto items: one gather, one scaling, one scatter-add, in both programs. -/
theorem sI_eq : sIk a2 a3 a5 = sIr a2 a3 a5 := rfl
/-- Items onto users. -/
theorem sU_eq : sUk a2 a3 a4 = sUr a2 a3 a4 := rfl

theorem w00_eq : wk00 a6 = w00 a6 := rfl
theorem b00_eq : bk00 a7 = b00 a7 := by unfold bk00 b00 bia; exact row_eq _ _ _
theorem w01_eq : wk01 a6 = w01 a6 := rfl
theorem b01_eq : bk01 a7 = b01 a7 := by unfold bk01 b01 bia; exact row_eq _ _ _
theorem w02_eq : wk02 a6 = w02 a6 := rfl
theorem b02_eq : bk02 a7 = b02 a7 := by unfold bk02 b02 bia; exact row_eq _ _ _
theorem w03_eq : wk03 a6 = w03 a6 := rfl
theorem b03_eq : bk03 a7 = b03 a7 := by unfold bk03 b03 bia; exact row_eq _ _ _
theorem w10_eq : wk10 a6 = w10 a6 := rfl
theorem b10_eq : bk10 a7 = b10 a7 := by unfold bk10 b10 bia; exact row_eq _ _ _
theorem w11_eq : wk11 a6 = w11 a6 := rfl
theorem b11_eq : bk11 a7 = b11 a7 := by unfold bk11 b11 bia; exact row_eq _ _ _
theorem w12_eq : wk12 a6 = w12 a6 := rfl
theorem b12_eq : bk12 a7 = b12 a7 := by unfold bk12 b12 bia; exact row_eq _ _ _
theorem w13_eq : wk13 a6 = w13 a6 := rfl
theorem b13_eq : bk13 a7 = b13 a7 := by unfold bk13 b13 bia; exact row_eq _ _ _
theorem u00t_eq : uk00t a8 = top (u00 a8) := by unfold uk00t u00 wgt2; exact half_top 0 0 (by omega) (by omega) a8 _ _ _ _
theorem u00b_eq : uk00b a8 = bot (u00 a8) := by unfold uk00b u00 wgt2; exact half_bot 0 0 (by omega) (by omega) a8 _ _ _ _
theorem c00_eq : ck00 a9 = c00 a9 := by unfold ck00 c00 bia2; exact row_eq _ _ _
theorem u01t_eq : uk01t a8 = top (u01 a8) := by unfold uk01t u01 wgt2; exact half_top 0 1 (by omega) (by omega) a8 _ _ _ _
theorem u01b_eq : uk01b a8 = bot (u01 a8) := by unfold uk01b u01 wgt2; exact half_bot 0 1 (by omega) (by omega) a8 _ _ _ _
theorem c01_eq : ck01 a9 = c01 a9 := by unfold ck01 c01 bia2; exact row_eq _ _ _
theorem u10t_eq : uk10t a8 = top (u10 a8) := by unfold uk10t u10 wgt2; exact half_top 1 0 (by omega) (by omega) a8 _ _ _ _
theorem u10b_eq : uk10b a8 = bot (u10 a8) := by unfold uk10b u10 wgt2; exact half_bot 1 0 (by omega) (by omega) a8 _ _ _ _
theorem c10_eq : ck10 a9 = c10 a9 := by unfold ck10 c10 bia2; exact row_eq _ _ _
theorem u11t_eq : uk11t a8 = top (u11 a8) := by unfold uk11t u11 wgt2; exact half_top 1 1 (by omega) (by omega) a8 _ _ _ _
theorem u11b_eq : uk11b a8 = bot (u11 a8) := by unfold uk11b u11 wgt2; exact half_bot 1 1 (by omega) (by omega) a8 _ _ _ _
theorem c11_eq : ck11 a9 = c11 a9 := by unfold ck11 c11 bia2; exact row_eq _ _ _

/-- The users after layer one: the kernel's ingredients give the reference's. -/
theorem lu1_eq :
    nextU (sIk a2 a3 a5) (sUk a2 a3 a4) (wk00 a6) (bk00 a7) (wk02 a6) (bk02 a7) (uk00t a8) (uk00b a8) (ck00 a9) a0
      = lu1 a0 a2 a3 a4 a5 a6 a7 a8 a9 := by
  rw [sI_eq, sU_eq, w00_eq, b00_eq, w02_eq, b02_eq, u00t_eq, u00b_eq, c00_eq]; rfl

/-- The items after layer one. -/
theorem li1_eq :
    nextI (sIk a2 a3 a5) (sUk a2 a3 a4) (wk01 a6) (bk01 a7) (wk03 a6) (bk03 a7) (uk01t a8) (uk01b a8) (ck01 a9) a1
      = li1 a1 a2 a3 a4 a5 a6 a7 a8 a9 := by
  rw [sI_eq, sU_eq, w01_eq, b01_eq, w03_eq, b03_eq, u01t_eq, u01b_eq, c01_eq]; rfl

/-- The users after layer two, from the same users after layer one. -/
theorem lu2_eq :
    nextU (sIk a2 a3 a5) (sUk a2 a3 a4) (wk10 a6) (bk10 a7) (wk12 a6) (bk12 a7) (uk10t a8) (uk10b a8) (ck10 a9)
        (lu1 a0 a2 a3 a4 a5 a6 a7 a8 a9)
      = lu2 a0 a2 a3 a4 a5 a6 a7 a8 a9 := by
  rw [sI_eq, sU_eq, w10_eq, b10_eq, w12_eq, b12_eq, u10t_eq, u10b_eq, c10_eq]; rfl

/-- The items after layer two. -/
theorem li2_eq :
    nextI (sIk a2 a3 a5) (sUk a2 a3 a4) (wk11 a6) (bk11 a7) (wk13 a6) (bk13 a7) (uk11t a8) (uk11b a8) (ck11 a9)
        (li1 a1 a2 a3 a4 a5 a6 a7 a8 a9)
      = li2 a1 a2 a3 a4 a5 a6 a7 a8 a9 := by
  rw [sI_eq, sU_eq, w11_eq, b11_eq, w13_eq, b13_eq, u11t_eq, u11b_eq, c11_eq]; rfl

/-- Side by side is side by side. -/
theorem catU_eq (x y : FVec Ideal S60000x128 .f32) :
    catU x y = concatenate S60000x256 1 [⟨S60000x128, x⟩, ⟨S60000x128, y⟩]
      Cert.ReferenceIdeal.Facts₀.concatenates_S60000x128_S60000x128_S60000x256_d1 := rfl
theorem catI_eq (x y : FVec Ideal S40000x128 .f32) :
    catI x y = concatenate S40000x256 1 [⟨S40000x128, x⟩, ⟨S40000x128, y⟩]
      Cert.ReferenceIdeal.Facts₀.concatenates_S40000x128_S40000x128_S40000x256_d1 := rfl

end Cert.Bridge

end
-- ==== Proof.Claims.lean ====
/-
  The three claims that are not the generated frames, at the ideal instance (floats are extended reals).
  The reference runs its operations in order, so its frame is its run read at the argument arrays. For the value
  claim both programs end with the specification's two layers side by side: the kernel's contents at its last segment
  boundary, read back through its twenty regions' values and the host operations between them, are the specification's
  layers of the kernel's own ingredients; the reference's operations, read one by one, are the specification's layers of
  its ingredients; the ingredients are the same functions of the argument arrays, and the argument arrays agree.
-/
import proofs.«150895_j60593398612496_1_alg».proof.Defs
import proofs.«150895_j60593398612496_1_alg».proof.Proof.KRun
import proofs.«150895_j60593398612496_1_alg».proof.Proof.KWalk1
import proofs.«150895_j60593398612496_1_alg».proof.Proof.KWalkB
import proofs.«150895_j60593398612496_1_alg».proof.Proof.Bridge
import proofs.«150895_j60593398612496_1_alg».proof.Proof.Gen.ReferenceIdeal
import proofs.«150895_j60593398612496_1_alg».proof.Proof.Gen.Pre_finite_inputs

noncomputable section

namespace Cert.Proof.GcnClaims

open Idealize.ShloMosaic Idealize.ShloMosaic.TcCoe Idealize.SL.Sem Idealize.ShloMosaic.StableHlo Cert.GCN Cert.KernelIdeal.KRun

/-- The reference's frame: its run read at the argument arrays, which no operation writes. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _)⟩)
    (Cert.ReferenceIdeal.RefRun.run_main (F := Ideal) m ρ)

/-- At the ideal instance both programs end with the specification's two layers side by side: the kernel's fold of
    segment boundaries read through its regions' values, the reference's operations read one by one, the ingredients
    matched by the bridge, the argument arrays by agreement. -/
theorem algebraic : Cert.algebraic_KernelIdeal_ReferenceIdeal := by
  intro m ρ m' ρ' _ hagree
  refine ⟨fun c => Cert.KernelIdeal.Gen.W41 (F := Ideal) m ρ c (Proc.devRef .tc Cert.KernelIdeal.main_v192),
    fun c => Cert.KernelIdeal.Gen.W41 (F := Ideal) m ρ c (Proc.devRef .tc Cert.KernelIdeal.main_v193), Cert.KernelIdeal.KRun.run (F := Ideal) m ρ, ?_⟩
  refine (θ_run Cert.ReferenceIdeal.defs _ _).mono
    (fun _ h c => ⟨((h c Cert.ReferenceIdeal.main_v216).trans (Cert.ReferenceIdeal.RefRun.out216_spec _)).trans ?_,
      ((h c Cert.ReferenceIdeal.main_v217).trans (Cert.ReferenceIdeal.RefRun.out217_spec _)).trans ?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _)⟩)
    (Cert.ReferenceIdeal.RefRun.run_main (F := Ideal) m' ρ')
  · show concatenate Cert.ReferenceIdeal.S60000x256 1
        [⟨Cert.ReferenceIdeal.S60000x128, Cert.ReferenceIdeal.RefRun.lu1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))⟩,
         ⟨Cert.ReferenceIdeal.S60000x128, Cert.ReferenceIdeal.RefRun.lu2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))⟩]
        Cert.ReferenceIdeal.Facts₀.concatenates_S60000x128_S60000x128_S60000x256_d1 = _
    rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    beta_reduce
    rw [Cert.KernelIdeal.KRun.layer2U m ρ c, Cert.KernelIdeal.KRun.layer1U m ρ c, Cert.Bridge.catU_eq, Cert.Bridge.lu1_eq, Cert.Bridge.lu2_eq]
  · show concatenate Cert.ReferenceIdeal.S40000x256 1
        [⟨Cert.ReferenceIdeal.S40000x128, Cert.ReferenceIdeal.RefRun.li1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))⟩,
         ⟨Cert.ReferenceIdeal.S40000x128, Cert.ReferenceIdeal.RefRun.li2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))⟩]
        Cert.ReferenceIdeal.Facts₀.concatenates_S40000x128_S40000x128_S40000x256_d1 = _
    rw [(hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    beta_reduce
    rw [Cert.KernelIdeal.KRun.layer2I m ρ c, Cert.KernelIdeal.KRun.layer1I m ρ c, Cert.Bridge.catI_eq, Cert.Bridge.li1_eq, Cert.Bridge.li2_eq]

end Cert.Proof.GcnClaims

end
-- ==== Proof.lean ====
/- The certificate of a two-layer graph network on a bipartite user–item graph: per layer, four times a product with a
   128 × 128 weight, a sparse product along the edges, a bias and a leaky rectifier, then on each side a union step
   `max (second hop · P₁ + input · P₂ + c) 0`. The kernel tiles every dense step over blocks of 4000 rows and splits the
   union's 256 × 128 weight into its two halves; the reference computes whole arrays and multiplies the two feature blocks
   side by side with the whole weight. At the ideal instance a sum over 256 features is the sum over the first 128 plus
   the sum over the last 128, a block of rows of a product is the product of that block, and the two spellings of the
   leaky rectifier agree (at zero both branches are zero), so the two programs compute the same arrays: Proof/Claims.lean.
   The kernel's frames at both instances are the generated ones; no ideal-pass rewrite was applied. -/
import proofs.«150895_j60593398612496_1_alg».proof.Defs
import proofs.«150895_j60593398612496_1_alg».proof.Proof.Claims
import proofs.«150895_j60593398612496_1_alg».proof.Proof.Gen.Kernel
import proofs.«150895_j60593398612496_1_alg».proof.Proof.Gen.Kernel.Frame
import proofs.«150895_j60593398612496_1_alg».proof.Proof.Gen.KernelIdeal
import proofs.«150895_j60593398612496_1_alg».proof.Proof.Gen.KernelIdeal.Frame
import proofs.«150895_j60593398612496_1_alg».proof.Proof.Gen.ReferenceIdeal
import proofs.«150895_j60593398612496_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    GcnClaims.frame_ri, trivial, GcnClaims.algebraic⟩

end Cert.Proof

end
